-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v94_0)) (v1 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94_0) = v0 c
          ∧ r.2.mem ((c.tc : Thread Cert.KernelIdeal.nD Cert.KernelIdeal.τ).loc Cert.KernelIdeal.main_v97) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v535) = v0 c
          ∧ r.2.mem ((c.tc : Thread Cert.ReferenceIdeal.nD Cert.ReferenceIdeal.τ).loc Cert.ReferenceIdeal.main_v538) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S4x3x64x64 : Shape := ⟨4, ![4, 3, 64, 64]⟩
abbrev S4x64 : Shape := ⟨2, ![4, 64]⟩
abbrev S3x64 : Shape := ⟨2, ![3, 64]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S4x3x64x64 : S_.BroadcastsInDim S4x3x64x64 (![] : Fin 0 → Fin S4x3x64x64.rank)
  reducesTo_S4x3x64x64_S_d0_1_2_3 : S4x3x64x64.ReducesTo [0, 1, 2, 3] S_
  bcast_S_S4x64 : S_.BroadcastsInDim S4x64 (![] : Fin 0 → Fin S4x64.rank)
  reducesTo_S4x64_S_d0_1 : S4x64.ReducesTo [0, 1] S_
  bcast_S_S3x64 : S_.BroadcastsInDim S3x64 (![] : Fin 0 → Fin S3x64.rank)
  reducesTo_S3x64_S_d0_1 : S3x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_v48 : IVec S_ 1) (main_v49 : FVec F S100000x64 .f32) (main_v50 : FVec F S100000x64 .f32) : IVec S_ 1 :=
  let main_v51 : IVec S100000x64 1 := cmpf .olt main_v49 main_v50
  let main_c_19 : IVec S_ 1 := constantI S_ 1 1#1
  let main_v52 : IVec S_ 1 := (fun x v => Host.reduce IntOp.andi x v reducesTo_S100000x64_S_d0_1 h_S_) main_v51 main_c_19
  let main_v53 : IVec S_ 1 := andi main_v48 main_v52
  main_v53

def fn_part2 {F : FTy → Type} [FloatOps F] (main_arg8 : FVec F S64x16 .f32) (main_arg9 : FVec F S16 .f32) (main_arg10 : FVec F S100000x64 .f32) (main_arg11 : FVec F S100000x64 .f32) (main_v33 : IVec S_ 1) : IVec S_ 1 :=
  let main_v34 : FVec F S64x16 .f32 := Host.absf main_arg8
  let main_cst_12 : FVec F S_ .f32 := constant S_ .f32 0x7F800000#32
  let main_v35 : FVec F S64x16 .f32 := broadcastInDim S64x16 ![] bcast_S_S64x16 main_cst_12
  let main_v36 : IVec S64x16 1 := cmpf .olt main_v34 main_v35
  let main_c_13 : IVec S_ 1 := constantI S_ 1 1#1
  let main_v37 : IVec S_ 1 := (fun x v => Host.reduce IntOp.andi x v reducesTo_S64x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S100000x64 .f32 := Host.absf main_arg10
  let main_cst_16 : FVec F S_ .f32 := constant S_ .f32 0x7F800000#32
  let main_v45 : FVec F S100000x64 .f32 := broadcastInDim S100000x64 ![] bcast_S_S100000x64 main_cst_16
  let main_v46 : IVec S100000x64 1 := cmpf .olt main_v44 main_v45
  let main_c_17 : IVec S_ 1 := constantI S_ 1 1#1
  let main_v47 : IVec S_ 1 := (fun x v => Host.reduce IntOp.andi x v reducesTo_S100000x64_S_d0_1 h_S_) main_v46 main_c_17
  let main_v48 : IVec S_ 1 := andi main_v43 main_v47
  let main_v49 : FVec F S100000x64 .f32 := Host.absf main_arg11
  let main_cst_18 : FVec F S_ .f32 := constant S_ .f32 0x7F800000#32
  let main_v50 : FVec F S100000x64 .f32 := broadcastInDim S100000x64 ![] bcast_S_S100000x64 main_cst_18
  fn_part3 (F := F) main_v48 main_v49 main_v50

def fn_part1 {F : FTy → Type} [FloatOps F] (main_arg5 : FVec F S4x64 .f32) (main_arg6 : FVec F S3x64 .f32) (main_arg7 : FVec F S4x64 .f32) (main_arg8 : FVec F S64x16 .f32) (main_arg9 : FVec F S16 .f32) (main_arg10 : FVec F S100000x64 .f32) (main_arg11 : FVec F S100000x64 .f32) (main_v13 : IVec S_ 1) (main_v16 : IVec S4x3x64x64 1) : IVec S_ 1 :=
  let main_c_5 : IVec S_ 1 := constantI S_ 1 1#1
  let main_v17 : IVec S_ 1 := (fun x v => Host.reduce IntOp.andi x v reducesTo_S4x3x64x64_S_d0_1_2_3 h_S_) main_v16 main_c_5
  let main_v18 : IVec S_ 1 := andi main_v13 main_v17
  let main_v19 : FVec F S4x64 .f32 := Host.absf main_arg5
  let main_cst_6 : FVec F S_ .f32 := constant S_ .f32 0x7F800000#32
  let main_v20 : FVec F S4x64 .f32 := broadcastInDim S4x64 ![] bcast_S_S4x64 main_cst_6
  let main_v21 : IVec S4x64 1 := cmpf .olt main_v19 main_v20
  let main_c_7 : IVec S_ 1 := constantI S_ 1 1#1
  let main_v22 : IVec S_ 1 := (fun x v => Host.reduce IntOp.andi x v reducesTo_S4x64_S_d0_1 h_S_) main_v21 main_c_7
  let main_v23 : IVec S_ 1 := andi main_v18 main_v22
  let main_v24 : FVec F S3x64 .f32 := Host.absf main_arg6
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S4x64 .f32 := Host.absf main_arg7
  let main_cst_10 : FVec F S_ .f32 := constant S_ .f32 0x7F800000#32
  let main_v30 : FVec F S4x64 .f32 := broadcastInDim S4x64 ![] bcast_S_S4x64 main_cst_10
  let main_v31 : IVec S4x64 1 := cmpf .olt main_v29 main_v30
  let main_c_11 : IVec S_ 1 := constantI S_ 1 1#1
  let main_v32 : IVec S_ 1 := (fun x v => Host.reduce IntOp.andi x v reducesTo_S4x64_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x64 .f32) (main_arg1 : IVec S2x1600000 32) (main_arg2 : FVec F S4x3x64x64 .f32) (main_arg3 : FVec F S4x64 .f32) (main_arg4 : FVec F S4x3x64x64 .f32) (main_arg5 : FVec F S4x64 .f32) (main_arg6 : FVec F S3x64 .f32) (main_arg7 : FVec F S4x64 .f32) (main_arg8 : FVec F S64x16 .f32) (main_arg9 : FVec F S16 .f32) (main_arg10 : FVec F S100000x64 .f32) (main_arg11 : FVec F S100000x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S4x3x64x64 .f32 := Host.absf main_arg2
  let main_cst_0 : FVec F S_ .f32 := constant S_ .f32 0x7F800000#32
  let main_v5 : FVec F S4x3x64x64 .f32 := broadcastInDim S4x3x64x64 ![] bcast_S_S4x3x64x64 main_cst_0
  let main_v6 : IVec S4x3x64x64 1 := cmpf .olt main_v4 main_v5
  let main_c_1 : IVec S_ 1 := constantI S_ 1 1#1
  let main_v7 : IVec S_ 1 := (fun x v => Host.reduce IntOp.andi x v reducesTo_S4x3x64x64_S_d0_1_2_3 h_S_) main_v6 main_c_1
  let main_v8 : IVec S_ 1 := andi main_v3 main_v7
  let main_v9 : FVec F S4x64 .f32 := Host.absf main_arg3
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S4x3x64x64 .f32 := Host.absf main_arg4
  let main_cst_4 : FVec F S_ .f32 := constant S_ .f32 0x7F800000#32
  let main_v15 : FVec F S4x3x64x64 .f32 := broadcastInDim S4x3x64x64 ![] bcast_S_S4x3x64x64 main_cst_4
  let main_v16 : IVec S4x3x64x64 1 := cmpf .olt main_v14 main_v15
  fn_part1 (F := F) main_arg5 main_arg6 main_arg7 main_arg8 main_arg9 main_arg10 main_arg11 main_v13 main_v16
-- ==== Kernel.lean ====
abbrev S100000x64 : Shape := ⟨2, ![100000, 64]⟩
abbrev S2x1600000 : Shape := ⟨2, ![2, 1600000]⟩
abbrev S4x3x64x64 : Shape := ⟨4, ![4, 3, 64, 64]⟩
abbrev S4x64 : Shape := ⟨2, ![4, 64]⟩
abbrev S3x64 : Shape := ⟨2, ![3, 64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S3x64x4x64 : Shape := ⟨4, ![3, 64, 4, 64]⟩
abbrev S3x64x256 : Shape := ⟨3, ![3, 64, 256]⟩
abbrev S256 : Shape := ⟨1, ![256]⟩
abbrev S100000x16 : Shape := ⟨2, ![100000, 16]⟩
abbrev S2000x64 : Shape := ⟨2, ![2000, 64]⟩
abbrev S2000x16 : Shape := ⟨2, ![2000, 16]⟩
abbrev S1x64x256 : Shape := ⟨3, ![1, 64, 256]⟩
abbrev S64x256 : Shape := ⟨2, ![64, 256]⟩
abbrev S2000x256 : Shape := ⟨2, ![2000, 256]⟩
abbrev S1x256 : Shape := ⟨2, ![1, 256]⟩
abbrev S1x64 : Shape := ⟨2, ![1, 64]⟩
abbrev S64 : Shape := ⟨1, ![64]⟩
abbrev S1x16 : Shape := ⟨2, ![1, 16]⟩
abbrev S1x100000x64 : Shape := ⟨3, ![1, 100000, 64]⟩
abbrev S2x100000x64 : Shape := ⟨3, ![2, 100000, 64]⟩

abbrev nBuf : Space → Nat
  | .hbm => 130
  | .vmem => 28
  | .smem => 0
  | _ => 0

abbrev hbmTy0_0 (i : Nat) : BufTy := match i % 128 with
  | 0 => ⟨S100000x64, .f32⟩
  | 1 => ⟨S2x1600000, .i32⟩
  | 2 => ⟨S4x3x64x64, .f32⟩
  | 3 => ⟨S4x64, .f32⟩
  | 4 => ⟨S4x3x64x64, .f32⟩
  | 5 => ⟨S4x64, .f32⟩
  | 6 => ⟨S3x64, .f32⟩
  | 7 => ⟨S4x64, .f32⟩
  | 8 => ⟨S64x16, .f32⟩
  | 9 => ⟨S16, .f32⟩
  | 10 => ⟨S100000x64, .f32⟩
  | 11 => ⟨S100000x64, .f32⟩
  | 12 => ⟨S1x1600000, .i32⟩
  | 13 => ⟨S1600000, .i32⟩
  | 14 => ⟨S1x1600000, .i32⟩
  | 15 => ⟨S1600000, .i32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S_, .f32⟩
  | 24 => ⟨S_, .f32⟩
  | 25 => ⟨S_, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x64, .f32⟩
  | 35 => ⟨S_, .f32⟩
  | 36 => ⟨S100000x64, .f32⟩
  | 37 => ⟨S1600000x1, .i32⟩
  | 38 => ⟨S100000x64, .f32⟩
  | 39 => ⟨S100000x1, .f32⟩
  | 40 => ⟨S100000x64, .f32⟩
  | 41 => ⟨S100000x64, .f32⟩
  | 42 => ⟨S100000x64, .f32⟩
  | 43 => ⟨S100000x64, .f32⟩
  | 44 => ⟨S100000x64, .f32⟩
  | 45 => ⟨S100000x64, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x64, .f32⟩
  | 55 => ⟨S_, .f32⟩
  | 56 => ⟨S100000x64, .f32⟩
  | 57 => ⟨S1600000x1, .i32⟩
  | 58 => ⟨S100000x64, .f32⟩
  | 59 => ⟨S100000x1, .f32⟩
  | 60 => ⟨S100000x64, .f32⟩
  | 61 => ⟨S100000x64, .f32⟩
  | 62 => ⟨S100000x64, .f32⟩
  | 63 => ⟨S100000x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x64, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x64, .f32⟩
  | 79 => ⟨S_, .f32⟩
  | 80 => ⟨S100000x64, .f32⟩
  | 81 => ⟨S1600000x1, .i32⟩
  | 82 => ⟨S100000x64, .f32⟩
  | 83 => ⟨S100000x1, .f32⟩
  | 84 => ⟨S100000x64, .f32⟩
  | 85 => ⟨S100000x64, .f32⟩
  | 86 => ⟨S100000x64, .f32⟩
  | 87 => ⟨S100000x64, .f32⟩
  | 88 => ⟨S100000x64, .f32⟩
  | 89 => ⟨S100000x64, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x64, .f32⟩
  | 99 => ⟨S_, .f32⟩
  | 100 => ⟨S100000x64, .f32⟩
  | 101 => ⟨S1600000x1, .i32⟩
  | 102 => ⟨S100000x64, .f32⟩
  | 103 => ⟨S100000x1, .f32⟩
  | 104 => ⟨S100000x64, .f32⟩
  | 105 => ⟨S100000x64, .f32⟩
  | 106 => ⟨S100000x64, .f32⟩
  | 107 => ⟨S100000x64, .f32⟩
  | 108 => ⟨S100000x64, .f32⟩
  | 109 => ⟨S100000x64, .f32⟩
  | 110 => ⟨S_, .f32⟩
  | 111 => ⟨S100000x64, .f32⟩
  | 112 => ⟨S100000x64, .f32⟩
  | 113 => ⟨S100000x64, .f32⟩
  | 114 => ⟨S3x64x4x64, .f32⟩
  | 115 => ⟨S3x64x256, .f32⟩
  | 116 => ⟨S3x64x256, .bf16⟩
  | 117 => ⟨S3x64x4x64, .f32⟩
  | 118 => ⟨S3x64x256, .f32⟩
  | 119 => ⟨S3x64x256, .bf16⟩
  | 120 => ⟨S256, .f32⟩
  | 121 => ⟨S256, .f32⟩
  | 122 => ⟨S256, .f32⟩
  | 123 => ⟨S64x16, .bf16⟩
  | 124 => ⟨S100000x16, .f32⟩
  | 125 => ⟨S100000x64, .f32⟩
  | 126 => ⟨S100000x64, .f32⟩
  | 127 => ⟨S1x100000x64, .f32⟩
  | _ => ⟨S100000x64, .f32⟩

abbrev hbmTy0_1 (i : Nat) : BufTy := match i % 128 with
  | 0 => ⟨S1x100000x64, .f32⟩
  | 1 => ⟨S2x100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S3x64x256, .bf16⟩
  | .local _ .vmem, ⟨15, _⟩ => ⟨S3x64x256, .bf16⟩
  | .local _ .vmem, ⟨16, _⟩ => ⟨S256, .f32⟩
  | .local _ .vmem, ⟨17, _⟩ => ⟨S256, .f32⟩
  | .local _ .vmem, ⟨18, _⟩ => ⟨S256, .f32⟩
  | .local _ .vmem, ⟨19, _⟩ => ⟨S3x64, .f32⟩
  | .local _ .vmem, ⟨20, _⟩ => ⟨S64x16, .bf16⟩
  | .local _ .vmem, ⟨21, _⟩ => ⟨S16, .f32⟩
  | .local _ .vmem, ⟨22, _⟩ => ⟨S2000x16, .f32⟩
  | .local _ .vmem, ⟨23, _⟩ => ⟨S2000x16, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_3 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_12 : Ref sig .tc := ⟨.hbm, 90, rfl⟩
abbrev main_v64 : Ref sig .tc := ⟨.hbm, 91, rfl⟩
abbrev main_v65 : Ref sig .tc := ⟨.hbm, 92, rfl⟩
abbrev main_c_13 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_15 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94_0 : Ref sig .tc := ⟨.hbm, 124, rfl⟩
abbrev main_v94_1 : Ref sig .tc := ⟨.hbm, 125, rfl⟩
abbrev main_v94_2 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x64x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x64x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x16 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2000x16 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2000x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2000x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  reducesTo_S100000_S_d0 : S100000.ReducesTo [0] S_
  h_S_ : 0 < S_.numel
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S4x3x64x64_S3x64x4x64_1_2_0_3 : S4x3x64x64.Transposes [1, 2, 0, 3] S3x64x4x64
  shapeCasts_S3x64x4x64_S3x64x256 : S3x64x4x64.ShapeCasts S3x64x256
  bitsLt_bf16_f32 : FTy.bits .bf16 < FTy.bits .f32
  shapeCasts_S4x64_S256 : S4x64.ShapeCasts S256
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S3x64x256_S1x64x256_0_0_0 : ∀ a, (![0, 0, 0] : Fin 3 → Nat) a + S1x64x256.size a ≤ S3x64x256.size a
  h_S1x64x256 : 0 < S1x64x256.numel
  shapeCasts_S1x64x256_S64x256 : S1x64x256.ShapeCasts S64x256
  inb_S3x64x256_S1x64x256_1_0_0 : ∀ a, (![1, 0, 0] : Fin 3 → Nat) a + S1x64x256.size a ≤ S3x64x256.size a
  inb_S3x64x256_S1x64x256_2_0_0 : ∀ a, (![2, 0, 0] : Fin 3 → Nat) a + S1x64x256.size a ≤ S3x64x256.size a
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S2000x256 : S1x256.Broadcasts S2000x256
  slices_S2000x256_o0_0_S2000x64 : S2000x256.Slices ![0, 0] S2000x64
  slices_S2000x256_o0_64_S2000x64 : S2000x256.Slices ![0, 64] S2000x64
  slices_S2000x256_o0_128_S2000x64 : S2000x256.Slices ![0, 128] S2000x64
  slices_S2000x256_o0_192_S2000x64 : S2000x256.Slices ![0, 192] S2000x64
  inb_S3x64_S1x64_0_0 : ∀ a, (![0, 0] : Fin 2 → Nat) a + S1x64.size a ≤ S3x64.size a
  h_S1x64 : 0 < S1x64.numel
  shapeCasts_S1x64_S64 : S1x64.ShapeCasts S64
  shapeCasts_S64_S1x64 : S64.ShapeCasts S1x64
  inb_S3x64_S1x64_1_0 : ∀ a, (![1, 0] : Fin 2 → Nat) a + S1x64.size a ≤ S3x64.size a
  inb_S3x64_S1x64_2_0 : ∀ a, (![2, 0] : Fin 2 → Nat) a + S1x64.size a ≤ S3x64.size a
  broadcasts_S1x64_S2000x64 : S1x64.Broadcasts S2000x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S16_S16_0 : ∀ a, (![0] : Fin 1 → Nat) a + S16.size a ≤ S16.size a
  h_S16 : 0 < S16.numel
  shapeCasts_S16_S1x16 : S16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  bcast_S100000x64_S1x100000x64_1_2 : S100000x64.BroadcastsInDim S1x100000x64 (![1, 2] : Fin 2 → Fin S1x100000x64.rank)
  concatenates_S1x100000x64_S1x100000x64_S2x100000x64_d0 : Shape.Concatenates [S1x100000x64, S1x100000x64] S2x100000x64 0
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x256_S2000x256_1_0_0_1_n_n_wf : DotDims.WF S2000x64 S64x256 S2000x256 [1] [0] [0] [1] [] []
  dot_S2000x64_S64x16_S2000x16_1_0_0_1_n_n_wf : DotDims.WF S2000x64 S64x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x64.size a ≤ S100000x64.size a
  hwx0_4 : ∀ i : grid0.Coords, EltTy.bits .f32 = 32 ∨ (Rect.block (s := S100000x64) S2000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S100000x64.size a
  hwx0_5 : ∀ i : grid0.Coords, EltTy.bits .f32 = 32 ∨ (Rect.block (s := S100000x64) S2000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S100000x64.size a
  hwx0_6 : ∀ i : grid0.Coords, EltTy.bits .f32 = 32 ∨ (Rect.block (s := S100000x64) S2000x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x64x256.size a ≤ S3x64x256.size a
  hwx0_7 : ∀ i : grid0.Coords, EltTy.bits .bf16 = 32 ∨ (Rect.block (s := S3x64x256) S3x64x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x64x256.size a ≤ S3x64x256.size a
  hwx0_8 : ∀ i : grid0.Coords, EltTy.bits .bf16 = 32 ∨ (Rect.block (s := S3x64x256) S3x64x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S256.size a
  hwx0_11 : ∀ i : grid0.Coords, EltTy.bits .f32 = 32 ∨ (Rect.block (s := S256) S256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S3x64.size a ≤ S3x64.size a
  hwx0_12 : ∀ i : grid0.Coords, EltTy.bits .f32 = 32 ∨ (Rect.block (s := S3x64) S3x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x16.size a ≤ S64x16.size a
  hwx0_13 : ∀ i : grid0.Coords, EltTy.bits .bf16 = 32 ∨ (Rect.block (s := S64x16) S64x16.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S16.size a ≤ S16.size a
  hwx0_14 : ∀ i : grid0.Coords, EltTy.bits .f32 = 32 ∨ (Rect.block (s := S16) S16.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2000x16.size a ≤ S100000x16.size a
  hwx0_15 : ∀ i : grid0.Coords, EltTy.bits .f32 = 32 ∨ (Rect.block (s := S100000x16) S2000x16.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2000x64.size a ≤ S100000x64.size a
  hwx0_16 : ∀ i : grid0.Coords, EltTy.bits .f32 = 32 ∨ (Rect.block (s := S100000x64) S2000x64.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S2000x64.size a ≤ S100000x64.size a
  hwx0_17 : ∀ i : grid0.Coords, EltTy.bits .f32 = 32 ∨ (Rect.block (s := S100000x64) S2000x64.size (cc0_transform_17 i) (hinb0_17 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def dot_S2000x64_S64x16_S2000x16_1_0_0_1_n_n : DotDims S2000x64 S64x16 S2000x16 where
  lhsContracting := [1]
  rhsContracting := [0]
  lhsNonContracting := [0]
  rhsNonContracting := [1]
  lhsBatch := []
  rhsBatch := []
  wf := dot_S2000x64_S64x16_S2000x16_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v46) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg10) S2000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v63) S2000x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v83) S2000x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg11) S2000x64.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v86) S3x64x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v89) S3x64x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v90) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v91) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v92) S256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg6) S3x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v93) S64x16.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg9) S16.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v94_0) S2000x16.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v94_1) S2000x64.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v94_2) S2000x64.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S4x3x64x64 : Shape := ⟨4, ![4, 3, 64, 64]⟩
abbrev S4x64 : Shape := ⟨2, ![4, 64]⟩
abbrev S3x64 : Shape := ⟨2, ![3, 64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x3x64x64 : Shape := ⟨4, ![1, 3, 64, 64]⟩
abbrev S3x64x64 : Shape := ⟨3, ![3, 64, 64]⟩
abbrev S1x64 : Shape := ⟨2, ![1, 64]⟩
abbrev S64 : Shape := ⟨1, ![64]⟩
abbrev S1x64x64 : Shape := ⟨3, ![1, 64, 64]⟩
abbrev S64x64 : Shape := ⟨2, ![64, 64]⟩
abbrev S1600000x64 : Shape := ⟨2, ![1600000, 64]⟩
abbrev S100000x1 : Shape := ⟨2, ![100000, 1]⟩
abbrev S100000x16 : Shape := ⟨2, ![100000, 16]⟩
abbrev S1x16 : Shape := ⟨2, ![1, 16]⟩
abbrev S1x100000x64 : Shape := ⟨3, ![1, 100000, 64]⟩
abbrev S2x100000x64 : Shape := ⟨3, ![2, 100000, 64]⟩

abbrev nBuf : Space → Nat
  | .hbm => 634
  | .vmem => 0
  | .smem => 0
  | _ => 0

abbrev hbmTy0_0 (i : Nat) : BufTy := match i % 128 with
  | 0 => ⟨S100000x64, .f32⟩
  | 1 => ⟨S2x1600000, .i32⟩
  | 2 => ⟨S4x3x64x64, .f32⟩
  | 3 => ⟨S4x64, .f32⟩
  | 4 => ⟨S4x3x64x64, .f32⟩
  | 5 => ⟨S4x64, .f32⟩
  | 6 => ⟨S3x64, .f32⟩
  | 7 => ⟨S4x64, .f32⟩
  | 8 => ⟨S64x16, .f32⟩
  | 9 => ⟨S16, .f32⟩
  | 10 => ⟨S100000x64, .f32⟩
  | 11 => ⟨S100000x64, .f32⟩
  | 12 => ⟨S1x1600000, .i32⟩
  | 13 => ⟨S1600000, .i32⟩
  | 14 => ⟨S1x1600000, .i32⟩
  | 15 => ⟨S1600000, .i32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S_, .f32⟩
  | 24 => ⟨S1x3x64x64, .f32⟩
  | 25 => ⟨S3x64x64, .f32⟩
  | 26 => ⟨S1x64, .f32⟩
  | 27 => ⟨S64, .f32⟩
  | 28 => ⟨S1x64x64, .f32⟩
  | 29 => ⟨S64x64, .f32⟩
  | 30 => ⟨S100000x64, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x64, .f32⟩
  | 40 => ⟨S_, .f32⟩
  | 41 => ⟨S100000x64, .f32⟩
  | 42 => ⟨S1600000x1, .i32⟩
  | 43 => ⟨S100000x64, .f32⟩
  | 44 => ⟨S_, .f32⟩
  | 45 => ⟨S_, .f32⟩
  | 46 => ⟨S100000x1, .f32⟩
  | 47 => ⟨S100000x64, .f32⟩
  | 48 => ⟨S100000x64, .f32⟩
  | 49 => ⟨S100000x64, .f32⟩
  | 50 => ⟨S100000x64, .f32⟩
  | 51 => ⟨S100000x64, .f32⟩
  | 52 => ⟨S100000x64, .f32⟩
  | 53 => ⟨S1x64x64, .f32⟩
  | 54 => ⟨S64x64, .f32⟩
  | 55 => ⟨S100000x64, .f32⟩
  | 56 => ⟨S100000x64, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x64, .f32⟩
  | 66 => ⟨S_, .f32⟩
  | 67 => ⟨S100000x64, .f32⟩
  | 68 => ⟨S1600000x1, .i32⟩
  | 69 => ⟨S100000x64, .f32⟩
  | 70 => ⟨S_, .f32⟩
  | 71 => ⟨S_, .f32⟩
  | 72 => ⟨S100000x1, .f32⟩
  | 73 => ⟨S100000x64, .f32⟩
  | 74 => ⟨S100000x64, .f32⟩
  | 75 => ⟨S100000x64, .f32⟩
  | 76 => ⟨S100000x64, .f32⟩
  | 77 => ⟨S100000x64, .f32⟩
  | 78 => ⟨S100000x64, .f32⟩
  | 79 => ⟨S_, .f32⟩
  | 80 => ⟨S100000x64, .f32⟩
  | 81 => ⟨S100000x64, .f32⟩
  | 82 => ⟨S100000x64, .f32⟩
  | 83 => ⟨S1x64x64, .f32⟩
  | 84 => ⟨S64x64, .f32⟩
  | 85 => ⟨S100000x64, .f32⟩
  | 86 => ⟨S100000x64, .f32⟩
  | 87 => ⟨S1x64, .f32⟩
  | 88 => ⟨S100000x64, .f32⟩
  | 89 => ⟨S100000x64, .f32⟩
  | 90 => ⟨S1x3x64x64, .f32⟩
  | 91 => ⟨S3x64x64, .f32⟩
  | 92 => ⟨S1x64, .f32⟩
  | 93 => ⟨S64, .f32⟩
  | 94 => ⟨S1x64x64, .f32⟩
  | 95 => ⟨S64x64, .f32⟩
  | 96 => ⟨S100000x64, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x64, .f32⟩
  | 106 => ⟨S_, .f32⟩
  | 107 => ⟨S100000x64, .f32⟩
  | 108 => ⟨S1600000x1, .i32⟩
  | 109 => ⟨S100000x64, .f32⟩
  | 110 => ⟨S_, .f32⟩
  | 111 => ⟨S_, .f32⟩
  | 112 => ⟨S100000x1, .f32⟩
  | 113 => ⟨S100000x64, .f32⟩
  | 114 => ⟨S100000x64, .f32⟩
  | 115 => ⟨S100000x64, .f32⟩
  | 116 => ⟨S100000x64, .f32⟩
  | 117 => ⟨S100000x64, .f32⟩
  | 118 => ⟨S100000x64, .f32⟩
  | 119 => ⟨S1x64x64, .f32⟩
  | 120 => ⟨S64x64, .f32⟩
  | 121 => ⟨S100000x64, .f32⟩
  | 122 => ⟨S100000x64, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x64, .f32⟩

abbrev hbmTy0_1 (i : Nat) : BufTy := match i % 128 with
  | 0 => ⟨S1600000, .i32⟩
  | 1 => ⟨S1600000, .i32⟩
  | 2 => ⟨S1600000x1, .i32⟩
  | 3 => ⟨S1600000x64, .f32⟩
  | 4 => ⟨S_, .f32⟩
  | 5 => ⟨S100000x64, .f32⟩
  | 6 => ⟨S1600000x1, .i32⟩
  | 7 => ⟨S100000x64, .f32⟩
  | 8 => ⟨S_, .f32⟩
  | 9 => ⟨S_, .f32⟩
  | 10 => ⟨S100000x1, .f32⟩
  | 11 => ⟨S100000x64, .f32⟩
  | 12 => ⟨S100000x64, .f32⟩
  | 13 => ⟨S100000x64, .f32⟩
  | 14 => ⟨S100000x64, .f32⟩
  | 15 => ⟨S100000x64, .f32⟩
  | 16 => ⟨S100000x64, .f32⟩
  | 17 => ⟨S_, .f32⟩
  | 18 => ⟨S100000x64, .f32⟩
  | 19 => ⟨S100000x64, .f32⟩
  | 20 => ⟨S100000x64, .f32⟩
  | 21 => ⟨S1x64x64, .f32⟩
  | 22 => ⟨S64x64, .f32⟩
  | 23 => ⟨S100000x64, .f32⟩
  | 24 => ⟨S100000x64, .f32⟩
  | 25 => ⟨S1x64, .f32⟩
  | 26 => ⟨S100000x64, .f32⟩
  | 27 => ⟨S100000x64, .f32⟩
  | 28 => ⟨S100000x64, .f32⟩
  | 29 => ⟨S1x64, .f32⟩
  | 30 => ⟨S64, .f32⟩
  | 31 => ⟨S1x64, .f32⟩
  | 32 => ⟨S100000x64, .f32⟩
  | 33 => ⟨S100000x64, .f32⟩
  | 34 => ⟨S100000x64, .f32⟩
  | 35 => ⟨S1x64, .f32⟩
  | 36 => ⟨S64, .f32⟩
  | 37 => ⟨S1x64, .f32⟩
  | 38 => ⟨S100000x64, .f32⟩
  | 39 => ⟨S100000x64, .f32⟩
  | 40 => ⟨S100000x64, .f32⟩
  | 41 => ⟨S100000x64, .f32⟩
  | 42 => ⟨S_, .f32⟩
  | 43 => ⟨S100000x64, .f32⟩
  | 44 => ⟨S100000x64, .f32⟩
  | 45 => ⟨S_, .f32⟩
  | 46 => ⟨S100000x64, .f32⟩
  | 47 => ⟨S100000x64, .f32⟩
  | 48 => ⟨S1x3x64x64, .f32⟩
  | 49 => ⟨S3x64x64, .f32⟩
  | 50 => ⟨S1x64, .f32⟩
  | 51 => ⟨S64, .f32⟩
  | 52 => ⟨S1x64x64, .f32⟩
  | 53 => ⟨S64x64, .f32⟩
  | 54 => ⟨S100000x64, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x64, .f32⟩
  | 64 => ⟨S_, .f32⟩
  | 65 => ⟨S100000x64, .f32⟩
  | 66 => ⟨S1600000x1, .i32⟩
  | 67 => ⟨S100000x64, .f32⟩
  | 68 => ⟨S_, .f32⟩
  | 69 => ⟨S_, .f32⟩
  | 70 => ⟨S100000x1, .f32⟩
  | 71 => ⟨S100000x64, .f32⟩
  | 72 => ⟨S100000x64, .f32⟩
  | 73 => ⟨S100000x64, .f32⟩
  | 74 => ⟨S100000x64, .f32⟩
  | 75 => ⟨S100000x64, .f32⟩
  | 76 => ⟨S100000x64, .f32⟩
  | 77 => ⟨S1x64x64, .f32⟩
  | 78 => ⟨S64x64, .f32⟩
  | 79 => ⟨S100000x64, .f32⟩
  | 80 => ⟨S100000x64, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000x64, .f32⟩
  | 90 => ⟨S_, .f32⟩
  | 91 => ⟨S100000x64, .f32⟩
  | 92 => ⟨S1600000x1, .i32⟩
  | 93 => ⟨S100000x64, .f32⟩
  | 94 => ⟨S_, .f32⟩
  | 95 => ⟨S_, .f32⟩
  | 96 => ⟨S100000x1, .f32⟩
  | 97 => ⟨S100000x64, .f32⟩
  | 98 => ⟨S100000x64, .f32⟩
  | 99 => ⟨S100000x64, .f32⟩
  | 100 => ⟨S100000x64, .f32⟩
  | 101 => ⟨S100000x64, .f32⟩
  | 102 => ⟨S100000x64, .f32⟩
  | 103 => ⟨S_, .f32⟩
  | 104 => ⟨S100000x64, .f32⟩
  | 105 => ⟨S100000x64, .f32⟩
  | 106 => ⟨S100000x64, .f32⟩
  | 107 => ⟨S1x64x64, .f32⟩
  | 108 => ⟨S64x64, .f32⟩
  | 109 => ⟨S100000x64, .f32⟩
  | 110 => ⟨S100000x64, .f32⟩
  | 111 => ⟨S1x64, .f32⟩
  | 112 => ⟨S100000x64, .f32⟩
  | 113 => ⟨S100000x64, .f32⟩
  | 114 => ⟨S1x3x64x64, .f32⟩
  | 115 => ⟨S3x64x64, .f32⟩
  | 116 => ⟨S1x64, .f32⟩
  | 117 => ⟨S64, .f32⟩
  | 118 => ⟨S1x64x64, .f32⟩
  | 119 => ⟨S64x64, .f32⟩
  | 120 => ⟨S100000x64, .f32⟩
  | 121 => ⟨S_, .i32⟩
  | 122 => ⟨S1600000, .i32⟩
  | 123 => ⟨S1600000, .i1⟩
  | 124 => ⟨S_, .i32⟩
  | 125 => ⟨S1600000, .i32⟩
  | 126 => ⟨S1600000, .i32⟩
  | 127 => ⟨S1600000, .i32⟩
  | _ => ⟨S100000x64, .f32⟩

abbrev hbmTy0_2 (i : Nat) : BufTy := match i % 128 with
  | 0 => ⟨S1600000x1, .i32⟩
  | 1 => ⟨S1600000x64, .f32⟩
  | 2 => ⟨S_, .f32⟩
  | 3 => ⟨S100000x64, .f32⟩
  | 4 => ⟨S1600000x1, .i32⟩
  | 5 => ⟨S100000x64, .f32⟩
  | 6 => ⟨S_, .f32⟩
  | 7 => ⟨S_, .f32⟩
  | 8 => ⟨S100000x1, .f32⟩
  | 9 => ⟨S100000x64, .f32⟩
  | 10 => ⟨S100000x64, .f32⟩
  | 11 => ⟨S100000x64, .f32⟩
  | 12 => ⟨S100000x64, .f32⟩
  | 13 => ⟨S100000x64, .f32⟩
  | 14 => ⟨S100000x64, .f32⟩
  | 15 => ⟨S1x64x64, .f32⟩
  | 16 => ⟨S64x64, .f32⟩
  | 17 => ⟨S100000x64, .f32⟩
  | 18 => ⟨S100000x64, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x64, .f32⟩
  | 28 => ⟨S_, .f32⟩
  | 29 => ⟨S100000x64, .f32⟩
  | 30 => ⟨S1600000x1, .i32⟩
  | 31 => ⟨S100000x64, .f32⟩
  | 32 => ⟨S_, .f32⟩
  | 33 => ⟨S_, .f32⟩
  | 34 => ⟨S100000x1, .f32⟩
  | 35 => ⟨S100000x64, .f32⟩
  | 36 => ⟨S100000x64, .f32⟩
  | 37 => ⟨S100000x64, .f32⟩
  | 38 => ⟨S100000x64, .f32⟩
  | 39 => ⟨S100000x64, .f32⟩
  | 40 => ⟨S100000x64, .f32⟩
  | 41 => ⟨S_, .f32⟩
  | 42 => ⟨S100000x64, .f32⟩
  | 43 => ⟨S100000x64, .f32⟩
  | 44 => ⟨S100000x64, .f32⟩
  | 45 => ⟨S1x64x64, .f32⟩
  | 46 => ⟨S64x64, .f32⟩
  | 47 => ⟨S100000x64, .f32⟩
  | 48 => ⟨S100000x64, .f32⟩
  | 49 => ⟨S1x64, .f32⟩
  | 50 => ⟨S100000x64, .f32⟩
  | 51 => ⟨S100000x64, .f32⟩
  | 52 => ⟨S100000x64, .f32⟩
  | 53 => ⟨S1x64, .f32⟩
  | 54 => ⟨S64, .f32⟩
  | 55 => ⟨S1x64, .f32⟩
  | 56 => ⟨S100000x64, .f32⟩
  | 57 => ⟨S100000x64, .f32⟩
  | 58 => ⟨S100000x64, .f32⟩
  | 59 => ⟨S1x64, .f32⟩
  | 60 => ⟨S64, .f32⟩
  | 61 => ⟨S1x64, .f32⟩
  | 62 => ⟨S100000x64, .f32⟩
  | 63 => ⟨S100000x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x64, .f32⟩
  | 73 => ⟨S1x3x64x64, .f32⟩
  | 74 => ⟨S3x64x64, .f32⟩
  | 75 => ⟨S1x64, .f32⟩
  | 76 => ⟨S64, .f32⟩
  | 77 => ⟨S1x64x64, .f32⟩
  | 78 => ⟨S64x64, .f32⟩
  | 79 => ⟨S100000x64, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x64, .f32⟩
  | 89 => ⟨S_, .f32⟩
  | 90 => ⟨S100000x64, .f32⟩
  | 91 => ⟨S1600000x1, .i32⟩
  | 92 => ⟨S100000x64, .f32⟩
  | 93 => ⟨S_, .f32⟩
  | 94 => ⟨S_, .f32⟩
  | 95 => ⟨S100000x1, .f32⟩
  | 96 => ⟨S100000x64, .f32⟩
  | 97 => ⟨S100000x64, .f32⟩
  | 98 => ⟨S100000x64, .f32⟩
  | 99 => ⟨S100000x64, .f32⟩
  | 100 => ⟨S100000x64, .f32⟩
  | 101 => ⟨S100000x64, .f32⟩
  | 102 => ⟨S1x64x64, .f32⟩
  | 103 => ⟨S64x64, .f32⟩
  | 104 => ⟨S100000x64, .f32⟩
  | 105 => ⟨S100000x64, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000x64, .f32⟩
  | 115 => ⟨S_, .f32⟩
  | 116 => ⟨S100000x64, .f32⟩
  | 117 => ⟨S1600000x1, .i32⟩
  | 118 => ⟨S100000x64, .f32⟩
  | 119 => ⟨S_, .f32⟩
  | 120 => ⟨S_, .f32⟩
  | 121 => ⟨S100000x1, .f32⟩
  | 122 => ⟨S100000x64, .f32⟩
  | 123 => ⟨S100000x64, .f32⟩
  | 124 => ⟨S100000x64, .f32⟩
  | 125 => ⟨S100000x64, .f32⟩
  | 126 => ⟨S100000x64, .f32⟩
  | 127 => ⟨S100000x64, .f32⟩
  | _ => ⟨S100000x64, .f32⟩

abbrev hbmTy0_3 (i : Nat) : BufTy := match i % 128 with
  | 0 => ⟨S_, .f32⟩
  | 1 => ⟨S100000x64, .f32⟩
  | 2 => ⟨S100000x64, .f32⟩
  | 3 => ⟨S100000x64, .f32⟩
  | 4 => ⟨S1x64x64, .f32⟩
  | 5 => ⟨S64x64, .f32⟩
  | 6 => ⟨S100000x64, .f32⟩
  | 7 => ⟨S100000x64, .f32⟩
  | 8 => ⟨S1x64, .f32⟩
  | 9 => ⟨S100000x64, .f32⟩
  | 10 => ⟨S100000x64, .f32⟩
  | 11 => ⟨S1x3x64x64, .f32⟩
  | 12 => ⟨S3x64x64, .f32⟩
  | 13 => ⟨S1x64, .f32⟩
  | 14 => ⟨S64, .f32⟩
  | 15 => ⟨S1x64x64, .f32⟩
  | 16 => ⟨S64x64, .f32⟩
  | 17 => ⟨S100000x64, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x64, .f32⟩
  | 27 => ⟨S_, .f32⟩
  | 28 => ⟨S100000x64, .f32⟩
  | 29 => ⟨S1600000x1, .i32⟩
  | 30 => ⟨S100000x64, .f32⟩
  | 31 => ⟨S_, .f32⟩
  | 32 => ⟨S_, .f32⟩
  | 33 => ⟨S100000x1, .f32⟩
  | 34 => ⟨S100000x64, .f32⟩
  | 35 => ⟨S100000x64, .f32⟩
  | 36 => ⟨S100000x64, .f32⟩
  | 37 => ⟨S100000x64, .f32⟩
  | 38 => ⟨S100000x64, .f32⟩
  | 39 => ⟨S100000x64, .f32⟩
  | 40 => ⟨S1x64x64, .f32⟩
  | 41 => ⟨S64x64, .f32⟩
  | 42 => ⟨S100000x64, .f32⟩
  | 43 => ⟨S100000x64, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x64, .f32⟩
  | 53 => ⟨S_, .f32⟩
  | 54 => ⟨S100000x64, .f32⟩
  | 55 => ⟨S1600000x1, .i32⟩
  | 56 => ⟨S100000x64, .f32⟩
  | 57 => ⟨S_, .f32⟩
  | 58 => ⟨S_, .f32⟩
  | 59 => ⟨S100000x1, .f32⟩
  | 60 => ⟨S100000x64, .f32⟩
  | 61 => ⟨S100000x64, .f32⟩
  | 62 => ⟨S100000x64, .f32⟩
  | 63 => ⟨S100000x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x64, .f32⟩
  | 70 => ⟨S1x64x64, .f32⟩
  | 71 => ⟨S64x64, .f32⟩
  | 72 => ⟨S100000x64, .f32⟩
  | 73 => ⟨S100000x64, .f32⟩
  | 74 => ⟨S1x64, .f32⟩
  | 75 => ⟨S100000x64, .f32⟩
  | 76 => ⟨S100000x64, .f32⟩
  | 77 => ⟨S100000x64, .f32⟩
  | 78 => ⟨S1x64, .f32⟩
  | 79 => ⟨S64, .f32⟩
  | 80 => ⟨S1x64, .f32⟩
  | 81 => ⟨S100000x64, .f32⟩
  | 82 => ⟨S100000x64, .f32⟩
  | 83 => ⟨S100000x64, .f32⟩
  | 84 => ⟨S100000x64, .f32⟩
  | 85 => ⟨S100000x64, .f32⟩
  | 86 => ⟨S1x3x64x64, .f32⟩
  | 87 => ⟨S3x64x64, .f32⟩
  | 88 => ⟨S1x64, .f32⟩
  | 89 => ⟨S64, .f32⟩
  | 90 => ⟨S1x64x64, .f32⟩
  | 91 => ⟨S64x64, .f32⟩
  | 92 => ⟨S100000x64, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x64, .f32⟩
  | 102 => ⟨S_, .f32⟩
  | 103 => ⟨S100000x64, .f32⟩
  | 104 => ⟨S1600000x1, .i32⟩
  | 105 => ⟨S100000x64, .f32⟩
  | 106 => ⟨S_, .f32⟩
  | 107 => ⟨S_, .f32⟩
  | 108 => ⟨S100000x1, .f32⟩
  | 109 => ⟨S100000x64, .f32⟩
  | 110 => ⟨S100000x64, .f32⟩
  | 111 => ⟨S100000x64, .f32⟩
  | 112 => ⟨S100000x64, .f32⟩
  | 113 => ⟨S100000x64, .f32⟩
  | 114 => ⟨S100000x64, .f32⟩
  | 115 => ⟨S1x64x64, .f32⟩
  | 116 => ⟨S64x64, .f32⟩
  | 117 => ⟨S100000x64, .f32⟩
  | 118 => ⟨S100000x64, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x64, .f32⟩
  | _ => ⟨S100000x64, .f32⟩

abbrev hbmTy0_4 (i : Nat) : BufTy := match i % 128 with
  | 0 => ⟨S_, .f32⟩
  | 1 => ⟨S100000x64, .f32⟩
  | 2 => ⟨S1600000x1, .i32⟩
  | 3 => ⟨S100000x64, .f32⟩
  | 4 => ⟨S_, .f32⟩
  | 5 => ⟨S_, .f32⟩
  | 6 => ⟨S100000x1, .f32⟩
  | 7 => ⟨S100000x64, .f32⟩
  | 8 => ⟨S100000x64, .f32⟩
  | 9 => ⟨S100000x64, .f32⟩
  | 10 => ⟨S100000x64, .f32⟩
  | 11 => ⟨S100000x64, .f32⟩
  | 12 => ⟨S100000x64, .f32⟩
  | 13 => ⟨S_, .f32⟩
  | 14 => ⟨S100000x64, .f32⟩
  | 15 => ⟨S100000x64, .f32⟩
  | 16 => ⟨S100000x64, .f32⟩
  | 17 => ⟨S1x64x64, .f32⟩
  | 18 => ⟨S64x64, .f32⟩
  | 19 => ⟨S100000x64, .f32⟩
  | 20 => ⟨S100000x64, .f32⟩
  | 21 => ⟨S1x64, .f32⟩
  | 22 => ⟨S100000x64, .f32⟩
  | 23 => ⟨S100000x64, .f32⟩
  | 24 => ⟨S1x3x64x64, .f32⟩
  | 25 => ⟨S3x64x64, .f32⟩
  | 26 => ⟨S1x64, .f32⟩
  | 27 => ⟨S64, .f32⟩
  | 28 => ⟨S1x64x64, .f32⟩
  | 29 => ⟨S64x64, .f32⟩
  | 30 => ⟨S100000x64, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x64, .f32⟩
  | 40 => ⟨S_, .f32⟩
  | 41 => ⟨S100000x64, .f32⟩
  | 42 => ⟨S1600000x1, .i32⟩
  | 43 => ⟨S100000x64, .f32⟩
  | 44 => ⟨S_, .f32⟩
  | 45 => ⟨S_, .f32⟩
  | 46 => ⟨S100000x1, .f32⟩
  | 47 => ⟨S100000x64, .f32⟩
  | 48 => ⟨S100000x64, .f32⟩
  | 49 => ⟨S100000x64, .f32⟩
  | 50 => ⟨S100000x64, .f32⟩
  | 51 => ⟨S100000x64, .f32⟩
  | 52 => ⟨S100000x64, .f32⟩
  | 53 => ⟨S1x64x64, .f32⟩
  | 54 => ⟨S64x64, .f32⟩
  | 55 => ⟨S100000x64, .f32⟩
  | 56 => ⟨S100000x64, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x64, .f32⟩
  | 66 => ⟨S_, .f32⟩
  | 67 => ⟨S100000x64, .f32⟩
  | 68 => ⟨S1600000x1, .i32⟩
  | 69 => ⟨S100000x64, .f32⟩
  | 70 => ⟨S_, .f32⟩
  | 71 => ⟨S_, .f32⟩
  | 72 => ⟨S100000x1, .f32⟩
  | 73 => ⟨S100000x64, .f32⟩
  | 74 => ⟨S100000x64, .f32⟩
  | 75 => ⟨S100000x64, .f32⟩
  | 76 => ⟨S100000x64, .f32⟩
  | 77 => ⟨S100000x64, .f32⟩
  | 78 => ⟨S100000x64, .f32⟩
  | 79 => ⟨S_, .f32⟩
  | 80 => ⟨S100000x64, .f32⟩
  | 81 => ⟨S100000x64, .f32⟩
  | 82 => ⟨S100000x64, .f32⟩
  | 83 => ⟨S1x64x64, .f32⟩
  | 84 => ⟨S64x64, .f32⟩
  | 85 => ⟨S100000x64, .f32⟩
  | 86 => ⟨S100000x64, .f32⟩
  | 87 => ⟨S1x64, .f32⟩
  | 88 => ⟨S100000x64, .f32⟩
  | 89 => ⟨S100000x64, .f32⟩
  | 90 => ⟨S100000x64, .f32⟩
  | 91 => ⟨S1x64, .f32⟩
  | 92 => ⟨S64, .f32⟩
  | 93 => ⟨S1x64, .f32⟩
  | 94 => ⟨S100000x64, .f32⟩
  | 95 => ⟨S100000x64, .f32⟩
  | 96 => ⟨S100000x64, .f32⟩
  | 97 => ⟨S1x64, .f32⟩
  | 98 => ⟨S64, .f32⟩
  | 99 => ⟨S1x64, .f32⟩
  | 100 => ⟨S100000x64, .f32⟩
  | 101 => ⟨S100000x64, .f32⟩
  | 102 => ⟨S100000x64, .f32⟩
  | 103 => ⟨S100000x64, .f32⟩
  | 104 => ⟨S_, .f32⟩
  | 105 => ⟨S100000x64, .f32⟩
  | 106 => ⟨S100000x64, .f32⟩
  | 107 => ⟨S_, .f32⟩
  | 108 => ⟨S100000x64, .f32⟩
  | 109 => ⟨S100000x64, .f32⟩
  | 110 => ⟨S100000x64, .f32⟩
  | 111 => ⟨S100000x64, .f32⟩
  | 112 => ⟨S_, .f32⟩
  | 113 => ⟨S100000x64, .f32⟩
  | 114 => ⟨S100000x64, .f32⟩
  | 115 => ⟨S100000x16, .f32⟩
  | 116 => ⟨S1x16, .f32⟩
  | 117 => ⟨S100000x16, .f32⟩
  | 118 => ⟨S100000x16, .f32⟩
  | 119 => ⟨S1x100000x64, .f32⟩
  | 120 => ⟨S1x100000x64, .f32⟩
  | 121 => ⟨S2x100000x64, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_5 : Ref sig .tc := ⟨.hbm, 57, rfl⟩
abbrev main_v38 : Ref sig .tc := ⟨.hbm, 58, rfl⟩
abbrev main_v39 : Ref sig .tc := ⟨.hbm, 59, rfl⟩
abbrev main_c_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_10 : Ref sig .tc := ⟨.hbm, 97, rfl⟩
abbrev main_v73 : Ref sig .tc := ⟨.hbm, 98, rfl⟩
abbrev main_v74 : Ref sig .tc := ⟨.hbm, 99, rfl⟩
abbrev main_c_11 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_12 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_13 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_c_14 : Ref sig .tc := ⟨.hbm, 123, rfl⟩
abbrev main_v95 : Ref sig .tc := ⟨.hbm, 124, rfl⟩
abbrev main_v96 : Ref sig .tc := ⟨.hbm, 125, rfl⟩
abbrev main_c_15 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_16 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_17 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst_18 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_cst_19 : Ref sig .tc := ⟨.hbm, 170, rfl⟩
abbrev main_v137 : Ref sig .tc := ⟨.hbm, 171, rfl⟩
abbrev main_v138 : Ref sig .tc := ⟨.hbm, 172, rfl⟩
abbrev main_cst_20 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_c_21 : Ref sig .tc := ⟨.hbm, 183, rfl⟩
abbrev main_v148 : Ref sig .tc := ⟨.hbm, 184, rfl⟩
abbrev main_v149 : Ref sig .tc := ⟨.hbm, 185, rfl⟩
abbrev main_c_22 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_cst_23 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_cst_24 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_c_25 : Ref sig .tc := ⟨.hbm, 209, rfl⟩
abbrev main_v170 : Ref sig .tc := ⟨.hbm, 210, rfl⟩
abbrev main_v171 : Ref sig .tc := ⟨.hbm, 211, rfl⟩
abbrev main_c_26 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_cst_27 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_cst_28 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_cst_29 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_c_30 : Ref sig .tc := ⟨.hbm, 249, rfl⟩
abbrev main_v205 : Ref sig .tc := ⟨.hbm, 250, rfl⟩
abbrev main_v206 : Ref sig .tc := ⟨.hbm, 251, rfl⟩
abbrev main_c_31 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_cst_32 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_cst_33 : Ref sig .tc := ⟨.hbm, 262, rfl⟩
abbrev main_v215 : Ref sig .tc := ⟨.hbm, 263, rfl⟩
abbrev main_v216 : Ref sig .tc := ⟨.hbm, 264, rfl⟩
abbrev main_v217 : Ref sig .tc := ⟨.hbm, 265, rfl⟩
abbrev main_v218 : Ref sig .tc := ⟨.hbm, 266, rfl⟩
abbrev main_v219 : Ref sig .tc := ⟨.hbm, 267, rfl⟩
abbrev main_v220 : Ref sig .tc := ⟨.hbm, 268, rfl⟩
abbrev main_v221 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_v225 : Ref sig .tc := ⟨.hbm, 273, rfl⟩
abbrev main_v226 : Ref sig .tc := ⟨.hbm, 274, rfl⟩
abbrev main_c_34 : Ref sig .tc := ⟨.hbm, 275, rfl⟩
abbrev main_v227 : Ref sig .tc := ⟨.hbm, 276, rfl⟩
abbrev main_v228 : Ref sig .tc := ⟨.hbm, 277, rfl⟩
abbrev main_c_35 : Ref sig .tc := ⟨.hbm, 278, rfl⟩
abbrev main_v229 : Ref sig .tc := ⟨.hbm, 279, rfl⟩
abbrev main_v230 : Ref sig .tc := ⟨.hbm, 280, rfl⟩
abbrev main_v231 : Ref sig .tc := ⟨.hbm, 281, rfl⟩
abbrev main_v232 : Ref sig .tc := ⟨.hbm, 282, rfl⟩
abbrev main_v233 : Ref sig .tc := ⟨.hbm, 283, rfl⟩
abbrev main_cst_36 : Ref sig .tc := ⟨.hbm, 284, rfl⟩
abbrev main_v234 : Ref sig .tc := ⟨.hbm, 285, rfl⟩
abbrev main_v235 : Ref sig .tc := ⟨.hbm, 286, rfl⟩
abbrev main_v236 : Ref sig .tc := ⟨.hbm, 287, rfl⟩
abbrev main_cst_37 : Ref sig .tc := ⟨.hbm, 288, rfl⟩
abbrev main_v237 : Ref sig .tc := ⟨.hbm, 289, rfl⟩
abbrev main_v238 : Ref sig .tc := ⟨.hbm, 290, rfl⟩
abbrev main_v239 : Ref sig .tc := ⟨.hbm, 291, rfl⟩
abbrev main_v240 : Ref sig .tc := ⟨.hbm, 292, rfl⟩
abbrev main_v241 : Ref sig .tc := ⟨.hbm, 293, rfl⟩
abbrev main_v242 : Ref sig .tc := ⟨.hbm, 294, rfl⟩
abbrev main_v243 : Ref sig .tc := ⟨.hbm, 295, rfl⟩
abbrev main_v244 : Ref sig .tc := ⟨.hbm, 296, rfl⟩
abbrev main_cst_38 : Ref sig .tc := ⟨.hbm, 297, rfl⟩
abbrev main_v245 : Ref sig .tc := ⟨.hbm, 298, rfl⟩
abbrev main_v246 : Ref sig .tc := ⟨.hbm, 299, rfl⟩
abbrev main_v247 : Ref sig .tc := ⟨.hbm, 300, rfl⟩
abbrev main_v248 : Ref sig .tc := ⟨.hbm, 301, rfl⟩
abbrev main_v249 : Ref sig .tc := ⟨.hbm, 302, rfl⟩
abbrev main_v250 : Ref sig .tc := ⟨.hbm, 303, rfl⟩
abbrev main_v251 : Ref sig .tc := ⟨.hbm, 304, rfl⟩
abbrev main_v252 : Ref sig .tc := ⟨.hbm, 305, rfl⟩
abbrev main_v253 : Ref sig .tc := ⟨.hbm, 306, rfl⟩
abbrev main_v254 : Ref sig .tc := ⟨.hbm, 307, rfl⟩
abbrev main_v255 : Ref sig .tc := ⟨.hbm, 308, rfl⟩
abbrev main_v256 : Ref sig .tc := ⟨.hbm, 309, rfl⟩
abbrev main_v257 : Ref sig .tc := ⟨.hbm, 310, rfl⟩
abbrev main_v258 : Ref sig .tc := ⟨.hbm, 311, rfl⟩
abbrev main_v259 : Ref sig .tc := ⟨.hbm, 312, rfl⟩
abbrev main_v260 : Ref sig .tc := ⟨.hbm, 313, rfl⟩
abbrev main_v261 : Ref sig .tc := ⟨.hbm, 314, rfl⟩
abbrev main_v262 : Ref sig .tc := ⟨.hbm, 315, rfl⟩
abbrev main_v263 : Ref sig .tc := ⟨.hbm, 316, rfl⟩
abbrev main_v264 : Ref sig .tc := ⟨.hbm, 317, rfl⟩
abbrev main_v265 : Ref sig .tc := ⟨.hbm, 318, rfl⟩
abbrev main_v266 : Ref sig .tc := ⟨.hbm, 319, rfl⟩
abbrev main_v267 : Ref sig .tc := ⟨.hbm, 320, rfl⟩
abbrev main_v268 : Ref sig .tc := ⟨.hbm, 321, rfl⟩
abbrev main_cst_39 : Ref sig .tc := ⟨.hbm, 322, rfl⟩
abbrev main_v269 : Ref sig .tc := ⟨.hbm, 323, rfl⟩
abbrev main_v270 : Ref sig .tc := ⟨.hbm, 324, rfl⟩
abbrev main_cst_40 : Ref sig .tc := ⟨.hbm, 325, rfl⟩
abbrev main_v271 : Ref sig .tc := ⟨.hbm, 326, rfl⟩
abbrev main_v272 : Ref sig .tc := ⟨.hbm, 327, rfl⟩
abbrev main_v273 : Ref sig .tc := ⟨.hbm, 328, rfl⟩
abbrev main_v274 : Ref sig .tc := ⟨.hbm, 329, rfl⟩
abbrev main_v275 : Ref sig .tc := ⟨.hbm, 330, rfl⟩
abbrev main_v276 : Ref sig .tc := ⟨.hbm, 331, rfl⟩
abbrev main_v277 : Ref sig .tc := ⟨.hbm, 332, rfl⟩
abbrev main_v278 : Ref sig .tc := ⟨.hbm, 333, rfl⟩
abbrev main_v279 : Ref sig .tc := ⟨.hbm, 334, rfl⟩
abbrev main_v280 : Ref sig .tc := ⟨.hbm, 335, rfl⟩
abbrev main_c_41 : Ref sig .tc := ⟨.hbm, 336, rfl⟩
abbrev main_v281 : Ref sig .tc := ⟨.hbm, 337, rfl⟩
abbrev main_v282 : Ref sig .tc := ⟨.hbm, 338, rfl⟩
abbrev main_c_42 : Ref sig .tc := ⟨.hbm, 339, rfl⟩
abbrev main_v283 : Ref sig .tc := ⟨.hbm, 340, rfl⟩
abbrev main_v284 : Ref sig .tc := ⟨.hbm, 341, rfl⟩
abbrev main_v285 : Ref sig .tc := ⟨.hbm, 342, rfl⟩
abbrev main_v286 : Ref sig .tc := ⟨.hbm, 343, rfl⟩
abbrev main_v287 : Ref sig .tc := ⟨.hbm, 344, rfl⟩
abbrev main_cst_43 : Ref sig .tc := ⟨.hbm, 345, rfl⟩
abbrev main_v288 : Ref sig .tc := ⟨.hbm, 346, rfl⟩
abbrev main_v289 : Ref sig .tc := ⟨.hbm, 347, rfl⟩
abbrev main_v290 : Ref sig .tc := ⟨.hbm, 348, rfl⟩
abbrev main_cst_44 : Ref sig .tc := ⟨.hbm, 349, rfl⟩
abbrev main_v291 : Ref sig .tc := ⟨.hbm, 350, rfl⟩
abbrev main_v292 : Ref sig .tc := ⟨.hbm, 351, rfl⟩
abbrev main_v293 : Ref sig .tc := ⟨.hbm, 352, rfl⟩
abbrev main_v294 : Ref sig .tc := ⟨.hbm, 353, rfl⟩
abbrev main_v295 : Ref sig .tc := ⟨.hbm, 354, rfl⟩
abbrev main_v296 : Ref sig .tc := ⟨.hbm, 355, rfl⟩
abbrev main_v297 : Ref sig .tc := ⟨.hbm, 356, rfl⟩
abbrev main_v298 : Ref sig .tc := ⟨.hbm, 357, rfl⟩
abbrev main_v299 : Ref sig .tc := ⟨.hbm, 358, rfl⟩
abbrev main_v300 : Ref sig .tc := ⟨.hbm, 359, rfl⟩
abbrev main_v301 : Ref sig .tc := ⟨.hbm, 360, rfl⟩
abbrev main_v302 : Ref sig .tc := ⟨.hbm, 361, rfl⟩
abbrev main_c_45 : Ref sig .tc := ⟨.hbm, 362, rfl⟩
abbrev main_v303 : Ref sig .tc := ⟨.hbm, 363, rfl⟩
abbrev main_v304 : Ref sig .tc := ⟨.hbm, 364, rfl⟩
abbrev main_c_46 : Ref sig .tc := ⟨.hbm, 365, rfl⟩
abbrev main_v305 : Ref sig .tc := ⟨.hbm, 366, rfl⟩
abbrev main_v306 : Ref sig .tc := ⟨.hbm, 367, rfl⟩
abbrev main_v307 : Ref sig .tc := ⟨.hbm, 368, rfl⟩
abbrev main_v308 : Ref sig .tc := ⟨.hbm, 369, rfl⟩
abbrev main_v309 : Ref sig .tc := ⟨.hbm, 370, rfl⟩
abbrev main_cst_47 : Ref sig .tc := ⟨.hbm, 371, rfl⟩
abbrev main_v310 : Ref sig .tc := ⟨.hbm, 372, rfl⟩
abbrev main_v311 : Ref sig .tc := ⟨.hbm, 373, rfl⟩
abbrev main_v312 : Ref sig .tc := ⟨.hbm, 374, rfl⟩
abbrev main_cst_48 : Ref sig .tc := ⟨.hbm, 375, rfl⟩
abbrev main_v313 : Ref sig .tc := ⟨.hbm, 376, rfl⟩
abbrev main_v314 : Ref sig .tc := ⟨.hbm, 377, rfl⟩
abbrev main_v315 : Ref sig .tc := ⟨.hbm, 378, rfl⟩
abbrev main_v316 : Ref sig .tc := ⟨.hbm, 379, rfl⟩
abbrev main_v317 : Ref sig .tc := ⟨.hbm, 380, rfl⟩
abbrev main_v318 : Ref sig .tc := ⟨.hbm, 381, rfl⟩
abbrev main_v319 : Ref sig .tc := ⟨.hbm, 382, rfl⟩
abbrev main_v320 : Ref sig .tc := ⟨.hbm, 383, rfl⟩
abbrev main_cst_49 : Ref sig .tc := ⟨.hbm, 384, rfl⟩
abbrev main_v321 : Ref sig .tc := ⟨.hbm, 385, rfl⟩
abbrev main_v322 : Ref sig .tc := ⟨.hbm, 386, rfl⟩
abbrev main_v323 : Ref sig .tc := ⟨.hbm, 387, rfl⟩
abbrev main_v324 : Ref sig .tc := ⟨.hbm, 388, rfl⟩
abbrev main_v325 : Ref sig .tc := ⟨.hbm, 389, rfl⟩
abbrev main_v326 : Ref sig .tc := ⟨.hbm, 390, rfl⟩
abbrev main_v327 : Ref sig .tc := ⟨.hbm, 391, rfl⟩
abbrev main_v328 : Ref sig .tc := ⟨.hbm, 392, rfl⟩
abbrev main_v329 : Ref sig .tc := ⟨.hbm, 393, rfl⟩
abbrev main_v330 : Ref sig .tc := ⟨.hbm, 394, rfl⟩
abbrev main_v331 : Ref sig .tc := ⟨.hbm, 395, rfl⟩
abbrev main_v332 : Ref sig .tc := ⟨.hbm, 396, rfl⟩
abbrev main_v333 : Ref sig .tc := ⟨.hbm, 397, rfl⟩
abbrev main_v334 : Ref sig .tc := ⟨.hbm, 398, rfl⟩
abbrev main_v335 : Ref sig .tc := ⟨.hbm, 399, rfl⟩
abbrev main_v336 : Ref sig .tc := ⟨.hbm, 400, rfl⟩
abbrev main_v337 : Ref sig .tc := ⟨.hbm, 401, rfl⟩
abbrev main_c_50 : Ref sig .tc := ⟨.hbm, 402, rfl⟩
abbrev main_v338 : Ref sig .tc := ⟨.hbm, 403, rfl⟩
abbrev main_v339 : Ref sig .tc := ⟨.hbm, 404, rfl⟩
abbrev main_c_51 : Ref sig .tc := ⟨.hbm, 405, rfl⟩
abbrev main_v340 : Ref sig .tc := ⟨.hbm, 406, rfl⟩
abbrev main_v341 : Ref sig .tc := ⟨.hbm, 407, rfl⟩
abbrev main_v342 : Ref sig .tc := ⟨.hbm, 408, rfl⟩
abbrev main_v343 : Ref sig .tc := ⟨.hbm, 409, rfl⟩
abbrev main_v344 : Ref sig .tc := ⟨.hbm, 410, rfl⟩
abbrev main_cst_52 : Ref sig .tc := ⟨.hbm, 411, rfl⟩
abbrev main_v345 : Ref sig .tc := ⟨.hbm, 412, rfl⟩
abbrev main_v346 : Ref sig .tc := ⟨.hbm, 413, rfl⟩
abbrev main_v347 : Ref sig .tc := ⟨.hbm, 414, rfl⟩
abbrev main_cst_53 : Ref sig .tc := ⟨.hbm, 415, rfl⟩
abbrev main_v348 : Ref sig .tc := ⟨.hbm, 416, rfl⟩
abbrev main_v349 : Ref sig .tc := ⟨.hbm, 417, rfl⟩
abbrev main_v350 : Ref sig .tc := ⟨.hbm, 418, rfl⟩
abbrev main_v351 : Ref sig .tc := ⟨.hbm, 419, rfl⟩
abbrev main_v352 : Ref sig .tc := ⟨.hbm, 420, rfl⟩
abbrev main_v353 : Ref sig .tc := ⟨.hbm, 421, rfl⟩
abbrev main_v354 : Ref sig .tc := ⟨.hbm, 422, rfl⟩
abbrev main_v355 : Ref sig .tc := ⟨.hbm, 423, rfl⟩
abbrev main_v356 : Ref sig .tc := ⟨.hbm, 424, rfl⟩
abbrev main_v357 : Ref sig .tc := ⟨.hbm, 425, rfl⟩
abbrev main_v358 : Ref sig .tc := ⟨.hbm, 426, rfl⟩
abbrev main_v359 : Ref sig .tc := ⟨.hbm, 427, rfl⟩
abbrev main_c_54 : Ref sig .tc := ⟨.hbm, 428, rfl⟩
abbrev main_v360 : Ref sig .tc := ⟨.hbm, 429, rfl⟩
abbrev main_v361 : Ref sig .tc := ⟨.hbm, 430, rfl⟩
abbrev main_c_55 : Ref sig .tc := ⟨.hbm, 431, rfl⟩
abbrev main_v362 : Ref sig .tc := ⟨.hbm, 432, rfl⟩
abbrev main_v363 : Ref sig .tc := ⟨.hbm, 433, rfl⟩
abbrev main_v364 : Ref sig .tc := ⟨.hbm, 434, rfl⟩
abbrev main_v365 : Ref sig .tc := ⟨.hbm, 435, rfl⟩
abbrev main_v366 : Ref sig .tc := ⟨.hbm, 436, rfl⟩
abbrev main_cst_56 : Ref sig .tc := ⟨.hbm, 437, rfl⟩
abbrev main_v367 : Ref sig .tc := ⟨.hbm, 438, rfl⟩
abbrev main_v368 : Ref sig .tc := ⟨.hbm, 439, rfl⟩
abbrev main_v369 : Ref sig .tc := ⟨.hbm, 440, rfl⟩
abbrev main_cst_57 : Ref sig .tc := ⟨.hbm, 441, rfl⟩
abbrev main_v370 : Ref sig .tc := ⟨.hbm, 442, rfl⟩
abbrev main_v371 : Ref sig .tc := ⟨.hbm, 443, rfl⟩
abbrev main_v372 : Ref sig .tc := ⟨.hbm, 444, rfl⟩
abbrev main_v373 : Ref sig .tc := ⟨.hbm, 445, rfl⟩
abbrev main_v374 : Ref sig .tc := ⟨.hbm, 446, rfl⟩
abbrev main_v375 : Ref sig .tc := ⟨.hbm, 447, rfl⟩
abbrev main_v376 : Ref sig .tc := ⟨.hbm, 448, rfl⟩
abbrev main_v377 : Ref sig .tc := ⟨.hbm, 449, rfl⟩
abbrev main_cst_58 : Ref sig .tc := ⟨.hbm, 450, rfl⟩
abbrev main_v378 : Ref sig .tc := ⟨.hbm, 451, rfl⟩
abbrev main_v379 : Ref sig .tc := ⟨.hbm, 452, rfl⟩
abbrev main_v380 : Ref sig .tc := ⟨.hbm, 453, rfl⟩
abbrev main_v381 : Ref sig .tc := ⟨.hbm, 454, rfl⟩
abbrev main_v382 : Ref sig .tc := ⟨.hbm, 455, rfl⟩
abbrev main_v383 : Ref sig .tc := ⟨.hbm, 456, rfl⟩
abbrev main_v384 : Ref sig .tc := ⟨.hbm, 457, rfl⟩
abbrev main_v385 : Ref sig .tc := ⟨.hbm, 458, rfl⟩
abbrev main_v386 : Ref sig .tc := ⟨.hbm, 459, rfl⟩
abbrev main_v387 : Ref sig .tc := ⟨.hbm, 460, rfl⟩
abbrev main_v388 : Ref sig .tc := ⟨.hbm, 461, rfl⟩
abbrev main_v389 : Ref sig .tc := ⟨.hbm, 462, rfl⟩
abbrev main_v390 : Ref sig .tc := ⟨.hbm, 463, rfl⟩
abbrev main_v391 : Ref sig .tc := ⟨.hbm, 464, rfl⟩
abbrev main_v392 : Ref sig .tc := ⟨.hbm, 465, rfl⟩
abbrev main_v393 : Ref sig .tc := ⟨.hbm, 466, rfl⟩
abbrev main_v394 : Ref sig .tc := ⟨.hbm, 467, rfl⟩
abbrev main_v395 : Ref sig .tc := ⟨.hbm, 468, rfl⟩
abbrev main_v396 : Ref sig .tc := ⟨.hbm, 469, rfl⟩
abbrev main_v397 : Ref sig .tc := ⟨.hbm, 470, rfl⟩
abbrev main_v398 : Ref sig .tc := ⟨.hbm, 471, rfl⟩
abbrev main_v399 : Ref sig .tc := ⟨.hbm, 472, rfl⟩
abbrev main_v400 : Ref sig .tc := ⟨.hbm, 473, rfl⟩
abbrev main_v401 : Ref sig .tc := ⟨.hbm, 474, rfl⟩
abbrev main_v402 : Ref sig .tc := ⟨.hbm, 475, rfl⟩
abbrev main_v403 : Ref sig .tc := ⟨.hbm, 476, rfl⟩
abbrev main_c_59 : Ref sig .tc := ⟨.hbm, 477, rfl⟩
abbrev main_v404 : Ref sig .tc := ⟨.hbm, 478, rfl⟩
abbrev main_v405 : Ref sig .tc := ⟨.hbm, 479, rfl⟩
abbrev main_c_60 : Ref sig .tc := ⟨.hbm, 480, rfl⟩
abbrev main_v406 : Ref sig .tc := ⟨.hbm, 481, rfl⟩
abbrev main_v407 : Ref sig .tc := ⟨.hbm, 482, rfl⟩
abbrev main_v408 : Ref sig .tc := ⟨.hbm, 483, rfl⟩
abbrev main_v409 : Ref sig .tc := ⟨.hbm, 484, rfl⟩
abbrev main_v410 : Ref sig .tc := ⟨.hbm, 485, rfl⟩
abbrev main_cst_61 : Ref sig .tc := ⟨.hbm, 486, rfl⟩
abbrev main_v411 : Ref sig .tc := ⟨.hbm, 487, rfl⟩
abbrev main_v412 : Ref sig .tc := ⟨.hbm, 488, rfl⟩
abbrev main_v413 : Ref sig .tc := ⟨.hbm, 489, rfl⟩
abbrev main_cst_62 : Ref sig .tc := ⟨.hbm, 490, rfl⟩
abbrev main_v414 : Ref sig .tc := ⟨.hbm, 491, rfl⟩
abbrev main_v415 : Ref sig .tc := ⟨.hbm, 492, rfl⟩
abbrev main_v416 : Ref sig .tc := ⟨.hbm, 493, rfl⟩
abbrev main_v417 : Ref sig .tc := ⟨.hbm, 494, rfl⟩
abbrev main_v418 : Ref sig .tc := ⟨.hbm, 495, rfl⟩
abbrev main_v419 : Ref sig .tc := ⟨.hbm, 496, rfl⟩
abbrev main_v420 : Ref sig .tc := ⟨.hbm, 497, rfl⟩
abbrev main_v421 : Ref sig .tc := ⟨.hbm, 498, rfl⟩
abbrev main_v422 : Ref sig .tc := ⟨.hbm, 499, rfl⟩
abbrev main_v423 : Ref sig .tc := ⟨.hbm, 500, rfl⟩
abbrev main_v424 : Ref sig .tc := ⟨.hbm, 501, rfl⟩
abbrev main_v425 : Ref sig .tc := ⟨.hbm, 502, rfl⟩
abbrev main_c_63 : Ref sig .tc := ⟨.hbm, 503, rfl⟩
abbrev main_v426 : Ref sig .tc := ⟨.hbm, 504, rfl⟩
abbrev main_v427 : Ref sig .tc := ⟨.hbm, 505, rfl⟩
abbrev main_c_64 : Ref sig .tc := ⟨.hbm, 506, rfl⟩
abbrev main_v428 : Ref sig .tc := ⟨.hbm, 507, rfl⟩
abbrev main_v429 : Ref sig .tc := ⟨.hbm, 508, rfl⟩
abbrev main_v430 : Ref sig .tc := ⟨.hbm, 509, rfl⟩
abbrev main_v431 : Ref sig .tc := ⟨.hbm, 510, rfl⟩
abbrev main_v432 : Ref sig .tc := ⟨.hbm, 511, rfl⟩
abbrev main_cst_65 : Ref sig .tc := ⟨.hbm, 512, rfl⟩
abbrev main_v433 : Ref sig .tc := ⟨.hbm, 513, rfl⟩
abbrev main_v434 : Ref sig .tc := ⟨.hbm, 514, rfl⟩
abbrev main_v435 : Ref sig .tc := ⟨.hbm, 515, rfl⟩
abbrev main_cst_66 : Ref sig .tc := ⟨.hbm, 516, rfl⟩
abbrev main_v436 : Ref sig .tc := ⟨.hbm, 517, rfl⟩
abbrev main_v437 : Ref sig .tc := ⟨.hbm, 518, rfl⟩
abbrev main_v438 : Ref sig .tc := ⟨.hbm, 519, rfl⟩
abbrev main_v439 : Ref sig .tc := ⟨.hbm, 520, rfl⟩
abbrev main_v440 : Ref sig .tc := ⟨.hbm, 521, rfl⟩
abbrev main_v441 : Ref sig .tc := ⟨.hbm, 522, rfl⟩
abbrev main_v442 : Ref sig .tc := ⟨.hbm, 523, rfl⟩
abbrev main_v443 : Ref sig .tc := ⟨.hbm, 524, rfl⟩
abbrev main_cst_67 : Ref sig .tc := ⟨.hbm, 525, rfl⟩
abbrev main_v444 : Ref sig .tc := ⟨.hbm, 526, rfl⟩
abbrev main_v445 : Ref sig .tc := ⟨.hbm, 527, rfl⟩
abbrev main_v446 : Ref sig .tc := ⟨.hbm, 528, rfl⟩
abbrev main_v447 : Ref sig .tc := ⟨.hbm, 529, rfl⟩
abbrev main_v448 : Ref sig .tc := ⟨.hbm, 530, rfl⟩
abbrev main_v449 : Ref sig .tc := ⟨.hbm, 531, rfl⟩
abbrev main_v450 : Ref sig .tc := ⟨.hbm, 532, rfl⟩
abbrev main_v451 : Ref sig .tc := ⟨.hbm, 533, rfl⟩
abbrev main_v452 : Ref sig .tc := ⟨.hbm, 534, rfl⟩
abbrev main_v453 : Ref sig .tc := ⟨.hbm, 535, rfl⟩
abbrev main_v454 : Ref sig .tc := ⟨.hbm, 536, rfl⟩
abbrev main_v455 : Ref sig .tc := ⟨.hbm, 537, rfl⟩
abbrev main_v456 : Ref sig .tc := ⟨.hbm, 538, rfl⟩
abbrev main_v457 : Ref sig .tc := ⟨.hbm, 539, rfl⟩
abbrev main_v458 : Ref sig .tc := ⟨.hbm, 540, rfl⟩
abbrev main_v459 : Ref sig .tc := ⟨.hbm, 541, rfl⟩
abbrev main_v460 : Ref sig .tc := ⟨.hbm, 542, rfl⟩
abbrev main_c_68 : Ref sig .tc := ⟨.hbm, 543, rfl⟩
abbrev main_v461 : Ref sig .tc := ⟨.hbm, 544, rfl⟩
abbrev main_v462 : Ref sig .tc := ⟨.hbm, 545, rfl⟩
abbrev main_c_69 : Ref sig .tc := ⟨.hbm, 546, rfl⟩
abbrev main_v463 : Ref sig .tc := ⟨.hbm, 547, rfl⟩
abbrev main_v464 : Ref sig .tc := ⟨.hbm, 548, rfl⟩
abbrev main_v465 : Ref sig .tc := ⟨.hbm, 549, rfl⟩
abbrev main_v466 : Ref sig .tc := ⟨.hbm, 550, rfl⟩
abbrev main_v467 : Ref sig .tc := ⟨.hbm, 551, rfl⟩
abbrev main_cst_70 : Ref sig .tc := ⟨.hbm, 552, rfl⟩
abbrev main_v468 : Ref sig .tc := ⟨.hbm, 553, rfl⟩
abbrev main_v469 : Ref sig .tc := ⟨.hbm, 554, rfl⟩
abbrev main_v470 : Ref sig .tc := ⟨.hbm, 555, rfl⟩
abbrev main_cst_71 : Ref sig .tc := ⟨.hbm, 556, rfl⟩
abbrev main_v471 : Ref sig .tc := ⟨.hbm, 557, rfl⟩
abbrev main_v472 : Ref sig .tc := ⟨.hbm, 558, rfl⟩
abbrev main_v473 : Ref sig .tc := ⟨.hbm, 559, rfl⟩
abbrev main_v474 : Ref sig .tc := ⟨.hbm, 560, rfl⟩
abbrev main_v475 : Ref sig .tc := ⟨.hbm, 561, rfl⟩
abbrev main_v476 : Ref sig .tc := ⟨.hbm, 562, rfl⟩
abbrev main_v477 : Ref sig .tc := ⟨.hbm, 563, rfl⟩
abbrev main_v478 : Ref sig .tc := ⟨.hbm, 564, rfl⟩
abbrev main_v479 : Ref sig .tc := ⟨.hbm, 565, rfl⟩
abbrev main_v480 : Ref sig .tc := ⟨.hbm, 566, rfl⟩
abbrev main_v481 : Ref sig .tc := ⟨.hbm, 567, rfl⟩
abbrev main_v482 : Ref sig .tc := ⟨.hbm, 568, rfl⟩
abbrev main_c_72 : Ref sig .tc := ⟨.hbm, 569, rfl⟩
abbrev main_v483 : Ref sig .tc := ⟨.hbm, 570, rfl⟩
abbrev main_v484 : Ref sig .tc := ⟨.hbm, 571, rfl⟩
abbrev main_c_73 : Ref sig .tc := ⟨.hbm, 572, rfl⟩
abbrev main_v485 : Ref sig .tc := ⟨.hbm, 573, rfl⟩
abbrev main_v486 : Ref sig .tc := ⟨.hbm, 574, rfl⟩
abbrev main_v487 : Ref sig .tc := ⟨.hbm, 575, rfl⟩
abbrev main_v488 : Ref sig .tc := ⟨.hbm, 576, rfl⟩
abbrev main_v489 : Ref sig .tc := ⟨.hbm, 577, rfl⟩
abbrev main_cst_74 : Ref sig .tc := ⟨.hbm, 578, rfl⟩
abbrev main_v490 : Ref sig .tc := ⟨.hbm, 579, rfl⟩
abbrev main_v491 : Ref sig .tc := ⟨.hbm, 580, rfl⟩
abbrev main_v492 : Ref sig .tc := ⟨.hbm, 581, rfl⟩
abbrev main_cst_75 : Ref sig .tc := ⟨.hbm, 582, rfl⟩
abbrev main_v493 : Ref sig .tc := ⟨.hbm, 583, rfl⟩
abbrev main_v494 : Ref sig .tc := ⟨.hbm, 584, rfl⟩
abbrev main_v495 : Ref sig .tc := ⟨.hbm, 585, rfl⟩
abbrev main_v496 : Ref sig .tc := ⟨.hbm, 586, rfl⟩
abbrev main_v497 : Ref sig .tc := ⟨.hbm, 587, rfl⟩
abbrev main_v498 : Ref sig .tc := ⟨.hbm, 588, rfl⟩
abbrev main_v499 : Ref sig .tc := ⟨.hbm, 589, rfl⟩
abbrev main_v500 : Ref sig .tc := ⟨.hbm, 590, rfl⟩
abbrev main_cst_76 : Ref sig .tc := ⟨.hbm, 591, rfl⟩
abbrev main_v501 : Ref sig .tc := ⟨.hbm, 592, rfl⟩
abbrev main_v502 : Ref sig .tc := ⟨.hbm, 593, rfl⟩
abbrev main_v503 : Ref sig .tc := ⟨.hbm, 594, rfl⟩
abbrev main_v504 : Ref sig .tc := ⟨.hbm, 595, rfl⟩
abbrev main_v505 : Ref sig .tc := ⟨.hbm, 596, rfl⟩
abbrev main_v506 : Ref sig .tc := ⟨.hbm, 597, rfl⟩
abbrev main_v507 : Ref sig .tc := ⟨.hbm, 598, rfl⟩
abbrev main_v508 : Ref sig .tc := ⟨.hbm, 599, rfl⟩
abbrev main_v509 : Ref sig .tc := ⟨.hbm, 600, rfl⟩
abbrev main_v510 : Ref sig .tc := ⟨.hbm, 601, rfl⟩
abbrev main_v511 : Ref sig .tc := ⟨.hbm, 602, rfl⟩
abbrev main_v512 : Ref sig .tc := ⟨.hbm, 603, rfl⟩
abbrev main_v513 : Ref sig .tc := ⟨.hbm, 604, rfl⟩
abbrev main_v514 : Ref sig .tc := ⟨.hbm, 605, rfl⟩
abbrev main_v515 : Ref sig .tc := ⟨.hbm, 606, rfl⟩
abbrev main_v516 : Ref sig .tc := ⟨.hbm, 607, rfl⟩
abbrev main_v517 : Ref sig .tc := ⟨.hbm, 608, rfl⟩
abbrev main_v518 : Ref sig .tc := ⟨.hbm, 609, rfl⟩
abbrev main_v519 : Ref sig .tc := ⟨.hbm, 610, rfl⟩
abbrev main_v520 : Ref sig .tc := ⟨.hbm, 611, rfl⟩
abbrev main_v521 : Ref sig .tc := ⟨.hbm, 612, rfl⟩
abbrev main_v522 : Ref sig .tc := ⟨.hbm, 613, rfl⟩
abbrev main_v523 : Ref sig .tc := ⟨.hbm, 614, rfl⟩
abbrev main_v524 : Ref sig .tc := ⟨.hbm, 615, rfl⟩
abbrev main_cst_77 : Ref sig .tc := ⟨.hbm, 616, rfl⟩
abbrev main_v525 : Ref sig .tc := ⟨.hbm, 617, rfl⟩
abbrev main_v526 : Ref sig .tc := ⟨.hbm, 618, rfl⟩
abbrev main_cst_78 : Ref sig .tc := ⟨.hbm, 619, rfl⟩
abbrev main_v527 : Ref sig .tc := ⟨.hbm, 620, rfl⟩
abbrev main_v528 : Ref sig .tc := ⟨.hbm, 621, rfl⟩
abbrev main_v529 : Ref sig .tc := ⟨.hbm, 622, rfl⟩
abbrev main_v530 : Ref sig .tc := ⟨.hbm, 623, rfl⟩
abbrev main_call0_cst : Ref sig .tc := ⟨.hbm, 624, rfl⟩
abbrev main_call0_v0 : Ref sig .tc := ⟨.hbm, 625, rfl⟩
abbrev main_v531 : Ref sig .tc := ⟨.hbm, 626, rfl⟩
abbrev main_v532 : Ref sig .tc := ⟨.hbm, 627, rfl⟩
abbrev main_v533 : Ref sig .tc := ⟨.hbm, 628, rfl⟩
abbrev main_v534 : Ref sig .tc := ⟨.hbm, 629, rfl⟩
abbrev main_v535 : Ref sig .tc := ⟨.hbm, 630, rfl⟩
abbrev main_v536 : Ref sig .tc := ⟨.hbm, 631, rfl⟩
abbrev main_v537 : Ref sig .tc := ⟨.hbm, 632, rfl⟩
abbrev main_v538 : Ref sig .tc := ⟨.hbm, 633, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  reducesTo_S100000_S_d0 : S100000.ReducesTo [0] S_
  h_S_ : 0 < S_.numel
  slices_S4x3x64x64_S1x3x64x64_0_0_0_0 : S4x3x64x64.Slices ![0, 0, 0, 0] S1x3x64x64
  shapeCasts_S1x3x64x64_S3x64x64 : S1x3x64x64.ShapeCasts S3x64x64
  slices_S4x64_S1x64_0_0 : S4x64.Slices ![0, 0] S1x64
  shapeCasts_S1x64_S64 : S1x64.ShapeCasts S64
  slices_S3x64x64_S1x64x64_0_0_0 : S3x64x64.Slices ![0, 0, 0] S1x64x64
  shapeCasts_S1x64x64_S64x64 : S1x64x64.ShapeCasts S64x64
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S3x64x64_S1x64x64_1_0_0 : S3x64x64.Slices ![1, 0, 0] S1x64x64
  slices_S3x64x64_S1x64x64_2_0_0 : S3x64x64.Slices ![2, 0, 0] S1x64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x64_S1x64_0_0 : S3x64.Slices ![0, 0] S1x64
  slices_S4x3x64x64_S1x3x64x64_1_0_0_0 : S4x3x64x64.Slices ![1, 0, 0, 0] S1x3x64x64
  slices_S4x64_S1x64_1_0 : S4x64.Slices ![1, 0] S1x64
  slices_S3x64_S1x64_1_0 : S3x64.Slices ![1, 0] S1x64
  slices_S4x3x64x64_S1x3x64x64_2_0_0_0 : S4x3x64x64.Slices ![2, 0, 0, 0] S1x3x64x64
  slices_S4x64_S1x64_2_0 : S4x64.Slices ![2, 0] S1x64
  slices_S4x3x64x64_S1x3x64x64_3_0_0_0 : S4x3x64x64.Slices ![3, 0, 0, 0] S1x3x64x64
  slices_S4x64_S1x64_3_0 : S4x64.Slices ![3, 0] S1x64
  slices_S3x64_S1x64_2_0 : S3x64.Slices ![2, 0] S1x64
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S100000x64_S1x100000x64_1_2 : S100000x64.BroadcastsInDim S1x100000x64 (![1, 2] : Fin 2 → Fin S1x100000x64.rank)
  concatenates_S1x100000x64_S1x100000x64_S2x100000x64_d0 : Shape.Concatenates [S1x100000x64, S1x100000x64] S2x100000x64 0
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x16_S100000x16_1_0_0_1_n_n_wf : DotDims.WF S100000x64 S64x16 S100000x16 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.RunOps.lean ====
/-
  The reference program's 622 host operations, window by window.

  The program is printed in eleven consecutive windows (`main_part0` … `main_part10`) of at most sixty statements; one
  statement of the last window is a call of `relu`, which stands for its three operations (spelt here with the plain builders
  the typed ones of a called function unfold to). Each window is a straight
  line of operations (`part*_eq`), touches TensorCore buffers only (`sub*`), allocates nothing (`fresh*`) and writes only
  the buffers it defines (`writes*`), so every other buffer keeps its contents across the window (`keep*`).
-/
import proofs.«128530_j50208167690906_1_alg».proof.Proof.Gen.ReferenceIdeal
import Idealize.ShloMosaic.Lib.StableHlo.Run

noncomputable section

namespace Cert.ReferenceIdeal.RunW

open Cert.ReferenceIdeal Cert.ReferenceIdeal.Gen Idealize.ShloMosaic Idealize.ShloMosaic.TcCoe Idealize.SL.Sem Idealize.ShloMosaic.StableHlo

variable {F : FTy → Type} [FloatOps F]

/-- The operations of window 0. -/
abbrev ops0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v1 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0xFF800000#32),
    binary main_v7 main_cst_1 main_v8 ((fun x v => Host.reduce FloatOps.maximumf x v reducesTo_S100000_S_d0 h_S_) : (⟨S100000, .f32⟩ : BufTy).Contents (Elt F) → (⟨S_, .f32⟩ : BufTy).Contents (Elt F) → (⟨S_, .f32⟩ : BufTy).Contents (Elt F)),
    unary main_arg2 main_v9 ((extractStridedSlice S1x3x64x64 ![0, 0, 0, 0] · slices_S4x3x64x64_S1x3x64x64_0_0_0_0) : (⟨S4x3x64x64, .f32⟩ : BufTy).Contents (Elt F) → (⟨S1x3x64x64, .f32⟩ : BufTy).Contents (Elt F)),
    reshape main_v9 main_v10 rfl shapeCasts_S1x3x64x64_S3x64x64,
    unary main_arg3 main_v11 ((extractStridedSlice S1x64 ![0, 0] · slices_S4x64_S1x64_0_0) : (⟨S4x64, .f32⟩ : BufTy).Contents (Elt F) → (⟨S1x64, .f32⟩ : BufTy).Contents (Elt F)),
    reshape main_v11 main_v12 rfl shapeCasts_S1x64_S64,
    unary main_v10 main_v13 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v13 main_v14 rfl shapeCasts_S1x64x64_S64x64,
    binary main_arg0 main_v14 main_v15 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c (constantI S_ 32 0#32),
    unary main_c main_v16 (broadcastInDim S1600000 ![] bcast_S_S1600000 : (⟨S_, .i32⟩ : BufTy).Contents (Elt F) → (⟨S1600000, .i32⟩ : BufTy).Contents (Elt F)),
    binary main_v1 main_v16 main_v17 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v18 (broadcastInDim S1600000 ![] bcast_S_S1600000 : (⟨S_, .i32⟩ : BufTy).Contents (Elt F) → (⟨S1600000, .i32⟩ : BufTy).Contents (Elt F)),
    binary main_v1 main_v18 main_v19 (addi : (⟨S1600000, .i32⟩ : BufTy).Contents (Elt F) → (⟨S1600000, .i32⟩ : BufTy).Contents (Elt F) → (⟨S1600000, .i32⟩ : BufTy).Contents (Elt F)),
    ternary main_v17 main_v19 main_v1 main_v20 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v20 main_v21 (broadcastInDim S1600000x1 ![0] bcast_S1600000_S1600000x1_0 : (⟨S1600000, .i32⟩ : BufTy).Contents (Elt F) → (⟨S1600000x1, .i32⟩ : BufTy).Contents (Elt F)),
    binary main_arg0 main_v21 main_v22 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_3 (constant S_ .f32 0x00000000#32),
    unary main_cst_3 main_v23 (broadcastInDim S100000x64 ![] bcast_S_S100000x64 : (⟨S_, .f32⟩ : BufTy).Contents (Elt F) → (⟨S100000x64, .f32⟩ : BufTy).Contents (Elt F)),
    unary main_v3 main_v24 (broadcastInDim S1600000x1 ![0] bcast_S1600000_S1600000x1_0 : (⟨S1600000, .i32⟩ : BufTy).Contents (Elt F) → (⟨S1600000x1, .i32⟩ : BufTy).Contents (Elt F)),
    ternary main_v23 main_v24 main_v22 main_v25 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_4 (constant S_ .f32 0x40000000#32),
    binary main_cst_4 main_v8 main_v26 (Host.divf : (⟨S_, .f32⟩ : BufTy).Contents (Elt F) → (⟨S_, .f32⟩ : BufTy).Contents (Elt F) → (⟨S_, .f32⟩ : BufTy).Contents (Elt F)),
    unary main_v7 main_v27 (broadcastInDim S100000x1 ![0] bcast_S100000_S100000x1_0 : (⟨S100000, .f32⟩ : BufTy).Contents (Elt F) → (⟨S100000x1, .f32⟩ : BufTy).Contents (Elt F)),
    unary main_v27 main_v28 (broadcastInDim S100000x64 ![0, 1] bcast_S100000x1_S100000x64_0_1 : (⟨S100000x1, .f32⟩ : BufTy).Contents (Elt F) → (⟨S100000x64, .f32⟩ : BufTy).Contents (Elt F)),
    binary main_v28 main_arg0 main_v29 (mulf : (⟨S100000x64, .f32⟩ : BufTy).Contents (Elt F) → (⟨S100000x64, .f32⟩ : BufTy).Contents (Elt F) → (⟨S100000x64, .f32⟩ : BufTy).Contents (Elt F)),
    binary main_v29 main_v25 main_v30 (subf : (⟨S100000x64, .f32⟩ : BufTy).Contents (Elt F) → (⟨S100000x64, .f32⟩ : BufTy).Contents (Elt F) → (⟨S100000x64, .f32⟩ : BufTy).Contents (Elt F)),
    unary main_v26 main_v31 (broadcastInDim S100000x64 ![] bcast_S_S100000x64 : (⟨S_, .f32⟩ : BufTy).Contents (Elt F) → (⟨S100000x64, .f32⟩ : BufTy).Contents (Elt F)),
    binary main_v31 main_v30 main_v32 (mulf : (⟨S100000x64, .f32⟩ : BufTy).Contents (Elt F) → (⟨S100000x64, .f32⟩ : BufTy).Contents (Elt F) → (⟨S100000x64, .f32⟩ : BufTy).Contents (Elt F)),
    binary main_v32 main_arg0 main_v33 (subf : (⟨S100000x64, .f32⟩ : BufTy).Contents (Elt F) → (⟨S100000x64, .f32⟩ : BufTy).Contents (Elt F) → (⟨S100000x64, .f32⟩ : BufTy).Contents (Elt F)),
    unary main_v10 main_v34 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v34 main_v35 rfl shapeCasts_S1x64x64_S64x64,
    binary main_v33 main_v35 main_v36 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v15 main_v36 main_v37 (addf : (⟨S100000x64, .f32⟩ : BufTy).Contents (Elt F) → (⟨S100000x64, .f32⟩ : BufTy).Contents (Elt F) → (⟨S100000x64, .f32⟩ : BufTy).Contents (Elt F)),
    nullary main_c_5 (constantI S_ 32 0#32),
    unary main_c_5 main_v38 (broadcastInDim S1600000 ![] bcast_S_S1600000 : (⟨S_, .i32⟩ : BufTy).Contents (Elt F) → (⟨S1600000, .i32⟩ : BufTy).Contents (Elt F)),
    binary main_v1 main_v38 main_v39 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v40 (broadcastInDim S1600000 ![] bcast_S_S1600000 : (⟨S_, .i32⟩ : BufTy).Contents (Elt F) → (⟨S1600000, .i32⟩ : BufTy).Contents (Elt F)),
    binary main_v1 main_v40 main_v41 (addi : (⟨S1600000, .i32⟩ : BufTy).Contents (Elt F) → (⟨S1600000, .i32⟩ : BufTy).Contents (Elt F) → (⟨S1600000, .i32⟩ : BufTy).Contents (Elt F)),
    ternary main_v39 main_v41 main_v1 main_v42 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v42 main_v43 (broadcastInDim S1600000x1 ![0] bcast_S1600000_S1600000x1_0 : (⟨S1600000, .i32⟩ : BufTy).Contents (Elt F) → (⟨S1600000x1, .i32⟩ : BufTy).Contents (Elt F)),
    binary main_v33 main_v43 main_v44 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_7 (constant S_ .f32 0x00000000#32),
    unary main_cst_7 main_v45 (broadcastInDim S100000x64 ![] bcast_S_S100000x64 : (⟨S_, .f32⟩ : BufTy).Contents (Elt F) → (⟨S100000x64, .f32⟩ : BufTy).Contents (Elt F)),
    unary main_v3 main_v46 (broadcastInDim S1600000x1 ![0] bcast_S1600000_S1600000x1_0 : (⟨S1600000, .i32⟩ : BufTy).Contents (Elt F) → (⟨S1600000x1, .i32⟩ : BufTy).Contents (Elt F)),
    ternary main_v45 main_v46 main_v44 main_v47 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_8 (constant S_ .f32 0x40000000#32),
    binary main_cst_8 main_v8 main_v48 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem part0_eq (c : Dev nD) : main_part0 (F := F) c = seq ops0 := rfl

set_option maxRecDepth 8192 in
theorem sub0 : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., binary_bufs_sub .., unary_bufs_sub .., reshape_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., binary_bufs_sub .., unary_bufs_sub .., unary_bufs_sub .., binary_bufs_sub .., binary_bufs_sub .., unary_bufs_sub .., binary_bufs_sub .., binary_bufs_sub .., unary_bufs_sub .., reshape_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., binary_bufs_sub ..⟩

set_option maxRecDepth 8192 in
set_option maxHeartbeats 4000000 in
theorem fresh0 : ∀ op ∈ (ops0 : List (HloOp τ sig (Elt F))), op.fresh = ∅ := by
  intro _ h; (repeat (cases h with | head => rfl | tail _ h => ?_)); exact nomatch h

/-- The buffers window 0 defines. -/
abbrev W0 : List (Ref sig .tc) := [main_v0, main_v1, main_v2, main_v3, main_cst, main_v4, main_cst_0, main_v5, main_v6, main_v7, main_cst_1, main_v8, main_v9, main_v10, main_v11, main_v12, main_v13, main_v14, main_v15, main_c, main_v16, main_v17, main_c_2, main_v18, main_v19, main_v20, main_v21, main_v22, main_cst_3, main_v23, main_v24, main_v25, main_cst_4, main_v26, main_v27, main_v28, main_v29, main_v30, main_v31, main_v32, main_v33, main_v34, main_v35, main_v36, main_v37, main_c_5, main_v38, main_v39, main_c_6, main_v40, main_v41, main_v42, main_v43, main_v44, main_cst_7, main_v45, main_v46, main_v47, main_cst_8, main_v48]

set_option maxRecDepth 8192 in
set_option maxHeartbeats 4000000 in
theorem writes0 : (ops0 : List (HloOp τ sig (Elt F))).Forall fun op =>
    op.writes ⊆ (W0.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer window 0 does not define keeps its contents across it. -/
theorem keep0 (V : Valuation τ sig (Elt F)) (b : Ref sig .tc) (hb : b ∉ W0) :
    after (ops0 (F := F)) V (Proc.devRef .tc b) = V (Proc.devRef .tc b) :=
  after_of_writes_sub ops0 V writes0 hb

/-- The operations of window 1. -/
abbrev ops1 : List (HloOp τ sig (Elt F)) :=
  [ unary main_v7 main_v49 (broadcastInDim S100000x1 ![0] bcast_S100000_S100000x1_0 : (⟨S100000, .f32⟩ : BufTy).Contents (Elt F) → (⟨S100000x1, .f32⟩ : BufTy).Contents (Elt F)),
    unary main_v49 main_v50 (broadcastInDim S100000x64 ![0, 1] bcast_S100000x1_S100000x64_0_1 : (⟨S100000x1, .f32⟩ : BufTy).Contents (Elt F) → (⟨S100000x64, .f32⟩ : BufTy).Contents (Elt F)),
    binary main_v50 main_v33 main_v51 (mulf : (⟨S100000x64, .f32⟩ : BufTy).Contents (Elt F) → (⟨S100000x64, .f32⟩ : BufTy).Contents (Elt F) → (⟨S100000x64, .f32⟩ : BufTy).Contents (Elt F)),
    binary main_v51 main_v47 main_v52 (subf : (⟨S100000x64, .f32⟩ : BufTy).Contents (Elt F) → (⟨S100000x64, .f32⟩ : BufTy).Contents (Elt F) → (⟨S100000x64, .f32⟩ : BufTy).Contents (Elt F)),
    unary main_v48 main_v53 (broadcastInDim S100000x64 ![] bcast_S_S100000x64 : (⟨S_, .f32⟩ : BufTy).Contents (Elt F) → (⟨S100000x64, .f32⟩ : BufTy).Contents (Elt F)),
    binary main_v53 main_v52 main_v54 (mulf : (⟨S100000x64, .f32⟩ : BufTy).Contents (Elt F) → (⟨S100000x64, .f32⟩ : BufTy).Contents (Elt F) → (⟨S100000x64, .f32⟩ : BufTy).Contents (Elt F)),
    binary main_v54 main_v33 main_v55 (subf : (⟨S100000x64, .f32⟩ : BufTy).Contents (Elt F) → (⟨S100000x64, .f32⟩ : BufTy).Contents (Elt F) → (⟨S100000x64, .f32⟩ : BufTy).Contents (Elt F)),
    nullary main_cst_9 (constant S_ .f32 0x40000000#32),
    unary main_cst_9 main_v56 (broadcastInDim S100000x64 ![] bcast_S_S100000x64 : (⟨S_, .f32⟩ : BufTy).Contents (Elt F) → (⟨S100000x64, .f32⟩ : BufTy).Contents (Elt F)),
    binary main_v56 main_v55 main_v57 (mulf : (⟨S100000x64, .f32⟩ : BufTy).Contents (Elt F) → (⟨S100000x64, .f32⟩ : BufTy).Contents (Elt F) → (⟨S100000x64, .f32⟩ : BufTy).Contents (Elt F)),
    binary main_v57 main_arg0 main_v58 (subf : (⟨S100000x64, .f32⟩ : BufTy).Contents (Elt F) → (⟨S100000x64, .f32⟩ : BufTy).Contents (Elt F) → (⟨S100000x64, .f32⟩ : BufTy).Contents (Elt F)),
    unary main_v10 main_v59 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v59 main_v60 rfl shapeCasts_S1x64x64_S64x64,
    binary main_v58 main_v60 main_v61 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v37 main_v61 main_v62 (addf : (⟨S100000x64, .f32⟩ : BufTy).Contents (Elt F) → (⟨S100000x64, .f32⟩ : BufTy).Contents (Elt F) → (⟨S100000x64, .f32⟩ : BufTy).Contents (Elt F)),
    unary main_v12 main_v63 (broadcastInDim S1x64 ![1] bcast_S64_S1x64_1 : (⟨S64, .f32⟩ : BufTy).Contents (Elt F) → (⟨S1x64, .f32⟩ : BufTy).Contents (Elt F)),
    unary main_v63 main_v64 (broadcastInDim S100000x64 ![0, 1] bcast_S1x64_S100000x64_0_1 : (⟨S1x64, .f32⟩ : BufTy).Contents (Elt F) → (⟨S100000x64, .f32⟩ : BufTy).Contents (Elt F)),
    binary main_v62 main_v64 main_v65 (addf : (⟨S100000x64, .f32⟩ : BufTy).Contents (Elt F) → (⟨S100000x64, .f32⟩ : BufTy).Contents (Elt F) → (⟨S100000x64, .f32⟩ : BufTy).Contents (Elt F)),
    unary main_arg4 main_v66 ((extractStridedSlice S1x3x64x64 ![0, 0, 0, 0] · slices_S4x3x64x64_S1x3x64x64_0_0_0_0) : (⟨S4x3x64x64, .f32⟩ : BufTy).Contents (Elt F) → (⟨S1x3x64x64, .f32⟩ : BufTy).Contents (Elt F)),
    reshape main_v66 main_v67 rfl shapeCasts_S1x3x64x64_S3x64x64,
    unary main_arg5 main_v68 ((extractStridedSlice S1x64 ![0, 0] · slices_S4x64_S1x64_0_0) : (⟨S4x64, .f32⟩ : BufTy).Contents (Elt F) → (⟨S1x64, .f32⟩ : BufTy).Contents (Elt F)),
    reshape main_v68 main_v69 rfl shapeCasts_S1x64_S64,
    unary main_v67 main_v70 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v70 main_v71 rfl shapeCasts_S1x64x64_S64x64,
    binary main_arg10 main_v71 main_v72 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_10 (constantI S_ 32 0#32),
    unary main_c_10 main_v73 (broadcastInDim S1600000 ![] bcast_S_S1600000 : (⟨S_, .i32⟩ : BufTy).Contents (Elt F) → (⟨S1600000, .i32⟩ : BufTy).Contents (Elt F)),
    binary main_v1 main_v73 main_v74 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 100000#32),
    unary main_c_11 main_v75 (broadcastInDim S1600000 ![] bcast_S_S1600000 : (⟨S_, .i32⟩ : BufTy).Contents (Elt F) → (⟨S1600000, .i32⟩ : BufTy).Contents (Elt F)),
    binary main_v1 main_v75 main_v76 (addi : (⟨S1600000, .i32⟩ : BufTy).Contents (Elt F) → (⟨S1600000, .i32⟩ : BufTy).Contents (Elt F) → (⟨S1600000, .i32⟩ : BufTy).Contents (Elt F)),
    ternary main_v74 main_v76 main_v1 main_v77 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v77 main_v78 (broadcastInDim S1600000x1 ![0] bcast_S1600000_S1600000x1_0 : (⟨S1600000, .i32⟩ : BufTy).Contents (Elt F) → (⟨S1600000x1, .i32⟩ : BufTy).Contents (Elt F)),
    binary main_arg10 main_v78 main_v79 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_12 (constant S_ .f32 0x00000000#32),
    unary main_cst_12 main_v80 (broadcastInDim S100000x64 ![] bcast_S_S100000x64 : (⟨S_, .f32⟩ : BufTy).Contents (Elt F) → (⟨S100000x64, .f32⟩ : BufTy).Contents (Elt F)),
    unary main_v3 main_v81 (broadcastInDim S1600000x1 ![0] bcast_S1600000_S1600000x1_0 : (⟨S1600000, .i32⟩ : BufTy).Contents (Elt F) → (⟨S1600000x1, .i32⟩ : BufTy).Contents (Elt F)),
    ternary main_v80 main_v81 main_v79 main_v82 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_13 (constant S_ .f32 0x40000000#32),
    binary main_cst_13 main_v8 main_v83 (Host.divf : (⟨S_, .f32⟩ : BufTy).Contents (Elt F) → (⟨S_, .f32⟩ : BufTy).Contents (Elt F) → (⟨S_, .f32⟩ : BufTy).Contents (Elt F)),
    unary main_v7 main_v84 (broadcastInDim S100000x1 ![0] bcast_S100000_S100000x1_0 : (⟨S100000, .f32⟩ : BufTy).Contents (Elt F) → (⟨S100000x1, .f32⟩ : BufTy).Contents (Elt F)),
    unary main_v84 main_v85 (broadcastInDim S100000x64 ![0, 1] bcast_S100000x1_S100000x64_0_1 : (⟨S100000x1, .f32⟩ : BufTy).Contents (Elt F) → (⟨S100000x64, .f32⟩ : BufTy).Contents (Elt F)),
    binary main_v85 main_arg10 main_v86 (mulf : (⟨S100000x64, .f32⟩ : BufTy).Contents (Elt F) → (⟨S100000x64, .f32⟩ : BufTy).Contents (Elt F) → (⟨S100000x64, .f32⟩ : BufTy).Contents (Elt F)),
    binary main_v86 main_v82 main_v87 (subf : (⟨S100000x64, .f32⟩ : BufTy).Contents (Elt F) → (⟨S100000x64, .f32⟩ : BufTy).Contents (Elt F) → (⟨S100000x64, .f32⟩ : BufTy).Contents (Elt F)),
    unary main_v83 main_v88 (broadcastInDim S100000x64 ![] bcast_S_S100000x64 : (⟨S_, .f32⟩ : BufTy).Contents (Elt F) → (⟨S100000x64, .f32⟩ : BufTy).Contents (Elt F)),
    binary main_v88 main_v87 main_v89 (mulf : (⟨S100000x64, .f32⟩ : BufTy).Contents (Elt F) → (⟨S100000x64, .f32⟩ : BufTy).Contents (Elt F) → (⟨S100000x64, .f32⟩ : BufTy).Contents (Elt F)),
    binary main_v89 main_arg10 main_v90 (subf : (⟨S100000x64, .f32⟩ : BufTy).Contents (Elt F) → (⟨S100000x64, .f32⟩ : BufTy).Contents (Elt F) → (⟨S100000x64, .f32⟩ : BufTy).Contents (Elt F)),
    unary main_v67 main_v91 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v91 main_v92 rfl shapeCasts_S1x64x64_S64x64,
    binary main_v90 main_v92 main_v93 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v72 main_v93 main_v94 (addf : (⟨S100000x64, .f32⟩ : BufTy).Contents (Elt F) → (⟨S100000x64, .f32⟩ : BufTy).Contents (Elt F) → (⟨S100000x64, .f32⟩ : BufTy).Contents (Elt F)),
    nullary main_c_14 (constantI S_ 32 0#32),
    unary main_c_14 main_v95 (broadcastInDim S1600000 ![] bcast_S_S1600000 : (⟨S_, .i32⟩ : BufTy).Contents (Elt F) → (⟨S1600000, .i32⟩ : BufTy).Contents (Elt F)),
    binary main_v1 main_v95 main_v96 (cmpi .slt : (⟨S1600000, .i32⟩ : BufTy).Contents (Elt F) → (⟨S1600000, .i32⟩ : BufTy).Contents (Elt F) → (⟨S1600000, .i1⟩ : BufTy).Contents (Elt F)),
    nullary main_c_15 (constantI S_ 32 100000#32),
    unary main_c_15 main_v97 (broadcastInDim S1600000 ![] bcast_S_S1600000 : (⟨S_, .i32⟩ : BufTy).Contents (Elt F) → (⟨S1600000, .i32⟩ : BufTy).Contents (Elt F)),
    binary main_v1 main_v97 main_v98 (addi : (⟨S1600000, .i32⟩ : BufTy).Contents (Elt F) → (⟨S1600000, .i32⟩ : BufTy).Contents (Elt F) → (⟨S1600000, .i32⟩ : BufTy).Contents (Elt F)),
    ternary main_v96 main_v98 main_v1 main_v99 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v99 main_v100 (broadcastInDim S1600000x1 ![0] bcast_S1600000_S1600000x1_0 : (⟨S1600000, .i32⟩ : BufTy).Contents (Elt F) → (⟨S1600000x1, .i32⟩ : BufTy).Contents (Elt F)),
    binary main_v90 main_v100 main_v101 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)) ]

set_option maxRecDepth 8192 in
set_option maxHeartbeats 4000000 in
theorem part1_eq (c : Dev nD) : main_part1 (F := F) c = seq ops1 := rfl

set_option maxRecDepth 8192 in
theorem sub1 : (ops1 : List (HloOp τ sig (Elt F))).Forall fun op => op.bufs ⊆ tcRefs τ sig :=
  ⟨unary_bufs_sub .., unary_bufs_sub .., binary_bufs_sub .., binary_bufs_sub .., unary_bufs_sub .., binary_bufs_sub .., binary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., unary_bufs_sub .., reshape_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., binary_bufs_sub .., unary_bufs_sub .., unary_bufs_sub .., binary_bufs_sub .., binary_bufs_sub .., unary_bufs_sub .., binary_bufs_sub .., binary_bufs_sub .., unary_bufs_sub .., reshape_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

set_option maxRecDepth 8192 in
set_option maxHeartbeats 4000000 in
theorem fresh1 : ∀ op ∈ (ops1 : List (HloOp τ sig (Elt F))), op.fresh = ∅ := by
  intro _ h; (repeat (cases h with | head => rfl | tail _ h => ?_)); exact nomatch h

/-- The buffers window 1 defines. -/
abbrev W1 : List (Ref sig .tc) := [main_v49, main_v50, main_v51, main_v52, main_v53, main_v54, main_v55, main_cst_9, main_v56, main_v57, main_v58, main_v59, main_v60, main_v61, main_v62, main_v63, main_v64, main_v65, main_v66, main_v67, main_v68, main_v69, main_v70, main_v71, main_v72, main_c_10, main_v73, main_v74, main_c_11, main_v75, main_v76, main_v77, main_v78, main_v79, main_cst_12, main_v80, main_v81, main_v82, main_cst_13, main_v83, main_v84, main_v85, main_v86, main_v87, main_v88, main_v89, main_v90, main_v91, main_v92, main_v93, main_v94, main_c_14, main_v95, main_v96, main_c_15, main_v97, main_v98, main_v99, main_v100, main_v101]

set_option maxRecDepth 8192 in
set_option maxHeartbeats 4000000 in
theorem writes1 : (ops1 : List (HloOp τ sig (Elt F))).Forall fun op =>
    op.writes ⊆ (W1.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer window 1 does not define keeps its contents across it. -/
theorem keep1 (V : Valuation τ sig (Elt F)) (b : Ref sig .tc) (hb : b ∉ W1) :
    after (ops1 (F := F)) V (Proc.devRef .tc b) = V (Proc.devRef .tc b) :=
  after_of_writes_sub ops1 V writes1 hb

/-- The operations of window 2. -/
abbrev ops2 : List (HloOp τ sig (Elt F)) :=
  [ nullary main_cst_16 (constant S_ .f32 0x00000000#32),
    unary main_cst_16 main_v102 (broadcastInDim S100000x64 ![] bcast_S_S100000x64 : (⟨S_, .f32⟩ : BufTy).Contents (Elt F) → (⟨S100000x64, .f32⟩ : BufTy).Contents (Elt F)),
    unary main_v3 main_v103 (broadcastInDim S1600000x1 ![0] bcast_S1600000_S1600000x1_0 : (⟨S1600000, .i32⟩ : BufTy).Contents (Elt F) → (⟨S1600000x1, .i32⟩ : BufTy).Contents (Elt F)),
    ternary main_v102 main_v103 main_v101 main_v104 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_17 (constant S_ .f32 0x40000000#32),
    binary main_cst_17 main_v8 main_v105 (Host.divf : (⟨S_, .f32⟩ : BufTy).Contents (Elt F) → (⟨S_, .f32⟩ : BufTy).Contents (Elt F) → (⟨S_, .f32⟩ : BufTy).Contents (Elt F)),
    unary main_v7 main_v106 (broadcastInDim S100000x1 ![0] bcast_S100000_S100000x1_0 : (⟨S100000, .f32⟩ : BufTy).Contents (Elt F) → (⟨S100000x1, .f32⟩ : BufTy).Contents (Elt F)),
    unary main_v106 main_v107 (broadcastInDim S100000x64 ![0, 1] bcast_S100000x1_S100000x64_0_1 : (⟨S100000x1, .f32⟩ : BufTy).Contents (Elt F) → (⟨S100000x64, .f32⟩ : BufTy).Contents (Elt F)),
    binary main_v107 main_v90 main_v108 (mulf : (⟨S100000x64, .f32⟩ : BufTy).Contents (Elt F) → (⟨S100000x64, .f32⟩ : BufTy).Contents (Elt F) → (⟨S100000x64, .f32⟩ : BufTy).Contents (Elt F)),
    binary main_v108 main_v104 main_v109 (subf : (⟨S100000x64, .f32⟩ : BufTy).Contents (Elt F) → (⟨S100000x64, .f32⟩ : BufTy).Contents (Elt F) → (⟨S100000x64, .f32⟩ : BufTy).Contents (Elt F)),
    unary main_v105 main_v110 (broadcastInDim S100000x64 ![] bcast_S_S100000x64 : (⟨S_, .f32⟩ : BufTy).Contents (Elt F) → (⟨S100000x64, .f32⟩ : BufTy).Contents (Elt F)),
    binary main_v110 main_v109 main_v111 (mulf : (⟨S100000x64, .f32⟩ : BufTy).Contents (Elt F) → (⟨S100000x64, .f32⟩ : BufTy).Contents (Elt F) → (⟨S100000x64, .f32⟩ : BufTy).Contents (Elt F)),
    binary main_v111 main_v90 main_v112 (subf : (⟨S100000x64, .f32⟩ : BufTy).Contents (Elt F) → (⟨S100000x64, .f32⟩ : BufTy).Contents (Elt F) → (⟨S100000x64, .f32⟩ : BufTy).Contents (Elt F)),
    nullary main_cst_18 (constant S_ .f32 0x40000000#32),
    unary main_cst_18 main_v113 (broadcastInDim S100000x64 ![] bcast_S_S100000x64 : (⟨S_, .f32⟩ : BufTy).Contents (Elt F) → (⟨S100000x64, .f32⟩ : BufTy).Contents (Elt F)),
    binary main_v113 main_v112 main_v114 (mulf : (⟨S100000x64, .f32⟩ : BufTy).Contents (Elt F) → (⟨S100000x64, .f32⟩ : BufTy).Contents (Elt F) → (⟨S100000x64, .f32⟩ : BufTy).Contents (Elt F)),
    binary main_v114 main_arg10 main_v115 (subf : (⟨S100000x64, .f32⟩ : BufTy).Contents (Elt F) → (⟨S100000x64, .f32⟩ : BufTy).Contents (Elt F) → (⟨S100000x64, .f32⟩ : BufTy).Contents (Elt F)),
    unary main_v67 main_v116 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v116 main_v117 rfl shapeCasts_S1x64x64_S64x64,
    binary main_v115 main_v117 main_v118 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v94 main_v118 main_v119 (addf : (⟨S100000x64, .f32⟩ : BufTy).Contents (Elt F) → (⟨S100000x64, .f32⟩ : BufTy).Contents (Elt F) → (⟨S100000x64, .f32⟩ : BufTy).Contents (Elt F)),
    unary main_v69 main_v120 (broadcastInDim S1x64 ![1] bcast_S64_S1x64_1 : (⟨S64, .f32⟩ : BufTy).Contents (Elt F) → (⟨S1x64, .f32⟩ : BufTy).Contents (Elt F)),
    unary main_v120 main_v121 (broadcastInDim S100000x64 ![0, 1] bcast_S1x64_S100000x64_0_1 : (⟨S1x64, .f32⟩ : BufTy).Contents (Elt F) → (⟨S100000x64, .f32⟩ : BufTy).Contents (Elt F)),
    binary main_v119 main_v121 main_v122 (addf : (⟨S100000x64, .f32⟩ : BufTy).Contents (Elt F) → (⟨S100000x64, .f32⟩ : BufTy).Contents (Elt F) → (⟨S100000x64, .f32⟩ : BufTy).Contents (Elt F)),
    binary main_v65 main_v122 main_v123 (addf : (⟨S100000x64, .f32⟩ : BufTy).Contents (Elt F) → (⟨S100000x64, .f32⟩ : BufTy).Contents (Elt F) → (⟨S100000x64, .f32⟩ : BufTy).Contents (Elt F)),
    unary main_arg6 main_v124 ((extractStridedSlice S1x64 ![0, 0] · slices_S3x64_S1x64_0_0) : (⟨S3x64, .f32⟩ : BufTy).Contents (Elt F) → (⟨S1x64, .f32⟩ : BufTy).Contents (Elt F)),
    reshape main_v124 main_v125 rfl shapeCasts_S1x64_S64,
    unary main_v125 main_v126 (broadcastInDim S1x64 ![1] bcast_S64_S1x64_1 : (⟨S64, .f32⟩ : BufTy).Contents (Elt F) → (⟨S1x64, .f32⟩ : BufTy).Contents (Elt F)),
    unary main_v126 main_v127 (broadcastInDim S100000x64 ![0, 1] bcast_S1x64_S100000x64_0_1 : (⟨S1x64, .f32⟩ : BufTy).Contents (Elt F) → (⟨S100000x64, .f32⟩ : BufTy).Contents (Elt F)),
    binary main_v127 main_arg11 main_v128 (mulf : (⟨S100000x64, .f32⟩ : BufTy).Contents (Elt F) → (⟨S100000x64, .f32⟩ : BufTy).Contents (Elt F) → (⟨S100000x64, .f32⟩ : BufTy).Contents (Elt F)),
    binary main_v123 main_v128 main_v129 (addf : (⟨S100000x64, .f32⟩ : BufTy).Contents (Elt F) → (⟨S100000x64, .f32⟩ : BufTy).Contents (Elt F) → (⟨S100000x64, .f32⟩ : BufTy).Contents (Elt F)),
    unary main_arg7 main_v130 ((extractStridedSlice S1x64 ![0, 0] · slices_S4x64_S1x64_0_0) : (⟨S4x64, .f32⟩ : BufTy).Contents (Elt F) → (⟨S1x64, .f32⟩ : BufTy).Contents (Elt F)),
    reshape main_v130 main_v131 rfl shapeCasts_S1x64_S64,
    unary main_v131 main_v132 (broadcastInDim S1x64 ![1] bcast_S64_S1x64_1 : (⟨S64, .f32⟩ : BufTy).Contents (Elt F) → (⟨S1x64, .f32⟩ : BufTy).Contents (Elt F)),
    unary main_v132 main_v133 (broadcastInDim S100000x64 ![0, 1] bcast_S1x64_S100000x64_0_1 : (⟨S1x64, .f32⟩ : BufTy).Contents (Elt F) → (⟨S100000x64, .f32⟩ : BufTy).Contents (Elt F)),
    binary main_v129 main_v133 main_v134 (addf : (⟨S100000x64, .f32⟩ : BufTy).Contents (Elt F) → (⟨S100000x64, .f32⟩ : BufTy).Contents (Elt F) → (⟨S100000x64, .f32⟩ : BufTy).Contents (Elt F)),
    unary main_v134 main_v135 (Host.negf : (⟨S100000x64, .f32⟩ : BufTy).Contents (Elt F) → (⟨S100000x64, .f32⟩ : BufTy).Contents (Elt F)),
    unary main_v135 main_v136 (Host.exp : (⟨S100000x64, .f32⟩ : BufTy).Contents (Elt F) → (⟨S100000x64, .f32⟩ : BufTy).Contents (Elt F)),
    nullary main_cst_19 (constant S_ .f32 0x3F800000#32),
    unary main_cst_19 main_v137 (broadcastInDim S100000x64 ![] bcast_S_S100000x64 : (⟨S_, .f32⟩ : BufTy).Contents (Elt F) → (⟨S100000x64, .f32⟩ : BufTy).Contents (Elt F)),
    binary main_v137 main_v136 main_v138 (addf : (⟨S100000x64, .f32⟩ : BufTy).Contents (Elt F) → (⟨S100000x64, .f32⟩ : BufTy).Contents (Elt F) → (⟨S100000x64, .f32⟩ : BufTy).Contents (Elt F)),
    nullary main_cst_20 (constant S_ .f32 0x3F800000#32),
    unary main_cst_20 main_v139 (broadcastInDim S100000x64 ![] bcast_S_S100000x64 : (⟨S_, .f32⟩ : BufTy).Contents (Elt F) → (⟨S100000x64, .f32⟩ : BufTy).Contents (Elt F)),
    binary main_v139 main_v138 main_v140 (Host.divf : (⟨S100000x64, .f32⟩ : BufTy).Contents (Elt F) → (⟨S100000x64, .f32⟩ : BufTy).Contents (Elt F) → (⟨S100000x64, .f32⟩ : BufTy).Contents (Elt F)),
    unary main_arg2 main_v141 ((extractStridedSlice S1x3x64x64 ![1, 0, 0, 0] · slices_S4x3x64x64_S1x3x64x64_1_0_0_0) : (⟨S4x3x64x64, .f32⟩ : BufTy).Contents (Elt F) → (⟨S1x3x64x64, .f32⟩ : BufTy).Contents (Elt F)),
    reshape main_v141 main_v142 rfl shapeCasts_S1x3x64x64_S3x64x64,
    unary main_arg3 main_v143 ((extractStridedSlice S1x64 ![1, 0] · slices_S4x64_S1x64_1_0) : (⟨S4x64, .f32⟩ : BufTy).Contents (Elt F) → (⟨S1x64, .f32⟩ : BufTy).Contents (Elt F)),
    reshape main_v143 main_v144 rfl shapeCasts_S1x64_S64,
    unary main_v142 main_v145 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v145 main_v146 rfl shapeCasts_S1x64x64_S64x64,
    binary main_arg0 main_v146 main_v147 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_21 (constantI S_ 32 0#32),
    unary main_c_21 main_v148 (broadcastInDim S1600000 ![] bcast_S_S1600000 : (⟨S_, .i32⟩ : BufTy).Contents (Elt F) → (⟨S1600000, .i32⟩ : BufTy).Contents (Elt F)),
    binary main_v1 main_v148 main_v149 (cmpi .slt : (⟨S1600000, .i32⟩ : BufTy).Contents (Elt F) → (⟨S1600000, .i32⟩ : BufTy).Contents (Elt F) → (⟨S1600000, .i1⟩ : BufTy).Contents (Elt F)),
    nullary main_c_22 (constantI S_ 32 100000#32),
    unary main_c_22 main_v150 (broadcastInDim S1600000 ![] bcast_S_S1600000 : (⟨S_, .i32⟩ : BufTy).Contents (Elt F) → (⟨S1600000, .i32⟩ : BufTy).Contents (Elt F)),
    binary main_v1 main_v150 main_v151 (addi : (⟨S1600000, .i32⟩ : BufTy).Contents (Elt F) → (⟨S1600000, .i32⟩ : BufTy).Contents (Elt F) → (⟨S1600000, .i32⟩ : BufTy).Contents (Elt F)),
    ternary main_v149 main_v151 main_v1 main_v152 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v152 main_v153 (broadcastInDim S1600000x1 ![0] bcast_S1600000_S1600000x1_0 : (⟨S1600000, .i32⟩ : BufTy).Contents (Elt F) → (⟨S1600000x1, .i32⟩ : BufTy).Contents (Elt F)),
    binary main_arg0 main_v153 main_v154 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)) ]

set_option maxRecDepth 8192 in
set_option maxHeartbeats 4000000 in
theorem part2_eq (c : Dev nD) : main_part2 (F := F) c = seq ops2 := rfl

set_option maxRecDepth 8192 in
theorem sub2 : (ops2 : List (HloOp τ sig (Elt F))).Forall fun op => op.bufs ⊆ tcRefs τ sig :=
  ⟨nullary_bufs_sub .., unary_bufs_sub .., unary_bufs_sub .., ternary_bufs_sub .., nullary_bufs_sub .., binary_bufs_sub .., unary_bufs_sub .., unary_bufs_sub .., binary_bufs_sub .., binary_bufs_sub .., unary_bufs_sub .., binary_bufs_sub .., binary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

set_option maxRecDepth 8192 in
set_option maxHeartbeats 4000000 in
theorem fresh2 : ∀ op ∈ (ops2 : List (HloOp τ sig (Elt F))), op.fresh = ∅ := by
  intro _ h; (repeat (cases h with | head => rfl | tail _ h => ?_)); exact nomatch h

/-- The buffers window 2 defines. -/
abbrev W2 : List (Ref sig .tc) := [main_cst_16, main_v102, main_v103, main_v104, main_cst_17, main_v105, main_v106, main_v107, main_v108, main_v109, main_v110, main_v111, main_v112, main_cst_18, main_v113, main_v114, main_v115, main_v116, main_v117, main_v118, main_v119, main_v120, main_v121, main_v122, main_v123, main_v124, main_v125, main_v126, main_v127, main_v128, main_v129, main_v130, main_v131, main_v132, main_v133, main_v134, main_v135, main_v136, main_cst_19, main_v137, main_v138, main_cst_20, main_v139, main_v140, main_v141, main_v142, main_v143, main_v144, main_v145, main_v146, main_v147, main_c_21, main_v148, main_v149, main_c_22, main_v150, main_v151, main_v152, main_v153, main_v154]

set_option maxRecDepth 8192 in
set_option maxHeartbeats 4000000 in
theorem writes2 : (ops2 : List (HloOp τ sig (Elt F))).Forall fun op =>
    op.writes ⊆ (W2.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer window 2 does not define keeps its contents across it. -/
theorem keep2 (V : Valuation τ sig (Elt F)) (b : Ref sig .tc) (hb : b ∉ W2) :
    after (ops2 (F := F)) V (Proc.devRef .tc b) = V (Proc.devRef .tc b) :=
  after_of_writes_sub ops2 V writes2 hb

/-- The operations of window 3. -/
abbrev ops3 : List (HloOp τ sig (Elt F)) :=
  [ nullary main_cst_23 (constant S_ .f32 0x00000000#32),
    unary main_cst_23 main_v155 (broadcastInDim S100000x64 ![] bcast_S_S100000x64 : (⟨S_, .f32⟩ : BufTy).Contents (Elt F) → (⟨S100000x64, .f32⟩ : BufTy).Contents (Elt F)),
    unary main_v3 main_v156 (broadcastInDim S1600000x1 ![0] bcast_S1600000_S1600000x1_0 : (⟨S1600000, .i32⟩ : BufTy).Contents (Elt F) → (⟨S1600000x1, .i32⟩ : BufTy).Contents (Elt F)),
    ternary main_v155 main_v156 main_v154 main_v157 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_24 (constant S_ .f32 0x40000000#32),
    binary main_cst_24 main_v8 main_v158 (Host.divf : (⟨S_, .f32⟩ : BufTy).Contents (Elt F) → (⟨S_, .f32⟩ : BufTy).Contents (Elt F) → (⟨S_, .f32⟩ : BufTy).Contents (Elt F)),
    unary main_v7 main_v159 (broadcastInDim S100000x1 ![0] bcast_S100000_S100000x1_0 : (⟨S100000, .f32⟩ : BufTy).Contents (Elt F) → (⟨S100000x1, .f32⟩ : BufTy).Contents (Elt F)),
    unary main_v159 main_v160 (broadcastInDim S100000x64 ![0, 1] bcast_S100000x1_S100000x64_0_1 : (⟨S100000x1, .f32⟩ : BufTy).Contents (Elt F) → (⟨S100000x64, .f32⟩ : BufTy).Contents (Elt F)),
    binary main_v160 main_arg0 main_v161 (mulf : (⟨S100000x64, .f32⟩ : BufTy).Contents (Elt F) → (⟨S100000x64, .f32⟩ : BufTy).Contents (Elt F) → (⟨S100000x64, .f32⟩ : BufTy).Contents (Elt F)),
    binary main_v161 main_v157 main_v162 (subf : (⟨S100000x64, .f32⟩ : BufTy).Contents (Elt F) → (⟨S100000x64, .f32⟩ : BufTy).Contents (Elt F) → (⟨S100000x64, .f32⟩ : BufTy).Contents (Elt F)),
    unary main_v158 main_v163 (broadcastInDim S100000x64 ![] bcast_S_S100000x64 : (⟨S_, .f32⟩ : BufTy).Contents (Elt F) → (⟨S100000x64, .f32⟩ : BufTy).Contents (Elt F)),
    binary main_v163 main_v162 main_v164 (mulf : (⟨S100000x64, .f32⟩ : BufTy).Contents (Elt F) → (⟨S100000x64, .f32⟩ : BufTy).Contents (Elt F) → (⟨S100000x64, .f32⟩ : BufTy).Contents (Elt F)),
    binary main_v164 main_arg0 main_v165 (subf : (⟨S100000x64, .f32⟩ : BufTy).Contents (Elt F) → (⟨S100000x64, .f32⟩ : BufTy).Contents (Elt F) → (⟨S100000x64, .f32⟩ : BufTy).Contents (Elt F)),
    unary main_v142 main_v166 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v166 main_v167 rfl shapeCasts_S1x64x64_S64x64,
    binary main_v165 main_v167 main_v168 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v147 main_v168 main_v169 (addf : (⟨S100000x64, .f32⟩ : BufTy).Contents (Elt F) → (⟨S100000x64, .f32⟩ : BufTy).Contents (Elt F) → (⟨S100000x64, .f32⟩ : BufTy).Contents (Elt F)),
    nullary main_c_25 (constantI S_ 32 0#32),
    unary main_c_25 main_v170 (broadcastInDim S1600000 ![] bcast_S_S1600000 : (⟨S_, .i32⟩ : BufTy).Contents (Elt F) → (⟨S1600000, .i32⟩ : BufTy).Contents (Elt F)),
    binary main_v1 main_v170 main_v171 (cmpi .slt : (⟨S1600000, .i32⟩ : BufTy).Contents (Elt F) → (⟨S1600000, .i32⟩ : BufTy).Contents (Elt F) → (⟨S1600000, .i1⟩ : BufTy).Contents (Elt F)),
    nullary main_c_26 (constantI S_ 32 100000#32),
    unary main_c_26 main_v172 (broadcastInDim S1600000 ![] bcast_S_S1600000 : (⟨S_, .i32⟩ : BufTy).Contents (Elt F) → (⟨S1600000, .i32⟩ : BufTy).Contents (Elt F)),
    binary main_v1 main_v172 main_v173 (addi : (⟨S1600000, .i32⟩ : BufTy).Contents (Elt F) → (⟨S1600000, .i32⟩ : BufTy).Contents (Elt F) → (⟨S1600000, .i32⟩ : BufTy).Contents (Elt F)),
    ternary main_v171 main_v173 main_v1 main_v174 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v174 main_v175 (broadcastInDim S1600000x1 ![0] bcast_S1600000_S1600000x1_0 : (⟨S1600000, .i32⟩ : BufTy).Contents (Elt F) → (⟨S1600000x1, .i32⟩ : BufTy).Contents (Elt F)),
    binary main_v165 main_v175 main_v176 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_27 (constant S_ .f32 0x00000000#32),
    unary main_cst_27 main_v177 (broadcastInDim S100000x64 ![] bcast_S_S100000x64 : (⟨S_, .f32⟩ : BufTy).Contents (Elt F) → (⟨S100000x64, .f32⟩ : BufTy).Contents (Elt F)),
    unary main_v3 main_v178 (broadcastInDim S1600000x1 ![0] bcast_S1600000_S1600000x1_0 : (⟨S1600000, .i32⟩ : BufTy).Contents (Elt F) → (⟨S1600000x1, .i32⟩ : BufTy).Contents (Elt F)),
    ternary main_v177 main_v178 main_v176 main_v179 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_28 (constant S_ .f32 0x40000000#32),
    binary main_cst_28 main_v8 main_v180 (Host.divf : (⟨S_, .f32⟩ : BufTy).Contents (Elt F) → (⟨S_, .f32⟩ : BufTy).Contents (Elt F) → (⟨S_, .f32⟩ : BufTy).Contents (Elt F)),
    unary main_v7 main_v181 (broadcastInDim S100000x1 ![0] bcast_S100000_S100000x1_0 : (⟨S100000, .f32⟩ : BufTy).Contents (Elt F) → (⟨S100000x1, .f32⟩ : BufTy).Contents (Elt F)),
    unary main_v181 main_v182 (broadcastInDim S100000x64 ![0, 1] bcast_S100000x1_S100000x64_0_1 : (⟨S100000x1, .f32⟩ : BufTy).Contents (Elt F) → (⟨S100000x64, .f32⟩ : BufTy).Contents (Elt F)),
    binary main_v182 main_v165 main_v183 (mulf : (⟨S100000x64, .f32⟩ : BufTy).Contents (Elt F) → (⟨S100000x64, .f32⟩ : BufTy).Contents (Elt F) → (⟨S100000x64, .f32⟩ : BufTy).Contents (Elt F)),
    binary main_v183 main_v179 main_v184 (subf : (⟨S100000x64, .f32⟩ : BufTy).Contents (Elt F) → (⟨S100000x64, .f32⟩ : BufTy).Contents (Elt F) → (⟨S100000x64, .f32⟩ : BufTy).Contents (Elt F)),
    unary main_v180 main_v185 (broadcastInDim S100000x64 ![] bcast_S_S100000x64 : (⟨S_, .f32⟩ : BufTy).Contents (Elt F) → (⟨S100000x64, .f32⟩ : BufTy).Contents (Elt F)),
    binary main_v185 main_v184 main_v186 (mulf : (⟨S100000x64, .f32⟩ : BufTy).Contents (Elt F) → (⟨S100000x64, .f32⟩ : BufTy).Contents (Elt F) → (⟨S100000x64, .f32⟩ : BufTy).Contents (Elt F)),
    binary main_v186 main_v165 main_v187 (subf : (⟨S100000x64, .f32⟩ : BufTy).Contents (Elt F) → (⟨S100000x64, .f32⟩ : BufTy).Contents (Elt F) → (⟨S100000x64, .f32⟩ : BufTy).Contents (Elt F)),
    nullary main_cst_29 (constant S_ .f32 0x40000000#32),
    unary main_cst_29 main_v188 (broadcastInDim S100000x64 ![] bcast_S_S100000x64 : (⟨S_, .f32⟩ : BufTy).Contents (Elt F) → (⟨S100000x64, .f32⟩ : BufTy).Contents (Elt F)),
    binary main_v188 main_v187 main_v189 (mulf : (⟨S100000x64, .f32⟩ : BufTy).Contents (Elt F) → (⟨S100000x64, .f32⟩ : BufTy).Contents (Elt F) → (⟨S100000x64, .f32⟩ : BufTy).Contents (Elt F)),
    binary main_v189 main_arg0 main_v190 (subf : (⟨S100000x64, .f32⟩ : BufTy).Contents (Elt F) → (⟨S100000x64, .f32⟩ : BufTy).Contents (Elt F) → (⟨S100000x64, .f32⟩ : BufTy).Contents (Elt F)),
    unary main_v142 main_v191 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v191 main_v192 rfl shapeCasts_S1x64x64_S64x64,
    binary main_v190 main_v192 main_v193 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v169 main_v193 main_v194 (addf : (⟨S100000x64, .f32⟩ : BufTy).Contents (Elt F) → (⟨S100000x64, .f32⟩ : BufTy).Contents (Elt F) → (⟨S100000x64, .f32⟩ : BufTy).Contents (Elt F)),
    unary main_v144 main_v195 (broadcastInDim S1x64 ![1] bcast_S64_S1x64_1 : (⟨S64, .f32⟩ : BufTy).Contents (Elt F) → (⟨S1x64, .f32⟩ : BufTy).Contents (Elt F)),
    unary main_v195 main_v196 (broadcastInDim S100000x64 ![0, 1] bcast_S1x64_S100000x64_0_1 : (⟨S1x64, .f32⟩ : BufTy).Contents (Elt F) → (⟨S100000x64, .f32⟩ : BufTy).Contents (Elt F)),
    binary main_v194 main_v196 main_v197 (addf : (⟨S100000x64, .f32⟩ : BufTy).Contents (Elt F) → (⟨S100000x64, .f32⟩ : BufTy).Contents (Elt F) → (⟨S100000x64, .f32⟩ : BufTy).Contents (Elt F)),
    unary main_arg4 main_v198 ((extractStridedSlice S1x3x64x64 ![1, 0, 0, 0] · slices_S4x3x64x64_S1x3x64x64_1_0_0_0) : (⟨S4x3x64x64, .f32⟩ : BufTy).Contents (Elt F) → (⟨S1x3x64x64, .f32⟩ : BufTy).Contents (Elt F)),
    reshape main_v198 main_v199 rfl shapeCasts_S1x3x64x64_S3x64x64,
    unary main_arg5 main_v200 ((extractStridedSlice S1x64 ![1, 0] · slices_S4x64_S1x64_1_0) : (⟨S4x64, .f32⟩ : BufTy).Contents (Elt F) → (⟨S1x64, .f32⟩ : BufTy).Contents (Elt F)),
    reshape main_v200 main_v201 rfl shapeCasts_S1x64_S64,
    unary main_v199 main_v202 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v202 main_v203 rfl shapeCasts_S1x64x64_S64x64,
    binary main_arg10 main_v203 main_v204 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_30 (constantI S_ 32 0#32),
    unary main_c_30 main_v205 (broadcastInDim S1600000 ![] bcast_S_S1600000 : (⟨S_, .i32⟩ : BufTy).Contents (Elt F) → (⟨S1600000, .i32⟩ : BufTy).Contents (Elt F)),
    binary main_v1 main_v205 main_v206 (cmpi .slt : (⟨S1600000, .i32⟩ : BufTy).Contents (Elt F) → (⟨S1600000, .i32⟩ : BufTy).Contents (Elt F) → (⟨S1600000, .i1⟩ : BufTy).Contents (Elt F)) ]

set_option maxRecDepth 8192 in
set_option maxHeartbeats 4000000 in
theorem part3_eq (c : Dev nD) : main_part3 (F := F) c = seq ops3 := rfl

set_option maxRecDepth 8192 in
theorem sub3 : (ops3 : List (HloOp τ sig (Elt F))).Forall fun op => op.bufs ⊆ tcRefs τ sig :=
  ⟨nullary_bufs_sub .., unary_bufs_sub .., unary_bufs_sub .., ternary_bufs_sub .., nullary_bufs_sub .., binary_bufs_sub .., unary_bufs_sub .., unary_bufs_sub .., binary_bufs_sub .., binary_bufs_sub .., unary_bufs_sub .., binary_bufs_sub .., binary_bufs_sub .., unary_bufs_sub .., reshape_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., binary_bufs_sub .., unary_bufs_sub .., unary_bufs_sub .., binary_bufs_sub .., binary_bufs_sub .., unary_bufs_sub .., binary_bufs_sub .., binary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., unary_bufs_sub .., reshape_bufs_sub .., unary_bufs_sub .., reshape_bufs_sub .., unary_bufs_sub .., reshape_bufs_sub .., binary_bufs_sub .., nullary_bufs_sub .., unary_bufs_sub .., binary_bufs_sub ..⟩

set_option maxRecDepth 8192 in
set_option maxHeartbeats 4000000 in
theorem fresh3 : ∀ op ∈ (ops3 : List (HloOp τ sig (Elt F))), op.fresh = ∅ := by
  intro _ h; (repeat (cases h with | head => rfl | tail _ h => ?_)); exact nomatch h

/-- The buffers window 3 defines. -/
abbrev W3 : List (Ref sig .tc) := [main_cst_23, main_v155, main_v156, main_v157, main_cst_24, main_v158, main_v159, main_v160, main_v161, main_v162, main_v163, main_v164, main_v165, main_v166, main_v167, main_v168, main_v169, main_c_25, main_v170, main_v171, main_c_26, main_v172, main_v173, main_v174, main_v175, main_v176, main_cst_27, main_v177, main_v178, main_v179, main_cst_28, main_v180, main_v181, main_v182, main_v183, main_v184, main_v185, main_v186, main_v187, main_cst_29, main_v188, main_v189, main_v190, main_v191, main_v192, main_v193, main_v194, main_v195, main_v196, main_v197, main_v198, main_v199, main_v200, main_v201, main_v202, main_v203, main_v204, main_c_30, main_v205, main_v206]

set_option maxRecDepth 8192 in
set_option maxHeartbeats 4000000 in
theorem writes3 : (ops3 : List (HloOp τ sig (Elt F))).Forall fun op =>
    op.writes ⊆ (W3.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer window 3 does not define keeps its contents across it. -/
theorem keep3 (V : Valuation τ sig (Elt F)) (b : Ref sig .tc) (hb : b ∉ W3) :
    after (ops3 (F := F)) V (Proc.devRef .tc b) = V (Proc.devRef .tc b) :=
  after_of_writes_sub ops3 V writes3 hb

/-- The operations of window 4. -/
abbrev ops4 : List (HloOp τ sig (Elt F)) :=
  [ nullary main_c_31 (constantI S_ 32 100000#32),
    unary main_c_31 main_v207 (broadcastInDim S1600000 ![] bcast_S_S1600000 : (⟨S_, .i32⟩ : BufTy).Contents (Elt F) → (⟨S1600000, .i32⟩ : BufTy).Contents (Elt F)),
    binary main_v1 main_v207 main_v208 (addi : (⟨S1600000, .i32⟩ : BufTy).Contents (Elt F) → (⟨S1600000, .i32⟩ : BufTy).Contents (Elt F) → (⟨S1600000, .i32⟩ : BufTy).Contents (Elt F)),
    ternary main_v206 main_v208 main_v1 main_v209 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v209 main_v210 (broadcastInDim S1600000x1 ![0] bcast_S1600000_S1600000x1_0 : (⟨S1600000, .i32⟩ : BufTy).Contents (Elt F) → (⟨S1600000x1, .i32⟩ : BufTy).Contents (Elt F)),
    binary main_arg10 main_v210 main_v211 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_32 (constant S_ .f32 0x00000000#32),
    unary main_cst_32 main_v212 (broadcastInDim S100000x64 ![] bcast_S_S100000x64 : (⟨S_, .f32⟩ : BufTy).Contents (Elt F) → (⟨S100000x64, .f32⟩ : BufTy).Contents (Elt F)),
    unary main_v3 main_v213 (broadcastInDim S1600000x1 ![0] bcast_S1600000_S1600000x1_0 : (⟨S1600000, .i32⟩ : BufTy).Contents (Elt F) → (⟨S1600000x1, .i32⟩ : BufTy).Contents (Elt F)),
    ternary main_v212 main_v213 main_v211 main_v214 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_33 (constant S_ .f32 0x40000000#32),
    binary main_cst_33 main_v8 main_v215 (Host.divf : (⟨S_, .f32⟩ : BufTy).Contents (Elt F) → (⟨S_, .f32⟩ : BufTy).Contents (Elt F) → (⟨S_, .f32⟩ : BufTy).Contents (Elt F)),
    unary main_v7 main_v216 (broadcastInDim S100000x1 ![0] bcast_S100000_S100000x1_0 : (⟨S100000, .f32⟩ : BufTy).Contents (Elt F) → (⟨S100000x1, .f32⟩ : BufTy).Contents (Elt F)),
    unary main_v216 main_v217 (broadcastInDim S100000x64 ![0, 1] bcast_S100000x1_S100000x64_0_1 : (⟨S100000x1, .f32⟩ : BufTy).Contents (Elt F) → (⟨S100000x64, .f32⟩ : BufTy).Contents (Elt F)),
    binary main_v217 main_arg10 main_v218 (mulf : (⟨S100000x64, .f32⟩ : BufTy).Contents (Elt F) → (⟨S100000x64, .f32⟩ : BufTy).Contents (Elt F) → (⟨S100000x64, .f32⟩ : BufTy).Contents (Elt F)),
    binary main_v218 main_v214 main_v219 (subf : (⟨S100000x64, .f32⟩ : BufTy).Contents (Elt F) → (⟨S100000x64, .f32⟩ : BufTy).Contents (Elt F) → (⟨S100000x64, .f32⟩ : BufTy).Contents (Elt F)),
    unary main_v215 main_v220 (broadcastInDim S100000x64 ![] bcast_S_S100000x64 : (⟨S_, .f32⟩ : BufTy).Contents (Elt F) → (⟨S100000x64, .f32⟩ : BufTy).Contents (Elt F)),
    binary main_v220 main_v219 main_v221 (mulf : (⟨S100000x64, .f32⟩ : BufTy).Contents (Elt F) → (⟨S100000x64, .f32⟩ : BufTy).Contents (Elt F) → (⟨S100000x64, .f32⟩ : BufTy).Contents (Elt F)),
    binary main_v221 main_arg10 main_v222 (subf : (⟨S100000x64, .f32⟩ : BufTy).Contents (Elt F) → (⟨S100000x64, .f32⟩ : BufTy).Contents (Elt F) → (⟨S100000x64, .f32⟩ : BufTy).Contents (Elt F)),
    unary main_v199 main_v223 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v223 main_v224 rfl shapeCasts_S1x64x64_S64x64,
    binary main_v222 main_v224 main_v225 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v204 main_v225 main_v226 (addf : (⟨S100000x64, .f32⟩ : BufTy).Contents (Elt F) → (⟨S100000x64, .f32⟩ : BufTy).Contents (Elt F) → (⟨S100000x64, .f32⟩ : BufTy).Contents (Elt F)),
    nullary main_c_34 (constantI S_ 32 0#32),
    unary main_c_34 main_v227 (broadcastInDim S1600000 ![] bcast_S_S1600000 : (⟨S_, .i32⟩ : BufTy).Contents (Elt F) → (⟨S1600000, .i32⟩ : BufTy).Contents (Elt F)),
    binary main_v1 main_v227 main_v228 (cmpi .slt : (⟨S1600000, .i32⟩ : BufTy).Contents (Elt F) → (⟨S1600000, .i32⟩ : BufTy).Contents (Elt F) → (⟨S1600000, .i1⟩ : BufTy).Contents (Elt F)),
    nullary main_c_35 (constantI S_ 32 100000#32),
    unary main_c_35 main_v229 (broadcastInDim S1600000 ![] bcast_S_S1600000 : (⟨S_, .i32⟩ : BufTy).Contents (Elt F) → (⟨S1600000, .i32⟩ : BufTy).Contents (Elt F)),
    binary main_v1 main_v229 main_v230 (addi : (⟨S1600000, .i32⟩ : BufTy).Contents (Elt F) → (⟨S1600000, .i32⟩ : BufTy).Contents (Elt F) → (⟨S1600000, .i32⟩ : BufTy).Contents (Elt F)),
    ternary main_v228 main_v230 main_v1 main_v231 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v231 main_v232 (broadcastInDim S1600000x1 ![0] bcast_S1600000_S1600000x1_0 : (⟨S1600000, .i32⟩ : BufTy).Contents (Elt F) → (⟨S1600000x1, .i32⟩ : BufTy).Contents (Elt F)),
    binary main_v222 main_v232 main_v233 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_36 (constant S_ .f32 0x00000000#32),
    unary main_cst_36 main_v234 (broadcastInDim S100000x64 ![] bcast_S_S100000x64 : (⟨S_, .f32⟩ : BufTy).Contents (Elt F) → (⟨S100000x64, .f32⟩ : BufTy).Contents (Elt F)),
    unary main_v3 main_v235 (broadcastInDim S1600000x1 ![0] bcast_S1600000_S1600000x1_0 : (⟨S1600000, .i32⟩ : BufTy).Contents (Elt F) → (⟨S1600000x1, .i32⟩ : BufTy).Contents (Elt F)),
    ternary main_v234 main_v235 main_v233 main_v236 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_37 (constant S_ .f32 0x40000000#32),
    binary main_cst_37 main_v8 main_v237 (Host.divf : (⟨S_, .f32⟩ : BufTy).Contents (Elt F) → (⟨S_, .f32⟩ : BufTy).Contents (Elt F) → (⟨S_, .f32⟩ : BufTy).Contents (Elt F)),
    unary main_v7 main_v238 (broadcastInDim S100000x1 ![0] bcast_S100000_S100000x1_0 : (⟨S100000, .f32⟩ : BufTy).Contents (Elt F) → (⟨S100000x1, .f32⟩ : BufTy).Contents (Elt F)),
    unary main_v238 main_v239 (broadcastInDim S100000x64 ![0, 1] bcast_S100000x1_S100000x64_0_1 : (⟨S100000x1, .f32⟩ : BufTy).Contents (Elt F) → (⟨S100000x64, .f32⟩ : BufTy).Contents (Elt F)),
    binary main_v239 main_v222 main_v240 (mulf : (⟨S100000x64, .f32⟩ : BufTy).Contents (Elt F) → (⟨S100000x64, .f32⟩ : BufTy).Contents (Elt F) → (⟨S100000x64, .f32⟩ : BufTy).Contents (Elt F)),
    binary main_v240 main_v236 main_v241 (subf : (⟨S100000x64, .f32⟩ : BufTy).Contents (Elt F) → (⟨S100000x64, .f32⟩ : BufTy).Contents (Elt F) → (⟨S100000x64, .f32⟩ : BufTy).Contents (Elt F)),
    unary main_v237 main_v242 (broadcastInDim S100000x64 ![] bcast_S_S100000x64 : (⟨S_, .f32⟩ : BufTy).Contents (Elt F) → (⟨S100000x64, .f32⟩ : BufTy).Contents (Elt F)),
    binary main_v242 main_v241 main_v243 (mulf : (⟨S100000x64, .f32⟩ : BufTy).Contents (Elt F) → (⟨S100000x64, .f32⟩ : BufTy).Contents (Elt F) → (⟨S100000x64, .f32⟩ : BufTy).Contents (Elt F)),
    binary main_v243 main_v222 main_v244 (subf : (⟨S100000x64, .f32⟩ : BufTy).Contents (Elt F) → (⟨S100000x64, .f32⟩ : BufTy).Contents (Elt F) → (⟨S100000x64, .f32⟩ : BufTy).Contents (Elt F)),
    nullary main_cst_38 (constant S_ .f32 0x40000000#32),
    unary main_cst_38 main_v245 (broadcastInDim S100000x64 ![] bcast_S_S100000x64 : (⟨S_, .f32⟩ : BufTy).Contents (Elt F) → (⟨S100000x64, .f32⟩ : BufTy).Contents (Elt F)),
    binary main_v245 main_v244 main_v246 (mulf : (⟨S100000x64, .f32⟩ : BufTy).Contents (Elt F) → (⟨S100000x64, .f32⟩ : BufTy).Contents (Elt F) → (⟨S100000x64, .f32⟩ : BufTy).Contents (Elt F)),
    binary main_v246 main_arg10 main_v247 (subf : (⟨S100000x64, .f32⟩ : BufTy).Contents (Elt F) → (⟨S100000x64, .f32⟩ : BufTy).Contents (Elt F) → (⟨S100000x64, .f32⟩ : BufTy).Contents (Elt F)),
    unary main_v199 main_v248 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v248 main_v249 rfl shapeCasts_S1x64x64_S64x64,
    binary main_v247 main_v249 main_v250 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v226 main_v250 main_v251 (addf : (⟨S100000x64, .f32⟩ : BufTy).Contents (Elt F) → (⟨S100000x64, .f32⟩ : BufTy).Contents (Elt F) → (⟨S100000x64, .f32⟩ : BufTy).Contents (Elt F)),
    unary main_v201 main_v252 (broadcastInDim S1x64 ![1] bcast_S64_S1x64_1 : (⟨S64, .f32⟩ : BufTy).Contents (Elt F) → (⟨S1x64, .f32⟩ : BufTy).Contents (Elt F)),
    unary main_v252 main_v253 (broadcastInDim S100000x64 ![0, 1] bcast_S1x64_S100000x64_0_1 : (⟨S1x64, .f32⟩ : BufTy).Contents (Elt F) → (⟨S100000x64, .f32⟩ : BufTy).Contents (Elt F)),
    binary main_v251 main_v253 main_v254 (addf : (⟨S100000x64, .f32⟩ : BufTy).Contents (Elt F) → (⟨S100000x64, .f32⟩ : BufTy).Contents (Elt F) → (⟨S100000x64, .f32⟩ : BufTy).Contents (Elt F)),
    binary main_v197 main_v254 main_v255 (addf : (⟨S100000x64, .f32⟩ : BufTy).Contents (Elt F) → (⟨S100000x64, .f32⟩ : BufTy).Contents (Elt F) → (⟨S100000x64, .f32⟩ : BufTy).Contents (Elt F)),
    unary main_arg6 main_v256 ((extractStridedSlice S1x64 ![1, 0] · slices_S3x64_S1x64_1_0) : (⟨S3x64, .f32⟩ : BufTy).Contents (Elt F) → (⟨S1x64, .f32⟩ : BufTy).Contents (Elt F)),
    reshape main_v256 main_v257 rfl shapeCasts_S1x64_S64,
    unary main_v257 main_v258 (broadcastInDim S1x64 ![1] bcast_S64_S1x64_1 : (⟨S64, .f32⟩ : BufTy).Contents (Elt F) → (⟨S1x64, .f32⟩ : BufTy).Contents (Elt F)) ]

set_option maxRecDepth 8192 in
set_option maxHeartbeats 4000000 in
theorem part4_eq (c : Dev nD) : main_part4 (F := F) c = seq ops4 := rfl

set_option maxRecDepth 8192 in
theorem sub4 : (ops4 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., binary_bufs_sub .., unary_bufs_sub .., unary_bufs_sub .., binary_bufs_sub .., binary_bufs_sub .., unary_bufs_sub .., binary_bufs_sub .., binary_bufs_sub .., unary_bufs_sub .., reshape_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., binary_bufs_sub .., unary_bufs_sub .., unary_bufs_sub .., binary_bufs_sub .., binary_bufs_sub .., unary_bufs_sub .., binary_bufs_sub .., binary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., binary_bufs_sub .., unary_bufs_sub .., reshape_bufs_sub .., unary_bufs_sub ..⟩

set_option maxRecDepth 8192 in
set_option maxHeartbeats 4000000 in
theorem fresh4 : ∀ op ∈ (ops4 : List (HloOp τ sig (Elt F))), op.fresh = ∅ := by
  intro _ h; (repeat (cases h with | head => rfl | tail _ h => ?_)); exact nomatch h

/-- The buffers window 4 defines. -/
abbrev W4 : List (Ref sig .tc) := [main_c_31, main_v207, main_v208, main_v209, main_v210, main_v211, main_cst_32, main_v212, main_v213, main_v214, main_cst_33, main_v215, main_v216, main_v217, main_v218, main_v219, main_v220, main_v221, main_v222, main_v223, main_v224, main_v225, main_v226, main_c_34, main_v227, main_v228, main_c_35, main_v229, main_v230, main_v231, main_v232, main_v233, main_cst_36, main_v234, main_v235, main_v236, main_cst_37, main_v237, main_v238, main_v239, main_v240, main_v241, main_v242, main_v243, main_v244, main_cst_38, main_v245, main_v246, main_v247, main_v248, main_v249, main_v250, main_v251, main_v252, main_v253, main_v254, main_v255, main_v256, main_v257, main_v258]

set_option maxRecDepth 8192 in
set_option maxHeartbeats 4000000 in
theorem writes4 : (ops4 : List (HloOp τ sig (Elt F))).Forall fun op =>
    op.writes ⊆ (W4.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer window 4 does not define keeps its contents across it. -/
theorem keep4 (V : Valuation τ sig (Elt F)) (b : Ref sig .tc) (hb : b ∉ W4) :
    after (ops4 (F := F)) V (Proc.devRef .tc b) = V (Proc.devRef .tc b) :=
  after_of_writes_sub ops4 V writes4 hb

/-- The operations of window 5. -/
abbrev ops5 : List (HloOp τ sig (Elt F)) :=
  [ unary main_v258 main_v259 (broadcastInDim S100000x64 ![0, 1] bcast_S1x64_S100000x64_0_1 : (⟨S1x64, .f32⟩ : BufTy).Contents (Elt F) → (⟨S100000x64, .f32⟩ : BufTy).Contents (Elt F)),
    binary main_v259 main_arg11 main_v260 (mulf : (⟨S100000x64, .f32⟩ : BufTy).Contents (Elt F) → (⟨S100000x64, .f32⟩ : BufTy).Contents (Elt F) → (⟨S100000x64, .f32⟩ : BufTy).Contents (Elt F)),
    binary main_v255 main_v260 main_v261 (addf : (⟨S100000x64, .f32⟩ : BufTy).Contents (Elt F) → (⟨S100000x64, .f32⟩ : BufTy).Contents (Elt F) → (⟨S100000x64, .f32⟩ : BufTy).Contents (Elt F)),
    unary main_arg7 main_v262 ((extractStridedSlice S1x64 ![1, 0] · slices_S4x64_S1x64_1_0) : (⟨S4x64, .f32⟩ : BufTy).Contents (Elt F) → (⟨S1x64, .f32⟩ : BufTy).Contents (Elt F)),
    reshape main_v262 main_v263 rfl shapeCasts_S1x64_S64,
    unary main_v263 main_v264 (broadcastInDim S1x64 ![1] bcast_S64_S1x64_1 : (⟨S64, .f32⟩ : BufTy).Contents (Elt F) → (⟨S1x64, .f32⟩ : BufTy).Contents (Elt F)),
    unary main_v264 main_v265 (broadcastInDim S100000x64 ![0, 1] bcast_S1x64_S100000x64_0_1 : (⟨S1x64, .f32⟩ : BufTy).Contents (Elt F) → (⟨S100000x64, .f32⟩ : BufTy).Contents (Elt F)),
    binary main_v261 main_v265 main_v266 (addf : (⟨S100000x64, .f32⟩ : BufTy).Contents (Elt F) → (⟨S100000x64, .f32⟩ : BufTy).Contents (Elt F) → (⟨S100000x64, .f32⟩ : BufTy).Contents (Elt F)),
    unary main_v266 main_v267 (Host.negf : (⟨S100000x64, .f32⟩ : BufTy).Contents (Elt F) → (⟨S100000x64, .f32⟩ : BufTy).Contents (Elt F)),
    unary main_v267 main_v268 (Host.exp : (⟨S100000x64, .f32⟩ : BufTy).Contents (Elt F) → (⟨S100000x64, .f32⟩ : BufTy).Contents (Elt F)),
    nullary main_cst_39 (constant S_ .f32 0x3F800000#32),
    unary main_cst_39 main_v269 (broadcastInDim S100000x64 ![] bcast_S_S100000x64 : (⟨S_, .f32⟩ : BufTy).Contents (Elt F) → (⟨S100000x64, .f32⟩ : BufTy).Contents (Elt F)),
    binary main_v269 main_v268 main_v270 (addf : (⟨S100000x64, .f32⟩ : BufTy).Contents (Elt F) → (⟨S100000x64, .f32⟩ : BufTy).Contents (Elt F) → (⟨S100000x64, .f32⟩ : BufTy).Contents (Elt F)),
    nullary main_cst_40 (constant S_ .f32 0x3F800000#32),
    unary main_cst_40 main_v271 (broadcastInDim S100000x64 ![] bcast_S_S100000x64 : (⟨S_, .f32⟩ : BufTy).Contents (Elt F) → (⟨S100000x64, .f32⟩ : BufTy).Contents (Elt F)),
    binary main_v271 main_v270 main_v272 (Host.divf : (⟨S100000x64, .f32⟩ : BufTy).Contents (Elt F) → (⟨S100000x64, .f32⟩ : BufTy).Contents (Elt F) → (⟨S100000x64, .f32⟩ : BufTy).Contents (Elt F)),
    binary main_v272 main_arg11 main_v273 (mulf : (⟨S100000x64, .f32⟩ : BufTy).Contents (Elt F) → (⟨S100000x64, .f32⟩ : BufTy).Contents (Elt F) → (⟨S100000x64, .f32⟩ : BufTy).Contents (Elt F)),
    unary main_arg2 main_v274 ((extractStridedSlice S1x3x64x64 ![2, 0, 0, 0] · slices_S4x3x64x64_S1x3x64x64_2_0_0_0) : (⟨S4x3x64x64, .f32⟩ : BufTy).Contents (Elt F) → (⟨S1x3x64x64, .f32⟩ : BufTy).Contents (Elt F)),
    reshape main_v274 main_v275 rfl shapeCasts_S1x3x64x64_S3x64x64,
    unary main_arg3 main_v276 ((extractStridedSlice S1x64 ![2, 0] · slices_S4x64_S1x64_2_0) : (⟨S4x64, .f32⟩ : BufTy).Contents (Elt F) → (⟨S1x64, .f32⟩ : BufTy).Contents (Elt F)),
    reshape main_v276 main_v277 rfl shapeCasts_S1x64_S64,
    unary main_v275 main_v278 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v278 main_v279 rfl shapeCasts_S1x64x64_S64x64,
    binary main_arg0 main_v279 main_v280 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_41 (constantI S_ 32 0#32),
    unary main_c_41 main_v281 (broadcastInDim S1600000 ![] bcast_S_S1600000 : (⟨S_, .i32⟩ : BufTy).Contents (Elt F) → (⟨S1600000, .i32⟩ : BufTy).Contents (Elt F)),
    binary main_v1 main_v281 main_v282 (cmpi .slt : (⟨S1600000, .i32⟩ : BufTy).Contents (Elt F) → (⟨S1600000, .i32⟩ : BufTy).Contents (Elt F) → (⟨S1600000, .i1⟩ : BufTy).Contents (Elt F)),
    nullary main_c_42 (constantI S_ 32 100000#32),
    unary main_c_42 main_v283 (broadcastInDim S1600000 ![] bcast_S_S1600000 : (⟨S_, .i32⟩ : BufTy).Contents (Elt F) → (⟨S1600000, .i32⟩ : BufTy).Contents (Elt F)),
    binary main_v1 main_v283 main_v284 (addi : (⟨S1600000, .i32⟩ : BufTy).Contents (Elt F) → (⟨S1600000, .i32⟩ : BufTy).Contents (Elt F) → (⟨S1600000, .i32⟩ : BufTy).Contents (Elt F)),
    ternary main_v282 main_v284 main_v1 main_v285 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v285 main_v286 (broadcastInDim S1600000x1 ![0] bcast_S1600000_S1600000x1_0 : (⟨S1600000, .i32⟩ : BufTy).Contents (Elt F) → (⟨S1600000x1, .i32⟩ : BufTy).Contents (Elt F)),
    binary main_arg0 main_v286 main_v287 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_43 (constant S_ .f32 0x00000000#32),
    unary main_cst_43 main_v288 (broadcastInDim S100000x64 ![] bcast_S_S100000x64 : (⟨S_, .f32⟩ : BufTy).Contents (Elt F) → (⟨S100000x64, .f32⟩ : BufTy).Contents (Elt F)),
    unary main_v3 main_v289 (broadcastInDim S1600000x1 ![0] bcast_S1600000_S1600000x1_0 : (⟨S1600000, .i32⟩ : BufTy).Contents (Elt F) → (⟨S1600000x1, .i32⟩ : BufTy).Contents (Elt F)),
    ternary main_v288 main_v289 main_v287 main_v290 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_44 (constant S_ .f32 0x40000000#32),
    binary main_cst_44 main_v8 main_v291 (Host.divf : (⟨S_, .f32⟩ : BufTy).Contents (Elt F) → (⟨S_, .f32⟩ : BufTy).Contents (Elt F) → (⟨S_, .f32⟩ : BufTy).Contents (Elt F)),
    unary main_v7 main_v292 (broadcastInDim S100000x1 ![0] bcast_S100000_S100000x1_0 : (⟨S100000, .f32⟩ : BufTy).Contents (Elt F) → (⟨S100000x1, .f32⟩ : BufTy).Contents (Elt F)),
    unary main_v292 main_v293 (broadcastInDim S100000x64 ![0, 1] bcast_S100000x1_S100000x64_0_1 : (⟨S100000x1, .f32⟩ : BufTy).Contents (Elt F) → (⟨S100000x64, .f32⟩ : BufTy).Contents (Elt F)),
    binary main_v293 main_arg0 main_v294 (mulf : (⟨S100000x64, .f32⟩ : BufTy).Contents (Elt F) → (⟨S100000x64, .f32⟩ : BufTy).Contents (Elt F) → (⟨S100000x64, .f32⟩ : BufTy).Contents (Elt F)),
    binary main_v294 main_v290 main_v295 (subf : (⟨S100000x64, .f32⟩ : BufTy).Contents (Elt F) → (⟨S100000x64, .f32⟩ : BufTy).Contents (Elt F) → (⟨S100000x64, .f32⟩ : BufTy).Contents (Elt F)),
    unary main_v291 main_v296 (broadcastInDim S100000x64 ![] bcast_S_S100000x64 : (⟨S_, .f32⟩ : BufTy).Contents (Elt F) → (⟨S100000x64, .f32⟩ : BufTy).Contents (Elt F)),
    binary main_v296 main_v295 main_v297 (mulf : (⟨S100000x64, .f32⟩ : BufTy).Contents (Elt F) → (⟨S100000x64, .f32⟩ : BufTy).Contents (Elt F) → (⟨S100000x64, .f32⟩ : BufTy).Contents (Elt F)),
    binary main_v297 main_arg0 main_v298 (subf : (⟨S100000x64, .f32⟩ : BufTy).Contents (Elt F) → (⟨S100000x64, .f32⟩ : BufTy).Contents (Elt F) → (⟨S100000x64, .f32⟩ : BufTy).Contents (Elt F)),
    unary main_v275 main_v299 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v299 main_v300 rfl shapeCasts_S1x64x64_S64x64,
    binary main_v298 main_v300 main_v301 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v280 main_v301 main_v302 (addf : (⟨S100000x64, .f32⟩ : BufTy).Contents (Elt F) → (⟨S100000x64, .f32⟩ : BufTy).Contents (Elt F) → (⟨S100000x64, .f32⟩ : BufTy).Contents (Elt F)),
    nullary main_c_45 (constantI S_ 32 0#32),
    unary main_c_45 main_v303 (broadcastInDim S1600000 ![] bcast_S_S1600000 : (⟨S_, .i32⟩ : BufTy).Contents (Elt F) → (⟨S1600000, .i32⟩ : BufTy).Contents (Elt F)),
    binary main_v1 main_v303 main_v304 (cmpi .slt : (⟨S1600000, .i32⟩ : BufTy).Contents (Elt F) → (⟨S1600000, .i32⟩ : BufTy).Contents (Elt F) → (⟨S1600000, .i1⟩ : BufTy).Contents (Elt F)),
    nullary main_c_46 (constantI S_ 32 100000#32),
    unary main_c_46 main_v305 (broadcastInDim S1600000 ![] bcast_S_S1600000 : (⟨S_, .i32⟩ : BufTy).Contents (Elt F) → (⟨S1600000, .i32⟩ : BufTy).Contents (Elt F)),
    binary main_v1 main_v305 main_v306 (addi : (⟨S1600000, .i32⟩ : BufTy).Contents (Elt F) → (⟨S1600000, .i32⟩ : BufTy).Contents (Elt F) → (⟨S1600000, .i32⟩ : BufTy).Contents (Elt F)),
    ternary main_v304 main_v306 main_v1 main_v307 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v307 main_v308 (broadcastInDim S1600000x1 ![0] bcast_S1600000_S1600000x1_0 : (⟨S1600000, .i32⟩ : BufTy).Contents (Elt F) → (⟨S1600000x1, .i32⟩ : BufTy).Contents (Elt F)),
    binary main_v298 main_v308 main_v309 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_47 (constant S_ .f32 0x00000000#32) ]

set_option maxRecDepth 8192 in
set_option maxHeartbeats 4000000 in
theorem part5_eq (c : Dev nD) : main_part5 (F := F) c = seq ops5 := rfl

set_option maxRecDepth 8192 in
theorem sub5 : (ops5 : List (HloOp τ sig (Elt F))).Forall fun op => op.bufs ⊆ tcRefs τ sig :=
  ⟨unary_bufs_sub .., binary_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., binary_bufs_sub .., unary_bufs_sub .., unary_bufs_sub .., binary_bufs_sub .., binary_bufs_sub .., unary_bufs_sub .., binary_bufs_sub .., binary_bufs_sub .., unary_bufs_sub .., reshape_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub ..⟩

set_option maxRecDepth 8192 in
set_option maxHeartbeats 4000000 in
theorem fresh5 : ∀ op ∈ (ops5 : List (HloOp τ sig (Elt F))), op.fresh = ∅ := by
  intro _ h; (repeat (cases h with | head => rfl | tail _ h => ?_)); exact nomatch h

/-- The buffers window 5 defines. -/
abbrev W5 : List (Ref sig .tc) := [main_v259, main_v260, main_v261, main_v262, main_v263, main_v264, main_v265, main_v266, main_v267, main_v268, main_cst_39, main_v269, main_v270, main_cst_40, main_v271, main_v272, main_v273, main_v274, main_v275, main_v276, main_v277, main_v278, main_v279, main_v280, main_c_41, main_v281, main_v282, main_c_42, main_v283, main_v284, main_v285, main_v286, main_v287, main_cst_43, main_v288, main_v289, main_v290, main_cst_44, main_v291, main_v292, main_v293, main_v294, main_v295, main_v296, main_v297, main_v298, main_v299, main_v300, main_v301, main_v302, main_c_45, main_v303, main_v304, main_c_46, main_v305, main_v306, main_v307, main_v308, main_v309, main_cst_47]

set_option maxRecDepth 8192 in
set_option maxHeartbeats 4000000 in
theorem writes5 : (ops5 : List (HloOp τ sig (Elt F))).Forall fun op =>
    op.writes ⊆ (W5.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer window 5 does not define keeps its contents across it. -/
theorem keep5 (V : Valuation τ sig (Elt F)) (b : Ref sig .tc) (hb : b ∉ W5) :
    after (ops5 (F := F)) V (Proc.devRef .tc b) = V (Proc.devRef .tc b) :=
  after_of_writes_sub ops5 V writes5 hb

/-- The operations of window 6. -/
abbrev ops6 : List (HloOp τ sig (Elt F)) :=
  [ unary main_cst_47 main_v310 (broadcastInDim S100000x64 ![] bcast_S_S100000x64 : (⟨S_, .f32⟩ : BufTy).Contents (Elt F) → (⟨S100000x64, .f32⟩ : BufTy).Contents (Elt F)),
    unary main_v3 main_v311 (broadcastInDim S1600000x1 ![0] bcast_S1600000_S1600000x1_0 : (⟨S1600000, .i32⟩ : BufTy).Contents (Elt F) → (⟨S1600000x1, .i32⟩ : BufTy).Contents (Elt F)),
    ternary main_v310 main_v311 main_v309 main_v312 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_48 (constant S_ .f32 0x40000000#32),
    binary main_cst_48 main_v8 main_v313 (Host.divf : (⟨S_, .f32⟩ : BufTy).Contents (Elt F) → (⟨S_, .f32⟩ : BufTy).Contents (Elt F) → (⟨S_, .f32⟩ : BufTy).Contents (Elt F)),
    unary main_v7 main_v314 (broadcastInDim S100000x1 ![0] bcast_S100000_S100000x1_0 : (⟨S100000, .f32⟩ : BufTy).Contents (Elt F) → (⟨S100000x1, .f32⟩ : BufTy).Contents (Elt F)),
    unary main_v314 main_v315 (broadcastInDim S100000x64 ![0, 1] bcast_S100000x1_S100000x64_0_1 : (⟨S100000x1, .f32⟩ : BufTy).Contents (Elt F) → (⟨S100000x64, .f32⟩ : BufTy).Contents (Elt F)),
    binary main_v315 main_v298 main_v316 (mulf : (⟨S100000x64, .f32⟩ : BufTy).Contents (Elt F) → (⟨S100000x64, .f32⟩ : BufTy).Contents (Elt F) → (⟨S100000x64, .f32⟩ : BufTy).Contents (Elt F)),
    binary main_v316 main_v312 main_v317 (subf : (⟨S100000x64, .f32⟩ : BufTy).Contents (Elt F) → (⟨S100000x64, .f32⟩ : BufTy).Contents (Elt F) → (⟨S100000x64, .f32⟩ : BufTy).Contents (Elt F)),
    unary main_v313 main_v318 (broadcastInDim S100000x64 ![] bcast_S_S100000x64 : (⟨S_, .f32⟩ : BufTy).Contents (Elt F) → (⟨S100000x64, .f32⟩ : BufTy).Contents (Elt F)),
    binary main_v318 main_v317 main_v319 (mulf : (⟨S100000x64, .f32⟩ : BufTy).Contents (Elt F) → (⟨S100000x64, .f32⟩ : BufTy).Contents (Elt F) → (⟨S100000x64, .f32⟩ : BufTy).Contents (Elt F)),
    binary main_v319 main_v298 main_v320 (subf : (⟨S100000x64, .f32⟩ : BufTy).Contents (Elt F) → (⟨S100000x64, .f32⟩ : BufTy).Contents (Elt F) → (⟨S100000x64, .f32⟩ : BufTy).Contents (Elt F)),
    nullary main_cst_49 (constant S_ .f32 0x40000000#32),
    unary main_cst_49 main_v321 (broadcastInDim S100000x64 ![] bcast_S_S100000x64 : (⟨S_, .f32⟩ : BufTy).Contents (Elt F) → (⟨S100000x64, .f32⟩ : BufTy).Contents (Elt F)),
    binary main_v321 main_v320 main_v322 (mulf : (⟨S100000x64, .f32⟩ : BufTy).Contents (Elt F) → (⟨S100000x64, .f32⟩ : BufTy).Contents (Elt F) → (⟨S100000x64, .f32⟩ : BufTy).Contents (Elt F)),
    binary main_v322 main_arg0 main_v323 (subf : (⟨S100000x64, .f32⟩ : BufTy).Contents (Elt F) → (⟨S100000x64, .f32⟩ : BufTy).Contents (Elt F) → (⟨S100000x64, .f32⟩ : BufTy).Contents (Elt F)),
    unary main_v275 main_v324 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v324 main_v325 rfl shapeCasts_S1x64x64_S64x64,
    binary main_v323 main_v325 main_v326 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v302 main_v326 main_v327 (addf : (⟨S100000x64, .f32⟩ : BufTy).Contents (Elt F) → (⟨S100000x64, .f32⟩ : BufTy).Contents (Elt F) → (⟨S100000x64, .f32⟩ : BufTy).Contents (Elt F)),
    unary main_v277 main_v328 (broadcastInDim S1x64 ![1] bcast_S64_S1x64_1 : (⟨S64, .f32⟩ : BufTy).Contents (Elt F) → (⟨S1x64, .f32⟩ : BufTy).Contents (Elt F)),
    unary main_v328 main_v329 (broadcastInDim S100000x64 ![0, 1] bcast_S1x64_S100000x64_0_1 : (⟨S1x64, .f32⟩ : BufTy).Contents (Elt F) → (⟨S100000x64, .f32⟩ : BufTy).Contents (Elt F)),
    binary main_v327 main_v329 main_v330 (addf : (⟨S100000x64, .f32⟩ : BufTy).Contents (Elt F) → (⟨S100000x64, .f32⟩ : BufTy).Contents (Elt F) → (⟨S100000x64, .f32⟩ : BufTy).Contents (Elt F)),
    unary main_arg4 main_v331 ((extractStridedSlice S1x3x64x64 ![2, 0, 0, 0] · slices_S4x3x64x64_S1x3x64x64_2_0_0_0) : (⟨S4x3x64x64, .f32⟩ : BufTy).Contents (Elt F) → (⟨S1x3x64x64, .f32⟩ : BufTy).Contents (Elt F)),
    reshape main_v331 main_v332 rfl shapeCasts_S1x3x64x64_S3x64x64,
    unary main_arg5 main_v333 ((extractStridedSlice S1x64 ![2, 0] · slices_S4x64_S1x64_2_0) : (⟨S4x64, .f32⟩ : BufTy).Contents (Elt F) → (⟨S1x64, .f32⟩ : BufTy).Contents (Elt F)),
    reshape main_v333 main_v334 rfl shapeCasts_S1x64_S64,
    unary main_v332 main_v335 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v335 main_v336 rfl shapeCasts_S1x64x64_S64x64,
    binary main_arg10 main_v336 main_v337 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_50 (constantI S_ 32 0#32),
    unary main_c_50 main_v338 (broadcastInDim S1600000 ![] bcast_S_S1600000 : (⟨S_, .i32⟩ : BufTy).Contents (Elt F) → (⟨S1600000, .i32⟩ : BufTy).Contents (Elt F)),
    binary main_v1 main_v338 main_v339 (cmpi .slt : (⟨S1600000, .i32⟩ : BufTy).Contents (Elt F) → (⟨S1600000, .i32⟩ : BufTy).Contents (Elt F) → (⟨S1600000, .i1⟩ : BufTy).Contents (Elt F)),
    nullary main_c_51 (constantI S_ 32 100000#32),
    unary main_c_51 main_v340 (broadcastInDim S1600000 ![] bcast_S_S1600000 : (⟨S_, .i32⟩ : BufTy).Contents (Elt F) → (⟨S1600000, .i32⟩ : BufTy).Contents (Elt F)),
    binary main_v1 main_v340 main_v341 (addi : (⟨S1600000, .i32⟩ : BufTy).Contents (Elt F) → (⟨S1600000, .i32⟩ : BufTy).Contents (Elt F) → (⟨S1600000, .i32⟩ : BufTy).Contents (Elt F)),
    ternary main_v339 main_v341 main_v1 main_v342 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v342 main_v343 (broadcastInDim S1600000x1 ![0] bcast_S1600000_S1600000x1_0 : (⟨S1600000, .i32⟩ : BufTy).Contents (Elt F) → (⟨S1600000x1, .i32⟩ : BufTy).Contents (Elt F)),
    binary main_arg10 main_v343 main_v344 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_52 (constant S_ .f32 0x00000000#32),
    unary main_cst_52 main_v345 (broadcastInDim S100000x64 ![] bcast_S_S100000x64 : (⟨S_, .f32⟩ : BufTy).Contents (Elt F) → (⟨S100000x64, .f32⟩ : BufTy).Contents (Elt F)),
    unary main_v3 main_v346 (broadcastInDim S1600000x1 ![0] bcast_S1600000_S1600000x1_0 : (⟨S1600000, .i32⟩ : BufTy).Contents (Elt F) → (⟨S1600000x1, .i32⟩ : BufTy).Contents (Elt F)),
    ternary main_v345 main_v346 main_v344 main_v347 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_53 (constant S_ .f32 0x40000000#32),
    binary main_cst_53 main_v8 main_v348 (Host.divf : (⟨S_, .f32⟩ : BufTy).Contents (Elt F) → (⟨S_, .f32⟩ : BufTy).Contents (Elt F) → (⟨S_, .f32⟩ : BufTy).Contents (Elt F)),
    unary main_v7 main_v349 (broadcastInDim S100000x1 ![0] bcast_S100000_S100000x1_0 : (⟨S100000, .f32⟩ : BufTy).Contents (Elt F) → (⟨S100000x1, .f32⟩ : BufTy).Contents (Elt F)),
    unary main_v349 main_v350 (broadcastInDim S100000x64 ![0, 1] bcast_S100000x1_S100000x64_0_1 : (⟨S100000x1, .f32⟩ : BufTy).Contents (Elt F) → (⟨S100000x64, .f32⟩ : BufTy).Contents (Elt F)),
    binary main_v350 main_arg10 main_v351 (mulf : (⟨S100000x64, .f32⟩ : BufTy).Contents (Elt F) → (⟨S100000x64, .f32⟩ : BufTy).Contents (Elt F) → (⟨S100000x64, .f32⟩ : BufTy).Contents (Elt F)),
    binary main_v351 main_v347 main_v352 (subf : (⟨S100000x64, .f32⟩ : BufTy).Contents (Elt F) → (⟨S100000x64, .f32⟩ : BufTy).Contents (Elt F) → (⟨S100000x64, .f32⟩ : BufTy).Contents (Elt F)),
    unary main_v348 main_v353 (broadcastInDim S100000x64 ![] bcast_S_S100000x64 : (⟨S_, .f32⟩ : BufTy).Contents (Elt F) → (⟨S100000x64, .f32⟩ : BufTy).Contents (Elt F)),
    binary main_v353 main_v352 main_v354 (mulf : (⟨S100000x64, .f32⟩ : BufTy).Contents (Elt F) → (⟨S100000x64, .f32⟩ : BufTy).Contents (Elt F) → (⟨S100000x64, .f32⟩ : BufTy).Contents (Elt F)),
    binary main_v354 main_arg10 main_v355 (subf : (⟨S100000x64, .f32⟩ : BufTy).Contents (Elt F) → (⟨S100000x64, .f32⟩ : BufTy).Contents (Elt F) → (⟨S100000x64, .f32⟩ : BufTy).Contents (Elt F)),
    unary main_v332 main_v356 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v356 main_v357 rfl shapeCasts_S1x64x64_S64x64,
    binary main_v355 main_v357 main_v358 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v337 main_v358 main_v359 (addf : (⟨S100000x64, .f32⟩ : BufTy).Contents (Elt F) → (⟨S100000x64, .f32⟩ : BufTy).Contents (Elt F) → (⟨S100000x64, .f32⟩ : BufTy).Contents (Elt F)),
    nullary main_c_54 (constantI S_ 32 0#32),
    unary main_c_54 main_v360 (broadcastInDim S1600000 ![] bcast_S_S1600000 : (⟨S_, .i32⟩ : BufTy).Contents (Elt F) → (⟨S1600000, .i32⟩ : BufTy).Contents (Elt F)),
    binary main_v1 main_v360 main_v361 (cmpi .slt : (⟨S1600000, .i32⟩ : BufTy).Contents (Elt F) → (⟨S1600000, .i32⟩ : BufTy).Contents (Elt F) → (⟨S1600000, .i1⟩ : BufTy).Contents (Elt F)),
    nullary main_c_55 (constantI S_ 32 100000#32) ]

set_option maxRecDepth 8192 in
set_option maxHeartbeats 4000000 in
theorem part6_eq (c : Dev nD) : main_part6 (F := F) c = seq ops6 := rfl

set_option maxRecDepth 8192 in
theorem sub6 : (ops6 : List (HloOp τ sig (Elt F))).Forall fun op => op.bufs ⊆ tcRefs τ sig :=
  ⟨unary_bufs_sub .., unary_bufs_sub .., ternary_bufs_sub .., nullary_bufs_sub .., binary_bufs_sub .., unary_bufs_sub .., unary_bufs_sub .., binary_bufs_sub .., binary_bufs_sub .., unary_bufs_sub .., binary_bufs_sub .., binary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., unary_bufs_sub .., reshape_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., binary_bufs_sub .., unary_bufs_sub .., unary_bufs_sub .., binary_bufs_sub .., binary_bufs_sub .., unary_bufs_sub .., binary_bufs_sub .., binary_bufs_sub .., unary_bufs_sub .., reshape_bufs_sub .., binary_bufs_sub .., binary_bufs_sub .., nullary_bufs_sub .., unary_bufs_sub .., binary_bufs_sub .., nullary_bufs_sub ..⟩

set_option maxRecDepth 8192 in
set_option maxHeartbeats 4000000 in
theorem fresh6 : ∀ op ∈ (ops6 : List (HloOp τ sig (Elt F))), op.fresh = ∅ := by
  intro _ h; (repeat (cases h with | head => rfl | tail _ h => ?_)); exact nomatch h

/-- The buffers window 6 defines. -/
abbrev W6 : List (Ref sig .tc) := [main_v310, main_v311, main_v312, main_cst_48, main_v313, main_v314, main_v315, main_v316, main_v317, main_v318, main_v319, main_v320, main_cst_49, main_v321, main_v322, main_v323, main_v324, main_v325, main_v326, main_v327, main_v328, main_v329, main_v330, main_v331, main_v332, main_v333, main_v334, main_v335, main_v336, main_v337, main_c_50, main_v338, main_v339, main_c_51, main_v340, main_v341, main_v342, main_v343, main_v344, main_cst_52, main_v345, main_v346, main_v347, main_cst_53, main_v348, main_v349, main_v350, main_v351, main_v352, main_v353, main_v354, main_v355, main_v356, main_v357, main_v358, main_v359, main_c_54, main_v360, main_v361, main_c_55]

set_option maxRecDepth 8192 in
set_option maxHeartbeats 4000000 in
theorem writes6 : (ops6 : List (HloOp τ sig (Elt F))).Forall fun op =>
    op.writes ⊆ (W6.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer window 6 does not define keeps its contents across it. -/
theorem keep6 (V : Valuation τ sig (Elt F)) (b : Ref sig .tc) (hb : b ∉ W6) :
    after (ops6 (F := F)) V (Proc.devRef .tc b) = V (Proc.devRef .tc b) :=
  after_of_writes_sub ops6 V writes6 hb

/-- The operations of window 7. -/
abbrev ops7 : List (HloOp τ sig (Elt F)) :=
  [ unary main_c_55 main_v362 (broadcastInDim S1600000 ![] bcast_S_S1600000 : (⟨S_, .i32⟩ : BufTy).Contents (Elt F) → (⟨S1600000, .i32⟩ : BufTy).Contents (Elt F)),
    binary main_v1 main_v362 main_v363 (addi : (⟨S1600000, .i32⟩ : BufTy).Contents (Elt F) → (⟨S1600000, .i32⟩ : BufTy).Contents (Elt F) → (⟨S1600000, .i32⟩ : BufTy).Contents (Elt F)),
    ternary main_v361 main_v363 main_v1 main_v364 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v364 main_v365 (broadcastInDim S1600000x1 ![0] bcast_S1600000_S1600000x1_0 : (⟨S1600000, .i32⟩ : BufTy).Contents (Elt F) → (⟨S1600000x1, .i32⟩ : BufTy).Contents (Elt F)),
    binary main_v355 main_v365 main_v366 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_56 (constant S_ .f32 0x00000000#32),
    unary main_cst_56 main_v367 (broadcastInDim S100000x64 ![] bcast_S_S100000x64 : (⟨S_, .f32⟩ : BufTy).Contents (Elt F) → (⟨S100000x64, .f32⟩ : BufTy).Contents (Elt F)),
    unary main_v3 main_v368 (broadcastInDim S1600000x1 ![0] bcast_S1600000_S1600000x1_0 : (⟨S1600000, .i32⟩ : BufTy).Contents (Elt F) → (⟨S1600000x1, .i32⟩ : BufTy).Contents (Elt F)),
    ternary main_v367 main_v368 main_v366 main_v369 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_57 (constant S_ .f32 0x40000000#32),
    binary main_cst_57 main_v8 main_v370 (Host.divf : (⟨S_, .f32⟩ : BufTy).Contents (Elt F) → (⟨S_, .f32⟩ : BufTy).Contents (Elt F) → (⟨S_, .f32⟩ : BufTy).Contents (Elt F)),
    unary main_v7 main_v371 (broadcastInDim S100000x1 ![0] bcast_S100000_S100000x1_0 : (⟨S100000, .f32⟩ : BufTy).Contents (Elt F) → (⟨S100000x1, .f32⟩ : BufTy).Contents (Elt F)),
    unary main_v371 main_v372 (broadcastInDim S100000x64 ![0, 1] bcast_S100000x1_S100000x64_0_1 : (⟨S100000x1, .f32⟩ : BufTy).Contents (Elt F) → (⟨S100000x64, .f32⟩ : BufTy).Contents (Elt F)),
    binary main_v372 main_v355 main_v373 (mulf : (⟨S100000x64, .f32⟩ : BufTy).Contents (Elt F) → (⟨S100000x64, .f32⟩ : BufTy).Contents (Elt F) → (⟨S100000x64, .f32⟩ : BufTy).Contents (Elt F)),
    binary main_v373 main_v369 main_v374 (subf : (⟨S100000x64, .f32⟩ : BufTy).Contents (Elt F) → (⟨S100000x64, .f32⟩ : BufTy).Contents (Elt F) → (⟨S100000x64, .f32⟩ : BufTy).Contents (Elt F)),
    unary main_v370 main_v375 (broadcastInDim S100000x64 ![] bcast_S_S100000x64 : (⟨S_, .f32⟩ : BufTy).Contents (Elt F) → (⟨S100000x64, .f32⟩ : BufTy).Contents (Elt F)),
    binary main_v375 main_v374 main_v376 (mulf : (⟨S100000x64, .f32⟩ : BufTy).Contents (Elt F) → (⟨S100000x64, .f32⟩ : BufTy).Contents (Elt F) → (⟨S100000x64, .f32⟩ : BufTy).Contents (Elt F)),
    binary main_v376 main_v355 main_v377 (subf : (⟨S100000x64, .f32⟩ : BufTy).Contents (Elt F) → (⟨S100000x64, .f32⟩ : BufTy).Contents (Elt F) → (⟨S100000x64, .f32⟩ : BufTy).Contents (Elt F)),
    nullary main_cst_58 (constant S_ .f32 0x40000000#32),
    unary main_cst_58 main_v378 (broadcastInDim S100000x64 ![] bcast_S_S100000x64 : (⟨S_, .f32⟩ : BufTy).Contents (Elt F) → (⟨S100000x64, .f32⟩ : BufTy).Contents (Elt F)),
    binary main_v378 main_v377 main_v379 (mulf : (⟨S100000x64, .f32⟩ : BufTy).Contents (Elt F) → (⟨S100000x64, .f32⟩ : BufTy).Contents (Elt F) → (⟨S100000x64, .f32⟩ : BufTy).Contents (Elt F)),
    binary main_v379 main_arg10 main_v380 (subf : (⟨S100000x64, .f32⟩ : BufTy).Contents (Elt F) → (⟨S100000x64, .f32⟩ : BufTy).Contents (Elt F) → (⟨S100000x64, .f32⟩ : BufTy).Contents (Elt F)),
    unary main_v332 main_v381 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v381 main_v382 rfl shapeCasts_S1x64x64_S64x64,
    binary main_v380 main_v382 main_v383 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v359 main_v383 main_v384 (addf : (⟨S100000x64, .f32⟩ : BufTy).Contents (Elt F) → (⟨S100000x64, .f32⟩ : BufTy).Contents (Elt F) → (⟨S100000x64, .f32⟩ : BufTy).Contents (Elt F)),
    unary main_v334 main_v385 (broadcastInDim S1x64 ![1] bcast_S64_S1x64_1 : (⟨S64, .f32⟩ : BufTy).Contents (Elt F) → (⟨S1x64, .f32⟩ : BufTy).Contents (Elt F)),
    unary main_v385 main_v386 (broadcastInDim S100000x64 ![0, 1] bcast_S1x64_S100000x64_0_1 : (⟨S1x64, .f32⟩ : BufTy).Contents (Elt F) → (⟨S100000x64, .f32⟩ : BufTy).Contents (Elt F)),
    binary main_v384 main_v386 main_v387 (addf : (⟨S100000x64, .f32⟩ : BufTy).Contents (Elt F) → (⟨S100000x64, .f32⟩ : BufTy).Contents (Elt F) → (⟨S100000x64, .f32⟩ : BufTy).Contents (Elt F)),
    binary main_v330 main_v387 main_v388 (addf : (⟨S100000x64, .f32⟩ : BufTy).Contents (Elt F) → (⟨S100000x64, .f32⟩ : BufTy).Contents (Elt F) → (⟨S100000x64, .f32⟩ : BufTy).Contents (Elt F)),
    unary main_arg7 main_v389 ((extractStridedSlice S1x64 ![2, 0] · slices_S4x64_S1x64_2_0) : (⟨S4x64, .f32⟩ : BufTy).Contents (Elt F) → (⟨S1x64, .f32⟩ : BufTy).Contents (Elt F)),
    reshape main_v389 main_v390 rfl shapeCasts_S1x64_S64,
    unary main_v390 main_v391 (broadcastInDim S1x64 ![1] bcast_S64_S1x64_1 : (⟨S64, .f32⟩ : BufTy).Contents (Elt F) → (⟨S1x64, .f32⟩ : BufTy).Contents (Elt F)),
    unary main_v391 main_v392 (broadcastInDim S100000x64 ![0, 1] bcast_S1x64_S100000x64_0_1 : (⟨S1x64, .f32⟩ : BufTy).Contents (Elt F) → (⟨S100000x64, .f32⟩ : BufTy).Contents (Elt F)),
    binary main_v388 main_v392 main_v393 (addf : (⟨S100000x64, .f32⟩ : BufTy).Contents (Elt F) → (⟨S100000x64, .f32⟩ : BufTy).Contents (Elt F) → (⟨S100000x64, .f32⟩ : BufTy).Contents (Elt F)),
    unary main_v393 main_v394 (Host.tanh : (⟨S100000x64, .f32⟩ : BufTy).Contents (Elt F) → (⟨S100000x64, .f32⟩ : BufTy).Contents (Elt F)),
    binary main_v140 main_v394 main_v395 (mulf : (⟨S100000x64, .f32⟩ : BufTy).Contents (Elt F) → (⟨S100000x64, .f32⟩ : BufTy).Contents (Elt F) → (⟨S100000x64, .f32⟩ : BufTy).Contents (Elt F)),
    binary main_v273 main_v395 main_v396 (addf : (⟨S100000x64, .f32⟩ : BufTy).Contents (Elt F) → (⟨S100000x64, .f32⟩ : BufTy).Contents (Elt F) → (⟨S100000x64, .f32⟩ : BufTy).Contents (Elt F)),
    unary main_arg2 main_v397 ((extractStridedSlice S1x3x64x64 ![3, 0, 0, 0] · slices_S4x3x64x64_S1x3x64x64_3_0_0_0) : (⟨S4x3x64x64, .f32⟩ : BufTy).Contents (Elt F) → (⟨S1x3x64x64, .f32⟩ : BufTy).Contents (Elt F)),
    reshape main_v397 main_v398 rfl shapeCasts_S1x3x64x64_S3x64x64,
    unary main_arg3 main_v399 ((extractStridedSlice S1x64 ![3, 0] · slices_S4x64_S1x64_3_0) : (⟨S4x64, .f32⟩ : BufTy).Contents (Elt F) → (⟨S1x64, .f32⟩ : BufTy).Contents (Elt F)),
    reshape main_v399 main_v400 rfl shapeCasts_S1x64_S64,
    unary main_v398 main_v401 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v401 main_v402 rfl shapeCasts_S1x64x64_S64x64,
    binary main_arg0 main_v402 main_v403 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_59 (constantI S_ 32 0#32),
    unary main_c_59 main_v404 (broadcastInDim S1600000 ![] bcast_S_S1600000 : (⟨S_, .i32⟩ : BufTy).Contents (Elt F) → (⟨S1600000, .i32⟩ : BufTy).Contents (Elt F)),
    binary main_v1 main_v404 main_v405 (cmpi .slt : (⟨S1600000, .i32⟩ : BufTy).Contents (Elt F) → (⟨S1600000, .i32⟩ : BufTy).Contents (Elt F) → (⟨S1600000, .i1⟩ : BufTy).Contents (Elt F)),
    nullary main_c_60 (constantI S_ 32 100000#32),
    unary main_c_60 main_v406 (broadcastInDim S1600000 ![] bcast_S_S1600000 : (⟨S_, .i32⟩ : BufTy).Contents (Elt F) → (⟨S1600000, .i32⟩ : BufTy).Contents (Elt F)),
    binary main_v1 main_v406 main_v407 (addi : (⟨S1600000, .i32⟩ : BufTy).Contents (Elt F) → (⟨S1600000, .i32⟩ : BufTy).Contents (Elt F) → (⟨S1600000, .i32⟩ : BufTy).Contents (Elt F)),
    ternary main_v405 main_v407 main_v1 main_v408 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v408 main_v409 (broadcastInDim S1600000x1 ![0] bcast_S1600000_S1600000x1_0 : (⟨S1600000, .i32⟩ : BufTy).Contents (Elt F) → (⟨S1600000x1, .i32⟩ : BufTy).Contents (Elt F)),
    binary main_arg0 main_v409 main_v410 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_61 (constant S_ .f32 0x00000000#32),
    unary main_cst_61 main_v411 (broadcastInDim S100000x64 ![] bcast_S_S100000x64 : (⟨S_, .f32⟩ : BufTy).Contents (Elt F) → (⟨S100000x64, .f32⟩ : BufTy).Contents (Elt F)),
    unary main_v3 main_v412 (broadcastInDim S1600000x1 ![0] bcast_S1600000_S1600000x1_0 : (⟨S1600000, .i32⟩ : BufTy).Contents (Elt F) → (⟨S1600000x1, .i32⟩ : BufTy).Contents (Elt F)),
    ternary main_v411 main_v412 main_v410 main_v413 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_62 (constant S_ .f32 0x40000000#32),
    binary main_cst_62 main_v8 main_v414 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem part7_eq (c : Dev nD) : main_part7 (F := F) c = seq ops7 := rfl

set_option maxRecDepth 8192 in
theorem sub7 : (ops7 : List (HloOp τ sig (Elt F))).Forall fun op => op.bufs ⊆ tcRefs τ sig :=
  ⟨unary_bufs_sub .., binary_bufs_sub .., ternary_bufs_sub .., unary_bufs_sub .., binary_bufs_sub .., nullary_bufs_sub .., unary_bufs_sub .., unary_bufs_sub .., ternary_bufs_sub .., nullary_bufs_sub .., binary_bufs_sub .., unary_bufs_sub .., unary_bufs_sub .., binary_bufs_sub .., binary_bufs_sub .., unary_bufs_sub .., binary_bufs_sub .., binary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., binary_bufs_sub .., unary_bufs_sub .., reshape_bufs_sub .., unary_bufs_sub .., unary_bufs_sub .., binary_bufs_sub .., unary_bufs_sub .., binary_bufs_sub .., binary_bufs_sub .., unary_bufs_sub .., reshape_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., binary_bufs_sub ..⟩

set_option maxRecDepth 8192 in
set_option maxHeartbeats 4000000 in
theorem fresh7 : ∀ op ∈ (ops7 : List (HloOp τ sig (Elt F))), op.fresh = ∅ := by
  intro _ h; (repeat (cases h with | head => rfl | tail _ h => ?_)); exact nomatch h

/-- The buffers window 7 defines. -/
abbrev W7 : List (Ref sig .tc) := [main_v362, main_v363, main_v364, main_v365, main_v366, main_cst_56, main_v367, main_v368, main_v369, main_cst_57, main_v370, main_v371, main_v372, main_v373, main_v374, main_v375, main_v376, main_v377, main_cst_58, main_v378, main_v379, main_v380, main_v381, main_v382, main_v383, main_v384, main_v385, main_v386, main_v387, main_v388, main_v389, main_v390, main_v391, main_v392, main_v393, main_v394, main_v395, main_v396, main_v397, main_v398, main_v399, main_v400, main_v401, main_v402, main_v403, main_c_59, main_v404, main_v405, main_c_60, main_v406, main_v407, main_v408, main_v409, main_v410, main_cst_61, main_v411, main_v412, main_v413, main_cst_62, main_v414]

set_option maxRecDepth 8192 in
set_option maxHeartbeats 4000000 in
theorem writes7 : (ops7 : List (HloOp τ sig (Elt F))).Forall fun op =>
    op.writes ⊆ (W7.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer window 7 does not define keeps its contents across it. -/
theorem keep7 (V : Valuation τ sig (Elt F)) (b : Ref sig .tc) (hb : b ∉ W7) :
    after (ops7 (F := F)) V (Proc.devRef .tc b) = V (Proc.devRef .tc b) :=
  after_of_writes_sub ops7 V writes7 hb

/-- The operations of window 8. -/
abbrev ops8 : List (HloOp τ sig (Elt F)) :=
  [ unary main_v7 main_v415 (broadcastInDim S100000x1 ![0] bcast_S100000_S100000x1_0 : (⟨S100000, .f32⟩ : BufTy).Contents (Elt F) → (⟨S100000x1, .f32⟩ : BufTy).Contents (Elt F)),
    unary main_v415 main_v416 (broadcastInDim S100000x64 ![0, 1] bcast_S100000x1_S100000x64_0_1 : (⟨S100000x1, .f32⟩ : BufTy).Contents (Elt F) → (⟨S100000x64, .f32⟩ : BufTy).Contents (Elt F)),
    binary main_v416 main_arg0 main_v417 (mulf : (⟨S100000x64, .f32⟩ : BufTy).Contents (Elt F) → (⟨S100000x64, .f32⟩ : BufTy).Contents (Elt F) → (⟨S100000x64, .f32⟩ : BufTy).Contents (Elt F)),
    binary main_v417 main_v413 main_v418 (subf : (⟨S100000x64, .f32⟩ : BufTy).Contents (Elt F) → (⟨S100000x64, .f32⟩ : BufTy).Contents (Elt F) → (⟨S100000x64, .f32⟩ : BufTy).Contents (Elt F)),
    unary main_v414 main_v419 (broadcastInDim S100000x64 ![] bcast_S_S100000x64 : (⟨S_, .f32⟩ : BufTy).Contents (Elt F) → (⟨S100000x64, .f32⟩ : BufTy).Contents (Elt F)),
    binary main_v419 main_v418 main_v420 (mulf : (⟨S100000x64, .f32⟩ : BufTy).Contents (Elt F) → (⟨S100000x64, .f32⟩ : BufTy).Contents (Elt F) → (⟨S100000x64, .f32⟩ : BufTy).Contents (Elt F)),
    binary main_v420 main_arg0 main_v421 (subf : (⟨S100000x64, .f32⟩ : BufTy).Contents (Elt F) → (⟨S100000x64, .f32⟩ : BufTy).Contents (Elt F) → (⟨S100000x64, .f32⟩ : BufTy).Contents (Elt F)),
    unary main_v398 main_v422 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v422 main_v423 rfl shapeCasts_S1x64x64_S64x64,
    binary main_v421 main_v423 main_v424 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v403 main_v424 main_v425 (addf : (⟨S100000x64, .f32⟩ : BufTy).Contents (Elt F) → (⟨S100000x64, .f32⟩ : BufTy).Contents (Elt F) → (⟨S100000x64, .f32⟩ : BufTy).Contents (Elt F)),
    nullary main_c_63 (constantI S_ 32 0#32),
    unary main_c_63 main_v426 (broadcastInDim S1600000 ![] bcast_S_S1600000 : (⟨S_, .i32⟩ : BufTy).Contents (Elt F) → (⟨S1600000, .i32⟩ : BufTy).Contents (Elt F)),
    binary main_v1 main_v426 main_v427 (cmpi .slt : (⟨S1600000, .i32⟩ : BufTy).Contents (Elt F) → (⟨S1600000, .i32⟩ : BufTy).Contents (Elt F) → (⟨S1600000, .i1⟩ : BufTy).Contents (Elt F)),
    nullary main_c_64 (constantI S_ 32 100000#32),
    unary main_c_64 main_v428 (broadcastInDim S1600000 ![] bcast_S_S1600000 : (⟨S_, .i32⟩ : BufTy).Contents (Elt F) → (⟨S1600000, .i32⟩ : BufTy).Contents (Elt F)),
    binary main_v1 main_v428 main_v429 (addi : (⟨S1600000, .i32⟩ : BufTy).Contents (Elt F) → (⟨S1600000, .i32⟩ : BufTy).Contents (Elt F) → (⟨S1600000, .i32⟩ : BufTy).Contents (Elt F)),
    ternary main_v427 main_v429 main_v1 main_v430 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v430 main_v431 (broadcastInDim S1600000x1 ![0] bcast_S1600000_S1600000x1_0 : (⟨S1600000, .i32⟩ : BufTy).Contents (Elt F) → (⟨S1600000x1, .i32⟩ : BufTy).Contents (Elt F)),
    binary main_v421 main_v431 main_v432 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_65 (constant S_ .f32 0x00000000#32),
    unary main_cst_65 main_v433 (broadcastInDim S100000x64 ![] bcast_S_S100000x64 : (⟨S_, .f32⟩ : BufTy).Contents (Elt F) → (⟨S100000x64, .f32⟩ : BufTy).Contents (Elt F)),
    unary main_v3 main_v434 (broadcastInDim S1600000x1 ![0] bcast_S1600000_S1600000x1_0 : (⟨S1600000, .i32⟩ : BufTy).Contents (Elt F) → (⟨S1600000x1, .i32⟩ : BufTy).Contents (Elt F)),
    ternary main_v433 main_v434 main_v432 main_v435 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_66 (constant S_ .f32 0x40000000#32),
    binary main_cst_66 main_v8 main_v436 (Host.divf : (⟨S_, .f32⟩ : BufTy).Contents (Elt F) → (⟨S_, .f32⟩ : BufTy).Contents (Elt F) → (⟨S_, .f32⟩ : BufTy).Contents (Elt F)),
    unary main_v7 main_v437 (broadcastInDim S100000x1 ![0] bcast_S100000_S100000x1_0 : (⟨S100000, .f32⟩ : BufTy).Contents (Elt F) → (⟨S100000x1, .f32⟩ : BufTy).Contents (Elt F)),
    unary main_v437 main_v438 (broadcastInDim S100000x64 ![0, 1] bcast_S100000x1_S100000x64_0_1 : (⟨S100000x1, .f32⟩ : BufTy).Contents (Elt F) → (⟨S100000x64, .f32⟩ : BufTy).Contents (Elt F)),
    binary main_v438 main_v421 main_v439 (mulf : (⟨S100000x64, .f32⟩ : BufTy).Contents (Elt F) → (⟨S100000x64, .f32⟩ : BufTy).Contents (Elt F) → (⟨S100000x64, .f32⟩ : BufTy).Contents (Elt F)),
    binary main_v439 main_v435 main_v440 (subf : (⟨S100000x64, .f32⟩ : BufTy).Contents (Elt F) → (⟨S100000x64, .f32⟩ : BufTy).Contents (Elt F) → (⟨S100000x64, .f32⟩ : BufTy).Contents (Elt F)),
    unary main_v436 main_v441 (broadcastInDim S100000x64 ![] bcast_S_S100000x64 : (⟨S_, .f32⟩ : BufTy).Contents (Elt F) → (⟨S100000x64, .f32⟩ : BufTy).Contents (Elt F)),
    binary main_v441 main_v440 main_v442 (mulf : (⟨S100000x64, .f32⟩ : BufTy).Contents (Elt F) → (⟨S100000x64, .f32⟩ : BufTy).Contents (Elt F) → (⟨S100000x64, .f32⟩ : BufTy).Contents (Elt F)),
    binary main_v442 main_v421 main_v443 (subf : (⟨S100000x64, .f32⟩ : BufTy).Contents (Elt F) → (⟨S100000x64, .f32⟩ : BufTy).Contents (Elt F) → (⟨S100000x64, .f32⟩ : BufTy).Contents (Elt F)),
    nullary main_cst_67 (constant S_ .f32 0x40000000#32),
    unary main_cst_67 main_v444 (broadcastInDim S100000x64 ![] bcast_S_S100000x64 : (⟨S_, .f32⟩ : BufTy).Contents (Elt F) → (⟨S100000x64, .f32⟩ : BufTy).Contents (Elt F)),
    binary main_v444 main_v443 main_v445 (mulf : (⟨S100000x64, .f32⟩ : BufTy).Contents (Elt F) → (⟨S100000x64, .f32⟩ : BufTy).Contents (Elt F) → (⟨S100000x64, .f32⟩ : BufTy).Contents (Elt F)),
    binary main_v445 main_arg0 main_v446 (subf : (⟨S100000x64, .f32⟩ : BufTy).Contents (Elt F) → (⟨S100000x64, .f32⟩ : BufTy).Contents (Elt F) → (⟨S100000x64, .f32⟩ : BufTy).Contents (Elt F)),
    unary main_v398 main_v447 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v447 main_v448 rfl shapeCasts_S1x64x64_S64x64,
    binary main_v446 main_v448 main_v449 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v425 main_v449 main_v450 (addf : (⟨S100000x64, .f32⟩ : BufTy).Contents (Elt F) → (⟨S100000x64, .f32⟩ : BufTy).Contents (Elt F) → (⟨S100000x64, .f32⟩ : BufTy).Contents (Elt F)),
    unary main_v400 main_v451 (broadcastInDim S1x64 ![1] bcast_S64_S1x64_1 : (⟨S64, .f32⟩ : BufTy).Contents (Elt F) → (⟨S1x64, .f32⟩ : BufTy).Contents (Elt F)),
    unary main_v451 main_v452 (broadcastInDim S100000x64 ![0, 1] bcast_S1x64_S100000x64_0_1 : (⟨S1x64, .f32⟩ : BufTy).Contents (Elt F) → (⟨S100000x64, .f32⟩ : BufTy).Contents (Elt F)),
    binary main_v450 main_v452 main_v453 (addf : (⟨S100000x64, .f32⟩ : BufTy).Contents (Elt F) → (⟨S100000x64, .f32⟩ : BufTy).Contents (Elt F) → (⟨S100000x64, .f32⟩ : BufTy).Contents (Elt F)),
    unary main_arg4 main_v454 ((extractStridedSlice S1x3x64x64 ![3, 0, 0, 0] · slices_S4x3x64x64_S1x3x64x64_3_0_0_0) : (⟨S4x3x64x64, .f32⟩ : BufTy).Contents (Elt F) → (⟨S1x3x64x64, .f32⟩ : BufTy).Contents (Elt F)),
    reshape main_v454 main_v455 rfl shapeCasts_S1x3x64x64_S3x64x64,
    unary main_arg5 main_v456 ((extractStridedSlice S1x64 ![3, 0] · slices_S4x64_S1x64_3_0) : (⟨S4x64, .f32⟩ : BufTy).Contents (Elt F) → (⟨S1x64, .f32⟩ : BufTy).Contents (Elt F)),
    reshape main_v456 main_v457 rfl shapeCasts_S1x64_S64,
    unary main_v455 main_v458 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v458 main_v459 rfl shapeCasts_S1x64x64_S64x64,
    binary main_arg10 main_v459 main_v460 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_68 (constantI S_ 32 0#32),
    unary main_c_68 main_v461 (broadcastInDim S1600000 ![] bcast_S_S1600000 : (⟨S_, .i32⟩ : BufTy).Contents (Elt F) → (⟨S1600000, .i32⟩ : BufTy).Contents (Elt F)),
    binary main_v1 main_v461 main_v462 (cmpi .slt : (⟨S1600000, .i32⟩ : BufTy).Contents (Elt F) → (⟨S1600000, .i32⟩ : BufTy).Contents (Elt F) → (⟨S1600000, .i1⟩ : BufTy).Contents (Elt F)),
    nullary main_c_69 (constantI S_ 32 100000#32),
    unary main_c_69 main_v463 (broadcastInDim S1600000 ![] bcast_S_S1600000 : (⟨S_, .i32⟩ : BufTy).Contents (Elt F) → (⟨S1600000, .i32⟩ : BufTy).Contents (Elt F)),
    binary main_v1 main_v463 main_v464 (addi : (⟨S1600000, .i32⟩ : BufTy).Contents (Elt F) → (⟨S1600000, .i32⟩ : BufTy).Contents (Elt F) → (⟨S1600000, .i32⟩ : BufTy).Contents (Elt F)),
    ternary main_v462 main_v464 main_v1 main_v465 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v465 main_v466 (broadcastInDim S1600000x1 ![0] bcast_S1600000_S1600000x1_0 : (⟨S1600000, .i32⟩ : BufTy).Contents (Elt F) → (⟨S1600000x1, .i32⟩ : BufTy).Contents (Elt F)),
    binary main_arg10 main_v466 main_v467 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)) ]

set_option maxRecDepth 8192 in
set_option maxHeartbeats 4000000 in
theorem part8_eq (c : Dev nD) : main_part8 (F := F) c = seq ops8 := rfl

set_option maxRecDepth 8192 in
theorem sub8 : (ops8 : List (HloOp τ sig (Elt F))).Forall fun op => op.bufs ⊆ tcRefs τ sig :=
  ⟨unary_bufs_sub .., unary_bufs_sub .., binary_bufs_sub .., binary_bufs_sub .., unary_bufs_sub .., binary_bufs_sub .., binary_bufs_sub .., unary_bufs_sub .., reshape_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., binary_bufs_sub .., unary_bufs_sub .., unary_bufs_sub .., binary_bufs_sub .., binary_bufs_sub .., unary_bufs_sub .., binary_bufs_sub .., binary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., unary_bufs_sub .., reshape_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

set_option maxRecDepth 8192 in
set_option maxHeartbeats 4000000 in
theorem fresh8 : ∀ op ∈ (ops8 : List (HloOp τ sig (Elt F))), op.fresh = ∅ := by
  intro _ h; (repeat (cases h with | head => rfl | tail _ h => ?_)); exact nomatch h

/-- The buffers window 8 defines. -/
abbrev W8 : List (Ref sig .tc) := [main_v415, main_v416, main_v417, main_v418, main_v419, main_v420, main_v421, main_v422, main_v423, main_v424, main_v425, main_c_63, main_v426, main_v427, main_c_64, main_v428, main_v429, main_v430, main_v431, main_v432, main_cst_65, main_v433, main_v434, main_v435, main_cst_66, main_v436, main_v437, main_v438, main_v439, main_v440, main_v441, main_v442, main_v443, main_cst_67, main_v444, main_v445, main_v446, main_v447, main_v448, main_v449, main_v450, main_v451, main_v452, main_v453, main_v454, main_v455, main_v456, main_v457, main_v458, main_v459, main_v460, main_c_68, main_v461, main_v462, main_c_69, main_v463, main_v464, main_v465, main_v466, main_v467]

set_option maxRecDepth 8192 in
set_option maxHeartbeats 4000000 in
theorem writes8 : (ops8 : List (HloOp τ sig (Elt F))).Forall fun op =>
    op.writes ⊆ (W8.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer window 8 does not define keeps its contents across it. -/
theorem keep8 (V : Valuation τ sig (Elt F)) (b : Ref sig .tc) (hb : b ∉ W8) :
    after (ops8 (F := F)) V (Proc.devRef .tc b) = V (Proc.devRef .tc b) :=
  after_of_writes_sub ops8 V writes8 hb

/-- The operations of window 9. -/
abbrev ops9 : List (HloOp τ sig (Elt F)) :=
  [ nullary main_cst_70 (constant S_ .f32 0x00000000#32),
    unary main_cst_70 main_v468 (broadcastInDim S100000x64 ![] bcast_S_S100000x64 : (⟨S_, .f32⟩ : BufTy).Contents (Elt F) → (⟨S100000x64, .f32⟩ : BufTy).Contents (Elt F)),
    unary main_v3 main_v469 (broadcastInDim S1600000x1 ![0] bcast_S1600000_S1600000x1_0 : (⟨S1600000, .i32⟩ : BufTy).Contents (Elt F) → (⟨S1600000x1, .i32⟩ : BufTy).Contents (Elt F)),
    ternary main_v468 main_v469 main_v467 main_v470 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_71 (constant S_ .f32 0x40000000#32),
    binary main_cst_71 main_v8 main_v471 (Host.divf : (⟨S_, .f32⟩ : BufTy).Contents (Elt F) → (⟨S_, .f32⟩ : BufTy).Contents (Elt F) → (⟨S_, .f32⟩ : BufTy).Contents (Elt F)),
    unary main_v7 main_v472 (broadcastInDim S100000x1 ![0] bcast_S100000_S100000x1_0 : (⟨S100000, .f32⟩ : BufTy).Contents (Elt F) → (⟨S100000x1, .f32⟩ : BufTy).Contents (Elt F)),
    unary main_v472 main_v473 (broadcastInDim S100000x64 ![0, 1] bcast_S100000x1_S100000x64_0_1 : (⟨S100000x1, .f32⟩ : BufTy).Contents (Elt F) → (⟨S100000x64, .f32⟩ : BufTy).Contents (Elt F)),
    binary main_v473 main_arg10 main_v474 (mulf : (⟨S100000x64, .f32⟩ : BufTy).Contents (Elt F) → (⟨S100000x64, .f32⟩ : BufTy).Contents (Elt F) → (⟨S100000x64, .f32⟩ : BufTy).Contents (Elt F)),
    binary main_v474 main_v470 main_v475 (subf : (⟨S100000x64, .f32⟩ : BufTy).Contents (Elt F) → (⟨S100000x64, .f32⟩ : BufTy).Contents (Elt F) → (⟨S100000x64, .f32⟩ : BufTy).Contents (Elt F)),
    unary main_v471 main_v476 (broadcastInDim S100000x64 ![] bcast_S_S100000x64 : (⟨S_, .f32⟩ : BufTy).Contents (Elt F) → (⟨S100000x64, .f32⟩ : BufTy).Contents (Elt F)),
    binary main_v476 main_v475 main_v477 (mulf : (⟨S100000x64, .f32⟩ : BufTy).Contents (Elt F) → (⟨S100000x64, .f32⟩ : BufTy).Contents (Elt F) → (⟨S100000x64, .f32⟩ : BufTy).Contents (Elt F)),
    binary main_v477 main_arg10 main_v478 (subf : (⟨S100000x64, .f32⟩ : BufTy).Contents (Elt F) → (⟨S100000x64, .f32⟩ : BufTy).Contents (Elt F) → (⟨S100000x64, .f32⟩ : BufTy).Contents (Elt F)),
    unary main_v455 main_v479 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v479 main_v480 rfl shapeCasts_S1x64x64_S64x64,
    binary main_v478 main_v480 main_v481 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v460 main_v481 main_v482 (addf : (⟨S100000x64, .f32⟩ : BufTy).Contents (Elt F) → (⟨S100000x64, .f32⟩ : BufTy).Contents (Elt F) → (⟨S100000x64, .f32⟩ : BufTy).Contents (Elt F)),
    nullary main_c_72 (constantI S_ 32 0#32),
    unary main_c_72 main_v483 (broadcastInDim S1600000 ![] bcast_S_S1600000 : (⟨S_, .i32⟩ : BufTy).Contents (Elt F) → (⟨S1600000, .i32⟩ : BufTy).Contents (Elt F)),
    binary main_v1 main_v483 main_v484 (cmpi .slt : (⟨S1600000, .i32⟩ : BufTy).Contents (Elt F) → (⟨S1600000, .i32⟩ : BufTy).Contents (Elt F) → (⟨S1600000, .i1⟩ : BufTy).Contents (Elt F)),
    nullary main_c_73 (constantI S_ 32 100000#32),
    unary main_c_73 main_v485 (broadcastInDim S1600000 ![] bcast_S_S1600000 : (⟨S_, .i32⟩ : BufTy).Contents (Elt F) → (⟨S1600000, .i32⟩ : BufTy).Contents (Elt F)),
    binary main_v1 main_v485 main_v486 (addi : (⟨S1600000, .i32⟩ : BufTy).Contents (Elt F) → (⟨S1600000, .i32⟩ : BufTy).Contents (Elt F) → (⟨S1600000, .i32⟩ : BufTy).Contents (Elt F)),
    ternary main_v484 main_v486 main_v1 main_v487 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v487 main_v488 (broadcastInDim S1600000x1 ![0] bcast_S1600000_S1600000x1_0 : (⟨S1600000, .i32⟩ : BufTy).Contents (Elt F) → (⟨S1600000x1, .i32⟩ : BufTy).Contents (Elt F)),
    binary main_v478 main_v488 main_v489 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_74 (constant S_ .f32 0x00000000#32),
    unary main_cst_74 main_v490 (broadcastInDim S100000x64 ![] bcast_S_S100000x64 : (⟨S_, .f32⟩ : BufTy).Contents (Elt F) → (⟨S100000x64, .f32⟩ : BufTy).Contents (Elt F)),
    unary main_v3 main_v491 (broadcastInDim S1600000x1 ![0] bcast_S1600000_S1600000x1_0 : (⟨S1600000, .i32⟩ : BufTy).Contents (Elt F) → (⟨S1600000x1, .i32⟩ : BufTy).Contents (Elt F)),
    ternary main_v490 main_v491 main_v489 main_v492 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_75 (constant S_ .f32 0x40000000#32),
    binary main_cst_75 main_v8 main_v493 (Host.divf : (⟨S_, .f32⟩ : BufTy).Contents (Elt F) → (⟨S_, .f32⟩ : BufTy).Contents (Elt F) → (⟨S_, .f32⟩ : BufTy).Contents (Elt F)),
    unary main_v7 main_v494 (broadcastInDim S100000x1 ![0] bcast_S100000_S100000x1_0 : (⟨S100000, .f32⟩ : BufTy).Contents (Elt F) → (⟨S100000x1, .f32⟩ : BufTy).Contents (Elt F)),
    unary main_v494 main_v495 (broadcastInDim S100000x64 ![0, 1] bcast_S100000x1_S100000x64_0_1 : (⟨S100000x1, .f32⟩ : BufTy).Contents (Elt F) → (⟨S100000x64, .f32⟩ : BufTy).Contents (Elt F)),
    binary main_v495 main_v478 main_v496 (mulf : (⟨S100000x64, .f32⟩ : BufTy).Contents (Elt F) → (⟨S100000x64, .f32⟩ : BufTy).Contents (Elt F) → (⟨S100000x64, .f32⟩ : BufTy).Contents (Elt F)),
    binary main_v496 main_v492 main_v497 (subf : (⟨S100000x64, .f32⟩ : BufTy).Contents (Elt F) → (⟨S100000x64, .f32⟩ : BufTy).Contents (Elt F) → (⟨S100000x64, .f32⟩ : BufTy).Contents (Elt F)),
    unary main_v493 main_v498 (broadcastInDim S100000x64 ![] bcast_S_S100000x64 : (⟨S_, .f32⟩ : BufTy).Contents (Elt F) → (⟨S100000x64, .f32⟩ : BufTy).Contents (Elt F)),
    binary main_v498 main_v497 main_v499 (mulf : (⟨S100000x64, .f32⟩ : BufTy).Contents (Elt F) → (⟨S100000x64, .f32⟩ : BufTy).Contents (Elt F) → (⟨S100000x64, .f32⟩ : BufTy).Contents (Elt F)),
    binary main_v499 main_v478 main_v500 (subf : (⟨S100000x64, .f32⟩ : BufTy).Contents (Elt F) → (⟨S100000x64, .f32⟩ : BufTy).Contents (Elt F) → (⟨S100000x64, .f32⟩ : BufTy).Contents (Elt F)),
    nullary main_cst_76 (constant S_ .f32 0x40000000#32),
    unary main_cst_76 main_v501 (broadcastInDim S100000x64 ![] bcast_S_S100000x64 : (⟨S_, .f32⟩ : BufTy).Contents (Elt F) → (⟨S100000x64, .f32⟩ : BufTy).Contents (Elt F)),
    binary main_v501 main_v500 main_v502 (mulf : (⟨S100000x64, .f32⟩ : BufTy).Contents (Elt F) → (⟨S100000x64, .f32⟩ : BufTy).Contents (Elt F) → (⟨S100000x64, .f32⟩ : BufTy).Contents (Elt F)),
    binary main_v502 main_arg10 main_v503 (subf : (⟨S100000x64, .f32⟩ : BufTy).Contents (Elt F) → (⟨S100000x64, .f32⟩ : BufTy).Contents (Elt F) → (⟨S100000x64, .f32⟩ : BufTy).Contents (Elt F)),
    unary main_v455 main_v504 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v504 main_v505 rfl shapeCasts_S1x64x64_S64x64,
    binary main_v503 main_v505 main_v506 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v482 main_v506 main_v507 (addf : (⟨S100000x64, .f32⟩ : BufTy).Contents (Elt F) → (⟨S100000x64, .f32⟩ : BufTy).Contents (Elt F) → (⟨S100000x64, .f32⟩ : BufTy).Contents (Elt F)),
    unary main_v457 main_v508 (broadcastInDim S1x64 ![1] bcast_S64_S1x64_1 : (⟨S64, .f32⟩ : BufTy).Contents (Elt F) → (⟨S1x64, .f32⟩ : BufTy).Contents (Elt F)),
    unary main_v508 main_v509 (broadcastInDim S100000x64 ![0, 1] bcast_S1x64_S100000x64_0_1 : (⟨S1x64, .f32⟩ : BufTy).Contents (Elt F) → (⟨S100000x64, .f32⟩ : BufTy).Contents (Elt F)),
    binary main_v507 main_v509 main_v510 (addf : (⟨S100000x64, .f32⟩ : BufTy).Contents (Elt F) → (⟨S100000x64, .f32⟩ : BufTy).Contents (Elt F) → (⟨S100000x64, .f32⟩ : BufTy).Contents (Elt F)),
    binary main_v453 main_v510 main_v511 (addf : (⟨S100000x64, .f32⟩ : BufTy).Contents (Elt F) → (⟨S100000x64, .f32⟩ : BufTy).Contents (Elt F) → (⟨S100000x64, .f32⟩ : BufTy).Contents (Elt F)),
    unary main_arg6 main_v512 ((extractStridedSlice S1x64 ![2, 0] · slices_S3x64_S1x64_2_0) : (⟨S3x64, .f32⟩ : BufTy).Contents (Elt F) → (⟨S1x64, .f32⟩ : BufTy).Contents (Elt F)),
    reshape main_v512 main_v513 rfl shapeCasts_S1x64_S64,
    unary main_v513 main_v514 (broadcastInDim S1x64 ![1] bcast_S64_S1x64_1 : (⟨S64, .f32⟩ : BufTy).Contents (Elt F) → (⟨S1x64, .f32⟩ : BufTy).Contents (Elt F)),
    unary main_v514 main_v515 (broadcastInDim S100000x64 ![0, 1] bcast_S1x64_S100000x64_0_1 : (⟨S1x64, .f32⟩ : BufTy).Contents (Elt F) → (⟨S100000x64, .f32⟩ : BufTy).Contents (Elt F)),
    binary main_v515 main_v396 main_v516 (mulf : (⟨S100000x64, .f32⟩ : BufTy).Contents (Elt F) → (⟨S100000x64, .f32⟩ : BufTy).Contents (Elt F) → (⟨S100000x64, .f32⟩ : BufTy).Contents (Elt F)),
    binary main_v511 main_v516 main_v517 (addf : (⟨S100000x64, .f32⟩ : BufTy).Contents (Elt F) → (⟨S100000x64, .f32⟩ : BufTy).Contents (Elt F) → (⟨S100000x64, .f32⟩ : BufTy).Contents (Elt F)),
    unary main_arg7 main_v518 ((extractStridedSlice S1x64 ![3, 0] · slices_S4x64_S1x64_3_0) : (⟨S4x64, .f32⟩ : BufTy).Contents (Elt F) → (⟨S1x64, .f32⟩ : BufTy).Contents (Elt F)),
    reshape main_v518 main_v519 rfl shapeCasts_S1x64_S64,
    unary main_v519 main_v520 (broadcastInDim S1x64 ![1] bcast_S64_S1x64_1 : (⟨S64, .f32⟩ : BufTy).Contents (Elt F) → (⟨S1x64, .f32⟩ : BufTy).Contents (Elt F)) ]

set_option maxRecDepth 8192 in
set_option maxHeartbeats 4000000 in
theorem part9_eq (c : Dev nD) : main_part9 (F := F) c = seq ops9 := rfl

set_option maxRecDepth 8192 in
theorem sub9 : (ops9 : List (HloOp τ sig (Elt F))).Forall fun op => op.bufs ⊆ tcRefs τ sig :=
  ⟨nullary_bufs_sub .., unary_bufs_sub .., unary_bufs_sub .., ternary_bufs_sub .., nullary_bufs_sub .., binary_bufs_sub .., unary_bufs_sub .., unary_bufs_sub .., binary_bufs_sub .., binary_bufs_sub .., unary_bufs_sub .., binary_bufs_sub .., binary_bufs_sub .., unary_bufs_sub .., reshape_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., binary_bufs_sub .., unary_bufs_sub .., unary_bufs_sub .., binary_bufs_sub .., binary_bufs_sub .., unary_bufs_sub .., binary_bufs_sub .., binary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub ..⟩

set_option maxRecDepth 8192 in
set_option maxHeartbeats 4000000 in
theorem fresh9 : ∀ op ∈ (ops9 : List (HloOp τ sig (Elt F))), op.fresh = ∅ := by
  intro _ h; (repeat (cases h with | head => rfl | tail _ h => ?_)); exact nomatch h

/-- The buffers window 9 defines. -/
abbrev W9 : List (Ref sig .tc) := [main_cst_70, main_v468, main_v469, main_v470, main_cst_71, main_v471, main_v472, main_v473, main_v474, main_v475, main_v476, main_v477, main_v478, main_v479, main_v480, main_v481, main_v482, main_c_72, main_v483, main_v484, main_c_73, main_v485, main_v486, main_v487, main_v488, main_v489, main_cst_74, main_v490, main_v491, main_v492, main_cst_75, main_v493, main_v494, main_v495, main_v496, main_v497, main_v498, main_v499, main_v500, main_cst_76, main_v501, main_v502, main_v503, main_v504, main_v505, main_v506, main_v507, main_v508, main_v509, main_v510, main_v511, main_v512, main_v513, main_v514, main_v515, main_v516, main_v517, main_v518, main_v519, main_v520]

set_option maxRecDepth 8192 in
set_option maxHeartbeats 4000000 in
theorem writes9 : (ops9 : List (HloOp τ sig (Elt F))).Forall fun op =>
    op.writes ⊆ (W9.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer window 9 does not define keeps its contents across it. -/
theorem keep9 (V : Valuation τ sig (Elt F)) (b : Ref sig .tc) (hb : b ∉ W9) :
    after (ops9 (F := F)) V (Proc.devRef .tc b) = V (Proc.devRef .tc b) :=
  after_of_writes_sub ops9 V writes9 hb

/-- The operations of window 10. -/
abbrev ops10 : List (HloOp τ sig (Elt F)) :=
  [ unary main_v520 main_v521 (broadcastInDim S100000x64 ![0, 1] bcast_S1x64_S100000x64_0_1 : (⟨S1x64, .f32⟩ : BufTy).Contents (Elt F) → (⟨S100000x64, .f32⟩ : BufTy).Contents (Elt F)),
    binary main_v517 main_v521 main_v522 (addf : (⟨S100000x64, .f32⟩ : BufTy).Contents (Elt F) → (⟨S100000x64, .f32⟩ : BufTy).Contents (Elt F) → (⟨S100000x64, .f32⟩ : BufTy).Contents (Elt F)),
    unary main_v522 main_v523 (Host.negf : (⟨S100000x64, .f32⟩ : BufTy).Contents (Elt F) → (⟨S100000x64, .f32⟩ : BufTy).Contents (Elt F)),
    unary main_v523 main_v524 (Host.exp : (⟨S100000x64, .f32⟩ : BufTy).Contents (Elt F) → (⟨S100000x64, .f32⟩ : BufTy).Contents (Elt F)),
    nullary main_cst_77 (constant S_ .f32 0x3F800000#32),
    unary main_cst_77 main_v525 (broadcastInDim S100000x64 ![] bcast_S_S100000x64 : (⟨S_, .f32⟩ : BufTy).Contents (Elt F) → (⟨S100000x64, .f32⟩ : BufTy).Contents (Elt F)),
    binary main_v525 main_v524 main_v526 (addf : (⟨S100000x64, .f32⟩ : BufTy).Contents (Elt F) → (⟨S100000x64, .f32⟩ : BufTy).Contents (Elt F) → (⟨S100000x64, .f32⟩ : BufTy).Contents (Elt F)),
    nullary main_cst_78 (constant S_ .f32 0x3F800000#32),
    unary main_cst_78 main_v527 (broadcastInDim S100000x64 ![] bcast_S_S100000x64 : (⟨S_, .f32⟩ : BufTy).Contents (Elt F) → (⟨S100000x64, .f32⟩ : BufTy).Contents (Elt F)),
    binary main_v527 main_v526 main_v528 (Host.divf : (⟨S100000x64, .f32⟩ : BufTy).Contents (Elt F) → (⟨S100000x64, .f32⟩ : BufTy).Contents (Elt F) → (⟨S100000x64, .f32⟩ : BufTy).Contents (Elt F)),
    unary main_v396 main_v529 (Host.tanh : (⟨S100000x64, .f32⟩ : BufTy).Contents (Elt F) → (⟨S100000x64, .f32⟩ : BufTy).Contents (Elt F)),
    binary main_v528 main_v529 main_v530 (mulf : (⟨S100000x64, .f32⟩ : BufTy).Contents (Elt F) → (⟨S100000x64, .f32⟩ : BufTy).Contents (Elt F) → (⟨S100000x64, .f32⟩ : BufTy).Contents (Elt F)),
    nullary main_call0_cst (constant S_ .f32 0x00000000#32),
    unary main_call0_cst main_call0_v0 (broadcastInDim S100000x64 ![] bcast_S_S100000x64 : (⟨S_, .f32⟩ : BufTy).Contents (Elt F) → (⟨S100000x64, .f32⟩ : BufTy).Contents (Elt F)),
    binary main_v530 main_call0_v0 main_v531 (maximumf : (⟨S100000x64, .f32⟩ : BufTy).Contents (Elt F) → (⟨S100000x64, .f32⟩ : BufTy).Contents (Elt F) → (⟨S100000x64, .f32⟩ : BufTy).Contents (Elt F)),
    binary main_v531 main_arg8 main_v532 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    unary main_arg9 main_v533 (broadcastInDim S1x16 ![1] bcast_S16_S1x16_1 : (⟨S16, .f32⟩ : BufTy).Contents (Elt F) → (⟨S1x16, .f32⟩ : BufTy).Contents (Elt F)),
    unary main_v533 main_v534 (broadcastInDim S100000x16 ![0, 1] bcast_S1x16_S100000x16_0_1 : (⟨S1x16, .f32⟩ : BufTy).Contents (Elt F) → (⟨S100000x16, .f32⟩ : BufTy).Contents (Elt F)),
    binary main_v532 main_v534 main_v535 (addf : (⟨S100000x16, .f32⟩ : BufTy).Contents (Elt F) → (⟨S100000x16, .f32⟩ : BufTy).Contents (Elt F) → (⟨S100000x16, .f32⟩ : BufTy).Contents (Elt F)),
    unary main_v531 main_v536 (broadcastInDim S1x100000x64 ![1, 2] bcast_S100000x64_S1x100000x64_1_2 : (⟨S100000x64, .f32⟩ : BufTy).Contents (Elt F) → (⟨S1x100000x64, .f32⟩ : BufTy).Contents (Elt F)),
    unary main_v396 main_v537 (broadcastInDim S1x100000x64 ![1, 2] bcast_S100000x64_S1x100000x64_1_2 : (⟨S100000x64, .f32⟩ : BufTy).Contents (Elt F) → (⟨S1x100000x64, .f32⟩ : BufTy).Contents (Elt F)),
    binary main_v536 main_v537 main_v538 ((fun a b => concatenate S2x100000x64 0 [⟨S1x100000x64, a⟩, ⟨S1x100000x64, b⟩] concatenates_S1x100000x64_S1x100000x64_S2x100000x64_d0) : (⟨S1x100000x64, .f32⟩ : BufTy).Contents (Elt F) → (⟨S1x100000x64, .f32⟩ : BufTy).Contents (Elt F) → (⟨S2x100000x64, .f32⟩ : BufTy).Contents (Elt F)) ]

set_option maxRecDepth 8192 in
set_option maxHeartbeats 4000000 in
theorem part10_eq (c : Dev nD) : main_part10 (F := F) c = seq ops10 := rfl

set_option maxRecDepth 8192 in
theorem sub10 : (ops10 : List (HloOp τ sig (Elt F))).Forall fun op => op.bufs ⊆ tcRefs τ sig :=
  ⟨unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., binary_bufs_sub ..⟩

set_option maxRecDepth 8192 in
set_option maxHeartbeats 4000000 in
theorem fresh10 : ∀ op ∈ (ops10 : List (HloOp τ sig (Elt F))), op.fresh = ∅ := by
  intro _ h; (repeat (cases h with | head => rfl | tail _ h => ?_)); exact nomatch h

/-- The buffers window 10 defines. -/
abbrev W10 : List (Ref sig .tc) := [main_v521, main_v522, main_v523, main_v524, main_cst_77, main_v525, main_v526, main_cst_78, main_v527, main_v528, main_v529, main_v530, main_call0_cst, main_call0_v0, main_v531, main_v532, main_v533, main_v534, main_v535, main_v536, main_v537, main_v538]

set_option maxRecDepth 8192 in
set_option maxHeartbeats 4000000 in
theorem writes10 : (ops10 : List (HloOp τ sig (Elt F))).Forall fun op =>
    op.writes ⊆ (W10.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer window 10 does not define keeps its contents across it. -/
theorem keep10 (V : Valuation τ sig (Elt F)) (b : Ref sig .tc) (hb : b ∉ W10) :
    after (ops10 (F := F)) V (Proc.devRef .tc b) = V (Proc.devRef .tc b) :=
  after_of_writes_sub ops10 V writes10 hb

end Cert.ReferenceIdeal.RunW

end
-- ==== Proof.RunVals.lean ====
/-
  What the reference's buffers hold at each window boundary.

  `Bundle k` says of a valuation `V` of the device's buffers: the twelve argument buffers hold the given arrays
  `x0 … x11`, and every buffer that an earlier window defined and a later window (or the result) reads holds its
  stage (`ReadP.val_*`) of those arrays. Running window `k` takes `Bundle k` to `Bundle (k+1)` (`step*`): a buffer the
  window does not define keeps its contents, and a buffer it defines holds the window's operations applied to the
  contents before it, which are the earlier stages by hypothesis.
-/
import proofs.«128530_j50208167690906_1_alg».proof.Proof.RunOps
import proofs.«128530_j50208167690906_1_alg».proof.Proof.RefRead

noncomputable section

namespace Cert.ReferenceIdeal.RunW

open Cert.ReferenceIdeal Cert.ReferenceIdeal.Gen Cert.ReferenceIdeal.ReadP Idealize.ShloMosaic Idealize.ShloMosaic.TcCoe Idealize.SL.Sem Idealize.ShloMosaic.StableHlo

variable (x0 : (⟨S100000x64, .f32⟩ : BufTy).Contents (Elt Ideal)) (x1 : (⟨S2x1600000, .i32⟩ : BufTy).Contents (Elt Ideal)) (x2 : (⟨S4x3x64x64, .f32⟩ : BufTy).Contents (Elt Ideal)) (x3 : (⟨S4x64, .f32⟩ : BufTy).Contents (Elt Ideal)) (x4 : (⟨S4x3x64x64, .f32⟩ : BufTy).Contents (Elt Ideal)) (x5 : (⟨S4x64, .f32⟩ : BufTy).Contents (Elt Ideal)) (x6 : (⟨S3x64, .f32⟩ : BufTy).Contents (Elt Ideal)) (x7 : (⟨S4x64, .f32⟩ : BufTy).Contents (Elt Ideal)) (x8 : (⟨S64x16, .f32⟩ : BufTy).Contents (Elt Ideal)) (x9 : (⟨S16, .f32⟩ : BufTy).Contents (Elt Ideal)) (x10 : (⟨S100000x64, .f32⟩ : BufTy).Contents (Elt Ideal)) (x11 : (⟨S100000x64, .f32⟩ : BufTy).Contents (Elt Ideal))

/-- The contents at boundary 0. -/
def Bundle0 (V : Valuation τ sig (Elt Ideal)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_arg6) = x6
  ∧ V (Proc.devRef .tc main_arg7) = x7
  ∧ V (Proc.devRef .tc main_arg8) = x8
  ∧ V (Proc.devRef .tc main_arg9) = x9
  ∧ V (Proc.devRef .tc main_arg10) = x10
  ∧ V (Proc.devRef .tc main_arg11) = x11

/-- The contents at boundary 1. -/
def Bundle1 (V : Valuation τ sig (Elt Ideal)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_arg6) = x6
  ∧ V (Proc.devRef .tc main_arg7) = x7
  ∧ V (Proc.devRef .tc main_arg8) = x8
  ∧ V (Proc.devRef .tc main_arg9) = x9
  ∧ V (Proc.devRef .tc main_arg10) = x10
  ∧ V (Proc.devRef .tc main_arg11) = x11
  ∧ V (Proc.devRef .tc main_v1) = val_main_v1 (F := Ideal) x1
  ∧ V (Proc.devRef .tc main_v3) = val_main_v3 (F := Ideal) x1
  ∧ V (Proc.devRef .tc main_v7) = val_main_v7 (F := Ideal) x1
  ∧ V (Proc.devRef .tc main_v8) = val_main_v8 (F := Ideal) x1
  ∧ V (Proc.devRef .tc main_v10) = val_main_v10 (F := Ideal) x2
  ∧ V (Proc.devRef .tc main_v12) = val_main_v12 (F := Ideal) x3
  ∧ V (Proc.devRef .tc main_v33) = val_main_v33 (F := Ideal) x0 x1
  ∧ V (Proc.devRef .tc main_v37) = val_main_v37 (F := Ideal) x0 x1 x2
  ∧ V (Proc.devRef .tc main_v47) = val_main_v47 (F := Ideal) x0 x1
  ∧ V (Proc.devRef .tc main_v48) = val_main_v48 (F := Ideal) x1

/-- The contents at boundary 2. -/
def Bundle2 (V : Valuation τ sig (Elt Ideal)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_arg6) = x6
  ∧ V (Proc.devRef .tc main_arg7) = x7
  ∧ V (Proc.devRef .tc main_arg8) = x8
  ∧ V (Proc.devRef .tc main_arg9) = x9
  ∧ V (Proc.devRef .tc main_arg10) = x10
  ∧ V (Proc.devRef .tc main_arg11) = x11
  ∧ V (Proc.devRef .tc main_v1) = val_main_v1 (F := Ideal) x1
  ∧ V (Proc.devRef .tc main_v3) = val_main_v3 (F := Ideal) x1
  ∧ V (Proc.devRef .tc main_v7) = val_main_v7 (F := Ideal) x1
  ∧ V (Proc.devRef .tc main_v8) = val_main_v8 (F := Ideal) x1
  ∧ V (Proc.devRef .tc main_v65) = val_main_v65 (F := Ideal) x0 x1 x2 x3
  ∧ V (Proc.devRef .tc main_v67) = val_main_v67 (F := Ideal) x4
  ∧ V (Proc.devRef .tc main_v69) = val_main_v69 (F := Ideal) x5
  ∧ V (Proc.devRef .tc main_v90) = val_main_v90 (F := Ideal) x1 x10
  ∧ V (Proc.devRef .tc main_v94) = val_main_v94 (F := Ideal) x1 x4 x10
  ∧ V (Proc.devRef .tc main_v101) = val_main_v101 (F := Ideal) x1 x10

/-- The contents at boundary 3. -/
def Bundle3 (V : Valuation τ sig (Elt Ideal)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_arg6) = x6
  ∧ V (Proc.devRef .tc main_arg7) = x7
  ∧ V (Proc.devRef .tc main_arg8) = x8
  ∧ V (Proc.devRef .tc main_arg9) = x9
  ∧ V (Proc.devRef .tc main_arg10) = x10
  ∧ V (Proc.devRef .tc main_arg11) = x11
  ∧ V (Proc.devRef .tc main_v1) = val_main_v1 (F := Ideal) x1
  ∧ V (Proc.devRef .tc main_v3) = val_main_v3 (F := Ideal) x1
  ∧ V (Proc.devRef .tc main_v7) = val_main_v7 (F := Ideal) x1
  ∧ V (Proc.devRef .tc main_v8) = val_main_v8 (F := Ideal) x1
  ∧ V (Proc.devRef .tc main_v140) = val_main_v140 (F := Ideal) x0 x1 x2 x3 x4 x5 x6 x7 x10 x11
  ∧ V (Proc.devRef .tc main_v142) = val_main_v142 (F := Ideal) x2
  ∧ V (Proc.devRef .tc main_v144) = val_main_v144 (F := Ideal) x3
  ∧ V (Proc.devRef .tc main_v147) = val_main_v147 (F := Ideal) x0 x2
  ∧ V (Proc.devRef .tc main_v154) = val_main_v154 (F := Ideal) x0 x1

/-- The contents at boundary 4. -/
def Bundle4 (V : Valuation τ sig (Elt Ideal)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_arg6) = x6
  ∧ V (Proc.devRef .tc main_arg7) = x7
  ∧ V (Proc.devRef .tc main_arg8) = x8
  ∧ V (Proc.devRef .tc main_arg9) = x9
  ∧ V (Proc.devRef .tc main_arg10) = x10
  ∧ V (Proc.devRef .tc main_arg11) = x11
  ∧ V (Proc.devRef .tc main_v1) = val_main_v1 (F := Ideal) x1
  ∧ V (Proc.devRef .tc main_v3) = val_main_v3 (F := Ideal) x1
  ∧ V (Proc.devRef .tc main_v7) = val_main_v7 (F := Ideal) x1
  ∧ V (Proc.devRef .tc main_v8) = val_main_v8 (F := Ideal) x1
  ∧ V (Proc.devRef .tc main_v140) = val_main_v140 (F := Ideal) x0 x1 x2 x3 x4 x5 x6 x7 x10 x11
  ∧ V (Proc.devRef .tc main_v197) = val_main_v197 (F := Ideal) x0 x1 x2 x3
  ∧ V (Proc.devRef .tc main_v199) = val_main_v199 (F := Ideal) x4
  ∧ V (Proc.devRef .tc main_v201) = val_main_v201 (F := Ideal) x5
  ∧ V (Proc.devRef .tc main_v204) = val_main_v204 (F := Ideal) x4 x10
  ∧ V (Proc.devRef .tc main_v206) = val_main_v206 (F := Ideal) x1

/-- The contents at boundary 5. -/
def Bundle5 (V : Valuation τ sig (Elt Ideal)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_arg6) = x6
  ∧ V (Proc.devRef .tc main_arg7) = x7
  ∧ V (Proc.devRef .tc main_arg8) = x8
  ∧ V (Proc.devRef .tc main_arg9) = x9
  ∧ V (Proc.devRef .tc main_arg10) = x10
  ∧ V (Proc.devRef .tc main_arg11) = x11
  ∧ V (Proc.devRef .tc main_v1) = val_main_v1 (F := Ideal) x1
  ∧ V (Proc.devRef .tc main_v3) = val_main_v3 (F := Ideal) x1
  ∧ V (Proc.devRef .tc main_v7) = val_main_v7 (F := Ideal) x1
  ∧ V (Proc.devRef .tc main_v8) = val_main_v8 (F := Ideal) x1
  ∧ V (Proc.devRef .tc main_v140) = val_main_v140 (F := Ideal) x0 x1 x2 x3 x4 x5 x6 x7 x10 x11
  ∧ V (Proc.devRef .tc main_v255) = val_main_v255 (F := Ideal) x0 x1 x2 x3 x4 x5 x10
  ∧ V (Proc.devRef .tc main_v258) = val_main_v258 (F := Ideal) x6

/-- The contents at boundary 6. -/
def Bundle6 (V : Valuation τ sig (Elt Ideal)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_arg6) = x6
  ∧ V (Proc.devRef .tc main_arg7) = x7
  ∧ V (Proc.devRef .tc main_arg8) = x8
  ∧ V (Proc.devRef .tc main_arg9) = x9
  ∧ V (Proc.devRef .tc main_arg10) = x10
  ∧ V (Proc.devRef .tc main_arg11) = x11
  ∧ V (Proc.devRef .tc main_v1) = val_main_v1 (F := Ideal) x1
  ∧ V (Proc.devRef .tc main_v3) = val_main_v3 (F := Ideal) x1
  ∧ V (Proc.devRef .tc main_v7) = val_main_v7 (F := Ideal) x1
  ∧ V (Proc.devRef .tc main_v8) = val_main_v8 (F := Ideal) x1
  ∧ V (Proc.devRef .tc main_v140) = val_main_v140 (F := Ideal) x0 x1 x2 x3 x4 x5 x6 x7 x10 x11
  ∧ V (Proc.devRef .tc main_v273) = val_main_v273 (F := Ideal) x0 x1 x2 x3 x4 x5 x6 x7 x10 x11
  ∧ V (Proc.devRef .tc main_v275) = val_main_v275 (F := Ideal) x2
  ∧ V (Proc.devRef .tc main_v277) = val_main_v277 (F := Ideal) x3
  ∧ V (Proc.devRef .tc main_v298) = val_main_v298 (F := Ideal) x0 x1
  ∧ V (Proc.devRef .tc main_v302) = val_main_v302 (F := Ideal) x0 x1 x2
  ∧ V (Proc.devRef .tc main_v309) = val_main_v309 (F := Ideal) x0 x1
  ∧ V (Proc.devRef .tc main_cst_47) = val_main_cst_47 (F := Ideal)

/-- The contents at boundary 7. -/
def Bundle7 (V : Valuation τ sig (Elt Ideal)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_arg6) = x6
  ∧ V (Proc.devRef .tc main_arg7) = x7
  ∧ V (Proc.devRef .tc main_arg8) = x8
  ∧ V (Proc.devRef .tc main_arg9) = x9
  ∧ V (Proc.devRef .tc main_arg10) = x10
  ∧ V (Proc.devRef .tc main_arg11) = x11
  ∧ V (Proc.devRef .tc main_v1) = val_main_v1 (F := Ideal) x1
  ∧ V (Proc.devRef .tc main_v3) = val_main_v3 (F := Ideal) x1
  ∧ V (Proc.devRef .tc main_v7) = val_main_v7 (F := Ideal) x1
  ∧ V (Proc.devRef .tc main_v8) = val_main_v8 (F := Ideal) x1
  ∧ V (Proc.devRef .tc main_v140) = val_main_v140 (F := Ideal) x0 x1 x2 x3 x4 x5 x6 x7 x10 x11
  ∧ V (Proc.devRef .tc main_v273) = val_main_v273 (F := Ideal) x0 x1 x2 x3 x4 x5 x6 x7 x10 x11
  ∧ V (Proc.devRef .tc main_v330) = val_main_v330 (F := Ideal) x0 x1 x2 x3
  ∧ V (Proc.devRef .tc main_v332) = val_main_v332 (F := Ideal) x4
  ∧ V (Proc.devRef .tc main_v334) = val_main_v334 (F := Ideal) x5
  ∧ V (Proc.devRef .tc main_v355) = val_main_v355 (F := Ideal) x1 x10
  ∧ V (Proc.devRef .tc main_v359) = val_main_v359 (F := Ideal) x1 x4 x10
  ∧ V (Proc.devRef .tc main_v361) = val_main_v361 (F := Ideal) x1
  ∧ V (Proc.devRef .tc main_c_55) = val_main_c_55 (F := Ideal)

/-- The contents at boundary 8. -/
def Bundle8 (V : Valuation τ sig (Elt Ideal)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_arg6) = x6
  ∧ V (Proc.devRef .tc main_arg7) = x7
  ∧ V (Proc.devRef .tc main_arg8) = x8
  ∧ V (Proc.devRef .tc main_arg9) = x9
  ∧ V (Proc.devRef .tc main_arg10) = x10
  ∧ V (Proc.devRef .tc main_arg11) = x11
  ∧ V (Proc.devRef .tc main_v1) = val_main_v1 (F := Ideal) x1
  ∧ V (Proc.devRef .tc main_v3) = val_main_v3 (F := Ideal) x1
  ∧ V (Proc.devRef .tc main_v7) = val_main_v7 (F := Ideal) x1
  ∧ V (Proc.devRef .tc main_v8) = val_main_v8 (F := Ideal) x1
  ∧ V (Proc.devRef .tc main_v396) = val_main_v396 (F := Ideal) x0 x1 x2 x3 x4 x5 x6 x7 x10 x11
  ∧ V (Proc.devRef .tc main_v398) = val_main_v398 (F := Ideal) x2
  ∧ V (Proc.devRef .tc main_v400) = val_main_v400 (F := Ideal) x3
  ∧ V (Proc.devRef .tc main_v403) = val_main_v403 (F := Ideal) x0 x2
  ∧ V (Proc.devRef .tc main_v413) = val_main_v413 (F := Ideal) x0 x1
  ∧ V (Proc.devRef .tc main_v414) = val_main_v414 (F := Ideal) x1

/-- The contents at boundary 9. -/
def Bundle9 (V : Valuation τ sig (Elt Ideal)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_arg6) = x6
  ∧ V (Proc.devRef .tc main_arg7) = x7
  ∧ V (Proc.devRef .tc main_arg8) = x8
  ∧ V (Proc.devRef .tc main_arg9) = x9
  ∧ V (Proc.devRef .tc main_arg10) = x10
  ∧ V (Proc.devRef .tc main_arg11) = x11
  ∧ V (Proc.devRef .tc main_v1) = val_main_v1 (F := Ideal) x1
  ∧ V (Proc.devRef .tc main_v3) = val_main_v3 (F := Ideal) x1
  ∧ V (Proc.devRef .tc main_v7) = val_main_v7 (F := Ideal) x1
  ∧ V (Proc.devRef .tc main_v8) = val_main_v8 (F := Ideal) x1
  ∧ V (Proc.devRef .tc main_v396) = val_main_v396 (F := Ideal) x0 x1 x2 x3 x4 x5 x6 x7 x10 x11
  ∧ V (Proc.devRef .tc main_v453) = val_main_v453 (F := Ideal) x0 x1 x2 x3
  ∧ V (Proc.devRef .tc main_v455) = val_main_v455 (F := Ideal) x4
  ∧ V (Proc.devRef .tc main_v457) = val_main_v457 (F := Ideal) x5
  ∧ V (Proc.devRef .tc main_v460) = val_main_v460 (F := Ideal) x4 x10
  ∧ V (Proc.devRef .tc main_v467) = val_main_v467 (F := Ideal) x1 x10

/-- The contents at boundary 10. -/
def Bundle10 (V : Valuation τ sig (Elt Ideal)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_arg6) = x6
  ∧ V (Proc.devRef .tc main_arg7) = x7
  ∧ V (Proc.devRef .tc main_arg8) = x8
  ∧ V (Proc.devRef .tc main_arg9) = x9
  ∧ V (Proc.devRef .tc main_arg10) = x10
  ∧ V (Proc.devRef .tc main_arg11) = x11
  ∧ V (Proc.devRef .tc main_v396) = val_main_v396 (F := Ideal) x0 x1 x2 x3 x4 x5 x6 x7 x10 x11
  ∧ V (Proc.devRef .tc main_v517) = val_main_v517 (F := Ideal) x0 x1 x2 x3 x4 x5 x6 x7 x10 x11
  ∧ V (Proc.devRef .tc main_v520) = val_main_v520 (F := Ideal) x7

/-- The contents at boundary 11. -/
def Bundle11 (V : Valuation τ sig (Elt Ideal)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_arg6) = x6
  ∧ V (Proc.devRef .tc main_arg7) = x7
  ∧ V (Proc.devRef .tc main_arg8) = x8
  ∧ V (Proc.devRef .tc main_arg9) = x9
  ∧ V (Proc.devRef .tc main_arg10) = x10
  ∧ V (Proc.devRef .tc main_arg11) = x11
  ∧ V (Proc.devRef .tc main_v535) = val_main_v535 (F := Ideal) x0 x1 x2 x3 x4 x5 x6 x7 x8 x9 x10 x11
  ∧ V (Proc.devRef .tc main_v538) = val_main_v538 (F := Ideal) x0 x1 x2 x3 x4 x5 x6 x7 x10 x11

set_option maxRecDepth 8192 in
set_option maxHeartbeats 40000000 in
/-- Window 0. -/
theorem step0 (V : Valuation τ sig (Elt Ideal)) (h : Bundle0 x0 x1 x2 x3 x4 x5 x6 x7 x8 x9 x10 x11 V) :
    Bundle1 x0 x1 x2 x3 x4 x5 x6 x7 x8 x9 x10 x11 (after (ops0 (F := Ideal)) V) := by
  obtain ⟨a0, a1, a2, a3, a4, a5, a6, a7, a8, a9, a10, a11⟩ := h
  refine ⟨?_, ?_, ?_, ?_, ?_, ?_, ?_, ?_, ?_, ?_, ?_, ?_, ?_, ?_, ?_, ?_, ?_, ?_, ?_, ?_, ?_, ?_⟩
  · exact (keep0 V main_arg0 (by decide)).trans a0
  · exact (keep0 V main_arg1 (by decide)).trans a1
  · exact (keep0 V main_arg2 (by decide)).trans a2
  · exact (keep0 V main_arg3 (by decide)).trans a3
  · exact (keep0 V main_arg4 (by decide)).trans a4
  · exact (keep0 V main_arg5 (by decide)).trans a5
  · exact (keep0 V main_arg6 (by decide)).trans a6
  · exact (keep0 V main_arg7 (by decide)).trans a7
  · exact (keep0 V main_arg8 (by decide)).trans a8
  · exact (keep0 V main_arg9 (by decide)).trans a9
  · exact (keep0 V main_arg10 (by decide)).trans a10
  · exact (keep0 V main_arg11 (by decide)).trans a11
  · after_results_simp
    try simp only [a0, a1, a2, a3, a4, a5, a6, a7, a8, a9, a10, a11]
    try rfl
  · after_results_simp
    try simp only [a0, a1, a2, a3, a4, a5, a6, a7, a8, a9, a10, a11]
    try rfl
  · after_results_simp
    try simp only [a0, a1, a2, a3, a4, a5, a6, a7, a8, a9, a10, a11]
    try rfl
  · after_results_simp
    try simp only [a0, a1, a2, a3, a4, a5, a6, a7, a8, a9, a10, a11]
    try rfl
  · after_results_simp
    try simp only [a0, a1, a2, a3, a4, a5, a6, a7, a8, a9, a10, a11]
    try rfl
  · after_results_simp
    try simp only [a0, a1, a2, a3, a4, a5, a6, a7, a8, a9, a10, a11]
    try rfl
  · after_results_simp
    try simp only [a0, a1, a2, a3, a4, a5, a6, a7, a8, a9, a10, a11]
    try rfl
  · after_results_simp
    try simp only [a0, a1, a2, a3, a4, a5, a6, a7, a8, a9, a10, a11]
    try rfl
  · after_results_simp
    try simp only [a0, a1, a2, a3, a4, a5, a6, a7, a8, a9, a10, a11]
    try rfl
  · after_results_simp
    try simp only [a0, a1, a2, a3, a4, a5, a6, a7, a8, a9, a10, a11]
    try rfl

set_option maxRecDepth 8192 in
set_option maxHeartbeats 40000000 in
/-- Window 1. -/
theorem step1 (V : Valuation τ sig (Elt Ideal)) (h : Bundle1 x0 x1 x2 x3 x4 x5 x6 x7 x8 x9 x10 x11 V) :
    Bundle2 x0 x1 x2 x3 x4 x5 x6 x7 x8 x9 x10 x11 (after (ops1 (F := Ideal)) V) := by
  obtain ⟨a0, a1, a2, a3, a4, a5, a6, a7, a8, a9, a10, a11, h_v1, h_v3, h_v7, h_v8, h_v10, h_v12, h_v33, h_v37, h_v47, h_v48⟩ := h
  refine ⟨?_, ?_, ?_, ?_, ?_, ?_, ?_, ?_, ?_, ?_, ?_, ?_, ?_, ?_, ?_, ?_, ?_, ?_, ?_, ?_, ?_, ?_⟩
  · exact (keep1 V main_arg0 (by decide)).trans a0
  · exact (keep1 V main_arg1 (by decide)).trans a1
  · exact (keep1 V main_arg2 (by decide)).trans a2
  · exact (keep1 V main_arg3 (by decide)).trans a3
  · exact (keep1 V main_arg4 (by decide)).trans a4
  · exact (keep1 V main_arg5 (by decide)).trans a5
  · exact (keep1 V main_arg6 (by decide)).trans a6
  · exact (keep1 V main_arg7 (by decide)).trans a7
  · exact (keep1 V main_arg8 (by decide)).trans a8
  · exact (keep1 V main_arg9 (by decide)).trans a9
  · exact (keep1 V main_arg10 (by decide)).trans a10
  · exact (keep1 V main_arg11 (by decide)).trans a11
  · exact (keep1 V main_v1 (by decide)).trans h_v1
  · exact (keep1 V main_v3 (by decide)).trans h_v3
  · exact (keep1 V main_v7 (by decide)).trans h_v7
  · exact (keep1 V main_v8 (by decide)).trans h_v8
  · after_results_simp
    try simp only [a0, a1, a2, a3, a4, a5, a6, a7, a8, a9, a10, a11, h_v1, h_v3, h_v7, h_v8, h_v10, h_v12, h_v33, h_v37, h_v47, h_v48]
    try rfl
  · after_results_simp
    try simp only [a0, a1, a2, a3, a4, a5, a6, a7, a8, a9, a10, a11, h_v1, h_v3, h_v7, h_v8, h_v10, h_v12, h_v33, h_v37, h_v47, h_v48]
    try rfl
  · after_results_simp
    try simp only [a0, a1, a2, a3, a4, a5, a6, a7, a8, a9, a10, a11, h_v1, h_v3, h_v7, h_v8, h_v10, h_v12, h_v33, h_v37, h_v47, h_v48]
    try rfl
  · after_results_simp
    try simp only [a0, a1, a2, a3, a4, a5, a6, a7, a8, a9, a10, a11, h_v1, h_v3, h_v7, h_v8, h_v10, h_v12, h_v33, h_v37, h_v47, h_v48]
    try rfl
  · after_results_simp
    try simp only [a0, a1, a2, a3, a4, a5, a6, a7, a8, a9, a10, a11, h_v1, h_v3, h_v7, h_v8, h_v10, h_v12, h_v33, h_v37, h_v47, h_v48]
    try rfl
  · after_results_simp
    try simp only [a0, a1, a2, a3, a4, a5, a6, a7, a8, a9, a10, a11, h_v1, h_v3, h_v7, h_v8, h_v10, h_v12, h_v33, h_v37, h_v47, h_v48]
    try rfl

set_option maxRecDepth 8192 in
set_option maxHeartbeats 40000000 in
/-- Window 2. -/
theorem step2 (V : Valuation τ sig (Elt Ideal)) (h : Bundle2 x0 x1 x2 x3 x4 x5 x6 x7 x8 x9 x10 x11 V) :
    Bundle3 x0 x1 x2 x3 x4 x5 x6 x7 x8 x9 x10 x11 (after (ops2 (F := Ideal)) V) := by
  obtain ⟨a0, a1, a2, a3, a4, a5, a6, a7, a8, a9, a10, a11, h_v1, h_v3, h_v7, h_v8, h_v65, h_v67, h_v69, h_v90, h_v94, h_v101⟩ := h
  refine ⟨?_, ?_, ?_, ?_, ?_, ?_, ?_, ?_, ?_, ?_, ?_, ?_, ?_, ?_, ?_, ?_, ?_, ?_, ?_, ?_, ?_⟩
  · exact (keep2 V main_arg0 (by decide)).trans a0
  · exact (keep2 V main_arg1 (by decide)).trans a1
  · exact (keep2 V main_arg2 (by decide)).trans a2
  · exact (keep2 V main_arg3 (by decide)).trans a3
  · exact (keep2 V main_arg4 (by decide)).trans a4
  · exact (keep2 V main_arg5 (by decide)).trans a5
  · exact (keep2 V main_arg6 (by decide)).trans a6
  · exact (keep2 V main_arg7 (by decide)).trans a7
  · exact (keep2 V main_arg8 (by decide)).trans a8
  · exact (keep2 V main_arg9 (by decide)).trans a9
  · exact (keep2 V main_arg10 (by decide)).trans a10
  · exact (keep2 V main_arg11 (by decide)).trans a11
  · exact (keep2 V main_v1 (by decide)).trans h_v1
  · exact (keep2 V main_v3 (by decide)).trans h_v3
  · exact (keep2 V main_v7 (by decide)).trans h_v7
  · exact (keep2 V main_v8 (by decide)).trans h_v8
  · after_results_simp
    try simp only [a0, a1, a2, a3, a4, a5, a6, a7, a8, a9, a10, a11, h_v1, h_v3, h_v7, h_v8, h_v65, h_v67, h_v69, h_v90, h_v94, h_v101]
    try rfl
  · after_results_simp
    try simp only [a0, a1, a2, a3, a4, a5, a6, a7, a8, a9, a10, a11, h_v1, h_v3, h_v7, h_v8, h_v65, h_v67, h_v69, h_v90, h_v94, h_v101]
    try rfl
  · after_results_simp
    try simp only [a0, a1, a2, a3, a4, a5, a6, a7, a8, a9, a10, a11, h_v1, h_v3, h_v7, h_v8, h_v65, h_v67, h_v69, h_v90, h_v94, h_v101]
    try rfl
  · after_results_simp
    try simp only [a0, a1, a2, a3, a4, a5, a6, a7, a8, a9, a10, a11, h_v1, h_v3, h_v7, h_v8, h_v65, h_v67, h_v69, h_v90, h_v94, h_v101]
    try rfl
  · after_results_simp
    try simp only [a0, a1, a2, a3, a4, a5, a6, a7, a8, a9, a10, a11, h_v1, h_v3, h_v7, h_v8, h_v65, h_v67, h_v69, h_v90, h_v94, h_v101]
    try rfl

set_option maxRecDepth 8192 in
set_option maxHeartbeats 40000000 in
/-- Window 3. -/
theorem step3 (V : Valuation τ sig (Elt Ideal)) (h : Bundle3 x0 x1 x2 x3 x4 x5 x6 x7 x8 x9 x10 x11 V) :
    Bundle4 x0 x1 x2 x3 x4 x5 x6 x7 x8 x9 x10 x11 (after (ops3 (F := Ideal)) V) := by
  obtain ⟨a0, a1, a2, a3, a4, a5, a6, a7, a8, a9, a10, a11, h_v1, h_v3, h_v7, h_v8, h_v140, h_v142, h_v144, h_v147, h_v154⟩ := h
  refine ⟨?_, ?_, ?_, ?_, ?_, ?_, ?_, ?_, ?_, ?_, ?_, ?_, ?_, ?_, ?_, ?_, ?_, ?_, ?_, ?_, ?_, ?_⟩
  · exact (keep3 V main_arg0 (by decide)).trans a0
  · exact (keep3 V main_arg1 (by decide)).trans a1
  · exact (keep3 V main_arg2 (by decide)).trans a2
  · exact (keep3 V main_arg3 (by decide)).trans a3
  · exact (keep3 V main_arg4 (by decide)).trans a4
  · exact (keep3 V main_arg5 (by decide)).trans a5
  · exact (keep3 V main_arg6 (by decide)).trans a6
  · exact (keep3 V main_arg7 (by decide)).trans a7
  · exact (keep3 V main_arg8 (by decide)).trans a8
  · exact (keep3 V main_arg9 (by decide)).trans a9
  · exact (keep3 V main_arg10 (by decide)).trans a10
  · exact (keep3 V main_arg11 (by decide)).trans a11
  · exact (keep3 V main_v1 (by decide)).trans h_v1
  · exact (keep3 V main_v3 (by decide)).trans h_v3
  · exact (keep3 V main_v7 (by decide)).trans h_v7
  · exact (keep3 V main_v8 (by decide)).trans h_v8
  · exact (keep3 V main_v140 (by decide)).trans h_v140
  · after_results_simp
    try simp only [a0, a1, a2, a3, a4, a5, a6, a7, a8, a9, a10, a11, h_v1, h_v3, h_v7, h_v8, h_v140, h_v142, h_v144, h_v147, h_v154]
    try rfl
  · after_results_simp
    try simp only [a0, a1, a2, a3, a4, a5, a6, a7, a8, a9, a10, a11, h_v1, h_v3, h_v7, h_v8, h_v140, h_v142, h_v144, h_v147, h_v154]
    try rfl
  · after_results_simp
    try simp only [a0, a1, a2, a3, a4, a5, a6, a7, a8, a9, a10, a11, h_v1, h_v3, h_v7, h_v8, h_v140, h_v142, h_v144, h_v147, h_v154]
    try rfl
  · after_results_simp
    try simp only [a0, a1, a2, a3, a4, a5, a6, a7, a8, a9, a10, a11, h_v1, h_v3, h_v7, h_v8, h_v140, h_v142, h_v144, h_v147, h_v154]
    try rfl
  · after_results_simp
    try simp only [a0, a1, a2, a3, a4, a5, a6, a7, a8, a9, a10, a11, h_v1, h_v3, h_v7, h_v8, h_v140, h_v142, h_v144, h_v147, h_v154]
    try rfl

end Cert.ReferenceIdeal.RunW

end
-- ==== Proof.RunValsB.lean ====
/-
  What the reference's buffers hold at each window boundary, continued: windows 4 to 7 (see `RunVals`).
-/
import proofs.«128530_j50208167690906_1_alg».proof.Proof.RunVals

noncomputable section

namespace Cert.ReferenceIdeal.RunW

open Cert.ReferenceIdeal Cert.ReferenceIdeal.Gen Cert.ReferenceIdeal.ReadP Idealize.ShloMosaic Idealize.ShloMosaic.TcCoe Idealize.SL.Sem Idealize.ShloMosaic.StableHlo

variable (x0 : (⟨S100000x64, .f32⟩ : BufTy).Contents (Elt Ideal)) (x1 : (⟨S2x1600000, .i32⟩ : BufTy).Contents (Elt Ideal)) (x2 : (⟨S4x3x64x64, .f32⟩ : BufTy).Contents (Elt Ideal)) (x3 : (⟨S4x64, .f32⟩ : BufTy).Contents (Elt Ideal)) (x4 : (⟨S4x3x64x64, .f32⟩ : BufTy).Contents (Elt Ideal)) (x5 : (⟨S4x64, .f32⟩ : BufTy).Contents (Elt Ideal)) (x6 : (⟨S3x64, .f32⟩ : BufTy).Contents (Elt Ideal)) (x7 : (⟨S4x64, .f32⟩ : BufTy).Contents (Elt Ideal)) (x8 : (⟨S64x16, .f32⟩ : BufTy).Contents (Elt Ideal)) (x9 : (⟨S16, .f32⟩ : BufTy).Contents (Elt Ideal)) (x10 : (⟨S100000x64, .f32⟩ : BufTy).Contents (Elt Ideal)) (x11 : (⟨S100000x64, .f32⟩ : BufTy).Contents (Elt Ideal))

set_option maxRecDepth 8192 in
set_option maxHeartbeats 40000000 in
/-- Window 4. -/
theorem step4 (V : Valuation τ sig (Elt Ideal)) (h : Bundle4 x0 x1 x2 x3 x4 x5 x6 x7 x8 x9 x10 x11 V) :
    Bundle5 x0 x1 x2 x3 x4 x5 x6 x7 x8 x9 x10 x11 (after (ops4 (F := Ideal)) V) := by
  obtain ⟨a0, a1, a2, a3, a4, a5, a6, a7, a8, a9, a10, a11, h_v1, h_v3, h_v7, h_v8, h_v140, h_v197, h_v199, h_v201, h_v204, h_v206⟩ := h
  refine ⟨?_, ?_, ?_, ?_, ?_, ?_, ?_, ?_, ?_, ?_, ?_, ?_, ?_, ?_, ?_, ?_, ?_, ?_, ?_⟩
  · exact (keep4 V main_arg0 (by decide)).trans a0
  · exact (keep4 V main_arg1 (by decide)).trans a1
  · exact (keep4 V main_arg2 (by decide)).trans a2
  · exact (keep4 V main_arg3 (by decide)).trans a3
  · exact (keep4 V main_arg4 (by decide)).trans a4
  · exact (keep4 V main_arg5 (by decide)).trans a5
  · exact (keep4 V main_arg6 (by decide)).trans a6
  · exact (keep4 V main_arg7 (by decide)).trans a7
  · exact (keep4 V main_arg8 (by decide)).trans a8
  · exact (keep4 V main_arg9 (by decide)).trans a9
  · exact (keep4 V main_arg10 (by decide)).trans a10
  · exact (keep4 V main_arg11 (by decide)).trans a11
  · exact (keep4 V main_v1 (by decide)).trans h_v1
  · exact (keep4 V main_v3 (by decide)).trans h_v3
  · exact (keep4 V main_v7 (by decide)).trans h_v7
  · exact (keep4 V main_v8 (by decide)).trans h_v8
  · exact (keep4 V main_v140 (by decide)).trans h_v140
  · after_results_simp
    try simp only [a0, a1, a2, a3, a4, a5, a6, a7, a8, a9, a10, a11, h_v1, h_v3, h_v7, h_v8, h_v140, h_v197, h_v199, h_v201, h_v204, h_v206]
    try rfl
  · after_results_simp
    try simp only [a0, a1, a2, a3, a4, a5, a6, a7, a8, a9, a10, a11, h_v1, h_v3, h_v7, h_v8, h_v140, h_v197, h_v199, h_v201, h_v204, h_v206]
    try rfl

set_option maxRecDepth 8192 in
set_option maxHeartbeats 40000000 in
/-- Window 5. -/
theorem step5 (V : Valuation τ sig (Elt Ideal)) (h : Bundle5 x0 x1 x2 x3 x4 x5 x6 x7 x8 x9 x10 x11 V) :
    Bundle6 x0 x1 x2 x3 x4 x5 x6 x7 x8 x9 x10 x11 (after (ops5 (F := Ideal)) V) := by
  obtain ⟨a0, a1, a2, a3, a4, a5, a6, a7, a8, a9, a10, a11, h_v1, h_v3, h_v7, h_v8, h_v140, h_v255, h_v258⟩ := h
  refine ⟨?_, ?_, ?_, ?_, ?_, ?_, ?_, ?_, ?_, ?_, ?_, ?_, ?_, ?_, ?_, ?_, ?_, ?_, ?_, ?_, ?_, ?_, ?_, ?_⟩
  · exact (keep5 V main_arg0 (by decide)).trans a0
  · exact (keep5 V main_arg1 (by decide)).trans a1
  · exact (keep5 V main_arg2 (by decide)).trans a2
  · exact (keep5 V main_arg3 (by decide)).trans a3
  · exact (keep5 V main_arg4 (by decide)).trans a4
  · exact (keep5 V main_arg5 (by decide)).trans a5
  · exact (keep5 V main_arg6 (by decide)).trans a6
  · exact (keep5 V main_arg7 (by decide)).trans a7
  · exact (keep5 V main_arg8 (by decide)).trans a8
  · exact (keep5 V main_arg9 (by decide)).trans a9
  · exact (keep5 V main_arg10 (by decide)).trans a10
  · exact (keep5 V main_arg11 (by decide)).trans a11
  · exact (keep5 V main_v1 (by decide)).trans h_v1
  · exact (keep5 V main_v3 (by decide)).trans h_v3
  · exact (keep5 V main_v7 (by decide)).trans h_v7
  · exact (keep5 V main_v8 (by decide)).trans h_v8
  · exact (keep5 V main_v140 (by decide)).trans h_v140
  · after_results_simp
    try simp only [a0, a1, a2, a3, a4, a5, a6, a7, a8, a9, a10, a11, h_v1, h_v3, h_v7, h_v8, h_v140, h_v255, h_v258]
    try rfl
  · after_results_simp
    try simp only [a0, a1, a2, a3, a4, a5, a6, a7, a8, a9, a10, a11, h_v1, h_v3, h_v7, h_v8, h_v140, h_v255, h_v258]
    try rfl
  · after_results_simp
    try simp only [a0, a1, a2, a3, a4, a5, a6, a7, a8, a9, a10, a11, h_v1, h_v3, h_v7, h_v8, h_v140, h_v255, h_v258]
    try rfl
  · after_results_simp
    try simp only [a0, a1, a2, a3, a4, a5, a6, a7, a8, a9, a10, a11, h_v1, h_v3, h_v7, h_v8, h_v140, h_v255, h_v258]
    try rfl
  · after_results_simp
    try simp only [a0, a1, a2, a3, a4, a5, a6, a7, a8, a9, a10, a11, h_v1, h_v3, h_v7, h_v8, h_v140, h_v255, h_v258]
    try rfl
  · after_results_simp
    try simp only [a0, a1, a2, a3, a4, a5, a6, a7, a8, a9, a10, a11, h_v1, h_v3, h_v7, h_v8, h_v140, h_v255, h_v258]
    try rfl
  · after_results_simp
    try simp only [a0, a1, a2, a3, a4, a5, a6, a7, a8, a9, a10, a11, h_v1, h_v3, h_v7, h_v8, h_v140, h_v255, h_v258]
    try rfl

set_option maxRecDepth 8192 in
set_option maxHeartbeats 40000000 in
/-- Window 6. -/
theorem step6 (V : Valuation τ sig (Elt Ideal)) (h : Bundle6 x0 x1 x2 x3 x4 x5 x6 x7 x8 x9 x10 x11 V) :
    Bundle7 x0 x1 x2 x3 x4 x5 x6 x7 x8 x9 x10 x11 (after (ops6 (F := Ideal)) V) := by
  obtain ⟨a0, a1, a2, a3, a4, a5, a6, a7, a8, a9, a10, a11, h_v1, h_v3, h_v7, h_v8, h_v140, h_v273, h_v275, h_v277, h_v298, h_v302, h_v309, h_cst_47⟩ := h
  refine ⟨?_, ?_, ?_, ?_, ?_, ?_, ?_, ?_, ?_, ?_, ?_, ?_, ?_, ?_, ?_, ?_, ?_, ?_, ?_, ?_, ?_, ?_, ?_, ?_, ?_⟩
  · exact (keep6 V main_arg0 (by decide)).trans a0
  · exact (keep6 V main_arg1 (by decide)).trans a1
  · exact (keep6 V main_arg2 (by decide)).trans a2
  · exact (keep6 V main_arg3 (by decide)).trans a3
  · exact (keep6 V main_arg4 (by decide)).trans a4
  · exact (keep6 V main_arg5 (by decide)).trans a5
  · exact (keep6 V main_arg6 (by decide)).trans a6
  · exact (keep6 V main_arg7 (by decide)).trans a7
  · exact (keep6 V main_arg8 (by decide)).trans a8
  · exact (keep6 V main_arg9 (by decide)).trans a9
  · exact (keep6 V main_arg10 (by decide)).trans a10
  · exact (keep6 V main_arg11 (by decide)).trans a11
  · exact (keep6 V main_v1 (by decide)).trans h_v1
  · exact (keep6 V main_v3 (by decide)).trans h_v3
  · exact (keep6 V main_v7 (by decide)).trans h_v7
  · exact (keep6 V main_v8 (by decide)).trans h_v8
  · exact (keep6 V main_v140 (by decide)).trans h_v140
  · exact (keep6 V main_v273 (by decide)).trans h_v273
  · after_results_simp
    try simp only [a0, a1, a2, a3, a4, a5, a6, a7, a8, a9, a10, a11, h_v1, h_v3, h_v7, h_v8, h_v140, h_v273, h_v275, h_v277, h_v298, h_v302, h_v309, h_cst_47]
    try rfl
  · after_results_simp
    try simp only [a0, a1, a2, a3, a4, a5, a6, a7, a8, a9, a10, a11, h_v1, h_v3, h_v7, h_v8, h_v140, h_v273, h_v275, h_v277, h_v298, h_v302, h_v309, h_cst_47]
    try rfl
  · after_results_simp
    try simp only [a0, a1, a2, a3, a4, a5, a6, a7, a8, a9, a10, a11, h_v1, h_v3, h_v7, h_v8, h_v140, h_v273, h_v275, h_v277, h_v298, h_v302, h_v309, h_cst_47]
    try rfl
  · after_results_simp
    try simp only [a0, a1, a2, a3, a4, a5, a6, a7, a8, a9, a10, a11, h_v1, h_v3, h_v7, h_v8, h_v140, h_v273, h_v275, h_v277, h_v298, h_v302, h_v309, h_cst_47]
    try rfl
  · after_results_simp
    try simp only [a0, a1, a2, a3, a4, a5, a6, a7, a8, a9, a10, a11, h_v1, h_v3, h_v7, h_v8, h_v140, h_v273, h_v275, h_v277, h_v298, h_v302, h_v309, h_cst_47]
    try rfl
  · after_results_simp
    try simp only [a0, a1, a2, a3, a4, a5, a6, a7, a8, a9, a10, a11, h_v1, h_v3, h_v7, h_v8, h_v140, h_v273, h_v275, h_v277, h_v298, h_v302, h_v309, h_cst_47]
    try rfl
  · after_results_simp
    try simp only [a0, a1, a2, a3, a4, a5, a6, a7, a8, a9, a10, a11, h_v1, h_v3, h_v7, h_v8, h_v140, h_v273, h_v275, h_v277, h_v298, h_v302, h_v309, h_cst_47]
    try rfl

set_option maxRecDepth 8192 in
set_option maxHeartbeats 40000000 in
/-- Window 7. -/
theorem step7 (V : Valuation τ sig (Elt Ideal)) (h : Bundle7 x0 x1 x2 x3 x4 x5 x6 x7 x8 x9 x10 x11 V) :
    Bundle8 x0 x1 x2 x3 x4 x5 x6 x7 x8 x9 x10 x11 (after (ops7 (F := Ideal)) V) := by
  obtain ⟨a0, a1, a2, a3, a4, a5, a6, a7, a8, a9, a10, a11, h_v1, h_v3, h_v7, h_v8, h_v140, h_v273, h_v330, h_v332, h_v334, h_v355, h_v359, h_v361, h_c_55⟩ := h
  refine ⟨?_, ?_, ?_, ?_, ?_, ?_, ?_, ?_, ?_, ?_, ?_, ?_, ?_, ?_, ?_, ?_, ?_, ?_, ?_, ?_, ?_, ?_⟩
  · exact (keep7 V main_arg0 (by decide)).trans a0
  · exact (keep7 V main_arg1 (by decide)).trans a1
  · exact (keep7 V main_arg2 (by decide)).trans a2
  · exact (keep7 V main_arg3 (by decide)).trans a3
  · exact (keep7 V main_arg4 (by decide)).trans a4
  · exact (keep7 V main_arg5 (by decide)).trans a5
  · exact (keep7 V main_arg6 (by decide)).trans a6
  · exact (keep7 V main_arg7 (by decide)).trans a7
  · exact (keep7 V main_arg8 (by decide)).trans a8
  · exact (keep7 V main_arg9 (by decide)).trans a9
  · exact (keep7 V main_arg10 (by decide)).trans a10
  · exact (keep7 V main_arg11 (by decide)).trans a11
  · exact (keep7 V main_v1 (by decide)).trans h_v1
  · exact (keep7 V main_v3 (by decide)).trans h_v3
  · exact (keep7 V main_v7 (by decide)).trans h_v7
  · exact (keep7 V main_v8 (by decide)).trans h_v8
  · after_results_simp
    try simp only [a0, a1, a2, a3, a4, a5, a6, a7, a8, a9, a10, a11, h_v1, h_v3, h_v7, h_v8, h_v140, h_v273, h_v330, h_v332, h_v334, h_v355, h_v359, h_v361, h_c_55]
    try rfl
  · after_results_simp
    try simp only [a0, a1, a2, a3, a4, a5, a6, a7, a8, a9, a10, a11, h_v1, h_v3, h_v7, h_v8, h_v140, h_v273, h_v330, h_v332, h_v334, h_v355, h_v359, h_v361, h_c_55]
    try rfl
  · after_results_simp
    try simp only [a0, a1, a2, a3, a4, a5, a6, a7, a8, a9, a10, a11, h_v1, h_v3, h_v7, h_v8, h_v140, h_v273, h_v330, h_v332, h_v334, h_v355, h_v359, h_v361, h_c_55]
    try rfl
  · after_results_simp
    try simp only [a0, a1, a2, a3, a4, a5, a6, a7, a8, a9, a10, a11, h_v1, h_v3, h_v7, h_v8, h_v140, h_v273, h_v330, h_v332, h_v334, h_v355, h_v359, h_v361, h_c_55]
    try rfl
  · after_results_simp
    try simp only [a0, a1, a2, a3, a4, a5, a6, a7, a8, a9, a10, a11, h_v1, h_v3, h_v7, h_v8, h_v140, h_v273, h_v330, h_v332, h_v334, h_v355, h_v359, h_v361, h_c_55]
    try rfl
  · after_results_simp
    try simp only [a0, a1, a2, a3, a4, a5, a6, a7, a8, a9, a10, a11, h_v1, h_v3, h_v7, h_v8, h_v140, h_v273, h_v330, h_v332, h_v334, h_v355, h_v359, h_v361, h_c_55]
    try rfl

end Cert.ReferenceIdeal.RunW

end
-- ==== Proof.RunValsC.lean ====
/-
  What the reference's buffers hold at each window boundary, continued: windows 8 to 10 (see `RunVals`).
-/
import proofs.«128530_j50208167690906_1_alg».proof.Proof.RunVals

noncomputable section

namespace Cert.ReferenceIdeal.RunW

open Cert.ReferenceIdeal Cert.ReferenceIdeal.Gen Cert.ReferenceIdeal.ReadP Idealize.ShloMosaic Idealize.ShloMosaic.TcCoe Idealize.SL.Sem Idealize.ShloMosaic.StableHlo

variable (x0 : (⟨S100000x64, .f32⟩ : BufTy).Contents (Elt Ideal)) (x1 : (⟨S2x1600000, .i32⟩ : BufTy).Contents (Elt Ideal)) (x2 : (⟨S4x3x64x64, .f32⟩ : BufTy).Contents (Elt Ideal)) (x3 : (⟨S4x64, .f32⟩ : BufTy).Contents (Elt Ideal)) (x4 : (⟨S4x3x64x64, .f32⟩ : BufTy).Contents (Elt Ideal)) (x5 : (⟨S4x64, .f32⟩ : BufTy).Contents (Elt Ideal)) (x6 : (⟨S3x64, .f32⟩ : BufTy).Contents (Elt Ideal)) (x7 : (⟨S4x64, .f32⟩ : BufTy).Contents (Elt Ideal)) (x8 : (⟨S64x16, .f32⟩ : BufTy).Contents (Elt Ideal)) (x9 : (⟨S16, .f32⟩ : BufTy).Contents (Elt Ideal)) (x10 : (⟨S100000x64, .f32⟩ : BufTy).Contents (Elt Ideal)) (x11 : (⟨S100000x64, .f32⟩ : BufTy).Contents (Elt Ideal))

set_option maxRecDepth 8192 in
set_option maxHeartbeats 40000000 in
/-- Window 8. -/
theorem step8 (V : Valuation τ sig (Elt Ideal)) (h : Bundle8 x0 x1 x2 x3 x4 x5 x6 x7 x8 x9 x10 x11 V) :
    Bundle9 x0 x1 x2 x3 x4 x5 x6 x7 x8 x9 x10 x11 (after (ops8 (F := Ideal)) V) := by
  obtain ⟨a0, a1, a2, a3, a4, a5, a6, a7, a8, a9, a10, a11, h_v1, h_v3, h_v7, h_v8, h_v396, h_v398, h_v400, h_v403, h_v413, h_v414⟩ := h
  refine ⟨?_, ?_, ?_, ?_, ?_, ?_, ?_, ?_, ?_, ?_, ?_, ?_, ?_, ?_, ?_, ?_, ?_, ?_, ?_, ?_, ?_, ?_⟩
  · exact (keep8 V main_arg0 (by decide)).trans a0
  · exact (keep8 V main_arg1 (by decide)).trans a1
  · exact (keep8 V main_arg2 (by decide)).trans a2
  · exact (keep8 V main_arg3 (by decide)).trans a3
  · exact (keep8 V main_arg4 (by decide)).trans a4
  · exact (keep8 V main_arg5 (by decide)).trans a5
  · exact (keep8 V main_arg6 (by decide)).trans a6
  · exact (keep8 V main_arg7 (by decide)).trans a7
  · exact (keep8 V main_arg8 (by decide)).trans a8
  · exact (keep8 V main_arg9 (by decide)).trans a9
  · exact (keep8 V main_arg10 (by decide)).trans a10
  · exact (keep8 V main_arg11 (by decide)).trans a11
  · exact (keep8 V main_v1 (by decide)).trans h_v1
  · exact (keep8 V main_v3 (by decide)).trans h_v3
  · exact (keep8 V main_v7 (by decide)).trans h_v7
  · exact (keep8 V main_v8 (by decide)).trans h_v8
  · exact (keep8 V main_v396 (by decide)).trans h_v396
  · after_results_simp
    try simp only [a0, a1, a2, a3, a4, a5, a6, a7, a8, a9, a10, a11, h_v1, h_v3, h_v7, h_v8, h_v396, h_v398, h_v400, h_v403, h_v413, h_v414]
    try rfl
  · after_results_simp
    try simp only [a0, a1, a2, a3, a4, a5, a6, a7, a8, a9, a10, a11, h_v1, h_v3, h_v7, h_v8, h_v396, h_v398, h_v400, h_v403, h_v413, h_v414]
    try rfl
  · after_results_simp
    try simp only [a0, a1, a2, a3, a4, a5, a6, a7, a8, a9, a10, a11, h_v1, h_v3, h_v7, h_v8, h_v396, h_v398, h_v400, h_v403, h_v413, h_v414]
    try rfl
  · after_results_simp
    try simp only [a0, a1, a2, a3, a4, a5, a6, a7, a8, a9, a10, a11, h_v1, h_v3, h_v7, h_v8, h_v396, h_v398, h_v400, h_v403, h_v413, h_v414]
    try rfl
  · after_results_simp
    try simp only [a0, a1, a2, a3, a4, a5, a6, a7, a8, a9, a10, a11, h_v1, h_v3, h_v7, h_v8, h_v396, h_v398, h_v400, h_v403, h_v413, h_v414]
    try rfl

set_option maxRecDepth 8192 in
set_option maxHeartbeats 40000000 in
/-- Window 9. -/
theorem step9 (V : Valuation τ sig (Elt Ideal)) (h : Bundle9 x0 x1 x2 x3 x4 x5 x6 x7 x8 x9 x10 x11 V) :
    Bundle10 x0 x1 x2 x3 x4 x5 x6 x7 x8 x9 x10 x11 (after (ops9 (F := Ideal)) V) := by
  obtain ⟨a0, a1, a2, a3, a4, a5, a6, a7, a8, a9, a10, a11, h_v1, h_v3, h_v7, h_v8, h_v396, h_v453, h_v455, h_v457, h_v460, h_v467⟩ := h
  refine ⟨?_, ?_, ?_, ?_, ?_, ?_, ?_, ?_, ?_, ?_, ?_, ?_, ?_, ?_, ?_⟩
  · exact (keep9 V main_arg0 (by decide)).trans a0
  · exact (keep9 V main_arg1 (by decide)).trans a1
  · exact (keep9 V main_arg2 (by decide)).trans a2
  · exact (keep9 V main_arg3 (by decide)).trans a3
  · exact (keep9 V main_arg4 (by decide)).trans a4
  · exact (keep9 V main_arg5 (by decide)).trans a5
  · exact (keep9 V main_arg6 (by decide)).trans a6
  · exact (keep9 V main_arg7 (by decide)).trans a7
  · exact (keep9 V main_arg8 (by decide)).trans a8
  · exact (keep9 V main_arg9 (by decide)).trans a9
  · exact (keep9 V main_arg10 (by decide)).trans a10
  · exact (keep9 V main_arg11 (by decide)).trans a11
  · exact (keep9 V main_v396 (by decide)).trans h_v396
  · after_results_simp
    try simp only [a0, a1, a2, a3, a4, a5, a6, a7, a8, a9, a10, a11, h_v1, h_v3, h_v7, h_v8, h_v396, h_v453, h_v455, h_v457, h_v460, h_v467]
    try rfl
  · after_results_simp
    try simp only [a0, a1, a2, a3, a4, a5, a6, a7, a8, a9, a10, a11, h_v1, h_v3, h_v7, h_v8, h_v396, h_v453, h_v455, h_v457, h_v460, h_v467]
    try rfl

/-- Running two lines one after the other is running their concatenation. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The last window without its last operation, the stacking of the two state arrays. -/
abbrev ops10a {F : FTy → Type} [FloatOps F] : List (HloOp τ sig (Elt F)) :=
  [ unary main_v520 main_v521 (broadcastInDim S100000x64 ![0, 1] bcast_S1x64_S100000x64_0_1 : (⟨S1x64, .f32⟩ : BufTy).Contents (Elt F) → (⟨S100000x64, .f32⟩ : BufTy).Contents (Elt F)),
    binary main_v517 main_v521 main_v522 (addf : (⟨S100000x64, .f32⟩ : BufTy).Contents (Elt F) → (⟨S100000x64, .f32⟩ : BufTy).Contents (Elt F) → (⟨S100000x64, .f32⟩ : BufTy).Contents (Elt F)),
    unary main_v522 main_v523 (Host.negf : (⟨S100000x64, .f32⟩ : BufTy).Contents (Elt F) → (⟨S100000x64, .f32⟩ : BufTy).Contents (Elt F)),
    unary main_v523 main_v524 (Host.exp : (⟨S100000x64, .f32⟩ : BufTy).Contents (Elt F) → (⟨S100000x64, .f32⟩ : BufTy).Contents (Elt F)),
    nullary main_cst_77 (constant S_ .f32 0x3F800000#32),
    unary main_cst_77 main_v525 (broadcastInDim S100000x64 ![] bcast_S_S100000x64 : (⟨S_, .f32⟩ : BufTy).Contents (Elt F) → (⟨S100000x64, .f32⟩ : BufTy).Contents (Elt F)),
    binary main_v525 main_v524 main_v526 (addf : (⟨S100000x64, .f32⟩ : BufTy).Contents (Elt F) → (⟨S100000x64, .f32⟩ : BufTy).Contents (Elt F) → (⟨S100000x64, .f32⟩ : BufTy).Contents (Elt F)),
    nullary main_cst_78 (constant S_ .f32 0x3F800000#32),
    unary main_cst_78 main_v527 (broadcastInDim S100000x64 ![] bcast_S_S100000x64 : (⟨S_, .f32⟩ : BufTy).Contents (Elt F) → (⟨S100000x64, .f32⟩ : BufTy).Contents (Elt F)),
    binary main_v527 main_v526 main_v528 (Host.divf : (⟨S100000x64, .f32⟩ : BufTy).Contents (Elt F) → (⟨S100000x64, .f32⟩ : BufTy).Contents (Elt F) → (⟨S100000x64, .f32⟩ : BufTy).Contents (Elt F)),
    unary main_v396 main_v529 (Host.tanh : (⟨S100000x64, .f32⟩ : BufTy).Contents (Elt F) → (⟨S100000x64, .f32⟩ : BufTy).Contents (Elt F)),
    binary main_v528 main_v529 main_v530 (mulf : (⟨S100000x64, .f32⟩ : BufTy).Contents (Elt F) → (⟨S100000x64, .f32⟩ : BufTy).Contents (Elt F) → (⟨S100000x64, .f32⟩ : BufTy).Contents (Elt F)),
    nullary main_call0_cst (constant S_ .f32 0x00000000#32),
    unary main_call0_cst main_call0_v0 (broadcastInDim S100000x64 ![] bcast_S_S100000x64 : (⟨S_, .f32⟩ : BufTy).Contents (Elt F) → (⟨S100000x64, .f32⟩ : BufTy).Contents (Elt F)),
    binary main_v530 main_call0_v0 main_v531 (maximumf : (⟨S100000x64, .f32⟩ : BufTy).Contents (Elt F) → (⟨S100000x64, .f32⟩ : BufTy).Contents (Elt F) → (⟨S100000x64, .f32⟩ : BufTy).Contents (Elt F)),
    binary main_v531 main_arg8 main_v532 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    unary main_arg9 main_v533 (broadcastInDim S1x16 ![1] bcast_S16_S1x16_1 : (⟨S16, .f32⟩ : BufTy).Contents (Elt F) → (⟨S1x16, .f32⟩ : BufTy).Contents (Elt F)),
    unary main_v533 main_v534 (broadcastInDim S100000x16 ![0, 1] bcast_S1x16_S100000x16_0_1 : (⟨S1x16, .f32⟩ : BufTy).Contents (Elt F) → (⟨S100000x16, .f32⟩ : BufTy).Contents (Elt F)),
    binary main_v532 main_v534 main_v535 (addf : (⟨S100000x16, .f32⟩ : BufTy).Contents (Elt F) → (⟨S100000x16, .f32⟩ : BufTy).Contents (Elt F) → (⟨S100000x16, .f32⟩ : BufTy).Contents (Elt F)),
    unary main_v531 main_v536 (broadcastInDim S1x100000x64 ![1, 2] bcast_S100000x64_S1x100000x64_1_2 : (⟨S100000x64, .f32⟩ : BufTy).Contents (Elt F) → (⟨S1x100000x64, .f32⟩ : BufTy).Contents (Elt F)),
    unary main_v396 main_v537 (broadcastInDim S1x100000x64 ![1, 2] bcast_S100000x64_S1x100000x64_1_2 : (⟨S100000x64, .f32⟩ : BufTy).Contents (Elt F) → (⟨S1x100000x64, .f32⟩ : BufTy).Contents (Elt F)) ]

set_option maxRecDepth 8192 in
theorem ops10_split {F : FTy → Type} [FloatOps F] : (ops10 : List (HloOp τ sig (Elt F))) = ops10a ++
    [ binary main_v536 main_v537 main_v538 ((fun a b => concatenate S2x100000x64 0 [⟨S1x100000x64, a⟩, ⟨S1x100000x64, b⟩] concatenates_S1x100000x64_S1x100000x64_S2x100000x64_d0) : (⟨S1x100000x64, .f32⟩ : BufTy).Contents (Elt F) → (⟨S1x100000x64, .f32⟩ : BufTy).Contents (Elt F) → (⟨S2x100000x64, .f32⟩ : BufTy).Contents (Elt F)) ] := rfl

set_option maxRecDepth 8192 in
set_option maxHeartbeats 40000000 in
/-- Window 10. -/
theorem step10 (V : Valuation τ sig (Elt Ideal)) (h : Bundle10 x0 x1 x2 x3 x4 x5 x6 x7 x8 x9 x10 x11 V) :
    Bundle11 x0 x1 x2 x3 x4 x5 x6 x7 x8 x9 x10 x11 (after (ops10 (F := Ideal)) V) := by
  obtain ⟨a0, a1, a2, a3, a4, a5, a6, a7, a8, a9, a10, a11, h_v396, h_v517, h_v520⟩ := h
  refine ⟨?_, ?_, ?_, ?_, ?_, ?_, ?_, ?_, ?_, ?_, ?_, ?_, ?_, ?_⟩
  · exact (keep10 V main_arg0 (by decide)).trans a0
  · exact (keep10 V main_arg1 (by decide)).trans a1
  · exact (keep10 V main_arg2 (by decide)).trans a2
  · exact (keep10 V main_arg3 (by decide)).trans a3
  · exact (keep10 V main_arg4 (by decide)).trans a4
  · exact (keep10 V main_arg5 (by decide)).trans a5
  · exact (keep10 V main_arg6 (by decide)).trans a6
  · exact (keep10 V main_arg7 (by decide)).trans a7
  · exact (keep10 V main_arg8 (by decide)).trans a8
  · exact (keep10 V main_arg9 (by decide)).trans a9
  · exact (keep10 V main_arg10 (by decide)).trans a10
  · exact (keep10 V main_arg11 (by decide)).trans a11
  · after_results_simp
    try simp only [a0, a1, a2, a3, a4, a5, a6, a7, a8, a9, a10, a11, h_v396, h_v517, h_v520]
    try rfl
  · have h536 : after (ops10a (F := Ideal)) V (Proc.devRef .tc main_v536) = val_main_v536 (F := Ideal) x0 x1 x2 x3 x4 x5 x6 x7 x10 x11 := by
      after_results_simp
      try simp only [a0, a1, a2, a3, a4, a5, a6, a7, a8, a9, a10, a11, h_v396, h_v517, h_v520]
      try rfl
    have h537 : after (ops10a (F := Ideal)) V (Proc.devRef .tc main_v537) = val_main_v537 (F := Ideal) x0 x1 x2 x3 x4 x5 x6 x7 x10 x11 := by
      after_results_simp
      try simp only [a0, a1, a2, a3, a4, a5, a6, a7, a8, a9, a10, a11, h_v396, h_v517, h_v520]
      try rfl
    rw [ops10_split, after_append]
    generalize after (ops10a (F := Ideal)) V = W at h536 h537 ⊢
    simp only [after_cons, after_nil, binary_result']
    rw [h536, h537]
    rfl

end Cert.ReferenceIdeal.RunW

end
-- ==== Proof.RunMain.lean ====
/-
  The reference program's run.

  The program is its eleven windows one after the other, hence the straight line of all their operations
  (`main_eq`, by `seq_append`); running a concatenation of lines is running them in turn (`after_append`); so every weakly
  fair execution terminates with each buffer at the windows' operations applied in order to the launch contents, and by
  the boundary invariants (`RunVals`) the two results hold their stages of the argument arrays and the arguments are unchanged.
-/
import proofs.«128530_j50208167690906_1_alg».proof.Proof.RunVals
import proofs.«128530_j50208167690906_1_alg».proof.Proof.RunValsB
import proofs.«128530_j50208167690906_1_alg».proof.Proof.RunValsC

noncomputable section

namespace Cert.ReferenceIdeal.RunW

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- All 622 operations, window after window. -/
abbrev opsAll : List (HloOp τ sig (Elt F)) := ops0 ++ (ops1 ++ (ops2 ++ (ops3 ++ (ops4 ++ (ops5 ++ (ops6 ++ (ops7 ++ (ops8 ++ (ops9 ++ (ops10))))))))))

theorem main_eq (c : Dev nD) : main (F := F) c = seq (opsAll (F := F)) := by
  show (main_part0 (F := F) c >>= fun _ => main_part1 (F := F) c >>= fun _ => main_part2 (F := F) c >>= fun _ => main_part3 (F := F) c >>= fun _ => main_part4 (F := F) c >>= fun _ => main_part5 (F := F) c >>= fun _ => main_part6 (F := F) c >>= fun _ => main_part7 (F := F) c >>= fun _ => main_part8 (F := F) c >>= fun _ => main_part9 (F := F) c >>= fun _ => main_part10 (F := F) c) = _
  rw [part0_eq, part1_eq, part2_eq, part3_eq, part4_eq, part5_eq, part6_eq, part7_eq, part8_eq, part9_eq, part10_eq]
  simp only [opsAll, seq_append]

theorem scopedRefs_eq : (Finset.univ.filter fun b : Ref sig .tc => b.isScoped) = ∅ := by decide
theorem scopedSems_eq : (Finset.univ.filter fun sm : SemLoc sig => sm.isScoped .tc) = ∅ := by decide

theorem sub_all : (opsAll : List (HloOp τ sig (Elt F))).Forall fun op => op.bufs ⊆ tcRefs τ sig :=
  List.forall_append.mpr ⟨sub0, List.forall_append.mpr ⟨sub1, List.forall_append.mpr ⟨sub2, List.forall_append.mpr ⟨sub3, List.forall_append.mpr ⟨sub4, List.forall_append.mpr ⟨sub5, List.forall_append.mpr ⟨sub6, List.forall_append.mpr ⟨sub7, List.forall_append.mpr ⟨sub8, List.forall_append.mpr ⟨sub9, sub10⟩⟩⟩⟩⟩⟩⟩⟩⟩⟩

theorem fresh_all : ∀ op ∈ (opsAll : List (HloOp τ sig (Elt F))), op.fresh = ∅ := by
  intro op h
  simp only [opsAll, List.mem_append] at h
  rcases h with h | h | h | h | h | h | h | h | h | h | h
  · exact fresh0 op h
  · exact fresh1 op h
  · exact fresh2 op h
  · exact fresh3 op h
  · exact fresh4 op h
  · exact fresh5 op h
  · exact fresh6 op h
  · exact fresh7 op h
  · exact fresh8 op h
  · exact fresh9 op h
  · exact fresh10 op h

theorem after_all (V : Valuation τ sig (Elt Ideal)) :
    after (opsAll (F := Ideal)) V = after (ops10 (F := Ideal)) (after (ops9 (F := Ideal)) (after (ops8 (F := Ideal)) (after (ops7 (F := Ideal)) (after (ops6 (F := Ideal)) (after (ops5 (F := Ideal)) (after (ops4 (F := Ideal)) (after (ops3 (F := Ideal)) (after (ops2 (F := Ideal)) (after (ops1 (F := Ideal)) (after (ops0 (F := Ideal)) (V))))))))))) := by
  simp only [opsAll, after_append]

/-- After all eleven windows: the two results at their stages, the arguments as launched. -/
theorem bundle_all (V : Valuation τ sig (Elt Ideal)) :
    Bundle11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11))
      (after (ops10 (F := Ideal)) (after (ops9 (F := Ideal)) (after (ops8 (F := Ideal)) (after (ops7 (F := Ideal)) (after (ops6 (F := Ideal)) (after (ops5 (F := Ideal)) (after (ops4 (F := Ideal)) (after (ops3 (F := Ideal)) (after (ops2 (F := Ideal)) (after (ops1 (F := Ideal)) (after (ops0 (F := Ideal)) (V)))))))))))) :=
  step10 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) _ (step9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) _ (step8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) _ (step7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) _ (step6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) _ (step5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) _ (step4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) _ (step3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) _ (step2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) _ (step1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) _ (step0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) _ (⟨rfl, rfl, rfl, rfl, rfl, rfl, rfl, rfl, rfl, rfl, rfl, rfl⟩)))))))))))

/-- On every device, from any memory with zero counters: every weakly fair execution of @main terminates with each result at
    its stage of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v535) = val_main_v535 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v538) = val_main_v538 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run defs _ _).mono (fun r h c => ?_)
    (run_seq scopedRefs_eq scopedSems_eq defs main (fun _ => opsAll) main_eq (fun _ => sub_all) m ρ (fun _ => fresh_all))
  obtain ⟨a0, a1, a2, a3, a4, a5, a6, a7, a8, a9, a10, a11, h535, h538⟩ := bundle_all (launchContents m c)
  have e := after_all (launchContents m c)
  refine ⟨(h c main_v535).trans ?_, (h c main_v538).trans ?_, (h c main_arg0).trans ?_, (h c main_arg1).trans ?_, (h c main_arg2).trans ?_, (h c main_arg3).trans ?_, (h c main_arg4).trans ?_, (h c main_arg5).trans ?_, (h c main_arg6).trans ?_, (h c main_arg7).trans ?_, (h c main_arg8).trans ?_, (h c main_arg9).trans ?_, (h c main_arg10).trans ?_, (h c main_arg11).trans ?_⟩
  · rw [e]; exact h535
  · rw [e]; exact h538
  · rw [e]; exact a0
  · rw [e]; exact a1
  · rw [e]; exact a2
  · rw [e]; exact a3
  · rw [e]; exact a4
  · rw [e]; exact a5
  · rw [e]; exact a6
  · rw [e]; exact a7
  · rw [e]; exact a8
  · rw [e]; exact a9
  · rw [e]; exact a10
  · rw [e]; exact a11

end Cert.ReferenceIdeal.RunW

end
-- ==== Proof.Cell.lean ====
/-
  One step of a graph-convolutional LSTM cell with peephole connections, read ROW BY ROW.

  A node's row of the result depends only on that node's rows of seven matrices: the features `x`, the scaled
  Laplacian applied to them once (`lx`) and the second Chebyshev term `tx = 2·L(L x) − x`, the same three for the
  hidden state (`h`, `lh`, `th`), and the cell state `c`. For gate `g` (input, forget, candidate, output) and
  column `j` the pre-activation is

      pre g j = Σ_k x k · Wx[g,0,k,j] + Σ_k lx k · Wx[g,1,k,j] + Σ_k tx k · Wx[g,2,k,j]
              + Σ_k h k · Wh[g,0,k,j] + Σ_k lh k · Wh[g,1,k,j] + Σ_k th k · Wh[g,2,k,j]
              + bx[g,j] + bh[g,j] + bg[g,j],

  and then  i = σ(pre 0 + wc[0]·c),  f = σ(pre 1 + wc[1]·c),  c' = f·c + i·tanh(pre 2),
  o = σ(pre 3 + wc[2]·c'),  h' = max(o·tanh c', 0),  out t = Σ_k h' k · Wro[k,t] + bro[t].

  Sums of extended reals are associative and commutative without any finiteness assumption, so the order in which
  the nine summands of `pre` (and the peephole term) are added does not matter: `regroup_peep`, `regroup_plain`.
  The logistic function written out as 1 / (1 + e^(−x)) is the logistic function: `logistic_expanded`.
-/
import Idealize.ShloMosaic.PureOps.Ideal
import Idealize.ShloMosaic.Lib.ValueIdx

noncomputable section

namespace Cert.Cell

open Idealize.ShloMosaic Idealize.ShloMosaic.ValueIdx

abbrev Row := Fin 64 → EReal
abbrev Weights := (⟨4, ![4, 3, 64, 64]⟩ : Shape).Idx → EReal
abbrev Biases := (⟨2, ![4, 64]⟩ : Shape).Idx → EReal
abbrev Peep := (⟨2, ![3, 64]⟩ : Shape).Idx → EReal
abbrev Readout := (⟨2, ![64, 16]⟩ : Shape).Idx → EReal
abbrev ReadoutBias := (⟨1, ![16]⟩ : Shape).Idx → EReal

/-- The cell's parameters. -/
structure Params where
  Wx : Weights
  Wh : Weights
  bx : Biases
  bh : Biases
  bg : Biases
  wc : Peep
  Wro : Readout
  bro : ReadoutBias

/-- One node's rows of the seven matrices the cell reads. -/
structure Rows where
  x : Row
  lx : Row
  tx : Row
  h : Row
  lh : Row
  th : Row
  c : Row

/-- The order-2 Chebyshev contraction for gate `g`, column `j`: the three terms against the three weight slices. -/
def cheb (t0 t1 t2 : Row) (W : Weights) (g : Fin 4) (j : Fin 64) : EReal :=
  (∑ k : Fin 64, t0 k * W (ix4 g 0 k j) + ∑ k : Fin 64, t1 k * W (ix4 g 1 k j)) + ∑ k : Fin 64, t2 k * W (ix4 g 2 k j)

/-- Gate `g`'s pre-activation at column `j`, without the peephole term. -/
def pre (P : Params) (R : Rows) (g : Fin 4) (j : Fin 64) : EReal :=
  (((cheb R.x R.lx R.tx P.Wx g j + cheb R.h R.lh R.th P.Wh g j) + P.bx (ix2 g j)) + P.bh (ix2 g j)) + P.bg (ix2 g j)

def inGate (P : Params) (R : Rows) (j : Fin 64) : EReal :=
  Ideal.logistic (pre P R 0 j + P.wc (ix2 0 j) * R.c j)

def forgetGate (P : Params) (R : Rows) (j : Fin 64) : EReal :=
  Ideal.logistic (pre P R 1 j + P.wc (ix2 1 j) * R.c j)

/-- The new cell state. -/
def cnew (P : Params) (R : Rows) (j : Fin 64) : EReal :=
  forgetGate P R j * R.c j + inGate P R j * Ideal.tanh (pre P R 2 j)

def outGate (P : Params) (R : Rows) (j : Fin 64) : EReal :=
  Ideal.logistic (pre P R 3 j + P.wc (ix2 2 j) * cnew P R j)

/-- The new hidden state, rectified. -/
def hrelu (P : Params) (R : Rows) (j : Fin 64) : EReal :=
  max (outGate P R j * Ideal.tanh (cnew P R j)) (Ideal.ofBits .f32 0x00000000#32)

/-- The linear readout of the rectified hidden state. -/
def out (P : Params) (R : Rows) (t : Fin 16) : EReal :=
  (∑ k : Fin 64, hrelu P R k * P.Wro (ix2 k t)) + P.bro (ix1 t)

/-- Adding each Chebyshev sum's own bias first, then the peephole term, then the gate bias, is adding the two sums,
    the three biases and then the peephole term. -/
theorem regroup_peep (A B bx bh bg w : EReal) :
    (((A + bx) + (B + bh)) + w) + bg = ((((A + B) + bx) + bh) + bg) + w := by ac_rfl

theorem regroup_plain (A B bx bh bg : EReal) :
    ((A + bx) + (B + bh)) + bg = (((A + B) + bx) + bh) + bg := by ac_rfl

/-- The single-precision word of `1.0` is the real number one. -/
theorem one_bits : Ideal.ofBits .f32 0x3F800000#32 = 1 := by
  simp [Ideal.ofBits, Ideal.ieee, -EReal.coe_mul]; norm_num

/-- `1 / (1 + e^(−x))` is the logistic function. -/
theorem logistic_expanded (x : EReal) :
    Ideal.div (Ideal.ofBits .f32 0x3F800000#32) (Ideal.ofBits .f32 0x3F800000#32 + Ideal.exp (-x)) = Ideal.logistic x := by
  rw [one_bits]; rfl

end Cert.Cell

end
-- ==== Proof.LibMatmul.lean ====
/-
  A plain matrix product read at an index: for the dimension numbers that contract the left operand's second
  axis with the right operand's first (rows × inner times inner × columns, no batch axis), a product into the
  zero accumulator is, at `(i, j)`, the sum over the inner coordinate `k` of `lhs (i, k) · rhs (k, j)`.
-/
import Idealize.ShloMosaic.PureOps.Ideal.Laws
import Idealize.ShloMosaic.Lib.ValueIdx

noncomputable section

namespace Idealize.ShloMosaic.ValueIdx

/-- The plain product into the zero accumulator, at `(i, j)`, as a sum over the inner coordinate. -/
theorem matmul_plain_zero_apply (M K N : ℕ) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact hk)
  have er : (DotDims.plain M K N).rhsIdx (ix2 i j) ((contrEquiv1 (DotDims.plain M K N) K rfl rfl).symm k) = ix2 k j :=
    funext fun a => Fin.ext (by
      match a with
      | ⟨0, _⟩ => exact hk
      | ⟨1, _⟩ => rfl)
  rw [el, er]

end Idealize.ShloMosaic.ValueIdx

end
-- ==== Proof.Point.lean ====
/-
  The kernel's body at one grid point, read at an index.

  A point works on 2000 consecutive rows. Its three stores hold, at row `p` and column `j` (column `t` for the
  readout), the cell's new state, its rectified hidden state and the readout — `Cell.cnew`, `Cell.hrelu`, `Cell.out` of
  row `p` of the seven row blocks and of the parameters as the kernel receives them: the weights with the four gates
  side by side (`[order, k, gate·64 + j]`), the biases likewise (`[gate·64 + j]`).

  The body multiplies each of the six row blocks by a 64×256 weight slice (all four gates at once), adds the six
  products and the three bias rows, and cuts the 256 columns into the four gates' 64: at column `gate·64 + j` each
  product is the sum over `k` of the row's entry `k` times the weight `[order, k, gate·64 + j]`.
-/
import proofs.«128530_j50208167690906_1_alg».proof.Proof.Gen.KernelIdeal.Frame
import proofs.«128530_j50208167690906_1_alg».proof.Proof.Cell
import proofs.«128530_j50208167690906_1_alg».proof.Proof.LibMatmul
import Idealize.ShloMosaic.Lib.ValueLayout
import Idealize.ShloMosaic.Lib.Pipeline.Value

noncomputable section

namespace Cert.KernelIdeal.Point

open Cert.KernelIdeal Cert.KernelIdeal.Gen Idealize.ShloMosaic Idealize.ShloMosaic.ValueIdx

/-- Column `gate·64 + j` of the 256 packed columns. -/
abbrev col (g : Fin 4) (j : Fin 64) : Fin 256 := ⟨g.val * 64 + j.val, by have := g.isLt; have := j.isLt; omega⟩

/-- The weights as the cell indexes them, from the packed layout `[order, k, gate·64 + j]`. -/
def unpackW (w : S3x64x256.Idx → EReal) : Cell.Weights := fun i =>
  w (ix3 (n0 := 3) (n1 := 64) (n2 := 256) (i 1) (i 2) (col (i 0) (i 3)))

/-- The biases as the cell indexes them, from the packed layout `[gate·64 + j]`. -/
def unpackB (b : S256.Idx → EReal) : Cell.Biases := fun i => b (ix1 (n := 256) (col (i 0) (i 1)))

/-! ### The operations that are not pointwise, at an index -/

/-- A bias row stretched down the block. -/
theorem bias_apply (v : Vec Ideal S256 .f32) (h1 : S256.ShapeCasts S256) (h2 : S256.ShapeCasts S1x256)
    (h3 : S1x256.Broadcasts S2000x256) (p : Fin 2000) (q : Fin 256) :
    broadcastTo S2000x256 (shapeCast S1x256 (shapeCast S256 v h1) h2) h3 (ix2 p q) = v (ix1 q) := by
  rw [broadcastTo_1b_ab_apply, shapeCast_a_1a_apply, shapeCast_self]

/-- A block times a 64×256 weight slice, into the zero accumulator. -/
theorem product_apply {φ : FTy} (v : FVec Ideal S2000x64 φ) (w : FVec Ideal S64x256 .bf16) (p : Fin 2000) (q : Fin 256) :
    matmul dot_S2000x64_S64x256_S2000x256_1_0_0_1_n_n none v w (constant S2000x256 .f32 0x00000000#32) (ix2 p q)
      = ∑ k : Fin 64, v (ix2 p k) * w (ix2 k q) :=
  matmul_plain_zero_apply 2000 64 256 none v w p q

/-- The rectified hidden state times the readout weights, into the zero accumulator. -/
theorem readout_apply {φ : FTy} (v : FVec Ideal S2000x64 φ) (w : FVec Ideal S64x16 .bf16) (p : Fin 2000) (t : Fin 16) :
    matmul dot_S2000x64_S64x16_S2000x16_1_0_0_1_n_n none v w (constant S2000x16 .f32 0x00000000#32) (ix2 p t)
      = ∑ k : Fin 64, v (ix2 p k) * w (ix2 k t) :=
  matmul_plain_zero_apply 2000 64 16 none v w p t

/-- A weight slice `[1, 64, 256]` viewed `[64, 256]`. -/
theorem slab_apply (v : Vec Ideal S1x64x256 .bf16) (h : S1x64x256.ShapeCasts S64x256) (k : Fin 64) (q : Fin 256) :
    shapeCast S64x256 v h (ix2 k q) = v (ix3 (0 : Fin 1) k q) :=
  shapeCast_1ab_ab_apply v h k q

/-- A peephole row `[1, 64]` flattened and restored is itself. -/
theorem peep_eq (v : Vec Ideal S1x64 .f32) (h : S1x64.ShapeCasts S64) (h' : S64.ShapeCasts S1x64) :
    shapeCast S1x64 (shapeCast S64 v h) h' = v := shapeCast_shapeCast v h h'

/-- A peephole row stretched down the block. -/
theorem peep_row_apply (v : FVec Ideal S1x64 .f32) (h : S1x64.Broadcasts S2000x64) (p : Fin 2000) (j : Fin 64) :
    broadcastTo S2000x64 v h (ix2 p j) = v (ix2 (0 : Fin 1) j) := broadcastTo_1b_ab_apply v h p j

/-! ### The sum of the six products and the three bias rows -/

/-- The 2000×256 block of pre-activations, all four gates side by side, at `(p, q)`. -/
theorem pay14_apply (v4 : FVec Ideal S2000x64 .f32) (v5 : Vec Ideal S2000x64 .f32) (v7 v9 : FVec Ideal S2000x64 .f32)
    (v14 v16 v18 v20 v22 : FVec Ideal S64x256 .bf16) (v24 : FVec Ideal S2000x256 .f32) (v25 : FVec Ideal S2000x64 .bf16)
    (v39 v42 v45 : Vec Ideal S256 .f32) (p : Fin 2000) (q : Fin 256) :
    k0_pay14 v4 v5 v7 v9 v14 v16 v18 v20 v22 v24 v25 v39 v42 v45 (ix2 p q)
      = ((((v24 (ix2 p q) + ∑ k : Fin 64, v25 (ix2 p k) * v14 (ix2 k q)) + ∑ k : Fin 64, v4 (ix2 p k) * v16 (ix2 k q))
          + ((∑ k : Fin 64, v5 (ix2 p k) * v18 (ix2 k q) + ∑ k : Fin 64, v7 (ix2 p k) * v20 (ix2 k q))
              + ∑ k : Fin 64, v9 (ix2 p k) * v22 (ix2 k q)))
          + v39 (ix1 q) + v42 (ix1 q)) + v45 (ix1 q) := by
  unfold k0_pay14
  simp only [addf_apply, product_apply, truncf_apply]
  rw [bias_apply v39 _ _ _ p q, bias_apply v42 _ _ _ p q, bias_apply v45 _ _ _ p q]

/-! ### The four gates' 64 columns out of the 256 -/

/-- Columns `o … o + 63` of the 256, with `o = gate·64`: gate `g`'s column `j` is packed column `g·64 + j`. -/
theorem gate_apply (o : Nat) (X : FVec Ideal S2000x256 .f32) (h : S2000x256.Slices ![0, o] S2000x64) (g : Fin 4) (hg : o = g.val * 64)
    (p : Fin 2000) (j : Fin 64) : extractStridedSlice S2000x64 ![0, o] X h (ix2 p j) = X (ix2 p (col g j)) :=
  slice2_axis1_apply o X h p j (col g j) (by show g.val * 64 + j.val = o + j.val; omega)

theorem logistic_at {s : Shape} {φ : FTy} (v : FVec Ideal s φ) (i : s.Idx) : logistic v i = Ideal.logistic (v i) := rfl
theorem tanh_at {s : Shape} {φ : FTy} (v : FVec Ideal s φ) (i : s.Idx) : tanh v i = Ideal.tanh (v i) := rfl

section Gates

variable (v4 : FVec Ideal S2000x64 .f32) (v5 : Vec Ideal S2000x64 .f32) (v7 v9 : FVec Ideal S2000x64 .f32)
  (v14 v16 v18 v20 v22 : FVec Ideal S64x256 .bf16) (v24 : FVec Ideal S2000x256 .f32) (v25 : FVec Ideal S2000x64 .bf16)
  (v39 v42 v45 : Vec Ideal S256 .f32) (p : Fin 2000) (j : Fin 64)

/-- The forget gate's pre-activation. -/
theorem pay15_apply : k0_pay15 v4 v5 v7 v9 v14 v16 v18 v20 v22 v24 v25 v39 v42 v45 (ix2 p j)
    = k0_pay14 v4 v5 v7 v9 v14 v16 v18 v20 v22 v24 v25 v39 v42 v45 (ix2 p (col 1 j)) := by
  unfold k0_pay15; exact gate_apply 64 _ _ 1 rfl p j

/-- The candidate's pre-activation. -/
theorem pay16_apply : k0_pay16 v4 v5 v7 v9 v14 v16 v18 v20 v22 v24 v25 v39 v42 v45 (ix2 p j)
    = k0_pay14 v4 v5 v7 v9 v14 v16 v18 v20 v22 v24 v25 v39 v42 v45 (ix2 p (col 2 j)) := by
  unfold k0_pay16; exact gate_apply 128 _ _ 2 rfl p j

/-- The output gate's pre-activation. -/
theorem pay17_apply : k0_pay17 v4 v5 v7 v9 v14 v16 v18 v20 v22 v24 v25 v39 v42 v45 (ix2 p j)
    = k0_pay14 v4 v5 v7 v9 v14 v16 v18 v20 v22 v24 v25 v39 v42 v45 (ix2 p (col 3 j)) := by
  unfold k0_pay17; exact gate_apply 192 _ _ 3 rfl p j

/-- The input gate: the logistic function of its pre-activation plus the peephole term. -/
theorem pay20_apply (v10 : Vec Ideal S2000x64 .f32) (v59 : Vec Ideal S1x64 .f32) :
    k0_pay20 v4 v5 v7 v9 v10 v14 v16 v18 v20 v22 v24 v25 v39 v42 v45 v59 (ix2 p j)
      = Ideal.logistic (k0_pay14 v4 v5 v7 v9 v14 v16 v18 v20 v22 v24 v25 v39 v42 v45 (ix2 p (col 0 j))
          + v59 (ix2 (0 : Fin 1) j) * v10 (ix2 p j)) := by
  unfold k0_pay20
  rw [logistic_at, addf_apply, mulf_apply, peep_eq, peep_row_apply, gate_apply 0 _ _ 0 rfl p j]

end Gates

/-! ### The three stores -/

section Stores

variable (v10 : Vec Ideal S2000x64 .f32) (v56 v57 v58 : FVec Ideal S2000x64 .f32) (v64 v67 : FVec Ideal S1x64 .f32)
  (v71 : FVec Ideal S2000x64 .f32) (p : Fin 2000)

/-- The new cell state: forget gate times old state plus input gate times the candidate. -/
theorem pay1_apply (j : Fin 64) : k0_pay1 v10 v56 v57 v64 v71 (ix2 p j)
    = Ideal.logistic (v56 (ix2 p j) + v64 (ix2 (0 : Fin 1) j) * v10 (ix2 p j)) * v10 (ix2 p j)
      + v71 (ix2 p j) * Ideal.tanh (v57 (ix2 p j)) := by
  unfold k0_pay1
  rw [addf_apply, mulf_apply, mulf_apply, logistic_at, tanh_at, addf_apply, mulf_apply, peep_row_apply]

/-- The rectified hidden state. -/
theorem pay2_apply (j : Fin 64) : k0_pay2 v10 v56 v57 v58 v64 v67 v71 (ix2 p j)
    = max (Ideal.logistic (v58 (ix2 p j) + v67 (ix2 (0 : Fin 1) j) * k0_pay1 v10 v56 v57 v64 v71 (ix2 p j))
        * Ideal.tanh (k0_pay1 v10 v56 v57 v64 v71 (ix2 p j))) (Ideal.ofBits .f32 0x00000000#32) := by
  unfold k0_pay2
  rw [maximumf_apply, mulf_apply, logistic_at, tanh_at, addf_apply, mulf_apply, peep_row_apply]
  rfl

/-- The readout. -/
theorem pay3_apply (v88 : Vec Ideal S64x16 .bf16) (v90 : Vec Ideal S16 .f32) (t : Fin 16) :
    k0_pay3 v10 v56 v57 v58 v64 v67 v71 v88 v90 (ix2 p t)
      = (∑ k : Fin 64, k0_pay2 v10 v56 v57 v58 v64 v67 v71 (ix2 p k) * v88 (ix2 k t)) + v90 (ix1 t) := by
  unfold k0_pay3
  rw [addf_apply, readout_apply, broadcastTo_1b_ab_apply, shapeCast_a_1a_apply, shapeCast_self]
  rfl

end Stores

/-! ## The three output blocks as the cell's row functions

  At row `p` of a point's blocks the body computes `Cell.cnew`, `Cell.hrelu` and `Cell.out` of the rows `x0 … x6` at `p`
  and of the parameters unpacked from the layout the kernel receives them in. -/

/-- Row `p` of the seven row blocks. -/
def rowsAt (x0 x1 x2 x3 x4 x5 x6 : Vec Ideal S2000x64 .f32) (p : Fin 2000) : Cell.Rows where
  x := fun k => x0 (ix2 p k)
  lx := fun k => x1 (ix2 p k)
  tx := fun k => x2 (ix2 p k)
  h := fun k => x3 (ix2 p k)
  lh := fun k => x4 (ix2 p k)
  th := fun k => x5 (ix2 p k)
  c := fun k => x6 (ix2 p k)

/-- The parameters, from the arrays the kernel receives. -/
def paramsOf (x7 x8 : Vec Ideal S3x64x256 .bf16) (x9 x10 x11 : Vec Ideal S256 .f32) (x12 : Vec Ideal S3x64 .f32)
    (x13 : Vec Ideal S64x16 .bf16) (x14 : Vec Ideal S16 .f32) : Cell.Params where
  Wx := unpackW x7
  Wh := unpackW x8
  bx := unpackB x9
  bh := unpackB x10
  bg := unpackB x11
  wc := x12
  Wro := x13
  bro := x14

theorem hz2 : (![0, 0] : Fin 2 → Nat) = fun _ => 0 := funext fun a => by fin_cases a <;> rfl
theorem hz1 : (![0] : Fin 1 → Nat) = fun _ => 0 := funext fun a => by fin_cases a <;> rfl

/-! ### The loads through part of a buffer: one weight slice, one peephole row -/

theorem ld_slab0 (x : Vec Ideal S3x64x256 .bf16) (k : Fin 64) (q : Fin 256) :
    View.ld x r0_1 (ix3 (0 : Fin 1) k q) = x (ix3 (0 : Fin 3) k q) :=
  congrArg x (funext fun d => Fin.ext (by
    match d with
    | ⟨0, _⟩ => rfl
    | ⟨1, _⟩ => show 0 + 1 * k.val = k.val; omega
    | ⟨2, _⟩ => show 0 + 1 * q.val = q.val; omega))

theorem ld_slab1 (x : Vec Ideal S3x64x256 .bf16) (k : Fin 64) (q : Fin 256) :
    View.ld x r0_2 (ix3 (0 : Fin 1) k q) = x (ix3 (1 : Fin 3) k q) :=
  congrArg x (funext fun d => Fin.ext (by
    match d with
    | ⟨0, _⟩ => rfl
    | ⟨1, _⟩ => show 0 + 1 * k.val = k.val; omega
    | ⟨2, _⟩ => show 0 + 1 * q.val = q.val; omega))

theorem ld_slab2 (x : Vec Ideal S3x64x256 .bf16) (k : Fin 64) (q : Fin 256) :
    View.ld x r0_3 (ix3 (0 : Fin 1) k q) = x (ix3 (2 : Fin 3) k q) :=
  congrArg x (funext fun d => Fin.ext (by
    match d with
    | ⟨0, _⟩ => rfl
    | ⟨1, _⟩ => show 0 + 1 * k.val = k.val; omega
    | ⟨2, _⟩ => show 0 + 1 * q.val = q.val; omega))

theorem ld_peep0 (x : Vec Ideal S3x64 .f32) (j : Fin 64) : View.ld x r0_5 (ix2 (0 : Fin 1) j) = x (ix2 (0 : Fin 3) j) :=
  congrArg x (funext fun d => Fin.ext (by
    match d with
    | ⟨0, _⟩ => rfl
    | ⟨1, _⟩ => show 0 + 1 * j.val = j.val; omega))

theorem ld_peep1 (x : Vec Ideal S3x64 .f32) (j : Fin 64) : View.ld x r0_6 (ix2 (0 : Fin 1) j) = x (ix2 (1 : Fin 3) j) :=
  congrArg x (funext fun d => Fin.ext (by
    match d with
    | ⟨0, _⟩ => rfl
    | ⟨1, _⟩ => show 0 + 1 * j.val = j.val; omega))

theorem ld_peep2 (x : Vec Ideal S3x64 .f32) (j : Fin 64) : View.ld x r0_7 (ix2 (0 : Fin 1) j) = x (ix2 (2 : Fin 3) j) :=
  congrArg x (funext fun d => Fin.ext (by
    match d with
    | ⟨0, _⟩ => rfl
    | ⟨1, _⟩ => show 0 + 1 * j.val = j.val; omega))

/-! ### The body's small re-layouts -/

theorem pay4_eq (v : Vec Ideal S2000x64 .f32) : k0_pay4 v = v := by unfold k0_pay4; exact shapeCast_self v _
theorem pay5_eq (v : Vec Ideal S2000x64 .f32) : k0_pay5 v = v := by unfold k0_pay5; exact shapeCast_self v _
theorem pay6_eq (v : Vec Ideal S2000x64 .f32) : k0_pay6 v = v := by unfold k0_pay6; exact shapeCast_self v _
theorem pay13_apply (v : Vec Ideal S2000x64 .f32) (i : S2000x64.Idx) : k0_pay13 v i = v i := by
  unfold k0_pay13; rw [truncf_apply, shapeCast_self]
theorem pay7_apply (v : Vec Ideal S1x64x256 .bf16) (k : Fin 64) (q : Fin 256) : k0_pay7 v (ix2 k q) = v (ix3 (0 : Fin 1) k q) := by
  unfold k0_pay7; exact slab_apply v _ k q
theorem pay8_apply (v : Vec Ideal S1x64x256 .bf16) (k : Fin 64) (q : Fin 256) : k0_pay8 v (ix2 k q) = v (ix3 (0 : Fin 1) k q) := by
  unfold k0_pay8; exact slab_apply v _ k q
theorem pay9_apply (v : Vec Ideal S1x64x256 .bf16) (k : Fin 64) (q : Fin 256) : k0_pay9 v (ix2 k q) = v (ix3 (0 : Fin 1) k q) := by
  unfold k0_pay9; exact slab_apply v _ k q
theorem pay10_apply (v : Vec Ideal S1x64x256 .bf16) (k : Fin 64) (q : Fin 256) : k0_pay10 v (ix2 k q) = v (ix3 (0 : Fin 1) k q) := by
  unfold k0_pay10; exact slab_apply v _ k q
theorem pay11_apply (v : Vec Ideal S1x64x256 .bf16) (k : Fin 64) (q : Fin 256) : k0_pay11 v (ix2 k q) = v (ix3 (0 : Fin 1) k q) := by
  unfold k0_pay11; exact slab_apply v _ k q
theorem pay12_apply (v0 : Vec Ideal S2000x64 .f32) (v11 : Vec Ideal S1x64x256 .bf16) (p : Fin 2000) (q : Fin 256) :
    k0_pay12 v0 v11 (ix2 p q) = ∑ k : Fin 64, v0 (ix2 p k) * v11 (ix3 (0 : Fin 1) k q) := by
  unfold k0_pay12
  rw [product_apply]
  refine Finset.sum_congr rfl fun k _ => ?_
  rw [truncf_apply, slab_apply]
theorem pay18_eq (v : Vec Ideal S1x64 .f32) : k0_pay18 v = v := by unfold k0_pay18; exact peep_eq v _ _
theorem pay19_eq (v : Vec Ideal S1x64 .f32) : k0_pay19 v = v := by unfold k0_pay19; exact peep_eq v _ _

section Blocks

variable (x0 x1 x2 x3 x4 x5 x6 : Vec Ideal S2000x64 .f32) (x7 x8 : Vec Ideal S3x64x256 .bf16)
  (x9 x10 x11 : Vec Ideal S256 .f32) (x12 : Vec Ideal S3x64 .f32) (x13 : Vec Ideal S64x16 .bf16) (x14 : Vec Ideal S16 .f32)
  (p : Fin 2000)

/-- Gate `g`'s pre-activation at `(p, j)`, read off the 256-wide sum at packed column `g·64 + j`. -/
theorem pre_block (g : Fin 4) (j : Fin 64) :
    k0_pay14 (k0_pay4 x2) x3 (k0_pay5 x4) (k0_pay6 x5) (k0_pay7 (View.ld x7 r0_2)) (k0_pay8 (View.ld x7 r0_3))
        (k0_pay9 (View.ld x8 r0_1)) (k0_pay10 (View.ld x8 r0_2)) (k0_pay11 (View.ld x8 r0_3))
        (k0_pay12 x0 (View.ld x7 r0_1)) (k0_pay13 x1) x9 x10 x11 (ix2 p (col g j))
      = Cell.pre (paramsOf x7 x8 x9 x10 x11 x12 x13 x14) (rowsAt x0 x1 x2 x3 x4 x5 x6 p) g j := by
  rw [pay14_apply, pay12_apply, pay4_eq, pay5_eq, pay6_eq]
  simp only [pay13_apply, pay7_apply, pay8_apply, pay9_apply, pay10_apply, pay11_apply]
  unfold Cell.pre Cell.cheb
  refine congrArg₂ (· + ·) (congrArg₂ (· + ·) (congrArg₂ (· + ·) (congrArg₂ (· + ·)
    (congrArg₂ (· + ·) (congrArg₂ (· + ·) ?_ ?_) ?_) (congrArg₂ (· + ·) (congrArg₂ (· + ·) ?_ ?_) ?_)) rfl) rfl) rfl
  · exact Finset.sum_congr rfl fun k _ => congrArg (x0 (ix2 p k) * ·) (ld_slab0 x7 k (col g j))
  · exact Finset.sum_congr rfl fun k _ => congrArg (x1 (ix2 p k) * ·) (ld_slab1 x7 k (col g j))
  · exact Finset.sum_congr rfl fun k _ => congrArg (x2 (ix2 p k) * ·) (ld_slab2 x7 k (col g j))
  · exact Finset.sum_congr rfl fun k _ => congrArg (x3 (ix2 p k) * ·) (ld_slab0 x8 k (col g j))
  · exact Finset.sum_congr rfl fun k _ => congrArg (x4 (ix2 p k) * ·) (ld_slab1 x8 k (col g j))
  · exact Finset.sum_congr rfl fun k _ => congrArg (x5 (ix2 p k) * ·) (ld_slab2 x8 k (col g j))

/-- The new cell state at `(p, j)`. -/
theorem cnew_pay (j : Fin 64) :
    k0_pay1 x6 (k0_pay15 (k0_pay4 x2) x3 (k0_pay5 x4) (k0_pay6 x5) (k0_pay7 (View.ld x7 r0_2)) (k0_pay8 (View.ld x7 r0_3)) (k0_pay9 (View.ld x8 r0_1)) (k0_pay10 (View.ld x8 r0_2)) (k0_pay11 (View.ld x8 r0_3)) (k0_pay12 x0 (View.ld x7 r0_1)) (k0_pay13 x1) x9 x10 x11) (k0_pay16 (k0_pay4 x2) x3 (k0_pay5 x4) (k0_pay6 x5) (k0_pay7 (View.ld x7 r0_2)) (k0_pay8 (View.ld x7 r0_3)) (k0_pay9 (View.ld x8 r0_1)) (k0_pay10 (View.ld x8 r0_2)) (k0_pay11 (View.ld x8 r0_3)) (k0_pay12 x0 (View.ld x7 r0_1)) (k0_pay13 x1) x9 x10 x11) (k0_pay18 (View.ld x12 r0_6)) (k0_pay20 (k0_pay4 x2) x3 (k0_pay5 x4) (k0_pay6 x5) x6 (k0_pay7 (View.ld x7 r0_2)) (k0_pay8 (View.ld x7 r0_3)) (k0_pay9 (View.ld x8 r0_1)) (k0_pay10 (View.ld x8 r0_2)) (k0_pay11 (View.ld x8 r0_3)) (k0_pay12 x0 (View.ld x7 r0_1)) (k0_pay13 x1) x9 x10 x11 (View.ld x12 r0_5)) (ix2 p j)
      = Cell.cnew (paramsOf x7 x8 x9 x10 x11 x12 x13 x14) (rowsAt x0 x1 x2 x3 x4 x5 x6 p) j := by
  have hpre := fun g => pre_block x0 x1 x2 x3 x4 x5 x6 x7 x8 x9 x10 x11 x12 x13 x14 p g j
  rw [pay1_apply, pay15_apply, pay16_apply, pay20_apply, hpre 1, hpre 0, hpre 2, pay18_eq, ld_peep1, ld_peep0]
  rfl

/-- The rectified hidden state at `(p, j)`. -/
theorem hrelu_pay (j : Fin 64) :
    k0_pay2 x6 (k0_pay15 (k0_pay4 x2) x3 (k0_pay5 x4) (k0_pay6 x5) (k0_pay7 (View.ld x7 r0_2)) (k0_pay8 (View.ld x7 r0_3)) (k0_pay9 (View.ld x8 r0_1)) (k0_pay10 (View.ld x8 r0_2)) (k0_pay11 (View.ld x8 r0_3)) (k0_pay12 x0 (View.ld x7 r0_1)) (k0_pay13 x1) x9 x10 x11) (k0_pay16 (k0_pay4 x2) x3 (k0_pay5 x4) (k0_pay6 x5) (k0_pay7 (View.ld x7 r0_2)) (k0_pay8 (View.ld x7 r0_3)) (k0_pay9 (View.ld x8 r0_1)) (k0_pay10 (View.ld x8 r0_2)) (k0_pay11 (View.ld x8 r0_3)) (k0_pay12 x0 (View.ld x7 r0_1)) (k0_pay13 x1) x9 x10 x11) (k0_pay17 (k0_pay4 x2) x3 (k0_pay5 x4) (k0_pay6 x5) (k0_pay7 (View.ld x7 r0_2)) (k0_pay8 (View.ld x7 r0_3)) (k0_pay9 (View.ld x8 r0_1)) (k0_pay10 (View.ld x8 r0_2)) (k0_pay11 (View.ld x8 r0_3)) (k0_pay12 x0 (View.ld x7 r0_1)) (k0_pay13 x1) x9 x10 x11) (k0_pay18 (View.ld x12 r0_6)) (k0_pay19 (View.ld x12 r0_7)) (k0_pay20 (k0_pay4 x2) x3 (k0_pay5 x4) (k0_pay6 x5) x6 (k0_pay7 (View.ld x7 r0_2)) (k0_pay8 (View.ld x7 r0_3)) (k0_pay9 (View.ld x8 r0_1)) (k0_pay10 (View.ld x8 r0_2)) (k0_pay11 (View.ld x8 r0_3)) (k0_pay12 x0 (View.ld x7 r0_1)) (k0_pay13 x1) x9 x10 x11 (View.ld x12 r0_5)) (ix2 p j)
      = Cell.hrelu (paramsOf x7 x8 x9 x10 x11 x12 x13 x14) (rowsAt x0 x1 x2 x3 x4 x5 x6 p) j := by
  rw [pay2_apply, cnew_pay, pay17_apply, pre_block x0 x1 x2 x3 x4 x5 x6 x7 x8 x9 x10 x11 x12 x13 x14 p 3 j, pay19_eq, ld_peep2]
  rfl

/-- The readout at `(p, t)`. -/
theorem out_pay (t : Fin 16) :
    k0_pay3 x6 (k0_pay15 (k0_pay4 x2) x3 (k0_pay5 x4) (k0_pay6 x5) (k0_pay7 (View.ld x7 r0_2)) (k0_pay8 (View.ld x7 r0_3)) (k0_pay9 (View.ld x8 r0_1)) (k0_pay10 (View.ld x8 r0_2)) (k0_pay11 (View.ld x8 r0_3)) (k0_pay12 x0 (View.ld x7 r0_1)) (k0_pay13 x1) x9 x10 x11) (k0_pay16 (k0_pay4 x2) x3 (k0_pay5 x4) (k0_pay6 x5) (k0_pay7 (View.ld x7 r0_2)) (k0_pay8 (View.ld x7 r0_3)) (k0_pay9 (View.ld x8 r0_1)) (k0_pay10 (View.ld x8 r0_2)) (k0_pay11 (View.ld x8 r0_3)) (k0_pay12 x0 (View.ld x7 r0_1)) (k0_pay13 x1) x9 x10 x11) (k0_pay17 (k0_pay4 x2) x3 (k0_pay5 x4) (k0_pay6 x5) (k0_pay7 (View.ld x7 r0_2)) (k0_pay8 (View.ld x7 r0_3)) (k0_pay9 (View.ld x8 r0_1)) (k0_pay10 (View.ld x8 r0_2)) (k0_pay11 (View.ld x8 r0_3)) (k0_pay12 x0 (View.ld x7 r0_1)) (k0_pay13 x1) x9 x10 x11) (k0_pay18 (View.ld x12 r0_6)) (k0_pay19 (View.ld x12 r0_7)) (k0_pay20 (k0_pay4 x2) x3 (k0_pay5 x4) (k0_pay6 x5) x6 (k0_pay7 (View.ld x7 r0_2)) (k0_pay8 (View.ld x7 r0_3)) (k0_pay9 (View.ld x8 r0_1)) (k0_pay10 (View.ld x8 r0_2)) (k0_pay11 (View.ld x8 r0_3)) (k0_pay12 x0 (View.ld x7 r0_1)) (k0_pay13 x1) x9 x10 x11 (View.ld x12 r0_5)) x13 x14 (ix2 p t)
      = Cell.out (paramsOf x7 x8 x9 x10 x11 x12 x13 x14) (rowsAt x0 x1 x2 x3 x4 x5 x6 p) t := by
  rw [pay3_apply]
  exact congrArg₂ (· + ·) (Finset.sum_congr rfl fun k _ => congrArg (· * x13 (ix2 k t)) (hrelu_pay x0 x1 x2 x3 x4 x5 x6 x7 x8 x9 x10 x11 x12 x13 x14 p k)) rfl

/-- What the body leaves in the new-state block. -/
theorem cnew_block (j : Fin 64) :
    out0_17 x0 x1 x2 x3 x4 x5 x6 x7 x8 x9 x10 x11 x12 x13 x14 (ix2 p j) = Cell.cnew (paramsOf x7 x8 x9 x10 x11 x12 x13 x14) (rowsAt x0 x1 x2 x3 x4 x5 x6 p) j := by
  unfold out0_17
  rw [View.canon_unit_zero hz2]
  simp only [View.ld_unit_zero (S := S2000x64) hz2, View.ld_unit_zero (S := S256) hz1]
  exact cnew_pay x0 x1 x2 x3 x4 x5 x6 x7 x8 x9 x10 x11 x12 x13 x14 p j

/-- What the body leaves in the hidden-state block. -/
theorem hrelu_block (j : Fin 64) :
    out0_16 x0 x1 x2 x3 x4 x5 x6 x7 x8 x9 x10 x11 x12 x13 x14 (ix2 p j) = Cell.hrelu (paramsOf x7 x8 x9 x10 x11 x12 x13 x14) (rowsAt x0 x1 x2 x3 x4 x5 x6 p) j := by
  unfold out0_16
  rw [View.canon_unit_zero hz2]
  simp only [View.ld_unit_zero (S := S2000x64) hz2, View.ld_unit_zero (S := S256) hz1]
  exact hrelu_pay x0 x1 x2 x3 x4 x5 x6 x7 x8 x9 x10 x11 x12 x13 x14 p j

/-- What the body leaves in the readout block. -/
theorem out_block (t : Fin 16) :
    out0_15 x0 x1 x2 x3 x4 x5 x6 x7 x8 x9 x10 x11 x12 x13 x14 (ix2 p t) = Cell.out (paramsOf x7 x8 x9 x10 x11 x12 x13 x14) (rowsAt x0 x1 x2 x3 x4 x5 x6 p) t := by
  unfold out0_15
  rw [View.canon_unit_zero hz2]
  simp only [View.ld_unit_zero (S := S2000x64) hz2, View.ld_unit_zero (S := S256) hz1, View.ld_unit_zero (S := S64x16) hz2,
    View.ld_unit_zero (S := S16) hz1]
  exact out_pay x0 x1 x2 x3 x4 x5 x6 x7 x8 x9 x10 x11 x12 x13 x14 p t

end Blocks

end Cert.KernelIdeal.Point

end
-- ==== Proof.Laplacian.lean ====
/-
  What the host computes before the cell's kernel runs, as terms of the argument arrays.

  From the edge list `e` (row 0 the sources, row 1 the targets): the degree vector `deg` (a scatter-add of ones by
  source), its maximum, and the scale `2 / max deg`. The rescaled graph Laplacian of a node matrix `X` is

      lap e X = (2 / max deg) · (deg · X − A X) − X,        A X = scatter-add by target of the rows X[source],

  and the second Chebyshev term is `cheb2 e X = 2 · lap e (lap e X) − X`. Nothing here is opened: gather and
  scatter-add stay the host's operations, so that the same terms on another program's side are recognised as equal.
  The remaining windows of the kernel are plain re-layouts of the weights and biases.
-/
import proofs.«128530_j50208167690906_1_alg».proof.Proof.Gen.KernelIdeal.Frame
import Idealize.ShloMosaic.Lib.StableHlo.Run

noncomputable section

namespace Cert.KernelIdeal.Graph

open Cert.KernelIdeal Cert.KernelIdeal.Gen Idealize.ShloMosaic Idealize.ShloMosaic.TcCoe Idealize.SL.Sem Idealize.ShloMosaic.StableHlo

variable {F : FTy → Type} [FloatOps F]

/-- The sources of the edges. -/
def src (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- The targets of the edges. -/
def dst (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The out-degree of every node: ones added up by source. -/
def deg (e : (⟨S2x1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 (src e))
    (broadcastInDim S1600000 ![] bcast_S_S1600000 (constant S_ .f32 0x3F800000#32))

/-- Two over the largest degree. -/
def scale (e : (⟨S2x1600000, .i32⟩ : BufTy).Contents (Elt F)) : (⟨S_, .f32⟩ : BufTy).Contents (Elt F) :=
  Host.divf (constant S_ .f32 0x40000000#32)
    (Host.reduce FloatOps.maximumf (deg e) (constant S_ .f32 0xFF800000#32) reducesTo_S100000_S_d0 h_S_)

/-- The rows of `X` at the edges' sources, added up by target. -/
def aggregate (e : (⟨S2x1600000, .i32⟩ : BufTy).Contents (Elt F)) (X : (⟨S100000x64, .f32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 (dst e))
    (Host.gather gather_S100000x64_S1600000x1_S1600000x64_1_0_n_n_0_1_164 X
      (broadcastInDim S1600000x1 ![0] bcast_S1600000_S1600000x1_0
        (select (cmpi .slt (src e) (broadcastInDim S1600000 ![] bcast_S_S1600000 (constantI S_ 32 0#32)))
          (addi (src e) (broadcastInDim S1600000 ![] bcast_S_S1600000 (constantI S_ 32 100000#32))) (src e))))

/-- The rescaled Laplacian applied to `X`. -/
def lap (e : (⟨S2x1600000, .i32⟩ : BufTy).Contents (Elt F)) (X : (⟨S100000x64, .f32⟩ : BufTy).Contents (Elt F)) :
    (⟨S100000x64, .f32⟩ : BufTy).Contents (Elt F) :=
  subf (mulf (broadcastInDim S100000x64 ![] bcast_S_S100000x64 (scale e))
    (subf (mulf (broadcastInDim S100000x64 ![0, 1] bcast_S100000x1_S100000x64_0_1
        (broadcastInDim S100000x1 ![0] bcast_S100000_S100000x1_0 (deg e))) X) (aggregate e X))) X

/-- The second Chebyshev term. -/
def cheb2 (e : (⟨S2x1600000, .i32⟩ : BufTy).Contents (Elt F)) (X : (⟨S100000x64, .f32⟩ : BufTy).Contents (Elt F)) :
    (⟨S100000x64, .f32⟩ : BufTy).Contents (Elt F) :=
  subf (mulf (broadcastInDim S100000x64 ![] bcast_S_S100000x64 (constant S_ .f32 0x40000000#32)) (lap e (lap e X))) X

/-- The four gates' weights side by side: `[gate, order, k, j] ↦ [order, k, gate·64 + j]`. -/
def packWeights (W : (⟨S4x3x64x64, .f32⟩ : BufTy).Contents (Elt F)) : (⟨S3x64x256, .bf16⟩ : BufTy).Contents (Elt F) :=
  truncf .bf16 (shapeCast _ (transpose S3x64x4x64 [1, 2, 0, 3] W transposes_S4x3x64x64_S3x64x4x64_1_2_0_3)
    shapeCasts_S3x64x4x64_S3x64x256) bitsLt_bf16_f32

/-- The four gates' biases side by side. -/
def packBias (b : (⟨S4x64, .f32⟩ : BufTy).Contents (Elt F)) : (⟨S256, .f32⟩ : BufTy).Contents (Elt F) :=
  shapeCast _ b shapeCasts_S4x64_S256

variable (m : (ℓ : Loc nD τ sig) → Buf (Elt F) ℓ)

/-! ### What each window's array holds when the region is entered -/

set_option maxHeartbeats 4000000 in
theorem V_lap_x (c : Dev nD) : V m c main_v26 = lap (m ((c : Thread nD τ).loc main_arg1)) (m ((c : Thread nD τ).loc main_arg0)) := by
  show StableHlo.after hostOps0 (fun b => m (c, b)) (Proc.devRef .tc main_v26) = _
  after_results_simp; rfl

set_option maxHeartbeats 4000000 in
theorem V_cheb2_x (c : Dev nD) : V m c main_v46 = cheb2 (m ((c : Thread nD τ).loc main_arg1)) (m ((c : Thread nD τ).loc main_arg0)) := by
  show StableHlo.after hostOps0 (fun b => m (c, b)) (Proc.devRef .tc main_v46) = _
  after_results_simp; rfl

set_option maxHeartbeats 4000000 in
theorem V_lap_h (c : Dev nD) : V m c main_v63 = lap (m ((c : Thread nD τ).loc main_arg1)) (m ((c : Thread nD τ).loc main_arg10)) := by
  show StableHlo.after hostOps0 (fun b => m (c, b)) (Proc.devRef .tc main_v63) = _
  after_results_simp; rfl

set_option maxHeartbeats 4000000 in
theorem V_cheb2_h (c : Dev nD) : V m c main_v83 = cheb2 (m ((c : Thread nD τ).loc main_arg1)) (m ((c : Thread nD τ).loc main_arg10)) := by
  show StableHlo.after hostOps0 (fun b => m (c, b)) (Proc.devRef .tc main_v83) = _
  after_results_simp; rfl

set_option maxHeartbeats 4000000 in
theorem V_wx (c : Dev nD) : V m c main_v86 = packWeights (m ((c : Thread nD τ).loc main_arg2)) := by
  show StableHlo.after hostOps0 (fun b => m (c, b)) (Proc.devRef .tc main_v86) = _
  after_results_simp; rfl

set_option maxHeartbeats 4000000 in
theorem V_wh (c : Dev nD) : V m c main_v89 = packWeights (m ((c : Thread nD τ).loc main_arg4)) := by
  show StableHlo.after hostOps0 (fun b => m (c, b)) (Proc.devRef .tc main_v89) = _
  after_results_simp; rfl

set_option maxHeartbeats 4000000 in
theorem V_bx (c : Dev nD) : V m c main_v90 = packBias (m ((c : Thread nD τ).loc main_arg3)) := by
  show StableHlo.after hostOps0 (fun b => m (c, b)) (Proc.devRef .tc main_v90) = _
  after_results_simp; rfl

set_option maxHeartbeats 4000000 in
theorem V_bh (c : Dev nD) : V m c main_v91 = packBias (m ((c : Thread nD τ).loc main_arg5)) := by
  show StableHlo.after hostOps0 (fun b => m (c, b)) (Proc.devRef .tc main_v91) = _
  after_results_simp; rfl

set_option maxHeartbeats 4000000 in
theorem V_bg (c : Dev nD) : V m c main_v92 = packBias (m ((c : Thread nD τ).loc main_arg7)) := by
  show StableHlo.after hostOps0 (fun b => m (c, b)) (Proc.devRef .tc main_v92) = _
  after_results_simp; rfl

set_option maxHeartbeats 4000000 in
theorem V_wro (c : Dev nD) : V m c main_v93 = truncf .bf16 (m ((c : Thread nD τ).loc main_arg8)) bitsLt_bf16_f32 := by
  show StableHlo.after hostOps0 (fun b => m (c, b)) (Proc.devRef .tc main_v93) = _
  after_results_simp

end Cert.KernelIdeal.Graph

end
-- ==== Proof.Whole.lean ====
/-
  The cell's step over all 100000 nodes: the three results as whole arrays.

  Row `r` of each result is the row-level cell (`Cell.cnew`, `Cell.hrelu`, `Cell.out`) of row `r` of the seven node
  matrices: the features, the hidden state, each with its two Laplacian terms, and the old cell state.
-/
import proofs.«128530_j50208167690906_1_alg».proof.Proof.Cell

noncomputable section

namespace Cert.Cell

open Idealize.ShloMosaic Idealize.ShloMosaic.ValueIdx

abbrev Nodes := (⟨2, ![100000, 64]⟩ : Shape).Idx → EReal

/-- The seven node matrices the cell reads. -/
structure Mats where
  x : Nodes
  lx : Nodes
  tx : Nodes
  h : Nodes
  lh : Nodes
  th : Nodes
  c : Nodes

/-- Node `r`'s rows. -/
def Mats.row (M : Mats) (r : Fin 100000) : Rows where
  x := fun k => M.x (ix2 r k)
  lx := fun k => M.lx (ix2 r k)
  tx := fun k => M.tx (ix2 r k)
  h := fun k => M.h (ix2 r k)
  lh := fun k => M.lh (ix2 r k)
  th := fun k => M.th (ix2 r k)
  c := fun k => M.c (ix2 r k)

/-- The new cell state of every node. -/
def cnewAll (P : Params) (M : Mats) : Nodes := fun i => cnew P (M.row (i 0)) (i 1)

/-- The rectified hidden state of every node. -/
def hreluAll (P : Params) (M : Mats) : Nodes := fun i => hrelu P (M.row (i 0)) (i 1)

/-- The readout of every node. -/
def outAll (P : Params) (M : Mats) : (⟨2, ![100000, 16]⟩ : Shape).Idx → EReal := fun i => out P (M.row (i 0)) (i 1)

end Cert.Cell

end
-- ==== Proof.Arrays.lean ====
/-
  The kernel's three result arrays after the run, and the stacked result the host makes of two of them.

  The grid has 50 points; point `t` works on rows `2000·t … 2000·t + 1999` of the seven node matrices and of the
  three results, and on the whole of every parameter array. So block `t` of each result is the row-level cell of
  those rows (`Point.cnew_block` …), the 50 blocks tile the 100000 rows, and each result array ends at the cell's
  whole-array function of the arrays as the region finds them. After the region the host puts the rectified hidden
  state and the new cell state on top of each other.
-/
import proofs.«128530_j50208167690906_1_alg».proof.Proof.Point
import proofs.«128530_j50208167690906_1_alg».proof.Proof.Laplacian
import proofs.«128530_j50208167690906_1_alg».proof.Proof.Whole
import Idealize.ShloMosaic.Lib.Pipeline.Value
import Idealize.ShloMosaic.Lib.StableHlo.Run

set_option maxRecDepth 16384

noncomputable section

namespace Cert.KernelIdeal.Arrays

open Cert.KernelIdeal Cert.KernelIdeal.Gen Cert.KernelIdeal.Point Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ) (ρ : Dev nD → PrngReg)

/-- The parameters, from the arrays as the region finds them. -/
def paramsV (c : Dev nD) : Cell.Params :=
  paramsOf (V m c main_v86) (V m c main_v89) (V m c main_v90) (V m c main_v91) (V m c main_v92) (V m c main_arg6)
    (V m c main_v93) (V m c main_arg9)

/-- The seven node matrices, as the region finds them. -/
def matsV (c : Dev nD) : Cell.Mats where
  x := V m c main_arg0
  lx := V m c main_v26
  tx := V m c main_v46
  h := V m c main_arg10
  lh := V m c main_v63
  th := V m c main_v83
  c := V m c main_arg11

/-- Row `p` of point `t`'s blocks is row `2000·t + p` of the arrays. -/
abbrev rowOf (t : Fin cfg0.N) (p : Fin 2000) : Fin 100000 :=
  ⟨t.val * 2000 + p.val, by have h1 := t.isLt; have hN : cfg0.N = 50 := N_0; have h2 := p.isLt; omega⟩

/-! ### The index maps, decided over the 50 points -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx15 : ∀ t : Fin cfg0.N, win0_15.index t (0 : Fin 2) = t.val ∧ win0_15.index t (1 : Fin 2) = 0 :=
  (by decide +kernel : ∀ t : Fin grid0.N, _)
theorem idx16 : ∀ t : Fin cfg0.N, win0_16.index t (0 : Fin 2) = t.val ∧ win0_16.index t (1 : Fin 2) = 0 :=
  (by decide +kernel : ∀ t : Fin grid0.N, _)
theorem idx17 : ∀ t : Fin cfg0.N, win0_17.index t (0 : Fin 2) = t.val ∧ win0_17.index t (1 : Fin 2) = 0 :=
  (by decide +kernel : ∀ t : Fin grid0.N, _)
theorem idx7 : ∀ t : Fin cfg0.N, win0_7.index t (0 : Fin 3) = 0 ∧ win0_7.index t (1 : Fin 3) = 0 ∧ win0_7.index t (2 : Fin 3) = 0 :=
  (by decide +kernel : ∀ t : Fin grid0.N, _)
theorem idx8 : ∀ t : Fin cfg0.N, win0_8.index t (0 : Fin 3) = 0 ∧ win0_8.index t (1 : Fin 3) = 0 ∧ win0_8.index t (2 : Fin 3) = 0 :=
  (by decide +kernel : ∀ t : Fin grid0.N, _)
theorem idx9 : ∀ t : Fin cfg0.N, win0_9.index t (0 : Fin 1) = 0 :=
  (by decide +kernel : ∀ t : Fin grid0.N, _)
theorem idx10 : ∀ t : Fin cfg0.N, win0_10.index t (0 : Fin 1) = 0 :=
  (by decide +kernel : ∀ t : Fin grid0.N, _)
theorem idx11 : ∀ t : Fin cfg0.N, win0_11.index t (0 : Fin 1) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 1) = 0 :=
  (by decide +kernel : ∀ t : Fin grid0.N, _)

/-! ### Each input block, read off its array

  Stated first for any array `A` in the window's place — block `t` of a row window is rows `2000·t …` of `A`, the one
  block of a parameter window is all of `A` — and then at the array the region finds. -/

theorem read_row0 (t : Fin cfg0.N) (A : S100000x64.Idx → EReal) (p : Fin 2000) (k : Fin 64) :
    (((cfg0.win 0).blk t).view.read (Elt Ideal) A : Vec Ideal S2000x64 .f32) (ix2 p k) = A (ix2 (rowOf t p) k) := by
  rw [View.read_apply]
  show A _ = A _
  refine congrArg A (funext fun a => Fin.ext ?_)
  match a with
  | ⟨0, _⟩ => show win0_0.index t (0 : Fin 2) * 2000 + 1 * p.val = t.val * 2000 + p.val; rw [(idx0 t).1]; omega
  | ⟨1, _⟩ => show win0_0.index t (1 : Fin 2) * 64 + 1 * k.val = k.val; rw [(idx0 t).2]; omega

theorem iblk0_apply (c : Dev nD) (t : Fin cfg0.N) (p : Fin 2000) (k : Fin 64) :
    (iblk m c 0 t : Vec Ideal S2000x64 .f32) (ix2 p k) = (V m c main_arg0 : S100000x64.Idx → EReal) (ix2 (rowOf t p) k) := by
  unfold iblk
  exact read_row0 t _ p k

theorem read_row1 (t : Fin cfg0.N) (A : S100000x64.Idx → EReal) (p : Fin 2000) (k : Fin 64) :
    (((cfg0.win 1).blk t).view.read (Elt Ideal) A : Vec Ideal S2000x64 .f32) (ix2 p k) = A (ix2 (rowOf t p) k) := by
  rw [View.read_apply]
  show A _ = A _
  refine congrArg A (funext fun a => Fin.ext ?_)
  match a with
  | ⟨0, _⟩ => show win0_1.index t (0 : Fin 2) * 2000 + 1 * p.val = t.val * 2000 + p.val; rw [(idx1 t).1]; omega
  | ⟨1, _⟩ => show win0_1.index t (1 : Fin 2) * 64 + 1 * k.val = k.val; rw [(idx1 t).2]; omega

theorem iblk1_apply (c : Dev nD) (t : Fin cfg0.N) (p : Fin 2000) (k : Fin 64) :
    (iblk m c 1 t : Vec Ideal S2000x64 .f32) (ix2 p k) = (V m c main_v26 : S100000x64.Idx → EReal) (ix2 (rowOf t p) k) := by
  unfold iblk
  exact read_row1 t _ p k

theorem read_row2 (t : Fin cfg0.N) (A : S100000x64.Idx → EReal) (p : Fin 2000) (k : Fin 64) :
    (((cfg0.win 2).blk t).view.read (Elt Ideal) A : Vec Ideal S2000x64 .f32) (ix2 p k) = A (ix2 (rowOf t p) k) := by
  rw [View.read_apply]
  show A _ = A _
  refine congrArg A (funext fun a => Fin.ext ?_)
  match a with
  | ⟨0, _⟩ => show win0_2.index t (0 : Fin 2) * 2000 + 1 * p.val = t.val * 2000 + p.val; rw [(idx2 t).1]; omega
  | ⟨1, _⟩ => show win0_2.index t (1 : Fin 2) * 64 + 1 * k.val = k.val; rw [(idx2 t).2]; omega

theorem iblk2_apply (c : Dev nD) (t : Fin cfg0.N) (p : Fin 2000) (k : Fin 64) :
    (iblk m c 2 t : Vec Ideal S2000x64 .f32) (ix2 p k) = (V m c main_v46 : S100000x64.Idx → EReal) (ix2 (rowOf t p) k) := by
  unfold iblk
  exact read_row2 t _ p k

theorem read_row3 (t : Fin cfg0.N) (A : S100000x64.Idx → EReal) (p : Fin 2000) (k : Fin 64) :
    (((cfg0.win 3).blk t).view.read (Elt Ideal) A : Vec Ideal S2000x64 .f32) (ix2 p k) = A (ix2 (rowOf t p) k) := by
  rw [View.read_apply]
  show A _ = A _
  refine congrArg A (funext fun a => Fin.ext ?_)
  match a with
  | ⟨0, _⟩ => show win0_3.index t (0 : Fin 2) * 2000 + 1 * p.val = t.val * 2000 + p.val; rw [(idx3 t).1]; omega
  | ⟨1, _⟩ => show win0_3.index t (1 : Fin 2) * 64 + 1 * k.val = k.val; rw [(idx3 t).2]; omega

theorem iblk3_apply (c : Dev nD) (t : Fin cfg0.N) (p : Fin 2000) (k : Fin 64) :
    (iblk m c 3 t : Vec Ideal S2000x64 .f32) (ix2 p k) = (V m c main_arg10 : S100000x64.Idx → EReal) (ix2 (rowOf t p) k) := by
  unfold iblk
  exact read_row3 t _ p k

theorem read_row4 (t : Fin cfg0.N) (A : S100000x64.Idx → EReal) (p : Fin 2000) (k : Fin 64) :
    (((cfg0.win 4).blk t).view.read (Elt Ideal) A : Vec Ideal S2000x64 .f32) (ix2 p k) = A (ix2 (rowOf t p) k) := by
  rw [View.read_apply]
  show A _ = A _
  refine congrArg A (funext fun a => Fin.ext ?_)
  match a with
  | ⟨0, _⟩ => show win0_4.index t (0 : Fin 2) * 2000 + 1 * p.val = t.val * 2000 + p.val; rw [(idx4 t).1]; omega
  | ⟨1, _⟩ => show win0_4.index t (1 : Fin 2) * 64 + 1 * k.val = k.val; rw [(idx4 t).2]; omega

theorem iblk4_apply (c : Dev nD) (t : Fin cfg0.N) (p : Fin 2000) (k : Fin 64) :
    (iblk m c 4 t : Vec Ideal S2000x64 .f32) (ix2 p k) = (V m c main_v63 : S100000x64.Idx → EReal) (ix2 (rowOf t p) k) := by
  unfold iblk
  exact read_row4 t _ p k

theorem read_row5 (t : Fin cfg0.N) (A : S100000x64.Idx → EReal) (p : Fin 2000) (k : Fin 64) :
    (((cfg0.win 5).blk t).view.read (Elt Ideal) A : Vec Ideal S2000x64 .f32) (ix2 p k) = A (ix2 (rowOf t p) k) := by
  rw [View.read_apply]
  show A _ = A _
  refine congrArg A (funext fun a => Fin.ext ?_)
  match a with
  | ⟨0, _⟩ => show win0_5.index t (0 : Fin 2) * 2000 + 1 * p.val = t.val * 2000 + p.val; rw [(idx5 t).1]; omega
  | ⟨1, _⟩ => show win0_5.index t (1 : Fin 2) * 64 + 1 * k.val = k.val; rw [(idx5 t).2]; omega

theorem iblk5_apply (c : Dev nD) (t : Fin cfg0.N) (p : Fin 2000) (k : Fin 64) :
    (iblk m c 5 t : Vec Ideal S2000x64 .f32) (ix2 p k) = (V m c main_v83 : S100000x64.Idx → EReal) (ix2 (rowOf t p) k) := by
  unfold iblk
  exact read_row5 t _ p k

theorem read_row6 (t : Fin cfg0.N) (A : S100000x64.Idx → EReal) (p : Fin 2000) (k : Fin 64) :
    (((cfg0.win 6).blk t).view.read (Elt Ideal) A : Vec Ideal S2000x64 .f32) (ix2 p k) = A (ix2 (rowOf t p) k) := by
  rw [View.read_apply]
  show A _ = A _
  refine congrArg A (funext fun a => Fin.ext ?_)
  match a with
  | ⟨0, _⟩ => show win0_6.index t (0 : Fin 2) * 2000 + 1 * p.val = t.val * 2000 + p.val; rw [(idx6 t).1]; omega
  | ⟨1, _⟩ => show win0_6.index t (1 : Fin 2) * 64 + 1 * k.val = k.val; rw [(idx6 t).2]; omega

theorem iblk6_apply (c : Dev nD) (t : Fin cfg0.N) (p : Fin 2000) (k : Fin 64) :
    (iblk m c 6 t : Vec Ideal S2000x64 .f32) (ix2 p k) = (V m c main_arg11 : S100000x64.Idx → EReal) (ix2 (rowOf t p) k) := by
  unfold iblk
  exact read_row6 t _ p k

theorem read_all7 (t : Fin cfg0.N) (A : S3x64x256.Idx → Elt Ideal .bf16) :
    (((cfg0.win 7).blk t).view.read (Elt Ideal) A : Vec Ideal S3x64x256 .bf16) = A := by
  funext y
  rw [View.read_apply]
  show A _ = A _
  refine congrArg A (funext fun a => Fin.ext ?_)
  match a with
  | ⟨0, _⟩ => show win0_7.index t (0 : Fin 3) * 3 + 1 * (y 0).val = (y 0).val; rw [(idx7 t).1]; omega
  | ⟨1, _⟩ => show win0_7.index t (1 : Fin 3) * 64 + 1 * (y 1).val = (y 1).val; rw [(idx7 t).2.1]; omega
  | ⟨2, _⟩ => show win0_7.index t (2 : Fin 3) * 256 + 1 * (y 2).val = (y 2).val; rw [(idx7 t).2.2]; omega

theorem iblk7_eq (c : Dev nD) (t : Fin cfg0.N) : (iblk m c 7 t : Vec Ideal S3x64x256 .bf16) = V m c main_v86 := by
  unfold iblk
  exact read_all7 t _

theorem read_all8 (t : Fin cfg0.N) (A : S3x64x256.Idx → Elt Ideal .bf16) :
    (((cfg0.win 8).blk t).view.read (Elt Ideal) A : Vec Ideal S3x64x256 .bf16) = A := by
  funext y
  rw [View.read_apply]
  show A _ = A _
  refine congrArg A (funext fun a => Fin.ext ?_)
  match a with
  | ⟨0, _⟩ => show win0_8.index t (0 : Fin 3) * 3 + 1 * (y 0).val = (y 0).val; rw [(idx8 t).1]; omega
  | ⟨1, _⟩ => show win0_8.index t (1 : Fin 3) * 64 + 1 * (y 1).val = (y 1).val; rw [(idx8 t).2.1]; omega
  | ⟨2, _⟩ => show win0_8.index t (2 : Fin 3) * 256 + 1 * (y 2).val = (y 2).val; rw [(idx8 t).2.2]; omega

theorem iblk8_eq (c : Dev nD) (t : Fin cfg0.N) : (iblk m c 8 t : Vec Ideal S3x64x256 .bf16) = V m c main_v89 := by
  unfold iblk
  exact read_all8 t _

theorem read_all9 (t : Fin cfg0.N) (A : S256.Idx → Elt Ideal .f32) :
    (((cfg0.win 9).blk t).view.read (Elt Ideal) A : Vec Ideal S256 .f32) = A := by
  funext y
  rw [View.read_apply]
  show A _ = A _
  refine congrArg A (funext fun a => Fin.ext ?_)
  match a with
  | ⟨0, _⟩ => show win0_9.index t (0 : Fin 1) * 256 + 1 * (y 0).val = (y 0).val; rw [(idx9 t)]; omega

theorem iblk9_eq (c : Dev nD) (t : Fin cfg0.N) : (iblk m c 9 t : Vec Ideal S256 .f32) = V m c main_v90 := by
  unfold iblk
  exact read_all9 t _

theorem read_all10 (t : Fin cfg0.N) (A : S256.Idx → Elt Ideal .f32) :
    (((cfg0.win 10).blk t).view.read (Elt Ideal) A : Vec Ideal S256 .f32) = A := by
  funext y
  rw [View.read_apply]
  show A _ = A _
  refine congrArg A (funext fun a => Fin.ext ?_)
  match a with
  | ⟨0, _⟩ => show win0_10.index t (0 : Fin 1) * 256 + 1 * (y 0).val = (y 0).val; rw [(idx10 t)]; omega

theorem iblk10_eq (c : Dev nD) (t : Fin cfg0.N) : (iblk m c 10 t : Vec Ideal S256 .f32) = V m c main_v91 := by
  unfold iblk
  exact read_all10 t _

theorem read_all11 (t : Fin cfg0.N) (A : S256.Idx → Elt Ideal .f32) :
    (((cfg0.win 11).blk t).view.read (Elt Ideal) A : Vec Ideal S256 .f32) = A := by
  funext y
  rw [View.read_apply]
  show A _ = A _
  refine congrArg A (funext fun a => Fin.ext ?_)
  match a with
  | ⟨0, _⟩ => show win0_11.index t (0 : Fin 1) * 256 + 1 * (y 0).val = (y 0).val; rw [(idx11 t)]; omega

theorem iblk11_eq (c : Dev nD) (t : Fin cfg0.N) : (iblk m c 11 t : Vec Ideal S256 .f32) = V m c main_v92 := by
  unfold iblk
  exact read_all11 t _

theorem read_all12 (t : Fin cfg0.N) (A : S3x64.Idx → Elt Ideal .f32) :
    (((cfg0.win 12).blk t).view.read (Elt Ideal) A : Vec Ideal S3x64 .f32) = A := by
  funext y
  rw [View.read_apply]
  show A _ = A _
  refine congrArg A (funext fun a => Fin.ext ?_)
  match a with
  | ⟨0, _⟩ => show win0_12.index t (0 : Fin 2) * 3 + 1 * (y 0).val = (y 0).val; rw [(idx12 t).1]; omega
  | ⟨1, _⟩ => show win0_12.index t (1 : Fin 2) * 64 + 1 * (y 1).val = (y 1).val; rw [(idx12 t).2]; omega

theorem iblk12_eq (c : Dev nD) (t : Fin cfg0.N) : (iblk m c 12 t : Vec Ideal S3x64 .f32) = V m c main_arg6 := by
  unfold iblk
  exact read_all12 t _

theorem read_all13 (t : Fin cfg0.N) (A : S64x16.Idx → Elt Ideal .bf16) :
    (((cfg0.win 13).blk t).view.read (Elt Ideal) A : Vec Ideal S64x16 .bf16) = A := by
  funext y
  rw [View.read_apply]
  show A _ = A _
  refine congrArg A (funext fun a => Fin.ext ?_)
  match a with
  | ⟨0, _⟩ => show win0_13.index t (0 : Fin 2) * 64 + 1 * (y 0).val = (y 0).val; rw [(idx13 t).1]; omega
  | ⟨1, _⟩ => show win0_13.index t (1 : Fin 2) * 16 + 1 * (y 1).val = (y 1).val; rw [(idx13 t).2]; omega

theorem iblk13_eq (c : Dev nD) (t : Fin cfg0.N) : (iblk m c 13 t : Vec Ideal S64x16 .bf16) = V m c main_v93 := by
  unfold iblk
  exact read_all13 t _

theorem read_all14 (t : Fin cfg0.N) (A : S16.Idx → Elt Ideal .f32) :
    (((cfg0.win 14).blk t).view.read (Elt Ideal) A : Vec Ideal S16 .f32) = A := by
  funext y
  rw [View.read_apply]
  show A _ = A _
  refine congrArg A (funext fun a => Fin.ext ?_)
  match a with
  | ⟨0, _⟩ => show win0_14.index t (0 : Fin 1) * 16 + 1 * (y 0).val = (y 0).val; rw [(idx14 t)]; omega

theorem iblk14_eq (c : Dev nD) (t : Fin cfg0.N) : (iblk m c 14 t : Vec Ideal S16 .f32) = V m c main_arg9 := by
  unfold iblk
  exact read_all14 t _

/-- Row `p` of point `t`'s seven row blocks is node `2000·t + p`'s rows. -/
theorem rows_eq (c : Dev nD) (t : Fin cfg0.N) (p : Fin 2000) :
    rowsAt (iblk m c 0 t) (iblk m c 1 t) (iblk m c 2 t) (iblk m c 3 t) (iblk m c 4 t) (iblk m c 5 t) (iblk m c 6 t) p
      = (matsV m c).row (rowOf t p) := by
  unfold rowsAt Cell.Mats.row matsV
  simp only [iblk0_apply m c t p, iblk1_apply m c t p, iblk2_apply m c t p, iblk3_apply m c t p, iblk4_apply m c t p,
    iblk5_apply m c t p, iblk6_apply m c t p]

/-- Every point sees the same parameters. -/
theorem params_eq (c : Dev nD) (t : Fin cfg0.N) :
    paramsOf (iblk m c 7 t) (iblk m c 8 t) (iblk m c 9 t) (iblk m c 10 t) (iblk m c 11 t) (iblk m c 12 t) (iblk m c 13 t)
      (iblk m c 14 t) = paramsV m c := by
  unfold paramsV
  rw [iblk7_eq, iblk8_eq, iblk9_eq, iblk10_eq, iblk11_eq, iblk12_eq, iblk13_eq, iblk14_eq]

/-! ### What each point writes back, the cover, the arrays after the run -/

/-- Point `t` writes back block `t` of the whole-array function. -/
theorem flushed15_eq (c : Dev nD) (t : Fin cfg0.N) :
    (dats m 0 c).flushed 15 t = ((cfg0.win 15).blk t).view.read (Elt Ideal) (Cell.outAll (paramsV m c) (matsV m c)) := by
  show (cfg0.win 15).cut (grid0.coords t) ((dats m 0 c).after 15 t) = _
  rw [after0_15]
  funext y
  obtain ⟨p, j, rfl⟩ : ∃ (p : Fin 2000) (j : Fin 16), y = ix2 p j := ⟨y 0, y 1, eq_ix2 y⟩
  have hrow : ((cfg0.win 15).blk t).view.emb (ix2 p j) = (ix2 (rowOf t p) j : S100000x16.Idx) := by
    funext a
    apply Fin.ext
    match a with
    | ⟨0, _⟩ => show win0_15.index t (0 : Fin 2) * 2000 + 1 * p.val = t.val * 2000 + p.val; rw [(idx15 t).1]; omega
    | ⟨1, _⟩ => show win0_15.index t (1 : Fin 2) * 16 + 1 * j.val = j.val; rw [(idx15 t).2]; omega
  show out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p j)
    = Cell.outAll (paramsV m c) (matsV m c) (((cfg0.win 15).blk t).view.emb (ix2 p j))
  rw [hrow]
  refine (out_block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p j).trans ?_
  rw [rows_eq, params_eq]
  rfl

theorem mem_blk15 (t : Fin cfg0.N) (i : S100000x16.Idx) :
    i ∈ ((cfg0.win 15).blk t).view.set ↔ ∀ a : Fin 2, win0_15.index t a * S2000x16.size a ≤ (i a).val ∧ (i a).val < win0_15.index t a * S2000x16.size a + S2000x16.size a := by
  show i ∈ ((View.whole main_v94_0).slice (win0_15.rect t)).set ↔ _
  rw [View.set_slice_whole, Rect.mem_set_unit]
  exact Iff.rfl

/-- The 50 row blocks tile the array. -/
theorem cover15 (i : S100000x16.Idx) : ∃ t : Fin cfg0.N, (cfg0.win 15).flush t = true ∧ i ∈ ((cfg0.win 15).blk t).view.set := by
  have hi0 : (i 0).val < 100000 := (i 0).isLt
  have hi1 : (i 1).val < 16 := (i 1).isLt
  have hN : cfg0.N = 50 := N_0
  refine ⟨⟨(i 0).val / 2000, by rw [hN]; omega⟩, flush0_15 _, ?_⟩
  rw [mem_blk15]
  intro a
  obtain ⟨e0, e1⟩ := idx15 ⟨(i 0).val / 2000, by rw [hN]; omega⟩
  match a with
  | ⟨0, _⟩ =>
    show win0_15.index ⟨(i 0).val / 2000, _⟩ (0 : Fin 2) * 2000 ≤ (i 0).val ∧ (i 0).val < win0_15.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win0_15.index ⟨(i 0).val / 2000, _⟩ (1 : Fin 2) * 16 ≤ (i 1).val ∧ (i 1).val < win0_15.index ⟨(i 0).val / 2000, _⟩ (1 : Fin 2) * 16 + 16
    rw [e1]; omega

/-- The array after the run. -/
theorem final15 (c : Dev nD) : (dats m 0 c).arrAt 15 cfg0.N = Cell.outAll (paramsV m c) (matsV m c) :=
  (dats m 0 c).arrAt_eq_of_cover 15 (Cell.outAll (paramsV m c) (matsV m c)) (fun t _ => flushed15_eq m c t) cover15

/-- Point `t` writes back block `t` of the whole-array function. -/
theorem flushed16_eq (c : Dev nD) (t : Fin cfg0.N) :
    (dats m 0 c).flushed 16 t = ((cfg0.win 16).blk t).view.read (Elt Ideal) (Cell.hreluAll (paramsV m c) (matsV m c)) := by
  show (cfg0.win 16).cut (grid0.coords t) ((dats m 0 c).after 16 t) = _
  rw [after0_16]
  funext y
  obtain ⟨p, j, rfl⟩ : ∃ (p : Fin 2000) (j : Fin 64), y = ix2 p j := ⟨y 0, y 1, eq_ix2 y⟩
  have hrow : ((cfg0.win 16).blk t).view.emb (ix2 p j) = (ix2 (rowOf t p) j : S100000x64.Idx) := by
    funext a
    apply Fin.ext
    match a with
    | ⟨0, _⟩ => show win0_16.index t (0 : Fin 2) * 2000 + 1 * p.val = t.val * 2000 + p.val; rw [(idx16 t).1]; omega
    | ⟨1, _⟩ => show win0_16.index t (1 : Fin 2) * 64 + 1 * j.val = j.val; rw [(idx16 t).2]; omega
  show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p j)
    = Cell.hreluAll (paramsV m c) (matsV m c) (((cfg0.win 16).blk t).view.emb (ix2 p j))
  rw [hrow]
  refine (hrelu_block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p j).trans ?_
  rw [rows_eq, params_eq]
  rfl

theorem mem_blk16 (t : Fin cfg0.N) (i : S100000x64.Idx) :
    i ∈ ((cfg0.win 16).blk t).view.set ↔ ∀ a : Fin 2, win0_16.index t a * S2000x64.size a ≤ (i a).val ∧ (i a).val < win0_16.index t a * S2000x64.size a + S2000x64.size a := by
  show i ∈ ((View.whole main_v94_1).slice (win0_16.rect t)).set ↔ _
  rw [View.set_slice_whole, Rect.mem_set_unit]
  exact Iff.rfl

/-- The 50 row blocks tile the array. -/
theorem cover16 (i : S100000x64.Idx) : ∃ t : Fin cfg0.N, (cfg0.win 16).flush t = true ∧ i ∈ ((cfg0.win 16).blk t).view.set := by
  have hi0 : (i 0).val < 100000 := (i 0).isLt
  have hi1 : (i 1).val < 64 := (i 1).isLt
  have hN : cfg0.N = 50 := N_0
  refine ⟨⟨(i 0).val / 2000, by rw [hN]; omega⟩, flush0_16 _, ?_⟩
  rw [mem_blk16]
  intro a
  obtain ⟨e0, e1⟩ := idx16 ⟨(i 0).val / 2000, by rw [hN]; omega⟩
  match a with
  | ⟨0, _⟩ =>
    show win0_16.index ⟨(i 0).val / 2000, _⟩ (0 : Fin 2) * 2000 ≤ (i 0).val ∧ (i 0).val < win0_16.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win0_16.index ⟨(i 0).val / 2000, _⟩ (1 : Fin 2) * 64 ≤ (i 1).val ∧ (i 1).val < win0_16.index ⟨(i 0).val / 2000, _⟩ (1 : Fin 2) * 64 + 64
    rw [e1]; omega

/-- The array after the run. -/
theorem final16 (c : Dev nD) : (dats m 0 c).arrAt 16 cfg0.N = Cell.hreluAll (paramsV m c) (matsV m c) :=
  (dats m 0 c).arrAt_eq_of_cover 16 (Cell.hreluAll (paramsV m c) (matsV m c)) (fun t _ => flushed16_eq m c t) cover16

/-- Point `t` writes back block `t` of the whole-array function. -/
theorem flushed17_eq (c : Dev nD) (t : Fin cfg0.N) :
    (dats m 0 c).flushed 17 t = ((cfg0.win 17).blk t).view.read (Elt Ideal) (Cell.cnewAll (paramsV m c) (matsV m c)) := by
  show (cfg0.win 17).cut (grid0.coords t) ((dats m 0 c).after 17 t) = _
  rw [after0_17]
  funext y
  obtain ⟨p, j, rfl⟩ : ∃ (p : Fin 2000) (j : Fin 64), y = ix2 p j := ⟨y 0, y 1, eq_ix2 y⟩
  have hrow : ((cfg0.win 17).blk t).view.emb (ix2 p j) = (ix2 (rowOf t p) j : S100000x64.Idx) := by
    funext a
    apply Fin.ext
    match a with
    | ⟨0, _⟩ => show win0_17.index t (0 : Fin 2) * 2000 + 1 * p.val = t.val * 2000 + p.val; rw [(idx17 t).1]; omega
    | ⟨1, _⟩ => show win0_17.index t (1 : Fin 2) * 64 + 1 * j.val = j.val; rw [(idx17 t).2]; omega
  show out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p j)
    = Cell.cnewAll (paramsV m c) (matsV m c) (((cfg0.win 17).blk t).view.emb (ix2 p j))
  rw [hrow]
  refine (cnew_block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p j).trans ?_
  rw [rows_eq, params_eq]
  rfl

theorem mem_blk17 (t : Fin cfg0.N) (i : S100000x64.Idx) :
    i ∈ ((cfg0.win 17).blk t).view.set ↔ ∀ a : Fin 2, win0_17.index t a * S2000x64.size a ≤ (i a).val ∧ (i a).val < win0_17.index t a * S2000x64.size a + S2000x64.size a := by
  show i ∈ ((View.whole main_v94_2).slice (win0_17.rect t)).set ↔ _
  rw [View.set_slice_whole, Rect.mem_set_unit]
  exact Iff.rfl

/-- The 50 row blocks tile the array. -/
theorem cover17 (i : S100000x64.Idx) : ∃ t : Fin cfg0.N, (cfg0.win 17).flush t = true ∧ i ∈ ((cfg0.win 17).blk t).view.set := by
  have hi0 : (i 0).val < 100000 := (i 0).isLt
  have hi1 : (i 1).val < 64 := (i 1).isLt
  have hN : cfg0.N = 50 := N_0
  refine ⟨⟨(i 0).val / 2000, by rw [hN]; omega⟩, flush0_17 _, ?_⟩
  rw [mem_blk17]
  intro a
  obtain ⟨e0, e1⟩ := idx17 ⟨(i 0).val / 2000, by rw [hN]; omega⟩
  match a with
  | ⟨0, _⟩ =>
    show win0_17.index ⟨(i 0).val / 2000, _⟩ (0 : Fin 2) * 2000 ≤ (i 0).val ∧ (i 0).val < win0_17.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win0_17.index ⟨(i 0).val / 2000, _⟩ (1 : Fin 2) * 64 ≤ (i 1).val ∧ (i 1).val < win0_17.index ⟨(i 0).val / 2000, _⟩ (1 : Fin 2) * 64 + 64
    rw [e1]; omega

/-- The array after the run. -/
theorem final17 (c : Dev nD) : (dats m 0 c).arrAt 17 cfg0.N = Cell.cnewAll (paramsV m c) (matsV m c) :=
  (dats m 0 c).arrAt_eq_of_cover 17 (Cell.cnewAll (paramsV m c) (matsV m c)) (fun t _ => flushed17_eq m c t) cover17

/-! ### The host's stack of the two state arrays, and the run -/

/-- Two node matrices put on top of each other: `[2, 100000, 64]`. -/
def stack (a b : (⟨S100000x64, .f32⟩ : BufTy).Contents (Elt Ideal)) : (⟨S2x100000x64, .f32⟩ : BufTy).Contents (Elt Ideal) :=
  concatenate S2x100000x64 0
    [⟨S1x100000x64, broadcastInDim S1x100000x64 ![1, 2] bcast_S100000x64_S1x100000x64_1_2 a⟩,
     ⟨S1x100000x64, broadcastInDim S1x100000x64 ![1, 2] bcast_S100000x64_S1x100000x64_1_2 b⟩]
    concatenates_S1x100000x64_S1x100000x64_S2x100000x64_d0

/-- The stacked result: the rectified hidden state over the new cell state. -/
theorem tail_eq (c : Dev nD) :
    Pipeline.afterTail₀ cfgs (dats m) 0 (V0 m) [hostOps1] c main_v97
      = stack (Cell.hreluAll (paramsV m c) (matsV m c)) (Cell.cnewAll (paramsV m c) (matsV m c)) := by
  have e16 : Pipeline.withArrays spec0 c (V0 m c) (fun w => (dats m 0 c).arrAt w cfg0.N) (Proc.devRef .tc main_v94_1)
      = Cell.hreluAll (paramsV m c) (matsV m c) :=
    (Pipeline.withArrays_arr spec0 launch0.win.arr_inj c _ _ 16).trans (final16 m c)
  have e17 : Pipeline.withArrays spec0 c (V0 m c) (fun w => (dats m 0 c).arrAt w cfg0.N) (Proc.devRef .tc main_v94_2)
      = Cell.cnewAll (paramsV m c) (matsV m c) :=
    (Pipeline.withArrays_arr spec0 launch0.win.arr_inj c _ _ 17).trans (final17 m c)
  unfold Pipeline.afterTail₀
  show StableHlo.after hostOps1 _ (Proc.devRef .tc main_v97) = _
  after_results
  rw [e16, e17]
  rfl

/-- The run, read: the readout array and the stacked states at the cell's functions of the arrays as the region finds
    them, the arguments unchanged. -/
theorem run : θ_run defs (onTc (τ := τ) (main (F := Ideal))) ⟨m, fun _ => 0, ρ⟩ fun r => ∀ c : Dev nD,
      r.2.mem ((c.tc : Thread nD τ).loc main_v94_0) = Cell.outAll (paramsV m c) (matsV m c)
      ∧ r.2.mem ((c.tc : Thread nD τ).loc main_v97)
          = stack (Cell.hreluAll (paramsV m c) (matsV m c)) (Cell.cnewAll (paramsV m c) (matsV m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨((h c).1 15).trans (final15 m c),
      ((h c).2 main_v97 (Pipeline.mem_restRefs_of main_v97 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 12).trans (((dats m 0 c).arrAt_in 12 rfl _).trans ((A_eq m c 12).trans (V_main_arg6 m c))),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).1 14).trans (((dats m 0 c).arrAt_in 14 rfl _).trans ((A_eq m c 14).trans (V_main_arg9 m c))),
      ((h c).1 3).trans (((dats m 0 c).arrAt_in 3 rfl _).trans ((A_eq m c 3).trans (V_main_arg10 m c))),
      ((h c).1 6).trans (((dats m 0 c).arrAt_in 6 rfl _).trans ((A_eq m c 6).trans (V_main_arg11 m c)))⟩)
    (run_main m ρ)

end Cert.KernelIdeal.Arrays

end
-- ==== Proof.Unpack.lean ====
/-
  The kernel's packed parameter layouts, undone.

  Before the region the host moves the weight tensor `[gate, order, k, j]` to `[order, k, gate, j]` and flattens the
  last two axes to `gate·64 + j`; it flattens the bias matrices `[gate, j]` the same way. Reading the packed arrays
  back at `[order, k, gate·64 + j]` (`Point.unpackW`) and `[gate·64 + j]` (`Point.unpackB`) gives the original entries.
-/
import proofs.«128530_j50208167690906_1_alg».proof.Proof.Point
import proofs.«128530_j50208167690906_1_alg».proof.Proof.Laplacian

noncomputable section

namespace Cert.KernelIdeal.Point

open Cert.KernelIdeal Cert.KernelIdeal.Gen Cert.KernelIdeal.Graph Idealize.ShloMosaic Idealize.ShloMosaic.ValueIdx

/-- Packing the weights and reading them back is the identity. -/
theorem unpackW_pack (W : (⟨S4x3x64x64, .f32⟩ : BufTy).Contents (Elt Ideal)) : unpackW (packWeights W) = W := by
  funext i
  obtain ⟨g, a, k, j, rfl⟩ : ∃ (g : Fin 4) (a : Fin 3) (k : Fin 64) (j : Fin 64), i = ix4 g a k j :=
    ⟨i 0, i 1, i 2, i 3, eq_ix4 i⟩
  show packWeights W (ix3 a k (col g j)) = W (ix4 g a k j)
  unfold packWeights
  rw [truncf_apply]
  refine (shapeCast_apply _ _ (ix3 a k (col g j)) (ix4 a k g j) ?_).trans ?_
  · rw [Shape.rowMajor_val_four, Shape.rowMajor_val_three]
    show ((a.val * 64 + k.val) * 4 + g.val) * 64 + j.val = (a.val * 64 + k.val) * 256 + (g.val * 64 + j.val)
    omega
  · refine transpose_apply _ W _ (ix4 a k g j) (ix4 g a k j) fun b => ?_
    match b with
    | ⟨0, _⟩ => rfl
    | ⟨1, _⟩ => rfl
    | ⟨2, _⟩ => rfl
    | ⟨3, _⟩ => rfl

/-- Packing a bias matrix and reading it back is the identity. -/
theorem unpackB_pack (b : (⟨S4x64, .f32⟩ : BufTy).Contents (Elt Ideal)) : unpackB (packBias b) = b := by
  funext i
  obtain ⟨g, j, rfl⟩ : ∃ (g : Fin 4) (j : Fin 64), i = ix2 g j := ⟨i 0, i 1, eq_ix2 i⟩
  show packBias b (ix1 (col g j)) = b (ix2 g j)
  unfold packBias
  refine shapeCast_apply _ _ (ix1 (col g j)) (ix2 g j) ?_
  rw [Shape.rowMajor_val_two, Shape.rowMajor_val_one]
  rfl

end Cert.KernelIdeal.Point

end
-- ==== Proof.RefCheb.lean ====
/-
  The reference's Chebyshev convolutions, read at an index.

  For each of the four gates and each of the two inputs (features, hidden state) the reference cuts the gate's
  weights and bias out of the parameter tensors, multiplies the input and its two Laplacian terms by the three 64×64
  weight matrices, and adds the three products and the bias. At node `r`, column `j` this is `Cell.cheb` of node
  `r`'s rows plus the bias entry `[gate, j]`. The Laplacian terms are left as the stages that compute them; every
  gate recomputes them by the same operations, so the copies are one term (`lap_*`, `cheb2_*`).
-/
import proofs.«128530_j50208167690906_1_alg».proof.Proof.RefRead
import proofs.«128530_j50208167690906_1_alg».proof.Proof.Whole

noncomputable section

namespace Cert.ReferenceIdeal.Side

open Cert.ReferenceIdeal Cert.ReferenceIdeal.Gen Cert.ReferenceIdeal.ReadP Idealize.ShloMosaic Idealize.ShloMosaic.ValueIdx

/-! ### A row of a small parameter matrix, stretched over all nodes -/

theorem row_v64 (x3 : (⟨S4x64, .f32⟩ : BufTy).Contents (Elt Ideal)) (r : Fin 100000) (j : Fin 64) :
    val_main_v64 (F := Ideal) x3 (ix2 r j) = x3 (ix2 (0 : Fin 4) j) := by
  rw [val_main_v64_apply, val_main_v63_apply, val_main_v12_apply, val_main_v11_apply]
  exact congrArg x3 (funext fun d => Fin.ext (by
    have hj := j.isLt
    match d with
    | ⟨0, _⟩ => rfl
    | ⟨1, _⟩ => show j.val % 64 = j.val; omega))

theorem row_v121 (x5 : (⟨S4x64, .f32⟩ : BufTy).Contents (Elt Ideal)) (r : Fin 100000) (j : Fin 64) :
    val_main_v121 (F := Ideal) x5 (ix2 r j) = x5 (ix2 (0 : Fin 4) j) := by
  rw [val_main_v121_apply, val_main_v120_apply, val_main_v69_apply, val_main_v68_apply]
  exact congrArg x5 (funext fun d => Fin.ext (by
    have hj := j.isLt
    match d with
    | ⟨0, _⟩ => rfl
    | ⟨1, _⟩ => show j.val % 64 = j.val; omega))

theorem row_v127 (x6 : (⟨S3x64, .f32⟩ : BufTy).Contents (Elt Ideal)) (r : Fin 100000) (j : Fin 64) :
    val_main_v127 (F := Ideal) x6 (ix2 r j) = x6 (ix2 (0 : Fin 3) j) := by
  rw [val_main_v127_apply, val_main_v126_apply, val_main_v125_apply, val_main_v124_apply]
  exact congrArg x6 (funext fun d => Fin.ext (by
    have hj := j.isLt
    match d with
    | ⟨0, _⟩ => rfl
    | ⟨1, _⟩ => show j.val % 64 = j.val; omega))

theorem row_v133 (x7 : (⟨S4x64, .f32⟩ : BufTy).Contents (Elt Ideal)) (r : Fin 100000) (j : Fin 64) :
    val_main_v133 (F := Ideal) x7 (ix2 r j) = x7 (ix2 (0 : Fin 4) j) := by
  rw [val_main_v133_apply, val_main_v132_apply, val_main_v131_apply, val_main_v130_apply]
  exact congrArg x7 (funext fun d => Fin.ext (by
    have hj := j.isLt
    match d with
    | ⟨0, _⟩ => rfl
    | ⟨1, _⟩ => show j.val % 64 = j.val; omega))

theorem row_v196 (x3 : (⟨S4x64, .f32⟩ : BufTy).Contents (Elt Ideal)) (r : Fin 100000) (j : Fin 64) :
    val_main_v196 (F := Ideal) x3 (ix2 r j) = x3 (ix2 (1 : Fin 4) j) := by
  rw [val_main_v196_apply, val_main_v195_apply, val_main_v144_apply, val_main_v143_apply]
  exact congrArg x3 (funext fun d => Fin.ext (by
    have hj := j.isLt
    match d with
    | ⟨0, _⟩ => rfl
    | ⟨1, _⟩ => show j.val % 64 = j.val; omega))

theorem row_v253 (x5 : (⟨S4x64, .f32⟩ : BufTy).Contents (Elt Ideal)) (r : Fin 100000) (j : Fin 64) :
    val_main_v253 (F := Ideal) x5 (ix2 r j) = x5 (ix2 (1 : Fin 4) j) := by
  rw [val_main_v253_apply, val_main_v252_apply, val_main_v201_apply, val_main_v200_apply]
  exact congrArg x5 (funext fun d => Fin.ext (by
    have hj := j.isLt
    match d with
    | ⟨0, _⟩ => rfl
    | ⟨1, _⟩ => show j.val % 64 = j.val; omega))

theorem row_v259 (x6 : (⟨S3x64, .f32⟩ : BufTy).Contents (Elt Ideal)) (r : Fin 100000) (j : Fin 64) :
    val_main_v259 (F := Ideal) x6 (ix2 r j) = x6 (ix2 (1 : Fin 3) j) := by
  rw [val_main_v259_apply, val_main_v258_apply, val_main_v257_apply, val_main_v256_apply]
  exact congrArg x6 (funext fun d => Fin.ext (by
    have hj := j.isLt
    match d with
    | ⟨0, _⟩ => rfl
    | ⟨1, _⟩ => show j.val % 64 = j.val; omega))

theorem row_v265 (x7 : (⟨S4x64, .f32⟩ : BufTy).Contents (Elt Ideal)) (r : Fin 100000) (j : Fin 64) :
    val_main_v265 (F := Ideal) x7 (ix2 r j) = x7 (ix2 (1 : Fin 4) j) := by
  rw [val_main_v265_apply, val_main_v264_apply, val_main_v263_apply, val_main_v262_apply]
  exact congrArg x7 (funext fun d => Fin.ext (by
    have hj := j.isLt
    match d with
    | ⟨0, _⟩ => rfl
    | ⟨1, _⟩ => show j.val % 64 = j.val; omega))

theorem row_v329 (x3 : (⟨S4x64, .f32⟩ : BufTy).Contents (Elt Ideal)) (r : Fin 100000) (j : Fin 64) :
    val_main_v329 (F := Ideal) x3 (ix2 r j) = x3 (ix2 (2 : Fin 4) j) := by
  rw [val_main_v329_apply, val_main_v328_apply, val_main_v277_apply, val_main_v276_apply]
  exact congrArg x3 (funext fun d => Fin.ext (by
    have hj := j.isLt
    match d with
    | ⟨0, _⟩ => rfl
    | ⟨1, _⟩ => show j.val % 64 = j.val; omega))

theorem row_v386 (x5 : (⟨S4x64, .f32⟩ : BufTy).Contents (Elt Ideal)) (r : Fin 100000) (j : Fin 64) :
    val_main_v386 (F := Ideal) x5 (ix2 r j) = x5 (ix2 (2 : Fin 4) j) := by
  rw [val_main_v386_apply, val_main_v385_apply, val_main_v334_apply, val_main_v333_apply]
  exact congrArg x5 (funext fun d => Fin.ext (by
    have hj := j.isLt
    match d with
    | ⟨0, _⟩ => rfl
    | ⟨1, _⟩ => show j.val % 64 = j.val; omega))

theorem row_v392 (x7 : (⟨S4x64, .f32⟩ : BufTy).Contents (Elt Ideal)) (r : Fin 100000) (j : Fin 64) :
    val_main_v392 (F := Ideal) x7 (ix2 r j) = x7 (ix2 (2 : Fin 4) j) := by
  rw [val_main_v392_apply, val_main_v391_apply, val_main_v390_apply, val_main_v389_apply]
  exact congrArg x7 (funext fun d => Fin.ext (by
    have hj := j.isLt
    match d with
    | ⟨0, _⟩ => rfl
    | ⟨1, _⟩ => show j.val % 64 = j.val; omega))

theorem row_v452 (x3 : (⟨S4x64, .f32⟩ : BufTy).Contents (Elt Ideal)) (r : Fin 100000) (j : Fin 64) :
    val_main_v452 (F := Ideal) x3 (ix2 r j) = x3 (ix2 (3 : Fin 4) j) := by
  rw [val_main_v452_apply, val_main_v451_apply, val_main_v400_apply, val_main_v399_apply]
  exact congrArg x3 (funext fun d => Fin.ext (by
    have hj := j.isLt
    match d with
    | ⟨0, _⟩ => rfl
    | ⟨1, _⟩ => show j.val % 64 = j.val; omega))

theorem row_v509 (x5 : (⟨S4x64, .f32⟩ : BufTy).Contents (Elt Ideal)) (r : Fin 100000) (j : Fin 64) :
    val_main_v509 (F := Ideal) x5 (ix2 r j) = x5 (ix2 (3 : Fin 4) j) := by
  rw [val_main_v509_apply, val_main_v508_apply, val_main_v457_apply, val_main_v456_apply]
  exact congrArg x5 (funext fun d => Fin.ext (by
    have hj := j.isLt
    match d with
    | ⟨0, _⟩ => rfl
    | ⟨1, _⟩ => show j.val % 64 = j.val; omega))

theorem row_v515 (x6 : (⟨S3x64, .f32⟩ : BufTy).Contents (Elt Ideal)) (r : Fin 100000) (j : Fin 64) :
    val_main_v515 (F := Ideal) x6 (ix2 r j) = x6 (ix2 (2 : Fin 3) j) := by
  rw [val_main_v515_apply, val_main_v514_apply, val_main_v513_apply, val_main_v512_apply]
  exact congrArg x6 (funext fun d => Fin.ext (by
    have hj := j.isLt
    match d with
    | ⟨0, _⟩ => rfl
    | ⟨1, _⟩ => show j.val % 64 = j.val; omega))

theorem row_v521 (x7 : (⟨S4x64, .f32⟩ : BufTy).Contents (Elt Ideal)) (r : Fin 100000) (j : Fin 64) :
    val_main_v521 (F := Ideal) x7 (ix2 r j) = x7 (ix2 (3 : Fin 4) j) := by
  rw [val_main_v521_apply, val_main_v520_apply, val_main_v519_apply, val_main_v518_apply]
  exact congrArg x7 (funext fun d => Fin.ext (by
    have hj := j.isLt
    match d with
    | ⟨0, _⟩ => rfl
    | ⟨1, _⟩ => show j.val % 64 = j.val; omega))

/-! ### The 64×64 weight matrices cut out of the weight tensors, and the products' index maps -/

theorem w_v14 (x2 : (⟨S4x3x64x64, .f32⟩ : BufTy).Contents (Elt Ideal)) (k j : Fin 64) :
    val_main_v14 (F := Ideal) x2 (ix2 k j) = x2 (ix4 (0 : Fin 4) (0 : Fin 3) k j) := by
  rw [val_main_v14_apply, val_main_v13_apply, val_main_v10_apply, val_main_v9_apply]
  exact congrArg x2 (funext fun d => Fin.ext (by
    have hk := k.isLt
    have hj := j.isLt
    match d with
    | ⟨0, _⟩ => rfl
    | ⟨1, _⟩ => show ((0 * 64 + (k.val * 64 + j.val) / 64 % 64) * 64 + (k.val * 64 + j.val) % 64) / 4096 % 3 = 0; omega
    | ⟨2, _⟩ => show ((0 * 64 + (k.val * 64 + j.val) / 64 % 64) * 64 + (k.val * 64 + j.val) % 64) / 64 % 64 = k.val; omega
    | ⟨3, _⟩ => show ((0 * 64 + (k.val * 64 + j.val) / 64 % 64) * 64 + (k.val * 64 + j.val) % 64) % 64 = j.val; omega))

theorem lidx_v15 (r : Fin 100000) (j k : Fin 64) : lidx_main_v15 (ix2 r j) k = ix2 r k :=
  funext fun d => by match d with | ⟨0, _⟩ => rfl | ⟨1, _⟩ => rfl

theorem ridx_v15 (r : Fin 100000) (j k : Fin 64) : ridx_main_v15 (ix2 r j) k = ix2 k j :=
  funext fun d => by match d with | ⟨0, _⟩ => rfl | ⟨1, _⟩ => rfl

theorem w_v35 (x2 : (⟨S4x3x64x64, .f32⟩ : BufTy).Contents (Elt Ideal)) (k j : Fin 64) :
    val_main_v35 (F := Ideal) x2 (ix2 k j) = x2 (ix4 (0 : Fin 4) (1 : Fin 3) k j) := by
  rw [val_main_v35_apply, val_main_v34_apply, val_main_v10_apply, val_main_v9_apply]
  exact congrArg x2 (funext fun d => Fin.ext (by
    have hk := k.isLt
    have hj := j.isLt
    match d with
    | ⟨0, _⟩ => rfl
    | ⟨1, _⟩ => show ((1 * 64 + (k.val * 64 + j.val) / 64 % 64) * 64 + (k.val * 64 + j.val) % 64) / 4096 % 3 = 1; omega
    | ⟨2, _⟩ => show ((1 * 64 + (k.val * 64 + j.val) / 64 % 64) * 64 + (k.val * 64 + j.val) % 64) / 64 % 64 = k.val; omega
    | ⟨3, _⟩ => show ((1 * 64 + (k.val * 64 + j.val) / 64 % 64) * 64 + (k.val * 64 + j.val) % 64) % 64 = j.val; omega))

theorem lidx_v36 (r : Fin 100000) (j k : Fin 64) : lidx_main_v36 (ix2 r j) k = ix2 r k :=
  funext fun d => by match d with | ⟨0, _⟩ => rfl | ⟨1, _⟩ => rfl

theorem ridx_v36 (r : Fin 100000) (j k : Fin 64) : ridx_main_v36 (ix2 r j) k = ix2 k j :=
  funext fun d => by match d with | ⟨0, _⟩ => rfl | ⟨1, _⟩ => rfl

theorem w_v60 (x2 : (⟨S4x3x64x64, .f32⟩ : BufTy).Contents (Elt Ideal)) (k j : Fin 64) :
    val_main_v60 (F := Ideal) x2 (ix2 k j) = x2 (ix4 (0 : Fin 4) (2 : Fin 3) k j) := by
  rw [val_main_v60_apply, val_main_v59_apply, val_main_v10_apply, val_main_v9_apply]
  exact congrArg x2 (funext fun d => Fin.ext (by
    have hk := k.isLt
    have hj := j.isLt
    match d with
    | ⟨0, _⟩ => rfl
    | ⟨1, _⟩ => show ((2 * 64 + (k.val * 64 + j.val) / 64 % 64) * 64 + (k.val * 64 + j.val) % 64) / 4096 % 3 = 2; omega
    | ⟨2, _⟩ => show ((2 * 64 + (k.val * 64 + j.val) / 64 % 64) * 64 + (k.val * 64 + j.val) % 64) / 64 % 64 = k.val; omega
    | ⟨3, _⟩ => show ((2 * 64 + (k.val * 64 + j.val) / 64 % 64) * 64 + (k.val * 64 + j.val) % 64) % 64 = j.val; omega))

theorem lidx_v61 (r : Fin 100000) (j k : Fin 64) : lidx_main_v61 (ix2 r j) k = ix2 r k :=
  funext fun d => by match d with | ⟨0, _⟩ => rfl | ⟨1, _⟩ => rfl

theorem ridx_v61 (r : Fin 100000) (j k : Fin 64) : ridx_main_v61 (ix2 r j) k = ix2 k j :=
  funext fun d => by match d with | ⟨0, _⟩ => rfl | ⟨1, _⟩ => rfl

theorem w_v71 (x4 : (⟨S4x3x64x64, .f32⟩ : BufTy).Contents (Elt Ideal)) (k j : Fin 64) :
    val_main_v71 (F := Ideal) x4 (ix2 k j) = x4 (ix4 (0 : Fin 4) (0 : Fin 3) k j) := by
  rw [val_main_v71_apply, val_main_v70_apply, val_main_v67_apply, val_main_v66_apply]
  exact congrArg x4 (funext fun d => Fin.ext (by
    have hk := k.isLt
    have hj := j.isLt
    match d with
    | ⟨0, _⟩ => rfl
    | ⟨1, _⟩ => show ((0 * 64 + (k.val * 64 + j.val) / 64 % 64) * 64 + (k.val * 64 + j.val) % 64) / 4096 % 3 = 0; omega
    | ⟨2, _⟩ => show ((0 * 64 + (k.val * 64 + j.val) / 64 % 64) * 64 + (k.val * 64 + j.val) % 64) / 64 % 64 = k.val; omega
    | ⟨3, _⟩ => show ((0 * 64 + (k.val * 64 + j.val) / 64 % 64) * 64 + (k.val * 64 + j.val) % 64) % 64 = j.val; omega))

theorem lidx_v72 (r : Fin 100000) (j k : Fin 64) : lidx_main_v72 (ix2 r j) k = ix2 r k :=
  funext fun d => by match d with | ⟨0, _⟩ => rfl | ⟨1, _⟩ => rfl

theorem ridx_v72 (r : Fin 100000) (j k : Fin 64) : ridx_main_v72 (ix2 r j) k = ix2 k j :=
  funext fun d => by match d with | ⟨0, _⟩ => rfl | ⟨1, _⟩ => rfl

theorem w_v92 (x4 : (⟨S4x3x64x64, .f32⟩ : BufTy).Contents (Elt Ideal)) (k j : Fin 64) :
    val_main_v92 (F := Ideal) x4 (ix2 k j) = x4 (ix4 (0 : Fin 4) (1 : Fin 3) k j) := by
  rw [val_main_v92_apply, val_main_v91_apply, val_main_v67_apply, val_main_v66_apply]
  exact congrArg x4 (funext fun d => Fin.ext (by
    have hk := k.isLt
    have hj := j.isLt
    match d with
    | ⟨0, _⟩ => rfl
    | ⟨1, _⟩ => show ((1 * 64 + (k.val * 64 + j.val) / 64 % 64) * 64 + (k.val * 64 + j.val) % 64) / 4096 % 3 = 1; omega
    | ⟨2, _⟩ => show ((1 * 64 + (k.val * 64 + j.val) / 64 % 64) * 64 + (k.val * 64 + j.val) % 64) / 64 % 64 = k.val; omega
    | ⟨3, _⟩ => show ((1 * 64 + (k.val * 64 + j.val) / 64 % 64) * 64 + (k.val * 64 + j.val) % 64) % 64 = j.val; omega))

theorem lidx_v93 (r : Fin 100000) (j k : Fin 64) : lidx_main_v93 (ix2 r j) k = ix2 r k :=
  funext fun d => by match d with | ⟨0, _⟩ => rfl | ⟨1, _⟩ => rfl

theorem ridx_v93 (r : Fin 100000) (j k : Fin 64) : ridx_main_v93 (ix2 r j) k = ix2 k j :=
  funext fun d => by match d with | ⟨0, _⟩ => rfl | ⟨1, _⟩ => rfl

theorem w_v117 (x4 : (⟨S4x3x64x64, .f32⟩ : BufTy).Contents (Elt Ideal)) (k j : Fin 64) :
    val_main_v117 (F := Ideal) x4 (ix2 k j) = x4 (ix4 (0 : Fin 4) (2 : Fin 3) k j) := by
  rw [val_main_v117_apply, val_main_v116_apply, val_main_v67_apply, val_main_v66_apply]
  exact congrArg x4 (funext fun d => Fin.ext (by
    have hk := k.isLt
    have hj := j.isLt
    match d with
    | ⟨0, _⟩ => rfl
    | ⟨1, _⟩ => show ((2 * 64 + (k.val * 64 + j.val) / 64 % 64) * 64 + (k.val * 64 + j.val) % 64) / 4096 % 3 = 2; omega
    | ⟨2, _⟩ => show ((2 * 64 + (k.val * 64 + j.val) / 64 % 64) * 64 + (k.val * 64 + j.val) % 64) / 64 % 64 = k.val; omega
    | ⟨3, _⟩ => show ((2 * 64 + (k.val * 64 + j.val) / 64 % 64) * 64 + (k.val * 64 + j.val) % 64) % 64 = j.val; omega))

theorem lidx_v118 (r : Fin 100000) (j k : Fin 64) : lidx_main_v118 (ix2 r j) k = ix2 r k :=
  funext fun d => by match d with | ⟨0, _⟩ => rfl | ⟨1, _⟩ => rfl

theorem ridx_v118 (r : Fin 100000) (j k : Fin 64) : ridx_main_v118 (ix2 r j) k = ix2 k j :=
  funext fun d => by match d with | ⟨0, _⟩ => rfl | ⟨1, _⟩ => rfl

theorem w_v146 (x2 : (⟨S4x3x64x64, .f32⟩ : BufTy).Contents (Elt Ideal)) (k j : Fin 64) :
    val_main_v146 (F := Ideal) x2 (ix2 k j) = x2 (ix4 (1 : Fin 4) (0 : Fin 3) k j) := by
  rw [val_main_v146_apply, val_main_v145_apply, val_main_v142_apply, val_main_v141_apply]
  exact congrArg x2 (funext fun d => Fin.ext (by
    have hk := k.isLt
    have hj := j.isLt
    match d with
    | ⟨0, _⟩ => rfl
    | ⟨1, _⟩ => show ((0 * 64 + (k.val * 64 + j.val) / 64 % 64) * 64 + (k.val * 64 + j.val) % 64) / 4096 % 3 = 0; omega
    | ⟨2, _⟩ => show ((0 * 64 + (k.val * 64 + j.val) / 64 % 64) * 64 + (k.val * 64 + j.val) % 64) / 64 % 64 = k.val; omega
    | ⟨3, _⟩ => show ((0 * 64 + (k.val * 64 + j.val) / 64 % 64) * 64 + (k.val * 64 + j.val) % 64) % 64 = j.val; omega))

theorem lidx_v147 (r : Fin 100000) (j k : Fin 64) : lidx_main_v147 (ix2 r j) k = ix2 r k :=
  funext fun d => by match d with | ⟨0, _⟩ => rfl | ⟨1, _⟩ => rfl

theorem ridx_v147 (r : Fin 100000) (j k : Fin 64) : ridx_main_v147 (ix2 r j) k = ix2 k j :=
  funext fun d => by match d with | ⟨0, _⟩ => rfl | ⟨1, _⟩ => rfl

theorem w_v167 (x2 : (⟨S4x3x64x64, .f32⟩ : BufTy).Contents (Elt Ideal)) (k j : Fin 64) :
    val_main_v167 (F := Ideal) x2 (ix2 k j) = x2 (ix4 (1 : Fin 4) (1 : Fin 3) k j) := by
  rw [val_main_v167_apply, val_main_v166_apply, val_main_v142_apply, val_main_v141_apply]
  exact congrArg x2 (funext fun d => Fin.ext (by
    have hk := k.isLt
    have hj := j.isLt
    match d with
    | ⟨0, _⟩ => rfl
    | ⟨1, _⟩ => show ((1 * 64 + (k.val * 64 + j.val) / 64 % 64) * 64 + (k.val * 64 + j.val) % 64) / 4096 % 3 = 1; omega
    | ⟨2, _⟩ => show ((1 * 64 + (k.val * 64 + j.val) / 64 % 64) * 64 + (k.val * 64 + j.val) % 64) / 64 % 64 = k.val; omega
    | ⟨3, _⟩ => show ((1 * 64 + (k.val * 64 + j.val) / 64 % 64) * 64 + (k.val * 64 + j.val) % 64) % 64 = j.val; omega))

theorem lidx_v168 (r : Fin 100000) (j k : Fin 64) : lidx_main_v168 (ix2 r j) k = ix2 r k :=
  funext fun d => by match d with | ⟨0, _⟩ => rfl | ⟨1, _⟩ => rfl

theorem ridx_v168 (r : Fin 100000) (j k : Fin 64) : ridx_main_v168 (ix2 r j) k = ix2 k j :=
  funext fun d => by match d with | ⟨0, _⟩ => rfl | ⟨1, _⟩ => rfl

theorem w_v192 (x2 : (⟨S4x3x64x64, .f32⟩ : BufTy).Contents (Elt Ideal)) (k j : Fin 64) :
    val_main_v192 (F := Ideal) x2 (ix2 k j) = x2 (ix4 (1 : Fin 4) (2 : Fin 3) k j) := by
  rw [val_main_v192_apply, val_main_v191_apply, val_main_v142_apply, val_main_v141_apply]
  exact congrArg x2 (funext fun d => Fin.ext (by
    have hk := k.isLt
    have hj := j.isLt
    match d with
    | ⟨0, _⟩ => rfl
    | ⟨1, _⟩ => show ((2 * 64 + (k.val * 64 + j.val) / 64 % 64) * 64 + (k.val * 64 + j.val) % 64) / 4096 % 3 = 2; omega
    | ⟨2, _⟩ => show ((2 * 64 + (k.val * 64 + j.val) / 64 % 64) * 64 + (k.val * 64 + j.val) % 64) / 64 % 64 = k.val; omega
    | ⟨3, _⟩ => show ((2 * 64 + (k.val * 64 + j.val) / 64 % 64) * 64 + (k.val * 64 + j.val) % 64) % 64 = j.val; omega))

theorem lidx_v193 (r : Fin 100000) (j k : Fin 64) : lidx_main_v193 (ix2 r j) k = ix2 r k :=
  funext fun d => by match d with | ⟨0, _⟩ => rfl | ⟨1, _⟩ => rfl

theorem ridx_v193 (r : Fin 100000) (j k : Fin 64) : ridx_main_v193 (ix2 r j) k = ix2 k j :=
  funext fun d => by match d with | ⟨0, _⟩ => rfl | ⟨1, _⟩ => rfl

theorem w_v203 (x4 : (⟨S4x3x64x64, .f32⟩ : BufTy).Contents (Elt Ideal)) (k j : Fin 64) :
    val_main_v203 (F := Ideal) x4 (ix2 k j) = x4 (ix4 (1 : Fin 4) (0 : Fin 3) k j) := by
  rw [val_main_v203_apply, val_main_v202_apply, val_main_v199_apply, val_main_v198_apply]
  exact congrArg x4 (funext fun d => Fin.ext (by
    have hk := k.isLt
    have hj := j.isLt
    match d with
    | ⟨0, _⟩ => rfl
    | ⟨1, _⟩ => show ((0 * 64 + (k.val * 64 + j.val) / 64 % 64) * 64 + (k.val * 64 + j.val) % 64) / 4096 % 3 = 0; omega
    | ⟨2, _⟩ => show ((0 * 64 + (k.val * 64 + j.val) / 64 % 64) * 64 + (k.val * 64 + j.val) % 64) / 64 % 64 = k.val; omega
    | ⟨3, _⟩ => show ((0 * 64 + (k.val * 64 + j.val) / 64 % 64) * 64 + (k.val * 64 + j.val) % 64) % 64 = j.val; omega))

theorem lidx_v204 (r : Fin 100000) (j k : Fin 64) : lidx_main_v204 (ix2 r j) k = ix2 r k :=
  funext fun d => by match d with | ⟨0, _⟩ => rfl | ⟨1, _⟩ => rfl

theorem ridx_v204 (r : Fin 100000) (j k : Fin 64) : ridx_main_v204 (ix2 r j) k = ix2 k j :=
  funext fun d => by match d with | ⟨0, _⟩ => rfl | ⟨1, _⟩ => rfl

theorem w_v224 (x4 : (⟨S4x3x64x64, .f32⟩ : BufTy).Contents (Elt Ideal)) (k j : Fin 64) :
    val_main_v224 (F := Ideal) x4 (ix2 k j) = x4 (ix4 (1 : Fin 4) (1 : Fin 3) k j) := by
  rw [val_main_v224_apply, val_main_v223_apply, val_main_v199_apply, val_main_v198_apply]
  exact congrArg x4 (funext fun d => Fin.ext (by
    have hk := k.isLt
    have hj := j.isLt
    match d with
    | ⟨0, _⟩ => rfl
    | ⟨1, _⟩ => show ((1 * 64 + (k.val * 64 + j.val) / 64 % 64) * 64 + (k.val * 64 + j.val) % 64) / 4096 % 3 = 1; omega
    | ⟨2, _⟩ => show ((1 * 64 + (k.val * 64 + j.val) / 64 % 64) * 64 + (k.val * 64 + j.val) % 64) / 64 % 64 = k.val; omega
    | ⟨3, _⟩ => show ((1 * 64 + (k.val * 64 + j.val) / 64 % 64) * 64 + (k.val * 64 + j.val) % 64) % 64 = j.val; omega))

theorem lidx_v225 (r : Fin 100000) (j k : Fin 64) : lidx_main_v225 (ix2 r j) k = ix2 r k :=
  funext fun d => by match d with | ⟨0, _⟩ => rfl | ⟨1, _⟩ => rfl

theorem ridx_v225 (r : Fin 100000) (j k : Fin 64) : ridx_main_v225 (ix2 r j) k = ix2 k j :=
  funext fun d => by match d with | ⟨0, _⟩ => rfl | ⟨1, _⟩ => rfl

theorem w_v249 (x4 : (⟨S4x3x64x64, .f32⟩ : BufTy).Contents (Elt Ideal)) (k j : Fin 64) :
    val_main_v249 (F := Ideal) x4 (ix2 k j) = x4 (ix4 (1 : Fin 4) (2 : Fin 3) k j) := by
  rw [val_main_v249_apply, val_main_v248_apply, val_main_v199_apply, val_main_v198_apply]
  exact congrArg x4 (funext fun d => Fin.ext (by
    have hk := k.isLt
    have hj := j.isLt
    match d with
    | ⟨0, _⟩ => rfl
    | ⟨1, _⟩ => show ((2 * 64 + (k.val * 64 + j.val) / 64 % 64) * 64 + (k.val * 64 + j.val) % 64) / 4096 % 3 = 2; omega
    | ⟨2, _⟩ => show ((2 * 64 + (k.val * 64 + j.val) / 64 % 64) * 64 + (k.val * 64 + j.val) % 64) / 64 % 64 = k.val; omega
    | ⟨3, _⟩ => show ((2 * 64 + (k.val * 64 + j.val) / 64 % 64) * 64 + (k.val * 64 + j.val) % 64) % 64 = j.val; omega))

theorem lidx_v250 (r : Fin 100000) (j k : Fin 64) : lidx_main_v250 (ix2 r j) k = ix2 r k :=
  funext fun d => by match d with | ⟨0, _⟩ => rfl | ⟨1, _⟩ => rfl

theorem ridx_v250 (r : Fin 100000) (j k : Fin 64) : ridx_main_v250 (ix2 r j) k = ix2 k j :=
  funext fun d => by match d with | ⟨0, _⟩ => rfl | ⟨1, _⟩ => rfl

theorem w_v279 (x2 : (⟨S4x3x64x64, .f32⟩ : BufTy).Contents (Elt Ideal)) (k j : Fin 64) :
    val_main_v279 (F := Ideal) x2 (ix2 k j) = x2 (ix4 (2 : Fin 4) (0 : Fin 3) k j) := by
  rw [val_main_v279_apply, val_main_v278_apply, val_main_v275_apply, val_main_v274_apply]
  exact congrArg x2 (funext fun d => Fin.ext (by
    have hk := k.isLt
    have hj := j.isLt
    match d with
    | ⟨0, _⟩ => rfl
    | ⟨1, _⟩ => show ((0 * 64 + (k.val * 64 + j.val) / 64 % 64) * 64 + (k.val * 64 + j.val) % 64) / 4096 % 3 = 0; omega
    | ⟨2, _⟩ => show ((0 * 64 + (k.val * 64 + j.val) / 64 % 64) * 64 + (k.val * 64 + j.val) % 64) / 64 % 64 = k.val; omega
    | ⟨3, _⟩ => show ((0 * 64 + (k.val * 64 + j.val) / 64 % 64) * 64 + (k.val * 64 + j.val) % 64) % 64 = j.val; omega))

theorem lidx_v280 (r : Fin 100000) (j k : Fin 64) : lidx_main_v280 (ix2 r j) k = ix2 r k :=
  funext fun d => by match d with | ⟨0, _⟩ => rfl | ⟨1, _⟩ => rfl

theorem ridx_v280 (r : Fin 100000) (j k : Fin 64) : ridx_main_v280 (ix2 r j) k = ix2 k j :=
  funext fun d => by match d with | ⟨0, _⟩ => rfl | ⟨1, _⟩ => rfl

theorem w_v300 (x2 : (⟨S4x3x64x64, .f32⟩ : BufTy).Contents (Elt Ideal)) (k j : Fin 64) :
    val_main_v300 (F := Ideal) x2 (ix2 k j) = x2 (ix4 (2 : Fin 4) (1 : Fin 3) k j) := by
  rw [val_main_v300_apply, val_main_v299_apply, val_main_v275_apply, val_main_v274_apply]
  exact congrArg x2 (funext fun d => Fin.ext (by
    have hk := k.isLt
    have hj := j.isLt
    match d with
    | ⟨0, _⟩ => rfl
    | ⟨1, _⟩ => show ((1 * 64 + (k.val * 64 + j.val) / 64 % 64) * 64 + (k.val * 64 + j.val) % 64) / 4096 % 3 = 1; omega
    | ⟨2, _⟩ => show ((1 * 64 + (k.val * 64 + j.val) / 64 % 64) * 64 + (k.val * 64 + j.val) % 64) / 64 % 64 = k.val; omega
    | ⟨3, _⟩ => show ((1 * 64 + (k.val * 64 + j.val) / 64 % 64) * 64 + (k.val * 64 + j.val) % 64) % 64 = j.val; omega))

theorem lidx_v301 (r : Fin 100000) (j k : Fin 64) : lidx_main_v301 (ix2 r j) k = ix2 r k :=
  funext fun d => by match d with | ⟨0, _⟩ => rfl | ⟨1, _⟩ => rfl

theorem ridx_v301 (r : Fin 100000) (j k : Fin 64) : ridx_main_v301 (ix2 r j) k = ix2 k j :=
  funext fun d => by match d with | ⟨0, _⟩ => rfl | ⟨1, _⟩ => rfl

theorem w_v325 (x2 : (⟨S4x3x64x64, .f32⟩ : BufTy).Contents (Elt Ideal)) (k j : Fin 64) :
    val_main_v325 (F := Ideal) x2 (ix2 k j) = x2 (ix4 (2 : Fin 4) (2 : Fin 3) k j) := by
  rw [val_main_v325_apply, val_main_v324_apply, val_main_v275_apply, val_main_v274_apply]
  exact congrArg x2 (funext fun d => Fin.ext (by
    have hk := k.isLt
    have hj := j.isLt
    match d with
    | ⟨0, _⟩ => rfl
    | ⟨1, _⟩ => show ((2 * 64 + (k.val * 64 + j.val) / 64 % 64) * 64 + (k.val * 64 + j.val) % 64) / 4096 % 3 = 2; omega
    | ⟨2, _⟩ => show ((2 * 64 + (k.val * 64 + j.val) / 64 % 64) * 64 + (k.val * 64 + j.val) % 64) / 64 % 64 = k.val; omega
    | ⟨3, _⟩ => show ((2 * 64 + (k.val * 64 + j.val) / 64 % 64) * 64 + (k.val * 64 + j.val) % 64) % 64 = j.val; omega))

theorem lidx_v326 (r : Fin 100000) (j k : Fin 64) : lidx_main_v326 (ix2 r j) k = ix2 r k :=
  funext fun d => by match d with | ⟨0, _⟩ => rfl | ⟨1, _⟩ => rfl

theorem ridx_v326 (r : Fin 100000) (j k : Fin 64) : ridx_main_v326 (ix2 r j) k = ix2 k j :=
  funext fun d => by match d with | ⟨0, _⟩ => rfl | ⟨1, _⟩ => rfl

theorem w_v336 (x4 : (⟨S4x3x64x64, .f32⟩ : BufTy).Contents (Elt Ideal)) (k j : Fin 64) :
    val_main_v336 (F := Ideal) x4 (ix2 k j) = x4 (ix4 (2 : Fin 4) (0 : Fin 3) k j) := by
  rw [val_main_v336_apply, val_main_v335_apply, val_main_v332_apply, val_main_v331_apply]
  exact congrArg x4 (funext fun d => Fin.ext (by
    have hk := k.isLt
    have hj := j.isLt
    match d with
    | ⟨0, _⟩ => rfl
    | ⟨1, _⟩ => show ((0 * 64 + (k.val * 64 + j.val) / 64 % 64) * 64 + (k.val * 64 + j.val) % 64) / 4096 % 3 = 0; omega
    | ⟨2, _⟩ => show ((0 * 64 + (k.val * 64 + j.val) / 64 % 64) * 64 + (k.val * 64 + j.val) % 64) / 64 % 64 = k.val; omega
    | ⟨3, _⟩ => show ((0 * 64 + (k.val * 64 + j.val) / 64 % 64) * 64 + (k.val * 64 + j.val) % 64) % 64 = j.val; omega))

theorem lidx_v337 (r : Fin 100000) (j k : Fin 64) : lidx_main_v337 (ix2 r j) k = ix2 r k :=
  funext fun d => by match d with | ⟨0, _⟩ => rfl | ⟨1, _⟩ => rfl

theorem ridx_v337 (r : Fin 100000) (j k : Fin 64) : ridx_main_v337 (ix2 r j) k = ix2 k j :=
  funext fun d => by match d with | ⟨0, _⟩ => rfl | ⟨1, _⟩ => rfl

theorem w_v357 (x4 : (⟨S4x3x64x64, .f32⟩ : BufTy).Contents (Elt Ideal)) (k j : Fin 64) :
    val_main_v357 (F := Ideal) x4 (ix2 k j) = x4 (ix4 (2 : Fin 4) (1 : Fin 3) k j) := by
  rw [val_main_v357_apply, val_main_v356_apply, val_main_v332_apply, val_main_v331_apply]
  exact congrArg x4 (funext fun d => Fin.ext (by
    have hk := k.isLt
    have hj := j.isLt
    match d with
    | ⟨0, _⟩ => rfl
    | ⟨1, _⟩ => show ((1 * 64 + (k.val * 64 + j.val) / 64 % 64) * 64 + (k.val * 64 + j.val) % 64) / 4096 % 3 = 1; omega
    | ⟨2, _⟩ => show ((1 * 64 + (k.val * 64 + j.val) / 64 % 64) * 64 + (k.val * 64 + j.val) % 64) / 64 % 64 = k.val; omega
    | ⟨3, _⟩ => show ((1 * 64 + (k.val * 64 + j.val) / 64 % 64) * 64 + (k.val * 64 + j.val) % 64) % 64 = j.val; omega))

theorem lidx_v358 (r : Fin 100000) (j k : Fin 64) : lidx_main_v358 (ix2 r j) k = ix2 r k :=
  funext fun d => by match d with | ⟨0, _⟩ => rfl | ⟨1, _⟩ => rfl

theorem ridx_v358 (r : Fin 100000) (j k : Fin 64) : ridx_main_v358 (ix2 r j) k = ix2 k j :=
  funext fun d => by match d with | ⟨0, _⟩ => rfl | ⟨1, _⟩ => rfl

theorem w_v382 (x4 : (⟨S4x3x64x64, .f32⟩ : BufTy).Contents (Elt Ideal)) (k j : Fin 64) :
    val_main_v382 (F := Ideal) x4 (ix2 k j) = x4 (ix4 (2 : Fin 4) (2 : Fin 3) k j) := by
  rw [val_main_v382_apply, val_main_v381_apply, val_main_v332_apply, val_main_v331_apply]
  exact congrArg x4 (funext fun d => Fin.ext (by
    have hk := k.isLt
    have hj := j.isLt
    match d with
    | ⟨0, _⟩ => rfl
    | ⟨1, _⟩ => show ((2 * 64 + (k.val * 64 + j.val) / 64 % 64) * 64 + (k.val * 64 + j.val) % 64) / 4096 % 3 = 2; omega
    | ⟨2, _⟩ => show ((2 * 64 + (k.val * 64 + j.val) / 64 % 64) * 64 + (k.val * 64 + j.val) % 64) / 64 % 64 = k.val; omega
    | ⟨3, _⟩ => show ((2 * 64 + (k.val * 64 + j.val) / 64 % 64) * 64 + (k.val * 64 + j.val) % 64) % 64 = j.val; omega))

theorem lidx_v383 (r : Fin 100000) (j k : Fin 64) : lidx_main_v383 (ix2 r j) k = ix2 r k :=
  funext fun d => by match d with | ⟨0, _⟩ => rfl | ⟨1, _⟩ => rfl

theorem ridx_v383 (r : Fin 100000) (j k : Fin 64) : ridx_main_v383 (ix2 r j) k = ix2 k j :=
  funext fun d => by match d with | ⟨0, _⟩ => rfl | ⟨1, _⟩ => rfl

theorem w_v402 (x2 : (⟨S4x3x64x64, .f32⟩ : BufTy).Contents (Elt Ideal)) (k j : Fin 64) :
    val_main_v402 (F := Ideal) x2 (ix2 k j) = x2 (ix4 (3 : Fin 4) (0 : Fin 3) k j) := by
  rw [val_main_v402_apply, val_main_v401_apply, val_main_v398_apply, val_main_v397_apply]
  exact congrArg x2 (funext fun d => Fin.ext (by
    have hk := k.isLt
    have hj := j.isLt
    match d with
    | ⟨0, _⟩ => rfl
    | ⟨1, _⟩ => show ((0 * 64 + (k.val * 64 + j.val) / 64 % 64) * 64 + (k.val * 64 + j.val) % 64) / 4096 % 3 = 0; omega
    | ⟨2, _⟩ => show ((0 * 64 + (k.val * 64 + j.val) / 64 % 64) * 64 + (k.val * 64 + j.val) % 64) / 64 % 64 = k.val; omega
    | ⟨3, _⟩ => show ((0 * 64 + (k.val * 64 + j.val) / 64 % 64) * 64 + (k.val * 64 + j.val) % 64) % 64 = j.val; omega))

theorem lidx_v403 (r : Fin 100000) (j k : Fin 64) : lidx_main_v403 (ix2 r j) k = ix2 r k :=
  funext fun d => by match d with | ⟨0, _⟩ => rfl | ⟨1, _⟩ => rfl

theorem ridx_v403 (r : Fin 100000) (j k : Fin 64) : ridx_main_v403 (ix2 r j) k = ix2 k j :=
  funext fun d => by match d with | ⟨0, _⟩ => rfl | ⟨1, _⟩ => rfl

theorem w_v423 (x2 : (⟨S4x3x64x64, .f32⟩ : BufTy).Contents (Elt Ideal)) (k j : Fin 64) :
    val_main_v423 (F := Ideal) x2 (ix2 k j) = x2 (ix4 (3 : Fin 4) (1 : Fin 3) k j) := by
  rw [val_main_v423_apply, val_main_v422_apply, val_main_v398_apply, val_main_v397_apply]
  exact congrArg x2 (funext fun d => Fin.ext (by
    have hk := k.isLt
    have hj := j.isLt
    match d with
    | ⟨0, _⟩ => rfl
    | ⟨1, _⟩ => show ((1 * 64 + (k.val * 64 + j.val) / 64 % 64) * 64 + (k.val * 64 + j.val) % 64) / 4096 % 3 = 1; omega
    | ⟨2, _⟩ => show ((1 * 64 + (k.val * 64 + j.val) / 64 % 64) * 64 + (k.val * 64 + j.val) % 64) / 64 % 64 = k.val; omega
    | ⟨3, _⟩ => show ((1 * 64 + (k.val * 64 + j.val) / 64 % 64) * 64 + (k.val * 64 + j.val) % 64) % 64 = j.val; omega))

theorem lidx_v424 (r : Fin 100000) (j k : Fin 64) : lidx_main_v424 (ix2 r j) k = ix2 r k :=
  funext fun d => by match d with | ⟨0, _⟩ => rfl | ⟨1, _⟩ => rfl

theorem ridx_v424 (r : Fin 100000) (j k : Fin 64) : ridx_main_v424 (ix2 r j) k = ix2 k j :=
  funext fun d => by match d with | ⟨0, _⟩ => rfl | ⟨1, _⟩ => rfl

theorem w_v448 (x2 : (⟨S4x3x64x64, .f32⟩ : BufTy).Contents (Elt Ideal)) (k j : Fin 64) :
    val_main_v448 (F := Ideal) x2 (ix2 k j) = x2 (ix4 (3 : Fin 4) (2 : Fin 3) k j) := by
  rw [val_main_v448_apply, val_main_v447_apply, val_main_v398_apply, val_main_v397_apply]
  exact congrArg x2 (funext fun d => Fin.ext (by
    have hk := k.isLt
    have hj := j.isLt
    match d with
    | ⟨0, _⟩ => rfl
    | ⟨1, _⟩ => show ((2 * 64 + (k.val * 64 + j.val) / 64 % 64) * 64 + (k.val * 64 + j.val) % 64) / 4096 % 3 = 2; omega
    | ⟨2, _⟩ => show ((2 * 64 + (k.val * 64 + j.val) / 64 % 64) * 64 + (k.val * 64 + j.val) % 64) / 64 % 64 = k.val; omega
    | ⟨3, _⟩ => show ((2 * 64 + (k.val * 64 + j.val) / 64 % 64) * 64 + (k.val * 64 + j.val) % 64) % 64 = j.val; omega))

theorem lidx_v449 (r : Fin 100000) (j k : Fin 64) : lidx_main_v449 (ix2 r j) k = ix2 r k :=
  funext fun d => by match d with | ⟨0, _⟩ => rfl | ⟨1, _⟩ => rfl

theorem ridx_v449 (r : Fin 100000) (j k : Fin 64) : ridx_main_v449 (ix2 r j) k = ix2 k j :=
  funext fun d => by match d with | ⟨0, _⟩ => rfl | ⟨1, _⟩ => rfl

theorem w_v459 (x4 : (⟨S4x3x64x64, .f32⟩ : BufTy).Contents (Elt Ideal)) (k j : Fin 64) :
    val_main_v459 (F := Ideal) x4 (ix2 k j) = x4 (ix4 (3 : Fin 4) (0 : Fin 3) k j) := by
  rw [val_main_v459_apply, val_main_v458_apply, val_main_v455_apply, val_main_v454_apply]
  exact congrArg x4 (funext fun d => Fin.ext (by
    have hk := k.isLt
    have hj := j.isLt
    match d with
    | ⟨0, _⟩ => rfl
    | ⟨1, _⟩ => show ((0 * 64 + (k.val * 64 + j.val) / 64 % 64) * 64 + (k.val * 64 + j.val) % 64) / 4096 % 3 = 0; omega
    | ⟨2, _⟩ => show ((0 * 64 + (k.val * 64 + j.val) / 64 % 64) * 64 + (k.val * 64 + j.val) % 64) / 64 % 64 = k.val; omega
    | ⟨3, _⟩ => show ((0 * 64 + (k.val * 64 + j.val) / 64 % 64) * 64 + (k.val * 64 + j.val) % 64) % 64 = j.val; omega))

theorem lidx_v460 (r : Fin 100000) (j k : Fin 64) : lidx_main_v460 (ix2 r j) k = ix2 r k :=
  funext fun d => by match d with | ⟨0, _⟩ => rfl | ⟨1, _⟩ => rfl

theorem ridx_v460 (r : Fin 100000) (j k : Fin 64) : ridx_main_v460 (ix2 r j) k = ix2 k j :=
  funext fun d => by match d with | ⟨0, _⟩ => rfl | ⟨1, _⟩ => rfl

theorem w_v480 (x4 : (⟨S4x3x64x64, .f32⟩ : BufTy).Contents (Elt Ideal)) (k j : Fin 64) :
    val_main_v480 (F := Ideal) x4 (ix2 k j) = x4 (ix4 (3 : Fin 4) (1 : Fin 3) k j) := by
  rw [val_main_v480_apply, val_main_v479_apply, val_main_v455_apply, val_main_v454_apply]
  exact congrArg x4 (funext fun d => Fin.ext (by
    have hk := k.isLt
    have hj := j.isLt
    match d with
    | ⟨0, _⟩ => rfl
    | ⟨1, _⟩ => show ((1 * 64 + (k.val * 64 + j.val) / 64 % 64) * 64 + (k.val * 64 + j.val) % 64) / 4096 % 3 = 1; omega
    | ⟨2, _⟩ => show ((1 * 64 + (k.val * 64 + j.val) / 64 % 64) * 64 + (k.val * 64 + j.val) % 64) / 64 % 64 = k.val; omega
    | ⟨3, _⟩ => show ((1 * 64 + (k.val * 64 + j.val) / 64 % 64) * 64 + (k.val * 64 + j.val) % 64) % 64 = j.val; omega))

theorem lidx_v481 (r : Fin 100000) (j k : Fin 64) : lidx_main_v481 (ix2 r j) k = ix2 r k :=
  funext fun d => by match d with | ⟨0, _⟩ => rfl | ⟨1, _⟩ => rfl

theorem ridx_v481 (r : Fin 100000) (j k : Fin 64) : ridx_main_v481 (ix2 r j) k = ix2 k j :=
  funext fun d => by match d with | ⟨0, _⟩ => rfl | ⟨1, _⟩ => rfl

theorem w_v505 (x4 : (⟨S4x3x64x64, .f32⟩ : BufTy).Contents (Elt Ideal)) (k j : Fin 64) :
    val_main_v505 (F := Ideal) x4 (ix2 k j) = x4 (ix4 (3 : Fin 4) (2 : Fin 3) k j) := by
  rw [val_main_v505_apply, val_main_v504_apply, val_main_v455_apply, val_main_v454_apply]
  exact congrArg x4 (funext fun d => Fin.ext (by
    have hk := k.isLt
    have hj := j.isLt
    match d with
    | ⟨0, _⟩ => rfl
    | ⟨1, _⟩ => show ((2 * 64 + (k.val * 64 + j.val) / 64 % 64) * 64 + (k.val * 64 + j.val) % 64) / 4096 % 3 = 2; omega
    | ⟨2, _⟩ => show ((2 * 64 + (k.val * 64 + j.val) / 64 % 64) * 64 + (k.val * 64 + j.val) % 64) / 64 % 64 = k.val; omega
    | ⟨3, _⟩ => show ((2 * 64 + (k.val * 64 + j.val) / 64 % 64) * 64 + (k.val * 64 + j.val) % 64) % 64 = j.val; omega))

theorem lidx_v506 (r : Fin 100000) (j k : Fin 64) : lidx_main_v506 (ix2 r j) k = ix2 r k :=
  funext fun d => by match d with | ⟨0, _⟩ => rfl | ⟨1, _⟩ => rfl

theorem ridx_v506 (r : Fin 100000) (j k : Fin 64) : ridx_main_v506 (ix2 r j) k = ix2 k j :=
  funext fun d => by match d with | ⟨0, _⟩ => rfl | ⟨1, _⟩ => rfl

/-! ### Every gate recomputes the Laplacian terms by the same operations -/

theorem same_v165 (x0 : (⟨S100000x64, .f32⟩ : BufTy).Contents (Elt Ideal)) (x1 : (⟨S2x1600000, .i32⟩ : BufTy).Contents (Elt Ideal)) : val_main_v165 (F := Ideal) x0 x1 = val_main_v33 (F := Ideal) x0 x1 := rfl
theorem same_v298 (x0 : (⟨S100000x64, .f32⟩ : BufTy).Contents (Elt Ideal)) (x1 : (⟨S2x1600000, .i32⟩ : BufTy).Contents (Elt Ideal)) : val_main_v298 (F := Ideal) x0 x1 = val_main_v33 (F := Ideal) x0 x1 := rfl
theorem same_v421 (x0 : (⟨S100000x64, .f32⟩ : BufTy).Contents (Elt Ideal)) (x1 : (⟨S2x1600000, .i32⟩ : BufTy).Contents (Elt Ideal)) : val_main_v421 (F := Ideal) x0 x1 = val_main_v33 (F := Ideal) x0 x1 := rfl
theorem same_v222 (x1 : (⟨S2x1600000, .i32⟩ : BufTy).Contents (Elt Ideal)) (x10 : (⟨S100000x64, .f32⟩ : BufTy).Contents (Elt Ideal)) : val_main_v222 (F := Ideal) x1 x10 = val_main_v90 (F := Ideal) x1 x10 := rfl
theorem same_v355 (x1 : (⟨S2x1600000, .i32⟩ : BufTy).Contents (Elt Ideal)) (x10 : (⟨S100000x64, .f32⟩ : BufTy).Contents (Elt Ideal)) : val_main_v355 (F := Ideal) x1 x10 = val_main_v90 (F := Ideal) x1 x10 := rfl
theorem same_v478 (x1 : (⟨S2x1600000, .i32⟩ : BufTy).Contents (Elt Ideal)) (x10 : (⟨S100000x64, .f32⟩ : BufTy).Contents (Elt Ideal)) : val_main_v478 (F := Ideal) x1 x10 = val_main_v90 (F := Ideal) x1 x10 := rfl
theorem same_v190 (x0 : (⟨S100000x64, .f32⟩ : BufTy).Contents (Elt Ideal)) (x1 : (⟨S2x1600000, .i32⟩ : BufTy).Contents (Elt Ideal)) : val_main_v190 (F := Ideal) x0 x1 = val_main_v58 (F := Ideal) x0 x1 := rfl
theorem same_v323 (x0 : (⟨S100000x64, .f32⟩ : BufTy).Contents (Elt Ideal)) (x1 : (⟨S2x1600000, .i32⟩ : BufTy).Contents (Elt Ideal)) : val_main_v323 (F := Ideal) x0 x1 = val_main_v58 (F := Ideal) x0 x1 := rfl
theorem same_v446 (x0 : (⟨S100000x64, .f32⟩ : BufTy).Contents (Elt Ideal)) (x1 : (⟨S2x1600000, .i32⟩ : BufTy).Contents (Elt Ideal)) : val_main_v446 (F := Ideal) x0 x1 = val_main_v58 (F := Ideal) x0 x1 := rfl
theorem same_v247 (x1 : (⟨S2x1600000, .i32⟩ : BufTy).Contents (Elt Ideal)) (x10 : (⟨S100000x64, .f32⟩ : BufTy).Contents (Elt Ideal)) : val_main_v247 (F := Ideal) x1 x10 = val_main_v115 (F := Ideal) x1 x10 := rfl
theorem same_v380 (x1 : (⟨S2x1600000, .i32⟩ : BufTy).Contents (Elt Ideal)) (x10 : (⟨S100000x64, .f32⟩ : BufTy).Contents (Elt Ideal)) : val_main_v380 (F := Ideal) x1 x10 = val_main_v115 (F := Ideal) x1 x10 := rfl
theorem same_v503 (x1 : (⟨S2x1600000, .i32⟩ : BufTy).Contents (Elt Ideal)) (x10 : (⟨S100000x64, .f32⟩ : BufTy).Contents (Elt Ideal)) : val_main_v503 (F := Ideal) x1 x10 = val_main_v115 (F := Ideal) x1 x10 := rfl

/-! ### The eight convolutions -/

/-- Gate 0's convolution of the features. -/
theorem cheb_v65 (x0 : (⟨S100000x64, .f32⟩ : BufTy).Contents (Elt Ideal)) (x1 : (⟨S2x1600000, .i32⟩ : BufTy).Contents (Elt Ideal)) (x2 : (⟨S4x3x64x64, .f32⟩ : BufTy).Contents (Elt Ideal)) (x3 : (⟨S4x64, .f32⟩ : BufTy).Contents (Elt Ideal)) (r : Fin 100000) (j : Fin 64) :
    val_main_v65 (F := Ideal) x0 x1 x2 x3 (ix2 r j)
      = Cell.cheb (fun k => x0 (ix2 r k)) (fun k => val_main_v33 (F := Ideal) x0 x1 (ix2 r k)) (fun k => val_main_v58 (F := Ideal) x0 x1 (ix2 r k)) x2 0 j
        + x3 (ix2 (0 : Fin 4) j) := by
  rw [val_main_v65_apply, val_main_v62_apply, val_main_v37_apply, val_main_v15_apply, val_main_v36_apply, val_main_v61_apply,
    row_v64 x3 r j]
  simp only [Ideal.addf_def]
  unfold Cell.cheb
  refine congrArg₂ (· + ·) (congrArg₂ (· + ·) (congrArg₂ (· + ·) ?_ ?_) ?_) rfl
  · exact Finset.sum_congr rfl fun k _ => congrArg₂ (· * ·) (congrArg x0 (lidx_v15 r j k))
      ((congrArg (val_main_v14 (F := Ideal) x2) (ridx_v15 r j k)).trans (w_v14 x2 k j))
  · exact Finset.sum_congr rfl fun k _ => congrArg₂ (· * ·) (congrArg (val_main_v33 (F := Ideal) x0 x1) (lidx_v36 r j k))
      ((congrArg (val_main_v35 (F := Ideal) x2) (ridx_v36 r j k)).trans (w_v35 x2 k j))
  · exact Finset.sum_congr rfl fun k _ => congrArg₂ (· * ·) (congrArg (val_main_v58 (F := Ideal) x0 x1) (lidx_v61 r j k))
      ((congrArg (val_main_v60 (F := Ideal) x2) (ridx_v61 r j k)).trans (w_v60 x2 k j))

/-- Gate 0's convolution of the hidden state. -/
theorem cheb_v122 (x1 : (⟨S2x1600000, .i32⟩ : BufTy).Contents (Elt Ideal)) (x4 : (⟨S4x3x64x64, .f32⟩ : BufTy).Contents (Elt Ideal)) (x5 : (⟨S4x64, .f32⟩ : BufTy).Contents (Elt Ideal)) (x10 : (⟨S100000x64, .f32⟩ : BufTy).Contents (Elt Ideal)) (r : Fin 100000) (j : Fin 64) :
    val_main_v122 (F := Ideal) x1 x4 x5 x10 (ix2 r j)
      = Cell.cheb (fun k => x10 (ix2 r k)) (fun k => val_main_v90 (F := Ideal) x1 x10 (ix2 r k)) (fun k => val_main_v115 (F := Ideal) x1 x10 (ix2 r k)) x4 0 j
        + x5 (ix2 (0 : Fin 4) j) := by
  rw [val_main_v122_apply, val_main_v119_apply, val_main_v94_apply, val_main_v72_apply, val_main_v93_apply, val_main_v118_apply,
    row_v121 x5 r j]
  simp only [Ideal.addf_def]
  unfold Cell.cheb
  refine congrArg₂ (· + ·) (congrArg₂ (· + ·) (congrArg₂ (· + ·) ?_ ?_) ?_) rfl
  · exact Finset.sum_congr rfl fun k _ => congrArg₂ (· * ·) (congrArg x10 (lidx_v72 r j k))
      ((congrArg (val_main_v71 (F := Ideal) x4) (ridx_v72 r j k)).trans (w_v71 x4 k j))
  · exact Finset.sum_congr rfl fun k _ => congrArg₂ (· * ·) (congrArg (val_main_v90 (F := Ideal) x1 x10) (lidx_v93 r j k))
      ((congrArg (val_main_v92 (F := Ideal) x4) (ridx_v93 r j k)).trans (w_v92 x4 k j))
  · exact Finset.sum_congr rfl fun k _ => congrArg₂ (· * ·) (congrArg (val_main_v115 (F := Ideal) x1 x10) (lidx_v118 r j k))
      ((congrArg (val_main_v117 (F := Ideal) x4) (ridx_v118 r j k)).trans (w_v117 x4 k j))

/-- Gate 1's convolution of the features. -/
theorem cheb_v197 (x0 : (⟨S100000x64, .f32⟩ : BufTy).Contents (Elt Ideal)) (x1 : (⟨S2x1600000, .i32⟩ : BufTy).Contents (Elt Ideal)) (x2 : (⟨S4x3x64x64, .f32⟩ : BufTy).Contents (Elt Ideal)) (x3 : (⟨S4x64, .f32⟩ : BufTy).Contents (Elt Ideal)) (r : Fin 100000) (j : Fin 64) :
    val_main_v197 (F := Ideal) x0 x1 x2 x3 (ix2 r j)
      = Cell.cheb (fun k => x0 (ix2 r k)) (fun k => val_main_v33 (F := Ideal) x0 x1 (ix2 r k)) (fun k => val_main_v58 (F := Ideal) x0 x1 (ix2 r k)) x2 1 j
        + x3 (ix2 (1 : Fin 4) j) := by
  rw [val_main_v197_apply, val_main_v194_apply, val_main_v169_apply, val_main_v147_apply, val_main_v168_apply, val_main_v193_apply,
    row_v196 x3 r j]
  simp only [Ideal.addf_def]
  unfold Cell.cheb
  refine congrArg₂ (· + ·) (congrArg₂ (· + ·) (congrArg₂ (· + ·) ?_ ?_) ?_) rfl
  · exact Finset.sum_congr rfl fun k _ => congrArg₂ (· * ·) (congrArg x0 (lidx_v147 r j k))
      ((congrArg (val_main_v146 (F := Ideal) x2) (ridx_v147 r j k)).trans (w_v146 x2 k j))
  · exact Finset.sum_congr rfl fun k _ => congrArg₂ (· * ·) ((congrFun (same_v165 x0 x1) _).trans (congrArg (val_main_v33 (F := Ideal) x0 x1) (lidx_v168 r j k)))
      ((congrArg (val_main_v167 (F := Ideal) x2) (ridx_v168 r j k)).trans (w_v167 x2 k j))
  · exact Finset.sum_congr rfl fun k _ => congrArg₂ (· * ·) ((congrFun (same_v190 x0 x1) _).trans (congrArg (val_main_v58 (F := Ideal) x0 x1) (lidx_v193 r j k)))
      ((congrArg (val_main_v192 (F := Ideal) x2) (ridx_v193 r j k)).trans (w_v192 x2 k j))

/-- Gate 1's convolution of the hidden state. -/
theorem cheb_v254 (x1 : (⟨S2x1600000, .i32⟩ : BufTy).Contents (Elt Ideal)) (x4 : (⟨S4x3x64x64, .f32⟩ : BufTy).Contents (Elt Ideal)) (x5 : (⟨S4x64, .f32⟩ : BufTy).Contents (Elt Ideal)) (x10 : (⟨S100000x64, .f32⟩ : BufTy).Contents (Elt Ideal)) (r : Fin 100000) (j : Fin 64) :
    val_main_v254 (F := Ideal) x1 x4 x5 x10 (ix2 r j)
      = Cell.cheb (fun k => x10 (ix2 r k)) (fun k => val_main_v90 (F := Ideal) x1 x10 (ix2 r k)) (fun k => val_main_v115 (F := Ideal) x1 x10 (ix2 r k)) x4 1 j
        + x5 (ix2 (1 : Fin 4) j) := by
  rw [val_main_v254_apply, val_main_v251_apply, val_main_v226_apply, val_main_v204_apply, val_main_v225_apply, val_main_v250_apply,
    row_v253 x5 r j]
  simp only [Ideal.addf_def]
  unfold Cell.cheb
  refine congrArg₂ (· + ·) (congrArg₂ (· + ·) (congrArg₂ (· + ·) ?_ ?_) ?_) rfl
  · exact Finset.sum_congr rfl fun k _ => congrArg₂ (· * ·) (congrArg x10 (lidx_v204 r j k))
      ((congrArg (val_main_v203 (F := Ideal) x4) (ridx_v204 r j k)).trans (w_v203 x4 k j))
  · exact Finset.sum_congr rfl fun k _ => congrArg₂ (· * ·) ((congrFun (same_v222 x1 x10) _).trans (congrArg (val_main_v90 (F := Ideal) x1 x10) (lidx_v225 r j k)))
      ((congrArg (val_main_v224 (F := Ideal) x4) (ridx_v225 r j k)).trans (w_v224 x4 k j))
  · exact Finset.sum_congr rfl fun k _ => congrArg₂ (· * ·) ((congrFun (same_v247 x1 x10) _).trans (congrArg (val_main_v115 (F := Ideal) x1 x10) (lidx_v250 r j k)))
      ((congrArg (val_main_v249 (F := Ideal) x4) (ridx_v250 r j k)).trans (w_v249 x4 k j))

/-- Gate 2's convolution of the features. -/
theorem cheb_v330 (x0 : (⟨S100000x64, .f32⟩ : BufTy).Contents (Elt Ideal)) (x1 : (⟨S2x1600000, .i32⟩ : BufTy).Contents (Elt Ideal)) (x2 : (⟨S4x3x64x64, .f32⟩ : BufTy).Contents (Elt Ideal)) (x3 : (⟨S4x64, .f32⟩ : BufTy).Contents (Elt Ideal)) (r : Fin 100000) (j : Fin 64) :
    val_main_v330 (F := Ideal) x0 x1 x2 x3 (ix2 r j)
      = Cell.cheb (fun k => x0 (ix2 r k)) (fun k => val_main_v33 (F := Ideal) x0 x1 (ix2 r k)) (fun k => val_main_v58 (F := Ideal) x0 x1 (ix2 r k)) x2 2 j
        + x3 (ix2 (2 : Fin 4) j) := by
  rw [val_main_v330_apply, val_main_v327_apply, val_main_v302_apply, val_main_v280_apply, val_main_v301_apply, val_main_v326_apply,
    row_v329 x3 r j]
  simp only [Ideal.addf_def]
  unfold Cell.cheb
  refine congrArg₂ (· + ·) (congrArg₂ (· + ·) (congrArg₂ (· + ·) ?_ ?_) ?_) rfl
  · exact Finset.sum_congr rfl fun k _ => congrArg₂ (· * ·) (congrArg x0 (lidx_v280 r j k))
      ((congrArg (val_main_v279 (F := Ideal) x2) (ridx_v280 r j k)).trans (w_v279 x2 k j))
  · exact Finset.sum_congr rfl fun k _ => congrArg₂ (· * ·) ((congrFun (same_v298 x0 x1) _).trans (congrArg (val_main_v33 (F := Ideal) x0 x1) (lidx_v301 r j k)))
      ((congrArg (val_main_v300 (F := Ideal) x2) (ridx_v301 r j k)).trans (w_v300 x2 k j))
  · exact Finset.sum_congr rfl fun k _ => congrArg₂ (· * ·) ((congrFun (same_v323 x0 x1) _).trans (congrArg (val_main_v58 (F := Ideal) x0 x1) (lidx_v326 r j k)))
      ((congrArg (val_main_v325 (F := Ideal) x2) (ridx_v326 r j k)).trans (w_v325 x2 k j))

/-- Gate 2's convolution of the hidden state. -/
theorem cheb_v387 (x1 : (⟨S2x1600000, .i32⟩ : BufTy).Contents (Elt Ideal)) (x4 : (⟨S4x3x64x64, .f32⟩ : BufTy).Contents (Elt Ideal)) (x5 : (⟨S4x64, .f32⟩ : BufTy).Contents (Elt Ideal)) (x10 : (⟨S100000x64, .f32⟩ : BufTy).Contents (Elt Ideal)) (r : Fin 100000) (j : Fin 64) :
    val_main_v387 (F := Ideal) x1 x4 x5 x10 (ix2 r j)
      = Cell.cheb (fun k => x10 (ix2 r k)) (fun k => val_main_v90 (F := Ideal) x1 x10 (ix2 r k)) (fun k => val_main_v115 (F := Ideal) x1 x10 (ix2 r k)) x4 2 j
        + x5 (ix2 (2 : Fin 4) j) := by
  rw [val_main_v387_apply, val_main_v384_apply, val_main_v359_apply, val_main_v337_apply, val_main_v358_apply, val_main_v383_apply,
    row_v386 x5 r j]
  simp only [Ideal.addf_def]
  unfold Cell.cheb
  refine congrArg₂ (· + ·) (congrArg₂ (· + ·) (congrArg₂ (· + ·) ?_ ?_) ?_) rfl
  · exact Finset.sum_congr rfl fun k _ => congrArg₂ (· * ·) (congrArg x10 (lidx_v337 r j k))
      ((congrArg (val_main_v336 (F := Ideal) x4) (ridx_v337 r j k)).trans (w_v336 x4 k j))
  · exact Finset.sum_congr rfl fun k _ => congrArg₂ (· * ·) ((congrFun (same_v355 x1 x10) _).trans (congrArg (val_main_v90 (F := Ideal) x1 x10) (lidx_v358 r j k)))
      ((congrArg (val_main_v357 (F := Ideal) x4) (ridx_v358 r j k)).trans (w_v357 x4 k j))
  · exact Finset.sum_congr rfl fun k _ => congrArg₂ (· * ·) ((congrFun (same_v380 x1 x10) _).trans (congrArg (val_main_v115 (F := Ideal) x1 x10) (lidx_v383 r j k)))
      ((congrArg (val_main_v382 (F := Ideal) x4) (ridx_v383 r j k)).trans (w_v382 x4 k j))

/-- Gate 3's convolution of the features. -/
theorem cheb_v453 (x0 : (⟨S100000x64, .f32⟩ : BufTy).Contents (Elt Ideal)) (x1 : (⟨S2x1600000, .i32⟩ : BufTy).Contents (Elt Ideal)) (x2 : (⟨S4x3x64x64, .f32⟩ : BufTy).Contents (Elt Ideal)) (x3 : (⟨S4x64, .f32⟩ : BufTy).Contents (Elt Ideal)) (r : Fin 100000) (j : Fin 64) :
    val_main_v453 (F := Ideal) x0 x1 x2 x3 (ix2 r j)
      = Cell.cheb (fun k => x0 (ix2 r k)) (fun k => val_main_v33 (F := Ideal) x0 x1 (ix2 r k)) (fun k => val_main_v58 (F := Ideal) x0 x1 (ix2 r k)) x2 3 j
        + x3 (ix2 (3 : Fin 4) j) := by
  rw [val_main_v453_apply, val_main_v450_apply, val_main_v425_apply, val_main_v403_apply, val_main_v424_apply, val_main_v449_apply,
    row_v452 x3 r j]
  simp only [Ideal.addf_def]
  unfold Cell.cheb
  refine congrArg₂ (· + ·) (congrArg₂ (· + ·) (congrArg₂ (· + ·) ?_ ?_) ?_) rfl
  · exact Finset.sum_congr rfl fun k _ => congrArg₂ (· * ·) (congrArg x0 (lidx_v403 r j k))
      ((congrArg (val_main_v402 (F := Ideal) x2) (ridx_v403 r j k)).trans (w_v402 x2 k j))
  · exact Finset.sum_congr rfl fun k _ => congrArg₂ (· * ·) ((congrFun (same_v421 x0 x1) _).trans (congrArg (val_main_v33 (F := Ideal) x0 x1) (lidx_v424 r j k)))
      ((congrArg (val_main_v423 (F := Ideal) x2) (ridx_v424 r j k)).trans (w_v423 x2 k j))
  · exact Finset.sum_congr rfl fun k _ => congrArg₂ (· * ·) ((congrFun (same_v446 x0 x1) _).trans (congrArg (val_main_v58 (F := Ideal) x0 x1) (lidx_v449 r j k)))
      ((congrArg (val_main_v448 (F := Ideal) x2) (ridx_v449 r j k)).trans (w_v448 x2 k j))

/-- Gate 3's convolution of the hidden state. -/
theorem cheb_v510 (x1 : (⟨S2x1600000, .i32⟩ : BufTy).Contents (Elt Ideal)) (x4 : (⟨S4x3x64x64, .f32⟩ : BufTy).Contents (Elt Ideal)) (x5 : (⟨S4x64, .f32⟩ : BufTy).Contents (Elt Ideal)) (x10 : (⟨S100000x64, .f32⟩ : BufTy).Contents (Elt Ideal)) (r : Fin 100000) (j : Fin 64) :
    val_main_v510 (F := Ideal) x1 x4 x5 x10 (ix2 r j)
      = Cell.cheb (fun k => x10 (ix2 r k)) (fun k => val_main_v90 (F := Ideal) x1 x10 (ix2 r k)) (fun k => val_main_v115 (F := Ideal) x1 x10 (ix2 r k)) x4 3 j
        + x5 (ix2 (3 : Fin 4) j) := by
  rw [val_main_v510_apply, val_main_v507_apply, val_main_v482_apply, val_main_v460_apply, val_main_v481_apply, val_main_v506_apply,
    row_v509 x5 r j]
  simp only [Ideal.addf_def]
  unfold Cell.cheb
  refine congrArg₂ (· + ·) (congrArg₂ (· + ·) (congrArg₂ (· + ·) ?_ ?_) ?_) rfl
  · exact Finset.sum_congr rfl fun k _ => congrArg₂ (· * ·) (congrArg x10 (lidx_v460 r j k))
      ((congrArg (val_main_v459 (F := Ideal) x4) (ridx_v460 r j k)).trans (w_v459 x4 k j))
  · exact Finset.sum_congr rfl fun k _ => congrArg₂ (· * ·) ((congrFun (same_v478 x1 x10) _).trans (congrArg (val_main_v90 (F := Ideal) x1 x10) (lidx_v481 r j k)))
      ((congrArg (val_main_v480 (F := Ideal) x4) (ridx_v481 r j k)).trans (w_v480 x4 k j))
  · exact Finset.sum_congr rfl fun k _ => congrArg₂ (· * ·) ((congrFun (same_v503 x1 x10) _).trans (congrArg (val_main_v115 (F := Ideal) x1 x10) (lidx_v506 r j k)))
      ((congrArg (val_main_v505 (F := Ideal) x4) (ridx_v506 r j k)).trans (w_v505 x4 k j))

end Cert.ReferenceIdeal.Side

end
-- ==== Proof.RefCell.lean ====
/-
  The reference's cell, read at an index, and its two results as whole arrays.

  With the eight Chebyshev convolutions read (`cheb_*`), the rest of the reference is pointwise: each gate adds its two
  convolutions (each with its own bias), the peephole term and the gate bias, and applies the logistic function
  written out as `1 / (1 + e^(−x))`; regrouping the sum (`Cell.regroup_peep`, `Cell.regroup_plain`) gives the cell's
  pre-activation. The results are then `Cell.outAll` and the stack of `Cell.hreluAll` over `Cell.cnewAll` of the
  parameters as given and of the node matrices with the Laplacian terms as the reference's stages compute them.
-/
import proofs.«128530_j50208167690906_1_alg».proof.Proof.RefCheb

noncomputable section

namespace Cert.ReferenceIdeal.Side

open Cert.ReferenceIdeal Cert.ReferenceIdeal.Gen Cert.ReferenceIdeal.ReadP Idealize.ShloMosaic Idealize.ShloMosaic.ValueIdx

variable (x0 : (⟨S100000x64, .f32⟩ : BufTy).Contents (Elt Ideal)) (x1 : (⟨S2x1600000, .i32⟩ : BufTy).Contents (Elt Ideal)) (x2 : (⟨S4x3x64x64, .f32⟩ : BufTy).Contents (Elt Ideal)) (x3 : (⟨S4x64, .f32⟩ : BufTy).Contents (Elt Ideal)) (x4 : (⟨S4x3x64x64, .f32⟩ : BufTy).Contents (Elt Ideal)) (x5 : (⟨S4x64, .f32⟩ : BufTy).Contents (Elt Ideal)) (x6 : (⟨S3x64, .f32⟩ : BufTy).Contents (Elt Ideal)) (x7 : (⟨S4x64, .f32⟩ : BufTy).Contents (Elt Ideal)) (x8 : (⟨S64x16, .f32⟩ : BufTy).Contents (Elt Ideal)) (x9 : (⟨S16, .f32⟩ : BufTy).Contents (Elt Ideal)) (x10 : (⟨S100000x64, .f32⟩ : BufTy).Contents (Elt Ideal)) (x11 : (⟨S100000x64, .f32⟩ : BufTy).Contents (Elt Ideal))

/-- The parameters as the reference reads them: straight from the arguments. -/
def refParams (x2 : (⟨S4x3x64x64, .f32⟩ : BufTy).Contents (Elt Ideal)) (x3 : (⟨S4x64, .f32⟩ : BufTy).Contents (Elt Ideal)) (x4 : (⟨S4x3x64x64, .f32⟩ : BufTy).Contents (Elt Ideal)) (x5 : (⟨S4x64, .f32⟩ : BufTy).Contents (Elt Ideal)) (x6 : (⟨S3x64, .f32⟩ : BufTy).Contents (Elt Ideal)) (x7 : (⟨S4x64, .f32⟩ : BufTy).Contents (Elt Ideal)) (x8 : (⟨S64x16, .f32⟩ : BufTy).Contents (Elt Ideal)) (x9 : (⟨S16, .f32⟩ : BufTy).Contents (Elt Ideal)) : Cell.Params where
  Wx := x2
  Wh := x4
  bx := x3
  bh := x5
  bg := x7
  wc := x6
  Wro := x8
  bro := x9

/-- The seven node matrices: the two inputs and the old cell state from the arguments, the Laplacian terms as the
    reference's stages compute them. -/
def refMats (x0 : (⟨S100000x64, .f32⟩ : BufTy).Contents (Elt Ideal)) (x1 : (⟨S2x1600000, .i32⟩ : BufTy).Contents (Elt Ideal)) (x10 : (⟨S100000x64, .f32⟩ : BufTy).Contents (Elt Ideal)) (x11 : (⟨S100000x64, .f32⟩ : BufTy).Contents (Elt Ideal)) : Cell.Mats where
  x := x0
  lx := val_main_v33 (F := Ideal) x0 x1
  tx := val_main_v58 (F := Ideal) x0 x1
  h := x10
  lh := val_main_v90 (F := Ideal) x1 x10
  th := val_main_v115 (F := Ideal) x1 x10
  c := x11

variable (r : Fin 100000) (j : Fin 64)

/-- The input gate. -/
theorem gate_in : val_main_v140 (F := Ideal) x0 x1 x2 x3 x4 x5 x6 x7 x10 x11 (ix2 r j) = Cell.inGate (refParams x2 x3 x4 x5 x6 x7 x8 x9) ((refMats x0 x1 x10 x11).row r) j := by
  rw [val_main_v140_apply, val_main_v139_apply, val_main_cst_20_apply, val_main_v138_apply, val_main_v137_apply, val_main_cst_19_apply, val_main_v136_apply, val_main_v135_apply, val_main_v134_apply, val_main_v129_apply, val_main_v123_apply, val_main_v128_apply,
    cheb_v65, cheb_v122, row_v127, row_v133]
  simp only [Ideal.hostDivf_def, Ideal.ofBits_def, Ideal.addf_def, Ideal.mulf_def, Ideal.hostUnary_exp_def, Ideal.hostNegf_def,
    Ideal.negf_def]
  exact (congrArg (fun z => Ideal.div (Ideal.ofBits .f32 0x3F800000#32) ((Ideal.ofBits .f32 0x3F800000#32) + Ideal.exp (-z))) (Cell.regroup_peep _ _ _ _ _ _)).trans
    (Cell.logistic_expanded _)

/-- The forget gate. -/
theorem gate_forget : val_main_v272 (F := Ideal) x0 x1 x2 x3 x4 x5 x6 x7 x10 x11 (ix2 r j) = Cell.forgetGate (refParams x2 x3 x4 x5 x6 x7 x8 x9) ((refMats x0 x1 x10 x11).row r) j := by
  rw [val_main_v272_apply, val_main_v271_apply, val_main_cst_40_apply, val_main_v270_apply, val_main_v269_apply, val_main_cst_39_apply, val_main_v268_apply, val_main_v267_apply, val_main_v266_apply, val_main_v261_apply, val_main_v255_apply, val_main_v260_apply,
    cheb_v197, cheb_v254, row_v259, row_v265]
  simp only [Ideal.hostDivf_def, Ideal.ofBits_def, Ideal.addf_def, Ideal.mulf_def, Ideal.hostUnary_exp_def, Ideal.hostNegf_def,
    Ideal.negf_def]
  exact (congrArg (fun z => Ideal.div (Ideal.ofBits .f32 0x3F800000#32) ((Ideal.ofBits .f32 0x3F800000#32) + Ideal.exp (-z))) (Cell.regroup_peep _ _ _ _ _ _)).trans
    (Cell.logistic_expanded _)

/-- The candidate's pre-activation. -/
theorem pre_cand : val_main_v393 (F := Ideal) x0 x1 x2 x3 x4 x5 x7 x10 (ix2 r j) = Cell.pre (refParams x2 x3 x4 x5 x6 x7 x8 x9) ((refMats x0 x1 x10 x11).row r) 2 j := by
  rw [val_main_v393_apply, val_main_v388_apply, cheb_v330, cheb_v387, row_v392]
  simp only [Ideal.addf_def]
  exact Cell.regroup_plain _ _ _ _ _

/-- The new cell state. -/
theorem cnew_ref : val_main_v396 (F := Ideal) x0 x1 x2 x3 x4 x5 x6 x7 x10 x11 (ix2 r j) = Cell.cnew (refParams x2 x3 x4 x5 x6 x7 x8 x9) ((refMats x0 x1 x10 x11).row r) j := by
  rw [val_main_v396_apply, val_main_v273_apply, val_main_v395_apply, val_main_v394_apply, gate_forget x0 x1 x2 x3 x4 x5 x6 x7 x8 x9 x10 x11 r j, gate_in x0 x1 x2 x3 x4 x5 x6 x7 x8 x9 x10 x11 r j, pre_cand x0 x1 x2 x3 x4 x5 x6 x7 x8 x9 x10 x11 r j]
  simp only [Ideal.addf_def, Ideal.mulf_def, Ideal.hostUnary_tanh_def]
  rfl

/-- The output gate. -/
theorem gate_out : val_main_v528 (F := Ideal) x0 x1 x2 x3 x4 x5 x6 x7 x10 x11 (ix2 r j) = Cell.outGate (refParams x2 x3 x4 x5 x6 x7 x8 x9) ((refMats x0 x1 x10 x11).row r) j := by
  rw [val_main_v528_apply, val_main_v527_apply, val_main_cst_78_apply, val_main_v526_apply, val_main_v525_apply, val_main_cst_77_apply, val_main_v524_apply, val_main_v523_apply, val_main_v522_apply, val_main_v517_apply, val_main_v511_apply, val_main_v516_apply,
    cheb_v453, cheb_v510, row_v515, row_v521, cnew_ref x0 x1 x2 x3 x4 x5 x6 x7 x8 x9 x10 x11 r j]
  simp only [Ideal.hostDivf_def, Ideal.ofBits_def, Ideal.addf_def, Ideal.mulf_def, Ideal.hostUnary_exp_def, Ideal.hostNegf_def,
    Ideal.negf_def]
  exact (congrArg (fun z => Ideal.div (Ideal.ofBits .f32 0x3F800000#32) ((Ideal.ofBits .f32 0x3F800000#32) + Ideal.exp (-z))) (Cell.regroup_peep _ _ _ _ _ _)).trans
    (Cell.logistic_expanded _)

/-- The rectified hidden state. -/
theorem hrelu_ref : val_main_v531 (F := Ideal) x0 x1 x2 x3 x4 x5 x6 x7 x10 x11 (ix2 r j) = Cell.hrelu (refParams x2 x3 x4 x5 x6 x7 x8 x9) ((refMats x0 x1 x10 x11).row r) j := by
  rw [val_main_v531_apply, val_main_v530_apply, val_main_v529_apply, val_main_call0_v0_apply, val_main_call0_cst_apply, gate_out x0 x1 x2 x3 x4 x5 x6 x7 x8 x9 x10 x11 r j,
    cnew_ref x0 x1 x2 x3 x4 x5 x6 x7 x8 x9 x10 x11 r j]
  simp only [Ideal.maximumf_def, Ideal.mulf_def, Ideal.hostUnary_tanh_def, Ideal.ofBits_def]
  rfl

theorem lidx_v532 (t : Fin 16) (k : Fin 64) : lidx_main_v532 (ix2 r t) k = ix2 r k :=
  funext fun d => by match d with | ⟨0, _⟩ => rfl | ⟨1, _⟩ => rfl

theorem ridx_v532 (t : Fin 16) (k : Fin 64) : ridx_main_v532 (ix2 r t) k = ix2 k t :=
  funext fun d => by match d with | ⟨0, _⟩ => rfl | ⟨1, _⟩ => rfl

/-- The readout. -/
theorem out_ref (t : Fin 16) : val_main_v535 (F := Ideal) x0 x1 x2 x3 x4 x5 x6 x7 x8 x9 x10 x11 (ix2 r t) = Cell.out (refParams x2 x3 x4 x5 x6 x7 x8 x9) ((refMats x0 x1 x10 x11).row r) t := by
  rw [val_main_v535_apply, val_main_v532_apply, val_main_v534_apply, val_main_v533_apply]
  simp only [Ideal.addf_def]
  unfold Cell.out
  refine congrArg₂ (· + ·) (Finset.sum_congr rfl fun k _ => congrArg₂ (· * ·)
    ((congrArg (val_main_v531 (F := Ideal) x0 x1 x2 x3 x4 x5 x6 x7 x10 x11) (lidx_v532 r t k)).trans (hrelu_ref x0 x1 x2 x3 x4 x5 x6 x7 x8 x9 x10 x11 r k))
    (congrArg x8 (ridx_v532 r t k))) (congrArg x9 (funext fun d => by match d with | ⟨0, _⟩ => rfl))

/-! ### The results as whole arrays -/

theorem cnewAll_ref : val_main_v396 (F := Ideal) x0 x1 x2 x3 x4 x5 x6 x7 x10 x11 = Cell.cnewAll (refParams x2 x3 x4 x5 x6 x7 x8 x9) (refMats x0 x1 x10 x11) := by
  funext i
  obtain ⟨r, j, rfl⟩ : ∃ (r : Fin 100000) (j : Fin 64), i = ix2 r j := ⟨i 0, i 1, eq_ix2 i⟩
  exact cnew_ref x0 x1 x2 x3 x4 x5 x6 x7 x8 x9 x10 x11 r j

theorem hreluAll_ref : val_main_v531 (F := Ideal) x0 x1 x2 x3 x4 x5 x6 x7 x10 x11 = Cell.hreluAll (refParams x2 x3 x4 x5 x6 x7 x8 x9) (refMats x0 x1 x10 x11) := by
  funext i
  obtain ⟨r, j, rfl⟩ : ∃ (r : Fin 100000) (j : Fin 64), i = ix2 r j := ⟨i 0, i 1, eq_ix2 i⟩
  exact hrelu_ref x0 x1 x2 x3 x4 x5 x6 x7 x8 x9 x10 x11 r j

/-- The first result: the readout of every node. -/
theorem result0 : val_main_v535 (F := Ideal) x0 x1 x2 x3 x4 x5 x6 x7 x8 x9 x10 x11 = Cell.outAll (refParams x2 x3 x4 x5 x6 x7 x8 x9) (refMats x0 x1 x10 x11) := by
  funext i
  obtain ⟨r, t, rfl⟩ : ∃ (r : Fin 100000) (t : Fin 16), i = ix2 r t := ⟨i 0, i 1, eq_ix2 i⟩
  exact out_ref x0 x1 x2 x3 x4 x5 x6 x7 x8 x9 x10 x11 r t

/-- Two node matrices put on top of each other: `[2, 100000, 64]`. -/
def stack (a b : (⟨S100000x64, .f32⟩ : BufTy).Contents (Elt Ideal)) : (⟨S2x100000x64, .f32⟩ : BufTy).Contents (Elt Ideal) :=
  concatenate S2x100000x64 0
    [⟨S1x100000x64, broadcastInDim S1x100000x64 ![1, 2] bcast_S100000x64_S1x100000x64_1_2 a⟩,
     ⟨S1x100000x64, broadcastInDim S1x100000x64 ![1, 2] bcast_S100000x64_S1x100000x64_1_2 b⟩]
    concatenates_S1x100000x64_S1x100000x64_S2x100000x64_d0

/-- The second result: the rectified hidden state over the new cell state. -/
theorem result1 : val_main_v538 (F := Ideal) x0 x1 x2 x3 x4 x5 x6 x7 x10 x11 = stack (Cell.hreluAll (refParams x2 x3 x4 x5 x6 x7 x8 x9) (refMats x0 x1 x10 x11)) (Cell.cnewAll (refParams x2 x3 x4 x5 x6 x7 x8 x9) (refMats x0 x1 x10 x11)) := by
  unfold val_main_v538 val_main_v536 val_main_v537 stack
  rw [hreluAll_ref x0 x1 x2 x3 x4 x5 x6 x7 x8 x9 x10 x11, cnewAll_ref x0 x1 x2 x3 x4 x5 x6 x7 x8 x9 x10 x11]

end Cert.ReferenceIdeal.Side

end
-- ==== Proof.Meet.lean ====
/-
  Where the two programs meet.

  The kernel's cell reads its parameters from the packed arrays the host prepared and its Laplacian terms from the arrays
  the host computed before the region; the reference reads the parameters straight from the arguments and computes the
  Laplacian terms by its own stages. Unpacking the packed arrays gives the arguments back (`Point.unpackW_pack`,
  `Point.unpackB_pack`), and the host computes `lap` and `cheb2` by the very operations of the reference's stages, so
  the parameters and the seven node matrices are the same on both sides.
-/
import proofs.«128530_j50208167690906_1_alg».proof.Proof.Arrays
import proofs.«128530_j50208167690906_1_alg».proof.Proof.Unpack
import proofs.«128530_j50208167690906_1_alg».proof.Proof.RefCell

noncomputable section

namespace Cert.Meet

open Idealize.ShloMosaic Idealize.ShloMosaic.TcCoe Idealize.SL.Sem
open Cert.KernelIdeal Cert.KernelIdeal.Gen Cert.KernelIdeal.Graph Cert.KernelIdeal.Point Cert.KernelIdeal.Arrays

variable (m : (ℓ : Loc nD τ sig) → Buf (Elt Ideal) ℓ)

/-- The kernel's parameters, as the region finds them, are the arguments. -/
theorem paramsV_eq (c : Dev nD) :
    paramsV m c = Cert.ReferenceIdeal.Side.refParams (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  unfold paramsV paramsOf
  rw [V_wx, V_wh, V_bx, V_bh, V_bg, V_wro, V_main_arg6, V_main_arg9, unpackW_pack, unpackW_pack, unpackB_pack, unpackB_pack,
    unpackB_pack]
  rfl

/-- The kernel's seven node matrices, as the region finds them, are the reference's: the Laplacian terms are computed by
    the same operations on both sides. -/
theorem matsV_eq (c : Dev nD) :
    matsV m c = Cert.ReferenceIdeal.Side.refMats (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
  unfold matsV
  rw [V_main_arg0, V_lap_x, V_cheb2_x, V_main_arg10, V_lap_h, V_cheb2_h, V_main_arg11]
  rfl

/-- The host's stack of two node matrices is the same operation in both programs. -/
theorem stack_eq (a b : (⟨S100000x64, .f32⟩ : BufTy).Contents (Elt Ideal)) :
    Cert.ReferenceIdeal.Side.stack a b = Cert.KernelIdeal.Arrays.stack a b := rfl

end Cert.Meet

end
-- ==== Proof.lean ====
/-
  One step of a graph-convolutional LSTM cell over 100000 nodes and 1.6 million edges: a kernel that does the dense
  part (six 64×256 products per row block, the gates, the readout) on Laplacian terms the host computes, against a
  reference that computes every gate separately.

  Both programs compute, row by row, the cell of `Proof/Cell.lean`. The kernel's result arrays are the cell's
  whole-array functions of the arrays its region finds (`Proof/Arrays.lean`, over `Proof/Point.lean`); the
  reference's results are the same functions of its arguments and its own Laplacian stages (`Proof/RefCell.lean`, over
  `Proof/RefCheb.lean`); the two sets of inputs are the same (`Proof/Meet.lean`). The reference's run is read window by window (`Proof/RunMain.lean`). The only algebra is that sums of extended
  reals may be regrouped, and that `1 / (1 + e^(−x))` is the logistic function; no finiteness of the inputs is used.
-/
import proofs.«128530_j50208167690906_1_alg».proof.Defs
import proofs.«128530_j50208167690906_1_alg».proof.Proof.Gen.Kernel
import proofs.«128530_j50208167690906_1_alg».proof.Proof.Gen.Kernel.Skeleton
import proofs.«128530_j50208167690906_1_alg».proof.Proof.Gen.Kernel.Launch
import proofs.«128530_j50208167690906_1_alg».proof.Proof.Gen.Kernel.Points
import proofs.«128530_j50208167690906_1_alg».proof.Proof.Gen.Kernel.Frame
import proofs.«128530_j50208167690906_1_alg».proof.Proof.Gen.KernelIdeal
import proofs.«128530_j50208167690906_1_alg».proof.Proof.Gen.KernelIdeal.Skeleton
import proofs.«128530_j50208167690906_1_alg».proof.Proof.Gen.KernelIdeal.Launch
import proofs.«128530_j50208167690906_1_alg».proof.Proof.Gen.KernelIdeal.Points
import proofs.«128530_j50208167690906_1_alg».proof.Proof.Gen.KernelIdeal.Frame
import proofs.«128530_j50208167690906_1_alg».proof.Proof.Gen.ReferenceIdeal
import proofs.«128530_j50208167690906_1_alg».proof.Proof.RefRead
import proofs.«128530_j50208167690906_1_alg».proof.Proof.RunMain
import proofs.«128530_j50208167690906_1_alg».proof.Proof.Gen.Pre_finite_inputs
import proofs.«128530_j50208167690906_1_alg».proof.Proof.Meet
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.RunW.run m ρ)

/-- Both programs end at the cell's readout of every node and at the rectified hidden state stacked over the new cell
    state, as functions of the same parameters and the same seven node matrices. -/
theorem algebraic : Cert.algebraic_KernelIdeal_ReferenceIdeal := by
  intro m ρ m' ρ' _ hagree
  refine ⟨fun c => Cell.outAll (Cert.KernelIdeal.Arrays.paramsV m c) (Cert.KernelIdeal.Arrays.matsV m c),
    fun c => Cert.KernelIdeal.Arrays.stack
      (Cell.hreluAll (Cert.KernelIdeal.Arrays.paramsV m c) (Cert.KernelIdeal.Arrays.matsV m c))
      (Cell.cnewAll (Cert.KernelIdeal.Arrays.paramsV m c) (Cert.KernelIdeal.Arrays.matsV m c)),
    Cert.KernelIdeal.Arrays.run m ρ, ?_⟩
  refine (θ_run Cert.ReferenceIdeal.defs _ _).mono (fun _ h c => ?_) (Cert.ReferenceIdeal.RunW.run m' ρ')
  obtain ⟨e0, e1, e2, e3, e4, e5, e6, e7, e8, e9, e10, e11⟩ := hagree c
  refine ⟨(h c).1.trans ?_, (h c).2.1.trans ?_, (h c).2.2⟩
  · show _ = Cell.outAll (Cert.KernelIdeal.Arrays.paramsV m c) (Cert.KernelIdeal.Arrays.matsV m c)
    rw [Cert.ReferenceIdeal.Side.result0
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11)),
      e0, e1, e2, e3, e4, e5, e6, e7, e8, e9, e10, e11, Cert.Meet.paramsV_eq, Cert.Meet.matsV_eq]
  · show _ = Cert.KernelIdeal.Arrays.stack (Cell.hreluAll (Cert.KernelIdeal.Arrays.paramsV m c) (Cert.KernelIdeal.Arrays.matsV m c)) (Cell.cnewAll (Cert.KernelIdeal.Arrays.paramsV m c) (Cert.KernelIdeal.Arrays.matsV m c))
    rw [Cert.ReferenceIdeal.Side.result1
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11)),
      e0, e1, e2, e3, e4, e5, e6, e7, e8, e9, e10, e11, Cert.Meet.stack_eq, Cert.Meet.paramsV_eq, Cert.Meet.matsV_eq]

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
